-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x63 : Shape := ⟨3, ![64, 2048, 63]⟩
abbrev S64x2048x10 : Shape := ⟨3, ![64, 2048, 10]⟩
abbrev S64x2048x3 : Shape := ⟨3, ![64, 2048, 3]⟩
abbrev S22x3 : Shape := ⟨2, ![22, 3]⟩
abbrev S22x3x10 : Shape := ⟨3, ![22, 3, 10]⟩
abbrev S_ : Shape := ⟨0, ![]⟩

class Facts : Prop where
  bcast_S_S64x2048x63 : S_.BroadcastsInDim S64x2048x63 (![] : Fin 0 → Fin S64x2048x63.rank)
  reducesTo_S64x2048x63_S_d0_1_2 : S64x2048x63.ReducesTo [0, 1, 2] S_
  h_S_ : 0 < S_.numel
  bcast_S_S64x2048x10 : S_.BroadcastsInDim S64x2048x10 (![] : Fin 0 → Fin S64x2048x10.rank)
  reducesTo_S64x2048x10_S_d0_1_2 : S64x2048x10.ReducesTo [0, 1, 2] S_
  bcast_S_S64x2048x3 : S_.BroadcastsInDim S64x2048x3 (![] : Fin 0 → Fin S64x2048x3.rank)
  reducesTo_S64x2048x3_S_d0_1_2 : S64x2048x3.ReducesTo [0, 1, 2] S_
  bcast_S_S22x3 : S_.BroadcastsInDim S22x3 (![] : Fin 0 → Fin S22x3.rank)
  reducesTo_S22x3_S_d0_1 : S22x3.ReducesTo [0, 1] S_
  bcast_S_S22x3x10 : S_.BroadcastsInDim S22x3x10 (![] : Fin 0 → Fin S22x3x10.rank)
  reducesTo_S22x3x10_S_d0_1_2 : S22x3x10.ReducesTo [0, 1, 2] S_

variable [Facts]

def fn_part1 {F : FTy → Type} [FloatOps F] (main_arg4 : FVec F S22x3 .f32) (main_arg5 : FVec F S22x3x10 .f32) (main_v13 : IVec S_ 1) (main_v16 : IVec S64x2048x3 1) : IVec S_ 1 :=
  let main_c_5 : IVec S_ 1 := constantI S_ 1 1#1
  let main_v17 : IVec S_ 1 := (fun x v => Host.reduce IntOp.andi x v reducesTo_S64x2048x3_S_d0_1_2 h_S_) main_v16 main_c_5
  let main_v18 : IVec S_ 1 := andi main_v13 main_v17
  let main_v19 : FVec F S22x3 .f32 := Host.absf main_arg4
  let main_cst_6 : FVec F S_ .f32 := constant S_ .f32 0x7F800000#32
  let main_v20 : FVec F S22x3 .f32 := broadcastInDim S22x3 ![] bcast_S_S22x3 main_cst_6
  let main_v21 : IVec S22x3 1 := cmpf .olt main_v19 main_v20
  let main_c_7 : IVec S_ 1 := constantI S_ 1 1#1
  let main_v22 : IVec S_ 1 := (fun x v => Host.reduce IntOp.andi x v reducesTo_S22x3_S_d0_1 h_S_) main_v21 main_c_7
  let main_v23 : IVec S_ 1 := andi main_v18 main_v22
  let main_v24 : FVec F S22x3x10 .f32 := Host.absf main_arg5
  let main_cst_8 : FVec F S_ .f32 := constant S_ .f32 0x7F800000#32
  let main_v25 : FVec F S22x3x10 .f32 := broadcastInDim S22x3x10 ![] bcast_S_S22x3x10 main_cst_8
  let main_v26 : IVec S22x3x10 1 := cmpf .olt main_v24 main_v25
  let main_c_9 : IVec S_ 1 := constantI S_ 1 1#1
  let main_v27 : IVec S_ 1 := (fun x v => Host.reduce IntOp.andi x v reducesTo_S22x3x10_S_d0_1_2 h_S_) main_v26 main_c_9
  let main_v28 : IVec S_ 1 := andi main_v23 main_v27
  main_v28

def fn {F : FTy → Type} [FloatOps F] (main_arg0 : FVec F S64x2048x63 .f32) (main_arg1 : FVec F S64x2048x10 .f32) (main_arg2 : FVec F S64x2048x3 .f32) (main_arg3 : FVec F S64x2048x3 .f32) (main_arg4 : FVec F S22x3 .f32) (main_arg5 : FVec F S22x3x10 .f32) : IVec S_ 1 :=
  let main_v0 : FVec F S64x2048x63 .f32 := Host.absf main_arg0
  let main_cst : FVec F S_ .f32 := constant S_ .f32 0x7F800000#32
  let main_v1 : FVec F S64x2048x63 .f32 := broadcastInDim S64x2048x63 ![] bcast_S_S64x2048x63 main_cst
  let main_v2 : IVec S64x2048x63 1 := cmpf .olt main_v0 main_v1
  let main_c : IVec S_ 1 := constantI S_ 1 1#1
  let main_v3 : IVec S_ 1 := (fun x v => Host.reduce IntOp.andi x v reducesTo_S64x2048x63_S_d0_1_2 h_S_) main_v2 main_c
  let main_v4 : FVec F S64x2048x10 .f32 := Host.absf main_arg1
  let main_cst_0 : FVec F S_ .f32 := constant S_ .f32 0x7F800000#32
  let main_v5 : FVec F S64x2048x10 .f32 := broadcastInDim S64x2048x10 ![] bcast_S_S64x2048x10 main_cst_0
  let main_v6 : IVec S64x2048x10 1 := cmpf .olt main_v4 main_v5
  let main_c_1 : IVec S_ 1 := constantI S_ 1 1#1
  let main_v7 : IVec S_ 1 := (fun x v => Host.reduce IntOp.andi x v reducesTo_S64x2048x10_S_d0_1_2 h_S_) main_v6 main_c_1
  let main_v8 : IVec S_ 1 := andi main_v3 main_v7
  let main_v9 : FVec F S64x2048x3 .f32 := Host.absf main_arg2
  let main_cst_2 : FVec F S_ .f32 := constant S_ .f32 0x7F800000#32
  let main_v10 : FVec F S64x2048x3 .f32 := broadcastInDim S64x2048x3 ![] bcast_S_S64x2048x3 main_cst_2
  let main_v11 : IVec S64x2048x3 1 := cmpf .olt main_v9 main_v10
  let main_c_3 : IVec S_ 1 := constantI S_ 1 1#1
  let main_v12 : IVec S_ 1 := (fun x v => Host.reduce IntOp.andi x v reducesTo_S64x2048x3_S_d0_1_2 h_S_) main_v11 main_c_3
  let main_v13 : IVec S_ 1 := andi main_v8 main_v12
  let main_v14 : FVec F S64x2048x3 .f32 := Host.absf main_arg3
  let main_cst_4 : FVec F S_ .f32 := constant S_ .f32 0x7F800000#32
  let main_v15 : FVec F S64x2048x3 .f32 := broadcastInDim S64x2048x3 ![] bcast_S_S64x2048x3 main_cst_4
  let main_v16 : IVec S64x2048x3 1 := cmpf .olt main_v14 main_v15
  fn_part1 (F := F) main_arg4 main_arg5 main_v13 main_v16
-- ==== Kernel.lean ====
abbrev S64x2048x63 : Shape := ⟨3, ![64, 2048, 63]⟩
abbrev S64x2048x10 : Shape := ⟨3, ![64, 2048, 10]⟩
abbrev S64x2048x3 : Shape := ⟨3, ![64, 2048, 3]⟩
abbrev S22x3 : Shape := ⟨2, ![22, 3]⟩
abbrev S22x3x10 : Shape := ⟨3, ![22, 3, 10]⟩
abbrev S131072x63 : Shape := ⟨2, ![131072, 63]⟩
abbrev S131072x10 : Shape := ⟨2, ![131072, 10]⟩
abbrev S131072x3 : Shape := ⟨2, ![131072, 3]⟩
abbrev S1x66 : Shape := ⟨2, ![1, 66]⟩
abbrev S10x22x3 : Shape := ⟨3, ![10, 22, 3]⟩
abbrev S10x66 : Shape := ⟨2, ![10, 66]⟩
abbrev S131072x22x3 : Shape := ⟨3, ![131072, 22, 3]⟩
abbrev S128x63 : Shape := ⟨2, ![128, 63]⟩
abbrev S128x10 : Shape := ⟨2, ![128, 10]⟩
abbrev S128x3 : Shape := ⟨2, ![128, 3]⟩
abbrev S128x22x3 : Shape := ⟨3, ![128, 22, 3]⟩
abbrev S128x66 : Shape := ⟨2, ![128, 66]⟩
abbrev S128x1 : Shape := ⟨2, ![128, 1]⟩
abbrev S128 : Shape := ⟨1, ![128]⟩
abbrev S128x1x3 : Shape := ⟨3, ![128, 1, 3]⟩
abbrev S64x2048x22x3 : Shape := ⟨4, ![64, 2048, 22, 3]⟩

abbrev nBuf : Space → Nat
  | .hbm => 15
  | .vmem => 12
  | .smem => 0
  | _ => 0

abbrev bufTy : (tb : Table) → Fin (tcTables nBuf tb) → BufTy
  | .hbm, ⟨0, _⟩ => ⟨S64x2048x63, .f32⟩
  | .hbm, ⟨1, _⟩ => ⟨S64x2048x10, .f32⟩
  | .hbm, ⟨2, _⟩ => ⟨S64x2048x3, .f32⟩
  | .hbm, ⟨3, _⟩ => ⟨S64x2048x3, .f32⟩
  | .hbm, ⟨4, _⟩ => ⟨S22x3, .f32⟩
  | .hbm, ⟨5, _⟩ => ⟨S22x3x10, .f32⟩
  | .hbm, ⟨6, _⟩ => ⟨S131072x63, .f32⟩
  | .hbm, ⟨7, _⟩ => ⟨S131072x10, .f32⟩
  | .hbm, ⟨8, _⟩ => ⟨S131072x3, .f32⟩
  | .hbm, ⟨9, _⟩ => ⟨S131072x3, .f32⟩
  | .hbm, ⟨10, _⟩ => ⟨S1x66, .f32⟩
  | .hbm, ⟨11, _⟩ => ⟨S10x22x3, .f32⟩
  | .hbm, ⟨12, _⟩ => ⟨S10x66, .f32⟩
  | .hbm, ⟨13, _⟩ => ⟨S131072x22x3, .f32⟩
  | .hbm, ⟨14, _⟩ => ⟨S64x2048x22x3, .f32⟩
  | .local _ .vmem, ⟨0, _⟩ => ⟨S128x63, .f32⟩
  | .local _ .vmem, ⟨1, _⟩ => ⟨S128x63, .f32⟩
  | .local _ .vmem, ⟨2, _⟩ => ⟨S128x10, .f32⟩
  | .local _ .vmem, ⟨3, _⟩ => ⟨S128x10, .f32⟩
  | .local _ .vmem, ⟨4, _⟩ => ⟨S128x3, .f32⟩
  | .local _ .vmem, ⟨5, _⟩ => ⟨S128x3, .f32⟩
  | .local _ .vmem, ⟨6, _⟩ => ⟨S128x3, .f32⟩
  | .local _ .vmem, ⟨7, _⟩ => ⟨S128x3, .f32⟩
  | .local _ .vmem, ⟨8, _⟩ => ⟨S1x66, .f32⟩
  | .local _ .vmem, ⟨9, _⟩ => ⟨S10x66, .f32⟩
  | .local _ .vmem, ⟨10, _⟩ => ⟨S128x22x3, .f32⟩
  | .local _ .vmem, ⟨11, _⟩ => ⟨S128x22x3, .f32⟩
  | _, _ => ⟨S64x2048x63, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x66 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x66 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x22x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x2048x63_S131072x63 : S64x2048x63.ShapeCasts S131072x63
  shapeCasts_S64x2048x10_S131072x10 : S64x2048x10.ShapeCasts S131072x10
  shapeCasts_S64x2048x3_S131072x3 : S64x2048x3.ShapeCasts S131072x3
  shapeCasts_S22x3_S1x66 : S22x3.ShapeCasts S1x66
  transposes_S22x3x10_S10x22x3_2_0_1 : S22x3x10.Transposes [2, 0, 1] S10x22x3
  shapeCasts_S10x22x3_S10x66 : S10x22x3.ShapeCasts S10x66
  inb_S128x63_S128x63_0_0 : ∀ a, (![0, 0] : Fin 2 → Nat) a + S128x63.size a ≤ S128x63.size a
  h_S128x63 : 0 < S128x63.numel
  shapeCasts_S128x63_S128x63 : S128x63.ShapeCasts S128x63
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x66_S1x66_0_0 : ∀ a, (![0, 0] : Fin 2 → Nat) a + S1x66.size a ≤ S1x66.size a
  h_S1x66 : 0 < S1x66.numel
  shapeCasts_S1x66_S1x66 : S1x66.ShapeCasts S1x66
  inb_S10x66_S10x66_0_0 : ∀ a, (![0, 0] : Fin 2 → Nat) a + S10x66.size a ≤ S10x66.size a
  h_S10x66 : 0 < S10x66.numel
  shapeCasts_S10x66_S10x66 : S10x66.ShapeCasts S10x66
  broadcasts_S1x66_S128x66 : S1x66.Broadcasts S128x66
  slices_S128x10_o0_0_S128x1 : S128x10.Slices ![0, 0] S128x1
  slices_S10x66_o0_0_S1x66 : S10x66.Slices ![0, 0] S1x66
  broadcasts_S128x1_S128x66 : S128x1.Broadcasts S128x66
  slices_S128x10_o0_1_S128x1 : S128x10.Slices ![0, 1] S128x1
  slices_S10x66_o1_0_S1x66 : S10x66.Slices ![1, 0] S1x66
  slices_S128x10_o0_2_S128x1 : S128x10.Slices ![0, 2] S128x1
  slices_S10x66_o2_0_S1x66 : S10x66.Slices ![2, 0] S1x66
  slices_S128x10_o0_3_S128x1 : S128x10.Slices ![0, 3] S128x1
  slices_S10x66_o3_0_S1x66 : S10x66.Slices ![3, 0] S1x66
  slices_S128x10_o0_4_S128x1 : S128x10.Slices ![0, 4] S128x1
  slices_S10x66_o4_0_S1x66 : S10x66.Slices ![4, 0] S1x66
  slices_S128x10_o0_5_S128x1 : S128x10.Slices ![0, 5] S128x1
  slices_S10x66_o5_0_S1x66 : S10x66.Slices ![5, 0] S1x66
  slices_S128x10_o0_6_S128x1 : S128x10.Slices ![0, 6] S128x1
  slices_S10x66_o6_0_S1x66 : S10x66.Slices ![6, 0] S1x66
  slices_S128x10_o0_7_S128x1 : S128x10.Slices ![0, 7] S128x1
  slices_S10x66_o7_0_S1x66 : S10x66.Slices ![7, 0] S1x66
  slices_S128x10_o0_8_S128x1 : S128x10.Slices ![0, 8] S128x1
  slices_S10x66_o8_0_S1x66 : S10x66.Slices ![8, 0] S1x66
  slices_S128x10_o0_9_S128x1 : S128x10.Slices ![0, 9] S128x1
  slices_S10x66_o9_0_S1x66 : S10x66.Slices ![9, 0] S1x66
  slices_S128x66_o0_0_S128x3 : S128x66.Slices ![0, 0] S128x3
  slices_S128x66_o0_3_S128x3 : S128x66.Slices ![0, 3] S128x3
  slices_S128x66_o0_6_S128x3 : S128x66.Slices ![0, 6] S128x3
  slices_S128x66_o0_9_S128x3 : S128x66.Slices ![0, 9] S128x3
  slices_S128x66_o0_12_S128x3 : S128x66.Slices ![0, 12] S128x3
  slices_S128x66_o0_15_S128x3 : S128x66.Slices ![0, 15] S128x3
  slices_S128x66_o0_18_S128x3 : S128x66.Slices ![0, 18] S128x3
  slices_S128x66_o0_21_S128x3 : S128x66.Slices ![0, 21] S128x3
  slices_S128x66_o0_24_S128x3 : S128x66.Slices ![0, 24] S128x3
  slices_S128x66_o0_27_S128x3 : S128x66.Slices ![0, 27] S128x3
  slices_S128x66_o0_30_S128x3 : S128x66.Slices ![0, 30] S128x3
  slices_S128x66_o0_33_S128x3 : S128x66.Slices ![0, 33] S128x3
  slices_S128x66_o0_36_S128x3 : S128x66.Slices ![0, 36] S128x3
  slices_S128x66_o0_39_S128x3 : S128x66.Slices ![0, 39] S128x3
  slices_S128x66_o0_42_S128x3 : S128x66.Slices ![0, 42] S128x3
  slices_S128x66_o0_45_S128x3 : S128x66.Slices ![0, 45] S128x3
  slices_S128x66_o0_48_S128x3 : S128x66.Slices ![0, 48] S128x3
  slices_S128x66_o0_51_S128x3 : S128x66.Slices ![0, 51] S128x3
  slices_S128x66_o0_54_S128x3 : S128x66.Slices ![0, 54] S128x3
  slices_S128x66_o0_57_S128x3 : S128x66.Slices ![0, 57] S128x3
  slices_S128x66_o0_60_S128x3 : S128x66.Slices ![0, 60] S128x3
  slices_S128x66_o0_63_S128x3 : S128x66.Slices ![0, 63] S128x3
  slices_S128x63_o0_0_S128x3 : S128x63.Slices ![0, 0] S128x3
  slices_S128x63_o0_3_S128x3 : S128x63.Slices ![0, 3] S128x3
  slices_S128x63_o0_6_S128x3 : S128x63.Slices ![0, 6] S128x3
  slices_S128x63_o0_9_S128x3 : S128x63.Slices ![0, 9] S128x3
  slices_S128x63_o0_12_S128x3 : S128x63.Slices ![0, 12] S128x3
  slices_S128x63_o0_15_S128x3 : S128x63.Slices ![0, 15] S128x3
  slices_S128x63_o0_18_S128x3 : S128x63.Slices ![0, 18] S128x3
  slices_S128x63_o0_21_S128x3 : S128x63.Slices ![0, 21] S128x3
  slices_S128x63_o0_24_S128x3 : S128x63.Slices ![0, 24] S128x3
  slices_S128x63_o0_33_S128x3 : S128x63.Slices ![0, 33] S128x3
  slices_S128x63_o0_36_S128x3 : S128x63.Slices ![0, 36] S128x3
  slices_S128x63_o0_39_S128x3 : S128x63.Slices ![0, 39] S128x3
  slices_S128x63_o0_45_S128x3 : S128x63.Slices ![0, 45] S128x3
  slices_S128x63_o0_48_S128x3 : S128x63.Slices ![0, 48] S128x3
  slices_S128x63_o0_51_S128x3 : S128x63.Slices ![0, 51] S128x3
  slices_S128x63_o0_54_S128x3 : S128x63.Slices ![0, 54] S128x3
  reduces_S128x3_S128 : S128x3.Reduces [1] S128
  shapeCasts_S128_S128x1 : S128.ShapeCasts S128x1
  broadcasts_S128x1_S128x3 : S128x1.Broadcasts S128x3
  slices_S128x3_o0_0_S128x1 : S128x3.Slices ![0, 0] S128x1
  slices_S128x3_o0_1_S128x1 : S128x3.Slices ![0, 1] S128x1
  slices_S128x3_o0_2_S128x1 : S128x3.Slices ![0, 2] S128x1
  concatenates_S128x1_S128x1_S128x1_S128x3_d1 : Shape.Concatenates [S128x1, S128x1, S128x1] S128x3 1
  shapeCasts_S128x3_S128x1x3 : S128x3.ShapeCasts S128x1x3
  concatenates_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x22x3_d1 : Shape.Concatenates [S128x1x3, S128x1x3, S128x1x3, S128x1x3, S128x1x3, S128x1x3, S128x1x3, S128x1x3, S128x1x3, S128x1x3, S128x1x3, S128x1x3, S128x1x3, S128x1x3, S128x1x3, S128x1x3, S128x1x3, S128x1x3, S128x1x3, S128x1x3, S128x1x3, S128x1x3] S128x22x3 1
  inb_S128x22x3_S128x22x3_0_0_0 : ∀ a, (![0, 0, 0] : Fin 3 → Nat) a + S128x22x3.size a ≤ S128x22x3.size a
  h_S128x22x3 : 0 < S128x22x3.numel
  shapeCasts_S131072x22x3_S64x2048x22x3 : S131072x22x3.ShapeCasts S64x2048x22x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x63.size a ≤ S131072x63.size a
  hwx0_0 : ∀ i : grid0.Coords, EltTy.bits .f32 = 32 ∨ (Rect.block (s := S131072x63) S128x63.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x10.size a ≤ S131072x10.size a
  hwx0_1 : ∀ i : grid0.Coords, EltTy.bits .f32 = 32 ∨ (Rect.block (s := S131072x10) S128x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x3.size a ≤ S131072x3.size a
  hwx0_2 : ∀ i : grid0.Coords, EltTy.bits .f32 = 32 ∨ (Rect.block (s := S131072x3) S128x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x3.size a ≤ S131072x3.size a
  hwx0_3 : ∀ i : grid0.Coords, EltTy.bits .f32 = 32 ∨ (Rect.block (s := S131072x3) S128x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x66.size a ≤ S1x66.size a
  hwx0_4 : ∀ i : grid0.Coords, EltTy.bits .f32 = 32 ∨ (Rect.block (s := S1x66) S1x66.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x66.size a ≤ S10x66.size a
  hwx0_5 : ∀ i : grid0.Coords, EltTy.bits .f32 = 32 ∨ (Rect.block (s := S10x66) S10x66.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x22x3.size a ≤ S131072x22x3.size a
  hwx0_6 : ∀ i : grid0.Coords, EltTy.bits .f32 = 32 ∨ (Rect.block (s := S131072x22x3) S128x22x3.size (cc0_transform_6 i) (hinb0_6 i)).WholeWords (EltTy.packing .f32)

variable [Facts₀]

abbrev win0_0 : Pipeline.Window sig grid0 :=
  Pipeline.Window.ofSpec (Memref.whole main_v0) S128x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x66.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10x66.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S128x22x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x2048x63 : Shape := ⟨3, ![64, 2048, 63]⟩
abbrev S64x2048x10 : Shape := ⟨3, ![64, 2048, 10]⟩
abbrev S64x2048x3 : Shape := ⟨3, ![64, 2048, 3]⟩
abbrev S22x3 : Shape := ⟨2, ![22, 3]⟩
abbrev S22x3x10 : Shape := ⟨3, ![22, 3, 10]⟩
abbrev S22 : Shape := ⟨1, ![22]⟩
abbrev S4 : Shape := ⟨1, ![4]⟩
abbrev S64x2048x66 : Shape := ⟨3, ![64, 2048, 66]⟩
abbrev S64x2048x22x3 : Shape := ⟨4, ![64, 2048, 22, 3]⟩
abbrev S_ : Shape := ⟨0, ![]⟩
abbrev S64x2048x22 : Shape := ⟨3, ![64, 2048, 22]⟩
abbrev S64x2048x22x1 : Shape := ⟨4, ![64, 2048, 22, 1]⟩
abbrev S64x2048x22x9 : Shape := ⟨4, ![64, 2048, 22, 9]⟩
abbrev S64x2048x22x3x3 : Shape := ⟨5, ![64, 2048, 22, 3, 3]⟩
abbrev S1x1x22x3 : Shape := ⟨4, ![1, 1, 22, 3]⟩
abbrev S22x1 : Shape := ⟨2, ![22, 1]⟩
abbrev S64x2048x1x3 : Shape := ⟨4, ![64, 2048, 1, 3]⟩
abbrev S1 : Shape := ⟨1, ![1]⟩
abbrev S64x2048x22x3x1 : Shape := ⟨5, ![64, 2048, 22, 3, 1]⟩
abbrev S64x2048x22x3x4 : Shape := ⟨5, ![64, 2048, 22, 3, 4]⟩
abbrev S64x2048x22x1x4 : Shape := ⟨5, ![64, 2048, 22, 1, 4]⟩
abbrev S64x2048x22x4x4 : Shape := ⟨5, ![64, 2048, 22, 4, 4]⟩
abbrev S64x2048x1x4x4 : Shape := ⟨5, ![64, 2048, 1, 4, 4]⟩
abbrev S64x2048x4x4 : Shape := ⟨4, ![64, 2048, 4, 4]⟩
abbrev S64x2048x16x4x4 : Shape := ⟨5, ![64, 2048, 16, 4, 4]⟩
abbrev S64x2048x6x4x4 : Shape := ⟨5, ![64, 2048, 6, 4, 4]⟩

abbrev nBuf : Space → Nat
  | .hbm => 192
  | .vmem => 0
  | .smem => 0
  | _ => 0

abbrev hbmTy0_0 (i : Nat) : BufTy := match i % 128 with
  | 0 => ⟨S64x2048x63, .f32⟩
  | 1 => ⟨S64x2048x10, .f32⟩
  | 2 => ⟨S64x2048x3, .f32⟩
  | 3 => ⟨S64x2048x3, .f32⟩
  | 4 => ⟨S22x3, .f32⟩
  | 5 => ⟨S22x3x10, .f32⟩
  | 6 => ⟨S22, .i32⟩
  | 7 => ⟨S4, .f32⟩
  | 8 => ⟨S64x2048x66, .f32⟩
  | 9 => ⟨S64x2048x22x3, .f32⟩
  | 10 => ⟨S64x2048x22x3, .f32⟩
  | 11 => ⟨S_, .f32⟩
  | 12 => ⟨S64x2048x22, .f32⟩
  | 13 => ⟨S64x2048x22x1, .f32⟩
  | 14 => ⟨S_, .f32⟩
  | 15 => ⟨S64x2048x22x1, .f32⟩
  | 16 => ⟨S64x2048x22x1, .f32⟩
  | 17 => ⟨S64x2048x22x1, .f32⟩
  | 18 => ⟨S64x2048x22x3, .f32⟩
  | 19 => ⟨S64x2048x22x3, .f32⟩
  | 20 => ⟨S64x2048x22x1, .f32⟩
  | 21 => ⟨S64x2048x22, .f32⟩
  | 22 => ⟨S64x2048x22x1, .f32⟩
  | 23 => ⟨S64x2048x22, .f32⟩
  | 24 => ⟨S64x2048x22x1, .f32⟩
  | 25 => ⟨S64x2048x22, .f32⟩
  | 26 => ⟨S64x2048x22, .f32⟩
  | 27 => ⟨S64x2048x22, .f32⟩
  | 28 => ⟨S64x2048x22, .f32⟩
  | 29 => ⟨S_, .f32⟩
  | 30 => ⟨S64x2048x22, .f32⟩
  | 31 => ⟨S64x2048x22, .f32⟩
  | 32 => ⟨S64x2048x22, .f32⟩
  | 33 => ⟨S64x2048x22, .f32⟩
  | 34 => ⟨S64x2048x22, .f32⟩
  | 35 => ⟨S64x2048x22, .f32⟩
  | 36 => ⟨S64x2048x22, .f32⟩
  | 37 => ⟨S64x2048x22, .f32⟩
  | 38 => ⟨S64x2048x22, .f32⟩
  | 39 => ⟨S64x2048x22, .f32⟩
  | 40 => ⟨S64x2048x22, .f32⟩
  | 41 => ⟨S64x2048x22, .f32⟩
  | 42 => ⟨S64x2048x22, .f32⟩
  | 43 => ⟨S64x2048x22, .f32⟩
  | 44 => ⟨S64x2048x22, .f32⟩
  | 45 => ⟨S64x2048x22, .f32⟩
  | 46 => ⟨S64x2048x22, .f32⟩
  | 47 => ⟨S64x2048x22, .f32⟩
  | 48 => ⟨S64x2048x22, .f32⟩
  | 49 => ⟨S64x2048x22, .f32⟩
  | 50 => ⟨S64x2048x22, .f32⟩
  | 51 => ⟨S64x2048x22, .f32⟩
  | 52 => ⟨S64x2048x22, .f32⟩
  | 53 => ⟨S64x2048x22, .f32⟩
  | 54 => ⟨S64x2048x22, .f32⟩
  | 55 => ⟨S64x2048x22, .f32⟩
  | 56 => ⟨S64x2048x22, .f32⟩
  | 57 => ⟨S64x2048x22, .f32⟩
  | 58 => ⟨S64x2048x22, .f32⟩
  | 59 => ⟨S64x2048x22, .f32⟩
  | 60 => ⟨S64x2048x22, .f32⟩
  | 61 => ⟨S64x2048x22, .f32⟩
  | 62 => ⟨S64x2048x22, .f32⟩
  | 63 => ⟨S64x2048x22, .f32⟩
  | 64 => ⟨S64x2048x22, .f32⟩
  | 65 => ⟨S64x2048x22x1, .f32⟩
  | 66 => ⟨S64x2048x22x1, .f32⟩
  | 67 => ⟨S64x2048x22x1, .f32⟩
  | 68 => ⟨S64x2048x22x1, .f32⟩
  | 69 => ⟨S64x2048x22x1, .f32⟩
  | 70 => ⟨S64x2048x22x1, .f32⟩
  | 71 => ⟨S64x2048x22x1, .f32⟩
  | 72 => ⟨S64x2048x22x1, .f32⟩
  | 73 => ⟨S64x2048x22x1, .f32⟩
  | 74 => ⟨S64x2048x22x9, .f32⟩
  | 75 => ⟨S64x2048x22x3x3, .f32⟩
  | 76 => ⟨S1x1x22x3, .f32⟩
  | 77 => ⟨S64x2048x22x3, .f32⟩
  | 78 => ⟨S64x2048x22x3, .f32⟩
  | 79 => ⟨S64x2048x22x3, .f32⟩
  | 80 => ⟨S_, .i32⟩
  | 81 => ⟨S22, .i32⟩
  | 82 => ⟨S22, .i1⟩
  | 83 => ⟨S_, .i32⟩
  | 84 => ⟨S22, .i32⟩
  | 85 => ⟨S22, .i32⟩
  | 86 => ⟨S22, .i32⟩
  | 87 => ⟨S22x1, .i32⟩
  | 88 => ⟨S64x2048x22x3, .f32⟩
  | 89 => ⟨S64x2048x22x3, .f32⟩
  | 90 => ⟨S64x2048x1x3, .f32⟩
  | 91 => ⟨S64x2048x3, .f32⟩
  | 92 => ⟨S64x2048x3, .f32⟩
  | 93 => ⟨S_, .i32⟩
  | 94 => ⟨S1, .i32⟩
  | 95 => ⟨S64x2048x22x3, .f32⟩
  | 96 => ⟨S64x2048x22x3x1, .f32⟩
  | 97 => ⟨S64x2048x22x3x4, .f32⟩
  | 98 => ⟨S64x2048x22x1x4, .f32⟩
  | 99 => ⟨S64x2048x22x4x4, .f32⟩
  | 100 => ⟨S64x2048x1x4x4, .f32⟩
  | 101 => ⟨S64x2048x4x4, .f32⟩
  | 102 => ⟨S64x2048x1x4x4, .f32⟩
  | 103 => ⟨S64x2048x4x4, .f32⟩
  | 104 => ⟨S64x2048x4x4, .f32⟩
  | 105 => ⟨S64x2048x1x4x4, .f32⟩
  | 106 => ⟨S64x2048x4x4, .f32⟩
  | 107 => ⟨S64x2048x4x4, .f32⟩
  | 108 => ⟨S64x2048x1x4x4, .f32⟩
  | 109 => ⟨S64x2048x4x4, .f32⟩
  | 110 => ⟨S64x2048x4x4, .f32⟩
  | 111 => ⟨S64x2048x1x4x4, .f32⟩
  | 112 => ⟨S64x2048x4x4, .f32⟩
  | 113 => ⟨S64x2048x4x4, .f32⟩
  | 114 => ⟨S64x2048x1x4x4, .f32⟩
  | 115 => ⟨S64x2048x4x4, .f32⟩
  | 116 => ⟨S64x2048x4x4, .f32⟩
  | 117 => ⟨S64x2048x1x4x4, .f32⟩
  | 118 => ⟨S64x2048x4x4, .f32⟩
  | 119 => ⟨S64x2048x4x4, .f32⟩
  | 120 => ⟨S64x2048x1x4x4, .f32⟩
  | 121 => ⟨S64x2048x4x4, .f32⟩
  | 122 => ⟨S64x2048x4x4, .f32⟩
  | 123 => ⟨S64x2048x1x4x4, .f32⟩
  | 124 => ⟨S64x2048x4x4, .f32⟩
  | 125 => ⟨S64x2048x4x4, .f32⟩
  | 126 => ⟨S64x2048x1x4x4, .f32⟩
  | 127 => ⟨S64x2048x4x4, .f32⟩
  | _ => ⟨S64x2048x63, .f32⟩

abbrev hbmTy0_1 (i : Nat) : BufTy := match i % 128 with
  | 0 => ⟨S64x2048x4x4, .f32⟩
  | 1 => ⟨S64x2048x1x4x4, .f32⟩
  | 2 => ⟨S64x2048x4x4, .f32⟩
  | 3 => ⟨S64x2048x4x4, .f32⟩
  | 4 => ⟨S64x2048x1x4x4, .f32⟩
  | 5 => ⟨S64x2048x4x4, .f32⟩
  | 6 => ⟨S64x2048x4x4, .f32⟩
  | 7 => ⟨S64x2048x1x4x4, .f32⟩
  | 8 => ⟨S64x2048x4x4, .f32⟩
  | 9 => ⟨S64x2048x4x4, .f32⟩
  | 10 => ⟨S64x2048x1x4x4, .f32⟩
  | 11 => ⟨S64x2048x4x4, .f32⟩
  | 12 => ⟨S64x2048x4x4, .f32⟩
  | 13 => ⟨S64x2048x1x4x4, .f32⟩
  | 14 => ⟨S64x2048x4x4, .f32⟩
  | 15 => ⟨S64x2048x4x4, .f32⟩
  | 16 => ⟨S64x2048x1x4x4, .f32⟩
  | 17 => ⟨S64x2048x4x4, .f32⟩
  | 18 => ⟨S64x2048x4x4, .f32⟩
  | 19 => ⟨S64x2048x1x4x4, .f32⟩
  | 20 => ⟨S64x2048x4x4, .f32⟩
  | 21 => ⟨S64x2048x4x4, .f32⟩
  | 22 => ⟨S64x2048x1x4x4, .f32⟩
  | 23 => ⟨S64x2048x4x4, .f32⟩
  | 24 => ⟨S64x2048x4x4, .f32⟩
  | 25 => ⟨S64x2048x1x4x4, .f32⟩
  | 26 => ⟨S64x2048x4x4, .f32⟩
  | 27 => ⟨S64x2048x4x4, .f32⟩
  | 28 => ⟨S64x2048x1x4x4, .f32⟩
  | 29 => ⟨S64x2048x4x4, .f32⟩
  | 30 => ⟨S64x2048x4x4, .f32⟩
  | 31 => ⟨S64x2048x1x4x4, .f32⟩
  | 32 => ⟨S64x2048x4x4, .f32⟩
  | 33 => ⟨S64x2048x4x4, .f32⟩
  | 34 => ⟨S64x2048x1x4x4, .f32⟩
  | 35 => ⟨S64x2048x4x4, .f32⟩
  | 36 => ⟨S64x2048x4x4, .f32⟩
  | 37 => ⟨S64x2048x1x4x4, .f32⟩
  | 38 => ⟨S64x2048x1x4x4, .f32⟩
  | 39 => ⟨S64x2048x1x4x4, .f32⟩
  | 40 => ⟨S64x2048x1x4x4, .f32⟩
  | 41 => ⟨S64x2048x1x4x4, .f32⟩
  | 42 => ⟨S64x2048x1x4x4, .f32⟩
  | 43 => ⟨S64x2048x1x4x4, .f32⟩
  | 44 => ⟨S64x2048x1x4x4, .f32⟩
  | 45 => ⟨S64x2048x1x4x4, .f32⟩
  | 46 => ⟨S64x2048x1x4x4, .f32⟩
  | 47 => ⟨S64x2048x1x4x4, .f32⟩
  | 48 => ⟨S64x2048x1x4x4, .f32⟩
  | 49 => ⟨S64x2048x1x4x4, .f32⟩
  | 50 => ⟨S64x2048x1x4x4, .f32⟩
  | 51 => ⟨S64x2048x1x4x4, .f32⟩
  | 52 => ⟨S64x2048x1x4x4, .f32⟩
  | 53 => ⟨S64x2048x1x4x4, .f32⟩
  | 54 => ⟨S64x2048x1x4x4, .f32⟩
  | 55 => ⟨S64x2048x1x4x4, .f32⟩
  | 56 => ⟨S64x2048x1x4x4, .f32⟩
  | 57 => ⟨S64x2048x1x4x4, .f32⟩
  | 58 => ⟨S64x2048x1x4x4, .f32⟩
  | 59 => ⟨S64x2048x16x4x4, .f32⟩
  | 60 => ⟨S64x2048x6x4x4, .f32⟩
  | 61 => ⟨S64x2048x22x4x4, .f32⟩
  | 62 => ⟨S64x2048x22x3x1, .f32⟩
  | 63 => ⟨S64x2048x22x3, .f32⟩
  | _ => ⟨S64x2048x63, .f32⟩

abbrev hbmTy (i : Nat) : BufTy := match i / 128 with
  | 0 => hbmTy0_0 i
  | 1 => hbmTy0_1 i
  | _ => ⟨S64x2048x63, .f32⟩

abbrev bufTy : (tb : Table) → Fin (tcTables nBuf tb) → BufTy
  | .hbm, ⟨i, _⟩ => hbmTy i
  | _, _ => ⟨S64x2048x63, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_c_3 : Ref sig .tc := ⟨.hbm, 80, rfl⟩
abbrev main_v69 : Ref sig .tc := ⟨.hbm, 81, rfl⟩
abbrev main_v70 : Ref sig .tc := ⟨.hbm, 82, rfl⟩
abbrev main_c_4 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_c_5 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩

abbrev nD : Nat := 1
abbrev τ : Topo := Topo.v7x

variable {F : FTy → Type} [FloatOps F]

class Facts₀ : Prop where
  concatenates_S64x2048x3_S64x2048x63_S64x2048x66_d2 : Shape.Concatenates [S64x2048x3, S64x2048x63] S64x2048x66 2
  shapeCasts_S64x2048x66_S64x2048x22x3 : S64x2048x66.ShapeCasts S64x2048x22x3
  reducesTo_S64x2048x22x3_S64x2048x22_d3 : S64x2048x22x3.ReducesTo [3] S64x2048x22
  h_S_ : 0 < S_.numel
  bcast_S64x2048x22_S64x2048x22x1_0_1_2 : S64x2048x22.BroadcastsInDim S64x2048x22x1 (![0, 1, 2] : Fin 3 → Fin S64x2048x22x1.rank)
  bcast_S_S64x2048x22x1 : S_.BroadcastsInDim S64x2048x22x1 (![] : Fin 0 → Fin S64x2048x22x1.rank)
  bcast_S64x2048x22x1_S64x2048x22x3_0_1_2_3 : S64x2048x22x1.BroadcastsInDim S64x2048x22x3 (![0, 1, 2, 3] : Fin 4 → Fin S64x2048x22x3.rank)
  slices_S64x2048x22x3_S64x2048x22x1_0_0_0_0 : S64x2048x22x3.Slices ![0, 0, 0, 0] S64x2048x22x1
  shapeCasts_S64x2048x22x1_S64x2048x22 : S64x2048x22x1.ShapeCasts S64x2048x22
  slices_S64x2048x22x3_S64x2048x22x1_0_0_0_1 : S64x2048x22x3.Slices ![0, 0, 0, 1] S64x2048x22x1
  slices_S64x2048x22x3_S64x2048x22x1_0_0_0_2 : S64x2048x22x3.Slices ![0, 0, 0, 2] S64x2048x22x1
  bcast_S_S64x2048x22 : S_.BroadcastsInDim S64x2048x22 (![] : Fin 0 → Fin S64x2048x22.rank)
  concatenates_S64x2048x22x1_S64x2048x22x1_S64x2048x22x1_S64x2048x22x1_S64x2048x22x1_S64x2048x22x1_S64x2048x22x1_S64x2048x22x1_S64x2048x22x1_S64x2048x22x9_d3 : Shape.Concatenates [S64x2048x22x1, S64x2048x22x1, S64x2048x22x1, S64x2048x22x1, S64x2048x22x1, S64x2048x22x1, S64x2048x22x1, S64x2048x22x1, S64x2048x22x1] S64x2048x22x9 3
  shapeCasts_S64x2048x22x9_S64x2048x22x3x3 : S64x2048x22x9.ShapeCasts S64x2048x22x3x3
  bcast_S22x3_S1x1x22x3_2_3 : S22x3.BroadcastsInDim S1x1x22x3 (![2, 3] : Fin 2 → Fin S1x1x22x3.rank)
  bcast_S1x1x22x3_S64x2048x22x3_0_1_2_3 : S1x1x22x3.BroadcastsInDim S64x2048x22x3 (![0, 1, 2, 3] : Fin 4 → Fin S64x2048x22x3.rank)
  bcast_S_S22 : S_.BroadcastsInDim S22 (![] : Fin 0 → Fin S22.rank)
  bcast_S22_S22x1_0 : S22.BroadcastsInDim S22x1 (![0] : Fin 1 → Fin S22x1.rank)
  slices_S64x2048x22x3_S64x2048x1x3_0_0_0_0 : S64x2048x22x3.Slices ![0, 0, 0, 0] S64x2048x1x3
  shapeCasts_S64x2048x1x3_S64x2048x3 : S64x2048x1x3.ShapeCasts S64x2048x3
  bcast_S_S1 : S_.BroadcastsInDim S1 (![] : Fin 0 → Fin S1.rank)
  bcast_S64x2048x22x3_S64x2048x22x3x1_0_1_2_3 : S64x2048x22x3.BroadcastsInDim S64x2048x22x3x1 (![0, 1, 2, 3] : Fin 4 → Fin S64x2048x22x3x1.rank)
  concatenates_S64x2048x22x3x3_S64x2048x22x3x1_S64x2048x22x3x4_d4 : Shape.Concatenates [S64x2048x22x3x3, S64x2048x22x3x1] S64x2048x22x3x4 4
  bcast_S4_S64x2048x22x1x4_4 : S4.BroadcastsInDim S64x2048x22x1x4 (![4] : Fin 1 → Fin S64x2048x22x1x4.rank)
  concatenates_S64x2048x22x3x4_S64x2048x22x1x4_S64x2048x22x4x4_d3 : Shape.Concatenates [S64x2048x22x3x4, S64x2048x22x1x4] S64x2048x22x4x4 3
  slices_S64x2048x22x4x4_S64x2048x1x4x4_0_0_0_0_0 : S64x2048x22x4x4.Slices ![0, 0, 0, 0, 0] S64x2048x1x4x4
  shapeCasts_S64x2048x1x4x4_S64x2048x4x4 : S64x2048x1x4x4.ShapeCasts S64x2048x4x4
  slices_S64x2048x22x4x4_S64x2048x1x4x4_0_0_1_0_0 : S64x2048x22x4x4.Slices ![0, 0, 1, 0, 0] S64x2048x1x4x4
  slices_S64x2048x22x4x4_S64x2048x1x4x4_0_0_2_0_0 : S64x2048x22x4x4.Slices ![0, 0, 2, 0, 0] S64x2048x1x4x4
  slices_S64x2048x22x4x4_S64x2048x1x4x4_0_0_3_0_0 : S64x2048x22x4x4.Slices ![0, 0, 3, 0, 0] S64x2048x1x4x4
  slices_S64x2048x22x4x4_S64x2048x1x4x4_0_0_4_0_0 : S64x2048x22x4x4.Slices ![0, 0, 4, 0, 0] S64x2048x1x4x4
  slices_S64x2048x22x4x4_S64x2048x1x4x4_0_0_5_0_0 : S64x2048x22x4x4.Slices ![0, 0, 5, 0, 0] S64x2048x1x4x4
  slices_S64x2048x22x4x4_S64x2048x1x4x4_0_0_6_0_0 : S64x2048x22x4x4.Slices ![0, 0, 6, 0, 0] S64x2048x1x4x4
  slices_S64x2048x22x4x4_S64x2048x1x4x4_0_0_7_0_0 : S64x2048x22x4x4.Slices ![0, 0, 7, 0, 0] S64x2048x1x4x4
  slices_S64x2048x22x4x4_S64x2048x1x4x4_0_0_8_0_0 : S64x2048x22x4x4.Slices ![0, 0, 8, 0, 0] S64x2048x1x4x4
  slices_S64x2048x22x4x4_S64x2048x1x4x4_0_0_9_0_0 : S64x2048x22x4x4.Slices ![0, 0, 9, 0, 0] S64x2048x1x4x4
  slices_S64x2048x22x4x4_S64x2048x1x4x4_0_0_10_0_0 : S64x2048x22x4x4.Slices ![0, 0, 10, 0, 0] S64x2048x1x4x4
  slices_S64x2048x22x4x4_S64x2048x1x4x4_0_0_11_0_0 : S64x2048x22x4x4.Slices ![0, 0, 11, 0, 0] S64x2048x1x4x4
  slices_S64x2048x22x4x4_S64x2048x1x4x4_0_0_12_0_0 : S64x2048x22x4x4.Slices ![0, 0, 12, 0, 0] S64x2048x1x4x4
  slices_S64x2048x22x4x4_S64x2048x1x4x4_0_0_13_0_0 : S64x2048x22x4x4.Slices ![0, 0, 13, 0, 0] S64x2048x1x4x4
  slices_S64x2048x22x4x4_S64x2048x1x4x4_0_0_14_0_0 : S64x2048x22x4x4.Slices ![0, 0, 14, 0, 0] S64x2048x1x4x4
  slices_S64x2048x22x4x4_S64x2048x1x4x4_0_0_15_0_0 : S64x2048x22x4x4.Slices ![0, 0, 15, 0, 0] S64x2048x1x4x4
  slices_S64x2048x22x4x4_S64x2048x1x4x4_0_0_16_0_0 : S64x2048x22x4x4.Slices ![0, 0, 16, 0, 0] S64x2048x1x4x4
  slices_S64x2048x22x4x4_S64x2048x1x4x4_0_0_17_0_0 : S64x2048x22x4x4.Slices ![0, 0, 17, 0, 0] S64x2048x1x4x4
  slices_S64x2048x22x4x4_S64x2048x1x4x4_0_0_18_0_0 : S64x2048x22x4x4.Slices ![0, 0, 18, 0, 0] S64x2048x1x4x4
  slices_S64x2048x22x4x4_S64x2048x1x4x4_0_0_19_0_0 : S64x2048x22x4x4.Slices ![0, 0, 19, 0, 0] S64x2048x1x4x4
  slices_S64x2048x22x4x4_S64x2048x1x4x4_0_0_20_0_0 : S64x2048x22x4x4.Slices ![0, 0, 20, 0, 0] S64x2048x1x4x4
  slices_S64x2048x22x4x4_S64x2048x1x4x4_0_0_21_0_0 : S64x2048x22x4x4.Slices ![0, 0, 21, 0, 0] S64x2048x1x4x4
  bcast_S64x2048x4x4_S64x2048x1x4x4_0_1_3_4 : S64x2048x4x4.BroadcastsInDim S64x2048x1x4x4 (![0, 1, 3, 4] : Fin 4 → Fin S64x2048x1x4x4.rank)
  concatenates_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x16x4x4_d2 : Shape.Concatenates [S64x2048x1x4x4, S64x2048x1x4x4, S64x2048x1x4x4, S64x2048x1x4x4, S64x2048x1x4x4, S64x2048x1x4x4, S64x2048x1x4x4, S64x2048x1x4x4, S64x2048x1x4x4, S64x2048x1x4x4, S64x2048x1x4x4, S64x2048x1x4x4, S64x2048x1x4x4, S64x2048x1x4x4, S64x2048x1x4x4, S64x2048x1x4x4] S64x2048x16x4x4 2
  concatenates_S64x2048x1x4x4_S64x2048x1x4x4_S64x2048x1x4x4_S64x2048x1x4x4_S64x2048x1x4x4_S64x2048x1x4x4_S64x2048x6x4x4_d2 : Shape.Concatenates [S64x2048x1x4x4, S64x2048x1x4x4, S64x2048x1x4x4, S64x2048x1x4x4, S64x2048x1x4x4, S64x2048x1x4x4] S64x2048x6x4x4 2
  concatenates_S64x2048x16x4x4_S64x2048x6x4x4_S64x2048x22x4x4_d2 : Shape.Concatenates [S64x2048x16x4x4, S64x2048x6x4x4] S64x2048x22x4x4 2
  slices_S64x2048x22x4x4_S64x2048x22x3x1_0_0_0_0_3 : S64x2048x22x4x4.Slices ![0, 0, 0, 0, 3] S64x2048x22x3x1
  shapeCasts_S64x2048x22x3x1_S64x2048x22x3 : S64x2048x22x3x1.ShapeCasts S64x2048x22x3
  dot_S64x2048x10_S22x3x10_S64x2048x22x3_2_2_01_01_n_n_wf : DotDims.WF S64x2048x10 S22x3x10 S64x2048x22x3 [2] [2] [0, 1] [0, 1] [] []
  gather_S64x2048x22x3_S22x1_S64x2048x22x3_013_2_n_n_2_1_64204813_wf : GatherDims.WF S64x2048x22x3 S22x1 S64x2048x22x3 [0, 1, 3] [2] [] [2] [] 1 ![64, 2048, 1, 3]
  scatter_S64x2048x22x3_S1_S64x2048x3_012_2_2_0_wf : ScatterDims.WF S64x2048x22x3 S1 S64x2048x3 [0, 1, 2] [2] [2] 0
  dot_S64x2048x4x4_S64x2048x4x4_S64x2048x4x4_3_2_2_3_01_01_wf : DotDims.WF S64x2048x4x4 S64x2048x4x4 S64x2048x4x4 [3] [2] [2] [3] [0, 1] [0, 1]

variable [Facts₀]

def dot_S64x2048x10_S22x3x10_S64x2048x22x3_2_2_01_01_n_n : DotDims S64x2048x10 S22x3x10 S64x2048x22x3 where
  lhsContracting := [2]
  rhsContracting := [2]
  lhsNonContracting := [0, 1]
  rhsNonContracting := [0, 1]
  lhsBatch := []
  rhsBatch := []
  wf := dot_S64x2048x10_S22x3x10_S64x2048x22x3_2_2_01_01_n_n_wf
def gather_S64x2048x22x3_S22x1_S64x2048x22x3_013_2_n_n_2_1_64204813 : GatherDims S64x2048x22x3 S22x1 S64x2048x22x3 where
  offsetDims := [0, 1, 3]
  collapsedSliceDims := [2]
  operandBatchingDims := []
  startIndicesBatchingDims := []
  startIndexMap := [2]
  indexVectorDim := 1
  sliceSizes := ![64, 2048, 1, 3]
  wf := gather_S64x2048x22x3_S22x1_S64x2048x22x3_013_2_n_n_2_1_64204813_wf
def scatter_S64x2048x22x3_S1_S64x2048x3_012_2_2_0 : ScatterDims S64x2048x22x3 S1 S64x2048x3 where
  updateWindowDims := [0, 1, 2]
  insertedWindowDims := [2]
  scatterDimsToOperandDims := [2]
  indexVectorDim := 0
  wf := scatter_S64x2048x22x3_S1_S64x2048x3_012_2_2_0_wf
def dot_S64x2048x4x4_S64x2048x4x4_S64x2048x4x4_3_2_2_3_01_01 : DotDims S64x2048x4x4 S64x2048x4x4 S64x2048x4x4 where
  lhsContracting := [3]
  rhsContracting := [2]
  lhsNonContracting := [2]
  rhsNonContracting := [3]
  lhsBatch := [0, 1]
  rhsBatch := [0, 1]
  wf := dot_S64x2048x4x4_S64x2048x4x4_S64x2048x4x4_3_2_2_3_01_01_wf

class Facts : Prop extends Facts₀ where

variable [Facts]
-- ==== Proof.Spec.lean ====
/-
  Forward kinematics of a 22-joint tree, token by token, on the extended reals.

  One token carries an axis-angle vector per joint, ten shape coefficients and a translation; the model carries a
  template position and a 10-direction shape basis per joint. Each joint's rotation is Rodrigues' formula of its
  axis-angle vector (with the vector's length taken as the square root of its squared length plus a small constant);
  the skeleton is the template plus the shape basis contracted with the coefficients; a joint's local offset is its
  skeleton position minus its parent's (the root: its own position plus the translation); and a joint's global pose
  is its parent's pose composed with its own local rotation and offset.

  The pose is written twice: as a rotation and a translation composed directly (`pose`), and as 4×4 homogeneous
  matrices multiplied along the tree (`pose4`), whose bottom row is (0, 0, 0, 1). `pose4_top` says the first three
  rows of the second are the first: a product with the bottom row's zero is zero and with its one is the factor, and
  a sum over four terms is the sum over the first three plus the fourth. Only the laws of a commutative monoid under
  addition, and `x * 0 = 0`, `x * 1 = x`, are used, so the statement holds of every extended real, the infinities
  included.
-/
import Mathlib.Data.EReal.Basic
import Mathlib.Algebra.BigOperators.Fin
import Idealize.ShloMosaic.PureOps.Ideal
import Idealize.ShloMosaic.PureOps.Ideal.Laws

noncomputable section

namespace Cert.FK

open Idealize.ShloMosaic

/-- Each joint's parent in the kinematic tree; the root is listed as its own parent. -/
def parent : Fin 22 → Fin 22 :=
  ![0, 0, 0, 0, 1, 2, 3, 4, 5, 6, 7, 8, 9, 9, 9, 12, 13, 14, 16, 17, 18, 19]

theorem parent_lt : ∀ j : Fin 22, j ≠ 0 → (parent j).val < j.val := by decide

/-- The small constant added under the square root, as the programs spell it. -/
def eps : EReal := Ideal.ofBits .f32 0x2B8CBCCC#32
/-- The programs' spelling of one. -/
def one : EReal := Ideal.ofBits .f32 0x3F800000#32
/-- The programs' spelling of zero. -/
def zero : EReal := Ideal.ofBits .f32 0x00000000#32

theorem zero_eq : zero = 0 := Ideal.ofBits_zero_f32
theorem one_eq : one = 1 := by
  unfold one; simp [Ideal.ofBits, Ideal.ieee, -EReal.coe_mul]; norm_num

abbrev Vec3 := Fin 3 → EReal
abbrev Mat3 := Fin 3 → Fin 3 → EReal
abbrev Mat4 := Fin 4 → Fin 4 → EReal

/-- The length of an axis-angle vector: the square root of its squared length plus the small constant. -/
def angle (v : Vec3) : EReal := Ideal.sqrt ((v 0 * v 0 + v 1 * v 1 + v 2 * v 2) + eps)

/-- The unit axis: each component over the length. -/
def axis (v : Vec3) (c : Fin 3) : EReal := Ideal.div (v c) (angle v)

/-- Rodrigues' formula, entry by entry. -/
def rot (v : Vec3) : Mat3 :=
  let x := axis v 0
  let y := axis v 1
  let z := axis v 2
  let c := Ideal.cos (angle v)
  let s := Ideal.sin (angle v)
  let t := one - c
  ![![t * x * x + c, t * x * y - s * z, t * x * z + s * y],
    ![t * x * y + s * z, t * y * y + c, t * y * z - s * x],
    ![t * x * z - s * y, t * y * z + s * x, t * z * z + c]]

/-- A 3×3 product, each entry summed left to right. -/
def mm (A B : Mat3) : Mat3 := fun i k => A i 0 * B 0 k + A i 1 * B 1 k + A i 2 * B 2 k

/-- A matrix applied to a vector, each entry summed left to right. -/
def mv (A : Mat3) (v : Vec3) : Vec3 := fun i => A i 0 * v 0 + A i 1 * v 1 + A i 2 * v 2

section Chain

variable (R : Fin 22 → Mat3) (T : Fin 22 → Vec3)

/-- A joint's global rotation and translation: the root's are its local ones; any other joint's are its parent's
    composed with its local ones. -/
def pose (j : Fin 22) : Mat3 × Vec3 :=
  if h : j = 0 then (R 0, T 0)
  else
    have : (parent j).val < j.val := parent_lt j h
    let P := pose (parent j)
    (mm P.1 (R j), fun i => mv P.1 (T j) i + P.2 i)
termination_by j.val

theorem pose_zero : pose R T 0 = (R 0, T 0) := by
  rw [pose]; simp

theorem pose_succ (j : Fin 22) (h : j ≠ 0) :
    pose R T j = (mm (pose R T (parent j)).1 (R j), fun i => mv (pose R T (parent j)).1 (T j) i + (pose R T (parent j)).2 i) := by
  rw [pose]; simp [h]

/-- A joint's local transform as a 4×4 homogeneous matrix: rotation and offset over the row (0, 0, 0, 1). -/
def hom (j : Fin 22) : Mat4 := fun i k =>
  if hi : i.val < 3 then
    (if hk : k.val < 3 then R j ⟨i.val, hi⟩ ⟨k.val, hk⟩ else T j ⟨i.val, hi⟩)
  else (if k.val < 3 then zero else one)

/-- A 4×4 product: each entry the sum over the four inner positions. -/
def mm4 (A B : Mat4) : Mat4 := fun i k => ∑ q : Fin 4, A i q * B q k

/-- The global 4×4 transform of a joint, multiplied along the tree. -/
def pose4 (j : Fin 22) : Mat4 :=
  if h : j = 0 then hom R T 0
  else
    have : (parent j).val < j.val := parent_lt j h
    mm4 (pose4 (parent j)) (hom R T j)
termination_by j.val

theorem pose4_zero : pose4 R T 0 = hom R T 0 := by
  rw [pose4]; simp

theorem pose4_succ (j : Fin 22) (h : j ≠ 0) : pose4 R T j = mm4 (pose4 R T (parent j)) (hom R T j) := by
  rw [pose4]; simp [h]

theorem pose4_top_aux : ∀ (n : ℕ) (j : Fin 22), j.val = n → ∀ i : Fin 3,
    (∀ k : Fin 3, pose4 R T j i.castSucc k.castSucc = (pose R T j).1 i k)
      ∧ pose4 R T j i.castSucc 3 = (pose R T j).2 i := by
  intro n
  induction n using Nat.strong_induction_on with
  | _ n ih =>
  intro j hn i
  have hom_RR : ∀ (a : Fin 22) (q k : Fin 3), hom R T a q.castSucc k.castSucc = R a q k := by
    intro a q k; simp [hom]
  have hom_RT : ∀ (a : Fin 22) (q : Fin 3), hom R T a q.castSucc 3 = T a q := by
    intro a q; simp [hom]
  have hom_0 : ∀ (a : Fin 22) (k : Fin 3), hom R T a 3 k.castSucc = 0 := by
    intro a k; simp [hom, zero_eq]
  have hom_1 : ∀ a : Fin 22, hom R T a 3 3 = 1 := by
    intro a; simp [hom, one_eq]
  by_cases h : j = 0
  · subst h
    rw [pose4_zero, pose_zero]
    exact ⟨fun k => hom_RR 0 i k, hom_RT 0 i⟩
  · have hp := parent_lt j h
    obtain ⟨ihR, ihT⟩ := ih _ (hn ▸ hp) (parent j) rfl i
    rw [pose4_succ R T j h, pose_succ R T j h]
    have e0 : (0 : Fin 4) = (0 : Fin 3).castSucc := rfl
    have e1 : (1 : Fin 4) = (1 : Fin 3).castSucc := rfl
    have e2 : (2 : Fin 4) = (2 : Fin 3).castSucc := rfl
    constructor
    · intro k
      show mm4 (pose4 R T (parent j)) (hom R T j) i.castSucc k.castSucc = mm (pose R T (parent j)).1 (R j) i k
      unfold mm4 mm
      rw [Fin.sum_univ_four, e0, e1, e2, ihR 0, ihR 1, ihR 2, ihT, hom_RR, hom_RR, hom_RR, hom_0, mul_zero, add_zero]
    · show mm4 (pose4 R T (parent j)) (hom R T j) i.castSucc 3 = mv (pose R T (parent j)).1 (T j) i + (pose R T (parent j)).2 i
      unfold mm4 mv
      rw [Fin.sum_univ_four, e0, e1, e2, ihR 0, ihR 1, ihR 2, ihT, hom_RT, hom_RT, hom_RT, hom_1, mul_one]

/-- The first three rows of the 4×4 transform are the rotation and the translation composed directly. -/
theorem pose4_top (j : Fin 22) (i : Fin 3) :
    (∀ k : Fin 3, pose4 R T j i.castSucc k.castSucc = (pose R T j).1 i k)
      ∧ pose4 R T j i.castSucc 3 = (pose R T j).2 i :=
  pose4_top_aux R T j.val j rfl i

end Chain

end Cert.FK

end
-- ==== Proof.Token.lean ====
/-
  One token of the batch, as numbers: from the six argument arrays — poses [64, 2048, 63], shape coefficients
  [64, 2048, 10], root orientation and translation [64, 2048, 3], the joints' template [22, 3] and shape basis
  [22, 3, 10] — the token (b, l) has, for each joint, an axis-angle vector (the root's is the root orientation, joint
  j ≥ 1's the three pose entries from 3 (j − 1)), a skeleton position (the template plus the basis contracted with
  the coefficients), a local offset (its position minus its parent's; the root's position plus the translation) and
  a rotation (Rodrigues' formula of its axis-angle vector). Its joint positions are the translations of the global
  poses along the tree; read off the 4×4 homogeneous transforms they are the first three entries of the last column.
-/
import proofs.«129627_j26603027432101_2_alg».proof.Proof.Spec
import Idealize.ShloMosaic.Lib.ValueIdx

noncomputable section

namespace Cert.FK

open Idealize.ShloMosaic Idealize.ShloMosaic.ValueIdx

/-- The six argument arrays, as extended reals index by index. -/
structure Args where
  bp : (⟨3, ![64, 2048, 63]⟩ : Shape).Idx → EReal
  be : (⟨3, ![64, 2048, 10]⟩ : Shape).Idx → EReal
  go : (⟨3, ![64, 2048, 3]⟩ : Shape).Idx → EReal
  tr : (⟨3, ![64, 2048, 3]⟩ : Shape).Idx → EReal
  jt : (⟨2, ![22, 3]⟩ : Shape).Idx → EReal
  sd : (⟨3, ![22, 3, 10]⟩ : Shape).Idx → EReal

variable (X : Args) (b : Fin 64) (l : Fin 2048)

/-- Joint `j`'s axis-angle vector at token (b, l). -/
def aaTok (j : Fin 22) : Vec3 := fun c =>
  if j = 0 then X.go (ix3 b l c) else X.bp (ix3 b l (⟨3 * (j.val - 1) + c.val, by omega⟩ : Fin 63))

/-- Joint `j`'s skeleton position at token (b, l). -/
def skTok (j : Fin 22) (c : Fin 3) : EReal := X.jt (ix2 j c) + ∑ k : Fin 10, X.be (ix3 b l k) * X.sd (ix3 j c k)

/-- Joint `j`'s local offset at token (b, l). -/
def ltTok (j : Fin 22) : Vec3 := fun c =>
  if j = 0 then skTok X b l 0 c + X.tr (ix3 b l c) else skTok X b l j c - skTok X b l (parent j) c

/-- Joint `j`'s local rotation at token (b, l). -/
def RTok (j : Fin 22) : Mat3 := rot (aaTok X b l j)

/-- The joint positions of token (b, l). -/
def joints (j : Fin 22) (c : Fin 3) : EReal := (pose (RTok X b l) (ltTok X b l) j).2 c

/-- Read off the homogeneous transforms, the joint positions are the first three entries of the last column. -/
theorem pose4_joints (j : Fin 22) (c : Fin 3) :
    pose4 (RTok X b l) (ltTok X b l) j c.castSucc 3 = joints X b l j c :=
  (pose4_top (RTok X b l) (ltTok X b l) j c).2

end Cert.FK

end
-- ==== Proof.Out.lean ====
/-
  The result array of the forward kinematics: entry (b, l, j, c) is coordinate c of joint j's position at token (b, l).
-/
import proofs.«129627_j26603027432101_2_alg».proof.Proof.Token

noncomputable section

namespace Cert.FK

open Idealize.ShloMosaic Idealize.ShloMosaic.ValueIdx

/-- The joint positions of every token, as one array [64, 2048, 22, 3]. -/
def out (X : Args) : (⟨4, ![64, 2048, 22, 3]⟩ : Shape).Idx → EReal := fun i => joints X (i 0) (i 1) (i 2) (i 3)

theorem out_apply (X : Args) (b : Fin 64) (l : Fin 2048) (j : Fin 22) (c : Fin 3) :
    out X (ix4 b l j c) = joints X b l j c := rfl

end Cert.FK

end
-- ==== Proof.Block.lean ====
/-
  One block of 128 tokens of the kinematics kernel, as a function of the six blocks the body loads: the token rows'
  axis-angle vectors, shape coefficients, root orientation and translation, and the model's template row and shape
  basis. `rod` is Rodrigues' formula on a block of axis-angle vectors (nine columns, one per matrix entry), `mm3` a
  3×3 product and `mv3` a matrix applied to a block of vectors, both entry by entry on columns; `skeleton` is the
  template row plus the ten coefficient columns times the ten basis rows, added one after the other. A joint's local
  offset is its skeleton slice minus its parent's (the root: plus the translation); its global rotation is its
  parent's times its own, its global translation its parent's rotation applied to its offset plus its parent's
  translation. The block's value stacks the 22 global translations along a new middle axis. The operations are the
  kernel body's own, in its order.
-/
import proofs.«129627_j26603027432101_2_alg».proof.Proof.Gen.KernelIdeal

noncomputable section

namespace Cert.KernelIdeal.Blk

open Idealize.ShloMosaic Cert.KernelIdeal Cert.KernelIdeal.Gen

variable {F : FTy → Type} [FloatOps F]

/-- The nine entries of a block of 3×3 matrices, each a column of 128 values. -/
structure M9 (F : FTy → Type) where
  e00 : FVec F S128x1 .f32
  e01 : FVec F S128x1 .f32
  e02 : FVec F S128x1 .f32
  e10 : FVec F S128x1 .f32
  e11 : FVec F S128x1 .f32
  e12 : FVec F S128x1 .f32
  e20 : FVec F S128x1 .f32
  e21 : FVec F S128x1 .f32
  e22 : FVec F S128x1 .f32

/-- Rodrigues' formula on a block of axis-angle vectors. -/
def rod (aa : FVec F S128x3 .f32) : M9 F :=
  have v112 : FVec F S128x3 .f32 := mulf aa aa
  have cst : FVec F S128 .f32 := constant S128 .f32 0x00000000#32
  have v113 : FVec F S128 .f32 := multiReduction .add [1] S128 v112 0x00000000#32 reduces_S128x3_S128 (.inl rfl) rfl
  have v114 : FVec F S128x1 .f32 := shapeCast S128x1 v113 shapeCasts_S128_S128x1
  have cst_11 : F .f32 := Scalar.ofBits .f32 0x2B8CBCCC#32
  have v115 : FVec F S128x1 .f32 := broadcast S128x1 cst_11
  have v116 : FVec F S128x1 .f32 := addf v114 v115
  have v117 : FVec F S128x1 .f32 := sqrt v116
  have v118 : FVec F S128x3 .f32 := broadcastTo S128x3 v117 broadcasts_S128x1_S128x3
  have v119 : FVec F S128x3 .f32 := divf aa v118
  have v120 : FVec F S128x1 .f32 := extractStridedSlice S128x1 ![0, 0] v119 slices_S128x3_o0_0_S128x1
  have v121 : FVec F S128x1 .f32 := extractStridedSlice S128x1 ![0, 1] v119 slices_S128x3_o0_1_S128x1
  have v122 : FVec F S128x1 .f32 := extractStridedSlice S128x1 ![0, 2] v119 slices_S128x3_o0_2_S128x1
  have v123 : FVec F S128x1 .f32 := cos v117
  have v124 : FVec F S128x1 .f32 := sin v117
  have cst_12 : F .f32 := Scalar.ofBits .f32 0x3F800000#32
  have v125 : FVec F S128x1 .f32 := broadcast S128x1 cst_12
  have v126 : FVec F S128x1 .f32 := subf v125 v123
  have v127 : FVec F S128x1 .f32 := mulf v126 v120
  have v128 : FVec F S128x1 .f32 := mulf v127 v120
  have v129 : FVec F S128x1 .f32 := addf v128 v123
  have v130 : FVec F S128x1 .f32 := mulf v126 v120
  have v131 : FVec F S128x1 .f32 := mulf v130 v121
  have v132 : FVec F S128x1 .f32 := mulf v124 v122
  have v133 : FVec F S128x1 .f32 := subf v131 v132
  have v134 : FVec F S128x1 .f32 := mulf v126 v120
  have v135 : FVec F S128x1 .f32 := mulf v134 v122
  have v136 : FVec F S128x1 .f32 := mulf v124 v121
  have v137 : FVec F S128x1 .f32 := addf v135 v136
  have v138 : FVec F S128x1 .f32 := mulf v126 v120
  have v139 : FVec F S128x1 .f32 := mulf v138 v121
  have v140 : FVec F S128x1 .f32 := mulf v124 v122
  have v141 : FVec F S128x1 .f32 := addf v139 v140
  have v142 : FVec F S128x1 .f32 := mulf v126 v121
  have v143 : FVec F S128x1 .f32 := mulf v142 v121
  have v144 : FVec F S128x1 .f32 := addf v143 v123
  have v145 : FVec F S128x1 .f32 := mulf v126 v121
  have v146 : FVec F S128x1 .f32 := mulf v145 v122
  have v147 : FVec F S128x1 .f32 := mulf v124 v120
  have v148 : FVec F S128x1 .f32 := subf v146 v147
  have v149 : FVec F S128x1 .f32 := mulf v126 v120
  have v150 : FVec F S128x1 .f32 := mulf v149 v122
  have v151 : FVec F S128x1 .f32 := mulf v124 v121
  have v152 : FVec F S128x1 .f32 := subf v150 v151
  have v153 : FVec F S128x1 .f32 := mulf v126 v121
  have v154 : FVec F S128x1 .f32 := mulf v153 v122
  have v155 : FVec F S128x1 .f32 := mulf v124 v120
  have v156 : FVec F S128x1 .f32 := addf v154 v155
  have v157 : FVec F S128x1 .f32 := mulf v126 v122
  have v158 : FVec F S128x1 .f32 := mulf v157 v122
  have v159 : FVec F S128x1 .f32 := addf v158 v123
  ⟨v129, v133, v137, v141, v144, v148, v152, v156, v159⟩

/-- A block of 3×3 products, entry by entry. -/
def mm3 (A B : M9 F) : M9 F :=
  have v950 : FVec F S128x1 .f32 := mulf A.e00 B.e00
  have v951 : FVec F S128x1 .f32 := mulf A.e01 B.e10
  have v952 : FVec F S128x1 .f32 := addf v950 v951
  have v953 : FVec F S128x1 .f32 := mulf A.e02 B.e20
  have v954 : FVec F S128x1 .f32 := addf v952 v953
  have v955 : FVec F S128x1 .f32 := mulf A.e00 B.e01
  have v956 : FVec F S128x1 .f32 := mulf A.e01 B.e11
  have v957 : FVec F S128x1 .f32 := addf v955 v956
  have v958 : FVec F S128x1 .f32 := mulf A.e02 B.e21
  have v959 : FVec F S128x1 .f32 := addf v957 v958
  have v960 : FVec F S128x1 .f32 := mulf A.e00 B.e02
  have v961 : FVec F S128x1 .f32 := mulf A.e01 B.e12
  have v962 : FVec F S128x1 .f32 := addf v960 v961
  have v963 : FVec F S128x1 .f32 := mulf A.e02 B.e22
  have v964 : FVec F S128x1 .f32 := addf v962 v963
  have v965 : FVec F S128x1 .f32 := mulf A.e10 B.e00
  have v966 : FVec F S128x1 .f32 := mulf A.e11 B.e10
  have v967 : FVec F S128x1 .f32 := addf v965 v966
  have v968 : FVec F S128x1 .f32 := mulf A.e12 B.e20
  have v969 : FVec F S128x1 .f32 := addf v967 v968
  have v970 : FVec F S128x1 .f32 := mulf A.e10 B.e01
  have v971 : FVec F S128x1 .f32 := mulf A.e11 B.e11
  have v972 : FVec F S128x1 .f32 := addf v970 v971
  have v973 : FVec F S128x1 .f32 := mulf A.e12 B.e21
  have v974 : FVec F S128x1 .f32 := addf v972 v973
  have v975 : FVec F S128x1 .f32 := mulf A.e10 B.e02
  have v976 : FVec F S128x1 .f32 := mulf A.e11 B.e12
  have v977 : FVec F S128x1 .f32 := addf v975 v976
  have v978 : FVec F S128x1 .f32 := mulf A.e12 B.e22
  have v979 : FVec F S128x1 .f32 := addf v977 v978
  have v980 : FVec F S128x1 .f32 := mulf A.e20 B.e00
  have v981 : FVec F S128x1 .f32 := mulf A.e21 B.e10
  have v982 : FVec F S128x1 .f32 := addf v980 v981
  have v983 : FVec F S128x1 .f32 := mulf A.e22 B.e20
  have v984 : FVec F S128x1 .f32 := addf v982 v983
  have v985 : FVec F S128x1 .f32 := mulf A.e20 B.e01
  have v986 : FVec F S128x1 .f32 := mulf A.e21 B.e11
  have v987 : FVec F S128x1 .f32 := addf v985 v986
  have v988 : FVec F S128x1 .f32 := mulf A.e22 B.e21
  have v989 : FVec F S128x1 .f32 := addf v987 v988
  have v990 : FVec F S128x1 .f32 := mulf A.e20 B.e02
  have v991 : FVec F S128x1 .f32 := mulf A.e21 B.e12
  have v992 : FVec F S128x1 .f32 := addf v990 v991
  have v993 : FVec F S128x1 .f32 := mulf A.e22 B.e22
  have v994 : FVec F S128x1 .f32 := addf v992 v993
  ⟨v954, v959, v964, v969, v974, v979, v984, v989, v994⟩

/-- A block of matrices applied to a block of vectors. -/
def mv3 (A : M9 F) (w : FVec F S128x3 .f32) : FVec F S128x3 .f32 :=
  have v995 : FVec F S128x1 .f32 := extractStridedSlice S128x1 ![0, 0] w slices_S128x3_o0_0_S128x1
  have v996 : FVec F S128x1 .f32 := extractStridedSlice S128x1 ![0, 1] w slices_S128x3_o0_1_S128x1
  have v997 : FVec F S128x1 .f32 := extractStridedSlice S128x1 ![0, 2] w slices_S128x3_o0_2_S128x1
  have v998 : FVec F S128x1 .f32 := mulf A.e00 v995
  have v999 : FVec F S128x1 .f32 := mulf A.e01 v996
  have v1000 : FVec F S128x1 .f32 := addf v998 v999
  have v1001 : FVec F S128x1 .f32 := mulf A.e02 v997
  have v1002 : FVec F S128x1 .f32 := addf v1000 v1001
  have v1003 : FVec F S128x1 .f32 := mulf A.e10 v995
  have v1004 : FVec F S128x1 .f32 := mulf A.e11 v996
  have v1005 : FVec F S128x1 .f32 := addf v1003 v1004
  have v1006 : FVec F S128x1 .f32 := mulf A.e12 v997
  have v1007 : FVec F S128x1 .f32 := addf v1005 v1006
  have v1008 : FVec F S128x1 .f32 := mulf A.e20 v995
  have v1009 : FVec F S128x1 .f32 := mulf A.e21 v996
  have v1010 : FVec F S128x1 .f32 := addf v1008 v1009
  have v1011 : FVec F S128x1 .f32 := mulf A.e22 v997
  have v1012 : FVec F S128x1 .f32 := addf v1010 v1011
  have v1013 : FVec F S128x3 .f32 := concatenate S128x3 1 [⟨S128x1, v1002⟩, ⟨S128x1, v1007⟩, ⟨S128x1, v1012⟩] concatenates_S128x1_S128x1_S128x1_S128x3_d1
  v1013

/-- The skeleton of a block: the template row plus coefficient column times basis row, ten times, left to right. -/
def skeleton (be : FVec F S128x10 .f32) (jt : FVec F S1x66 .f32) (sd : FVec F S10x66 .f32) : FVec F S128x66 .f32 :=
  have v12 : FVec F S1x66 .f32 := shapeCast S1x66 jt shapeCasts_S1x66_S1x66
  have v13 : FVec F S128x66 .f32 := broadcastTo S128x66 v12 broadcasts_S1x66_S128x66
  have v14 : FVec F S128x1 .f32 := extractStridedSlice S128x1 ![0, 0] be slices_S128x10_o0_0_S128x1
  have v15 : FVec F S1x66 .f32 := extractStridedSlice S1x66 ![0, 0] sd slices_S10x66_o0_0_S1x66
  have v16 : FVec F S128x66 .f32 := broadcastTo S128x66 v14 broadcasts_S128x1_S128x66
  have v17 : FVec F S128x66 .f32 := broadcastTo S128x66 v15 broadcasts_S1x66_S128x66
  have v18 : FVec F S128x66 .f32 := mulf v16 v17
  have v19 : FVec F S128x66 .f32 := addf v13 v18
  have v20 : FVec F S128x1 .f32 := extractStridedSlice S128x1 ![0, 1] be slices_S128x10_o0_1_S128x1
  have v21 : FVec F S1x66 .f32 := extractStridedSlice S1x66 ![1, 0] sd slices_S10x66_o1_0_S1x66
  have v22 : FVec F S128x66 .f32 := broadcastTo S128x66 v20 broadcasts_S128x1_S128x66
  have v23 : FVec F S128x66 .f32 := broadcastTo S128x66 v21 broadcasts_S1x66_S128x66
  have v24 : FVec F S128x66 .f32 := mulf v22 v23
  have v25 : FVec F S128x66 .f32 := addf v19 v24
  have v26 : FVec F S128x1 .f32 := extractStridedSlice S128x1 ![0, 2] be slices_S128x10_o0_2_S128x1
  have v27 : FVec F S1x66 .f32 := extractStridedSlice S1x66 ![2, 0] sd slices_S10x66_o2_0_S1x66
  have v28 : FVec F S128x66 .f32 := broadcastTo S128x66 v26 broadcasts_S128x1_S128x66
  have v29 : FVec F S128x66 .f32 := broadcastTo S128x66 v27 broadcasts_S1x66_S128x66
  have v30 : FVec F S128x66 .f32 := mulf v28 v29
  have v31 : FVec F S128x66 .f32 := addf v25 v30
  have v32 : FVec F S128x1 .f32 := extractStridedSlice S128x1 ![0, 3] be slices_S128x10_o0_3_S128x1
  have v33 : FVec F S1x66 .f32 := extractStridedSlice S1x66 ![3, 0] sd slices_S10x66_o3_0_S1x66
  have v34 : FVec F S128x66 .f32 := broadcastTo S128x66 v32 broadcasts_S128x1_S128x66
  have v35 : FVec F S128x66 .f32 := broadcastTo S128x66 v33 broadcasts_S1x66_S128x66
  have v36 : FVec F S128x66 .f32 := mulf v34 v35
  have v37 : FVec F S128x66 .f32 := addf v31 v36
  have v38 : FVec F S128x1 .f32 := extractStridedSlice S128x1 ![0, 4] be slices_S128x10_o0_4_S128x1
  have v39 : FVec F S1x66 .f32 := extractStridedSlice S1x66 ![4, 0] sd slices_S10x66_o4_0_S1x66
  have v40 : FVec F S128x66 .f32 := broadcastTo S128x66 v38 broadcasts_S128x1_S128x66
  have v41 : FVec F S128x66 .f32 := broadcastTo S128x66 v39 broadcasts_S1x66_S128x66
  have v42 : FVec F S128x66 .f32 := mulf v40 v41
  have v43 : FVec F S128x66 .f32 := addf v37 v42
  have v44 : FVec F S128x1 .f32 := extractStridedSlice S128x1 ![0, 5] be slices_S128x10_o0_5_S128x1
  have v45 : FVec F S1x66 .f32 := extractStridedSlice S1x66 ![5, 0] sd slices_S10x66_o5_0_S1x66
  have v46 : FVec F S128x66 .f32 := broadcastTo S128x66 v44 broadcasts_S128x1_S128x66
  have v47 : FVec F S128x66 .f32 := broadcastTo S128x66 v45 broadcasts_S1x66_S128x66
  have v48 : FVec F S128x66 .f32 := mulf v46 v47
  have v49 : FVec F S128x66 .f32 := addf v43 v48
  have v50 : FVec F S128x1 .f32 := extractStridedSlice S128x1 ![0, 6] be slices_S128x10_o0_6_S128x1
  have v51 : FVec F S1x66 .f32 := extractStridedSlice S1x66 ![6, 0] sd slices_S10x66_o6_0_S1x66
  have v52 : FVec F S128x66 .f32 := broadcastTo S128x66 v50 broadcasts_S128x1_S128x66
  have v53 : FVec F S128x66 .f32 := broadcastTo S128x66 v51 broadcasts_S1x66_S128x66
  have v54 : FVec F S128x66 .f32 := mulf v52 v53
  have v55 : FVec F S128x66 .f32 := addf v49 v54
  have v56 : FVec F S128x1 .f32 := extractStridedSlice S128x1 ![0, 7] be slices_S128x10_o0_7_S128x1
  have v57 : FVec F S1x66 .f32 := extractStridedSlice S1x66 ![7, 0] sd slices_S10x66_o7_0_S1x66
  have v58 : FVec F S128x66 .f32 := broadcastTo S128x66 v56 broadcasts_S128x1_S128x66
  have v59 : FVec F S128x66 .f32 := broadcastTo S128x66 v57 broadcasts_S1x66_S128x66
  have v60 : FVec F S128x66 .f32 := mulf v58 v59
  have v61 : FVec F S128x66 .f32 := addf v55 v60
  have v62 : FVec F S128x1 .f32 := extractStridedSlice S128x1 ![0, 8] be slices_S128x10_o0_8_S128x1
  have v63 : FVec F S1x66 .f32 := extractStridedSlice S1x66 ![8, 0] sd slices_S10x66_o8_0_S1x66
  have v64 : FVec F S128x66 .f32 := broadcastTo S128x66 v62 broadcasts_S128x1_S128x66
  have v65 : FVec F S128x66 .f32 := broadcastTo S128x66 v63 broadcasts_S1x66_S128x66
  have v66 : FVec F S128x66 .f32 := mulf v64 v65
  have v67 : FVec F S128x66 .f32 := addf v61 v66
  have v68 : FVec F S128x1 .f32 := extractStridedSlice S128x1 ![0, 9] be slices_S128x10_o0_9_S128x1
  have v69 : FVec F S1x66 .f32 := extractStridedSlice S1x66 ![9, 0] sd slices_S10x66_o9_0_S1x66
  have v70 : FVec F S128x66 .f32 := broadcastTo S128x66 v68 broadcasts_S128x1_S128x66
  have v71 : FVec F S128x66 .f32 := broadcastTo S128x66 v69 broadcasts_S1x66_S128x66
  have v72 : FVec F S128x66 .f32 := mulf v70 v71
  have v73 : FVec F S128x66 .f32 := addf v67 v72
  v73

/-- The six blocks the body loads. -/
structure Loads (F : FTy → Type) where
  bp : Vec F S128x63 .f32
  be : Vec F S128x10 .f32
  go : Vec F S128x3 .f32
  tr : Vec F S128x3 .f32
  jt : Vec F S1x66 .f32
  sd : Vec F S10x66 .f32

variable (L : Loads F)

def bp1 : FVec F S128x63 .f32 := shapeCast S128x63 L.bp shapeCasts_S128x63_S128x63
def be1 : FVec F S128x10 .f32 := shapeCast S128x10 L.be shapeCasts_S128x10_S128x10
def go1 : FVec F S128x3 .f32 := shapeCast S128x3 L.go shapeCasts_S128x3_S128x3
def tr1 : FVec F S128x3 .f32 := shapeCast S128x3 L.tr shapeCasts_S128x3_S128x3
def jt1 : FVec F S1x66 .f32 := shapeCast S1x66 L.jt shapeCasts_S1x66_S1x66
def sd1 : FVec F S10x66 .f32 := shapeCast S10x66 L.sd shapeCasts_S10x66_S10x66
def skel : FVec F S128x66 .f32 := skeleton (be1 L) (jt1 L) (sd1 L)

def sk0 : FVec F S128x3 .f32 := extractStridedSlice S128x3 ![0, 0] (skel L) slices_S128x66_o0_0_S128x3
def sk1 : FVec F S128x3 .f32 := extractStridedSlice S128x3 ![0, 3] (skel L) slices_S128x66_o0_3_S128x3
def sk2 : FVec F S128x3 .f32 := extractStridedSlice S128x3 ![0, 6] (skel L) slices_S128x66_o0_6_S128x3
def sk3 : FVec F S128x3 .f32 := extractStridedSlice S128x3 ![0, 9] (skel L) slices_S128x66_o0_9_S128x3
def sk4 : FVec F S128x3 .f32 := extractStridedSlice S128x3 ![0, 12] (skel L) slices_S128x66_o0_12_S128x3
def sk5 : FVec F S128x3 .f32 := extractStridedSlice S128x3 ![0, 15] (skel L) slices_S128x66_o0_15_S128x3
def sk6 : FVec F S128x3 .f32 := extractStridedSlice S128x3 ![0, 18] (skel L) slices_S128x66_o0_18_S128x3
def sk7 : FVec F S128x3 .f32 := extractStridedSlice S128x3 ![0, 21] (skel L) slices_S128x66_o0_21_S128x3
def sk8 : FVec F S128x3 .f32 := extractStridedSlice S128x3 ![0, 24] (skel L) slices_S128x66_o0_24_S128x3
def sk9 : FVec F S128x3 .f32 := extractStridedSlice S128x3 ![0, 27] (skel L) slices_S128x66_o0_27_S128x3
def sk10 : FVec F S128x3 .f32 := extractStridedSlice S128x3 ![0, 30] (skel L) slices_S128x66_o0_30_S128x3
def sk11 : FVec F S128x3 .f32 := extractStridedSlice S128x3 ![0, 33] (skel L) slices_S128x66_o0_33_S128x3
def sk12 : FVec F S128x3 .f32 := extractStridedSlice S128x3 ![0, 36] (skel L) slices_S128x66_o0_36_S128x3
def sk13 : FVec F S128x3 .f32 := extractStridedSlice S128x3 ![0, 39] (skel L) slices_S128x66_o0_39_S128x3
def sk14 : FVec F S128x3 .f32 := extractStridedSlice S128x3 ![0, 42] (skel L) slices_S128x66_o0_42_S128x3
def sk15 : FVec F S128x3 .f32 := extractStridedSlice S128x3 ![0, 45] (skel L) slices_S128x66_o0_45_S128x3
def sk16 : FVec F S128x3 .f32 := extractStridedSlice S128x3 ![0, 48] (skel L) slices_S128x66_o0_48_S128x3
def sk17 : FVec F S128x3 .f32 := extractStridedSlice S128x3 ![0, 51] (skel L) slices_S128x66_o0_51_S128x3
def sk18 : FVec F S128x3 .f32 := extractStridedSlice S128x3 ![0, 54] (skel L) slices_S128x66_o0_54_S128x3
def sk19 : FVec F S128x3 .f32 := extractStridedSlice S128x3 ![0, 57] (skel L) slices_S128x66_o0_57_S128x3
def sk20 : FVec F S128x3 .f32 := extractStridedSlice S128x3 ![0, 60] (skel L) slices_S128x66_o0_60_S128x3
def sk21 : FVec F S128x3 .f32 := extractStridedSlice S128x3 ![0, 63] (skel L) slices_S128x66_o0_63_S128x3
def aa0 : FVec F S128x3 .f32 := go1 L
def aa1 : FVec F S128x3 .f32 := extractStridedSlice S128x3 ![0, 0] (bp1 L) slices_S128x63_o0_0_S128x3
def aa2 : FVec F S128x3 .f32 := extractStridedSlice S128x3 ![0, 3] (bp1 L) slices_S128x63_o0_3_S128x3
def aa3 : FVec F S128x3 .f32 := extractStridedSlice S128x3 ![0, 6] (bp1 L) slices_S128x63_o0_6_S128x3
def aa4 : FVec F S128x3 .f32 := extractStridedSlice S128x3 ![0, 9] (bp1 L) slices_S128x63_o0_9_S128x3
def aa5 : FVec F S128x3 .f32 := extractStridedSlice S128x3 ![0, 12] (bp1 L) slices_S128x63_o0_12_S128x3
def aa6 : FVec F S128x3 .f32 := extractStridedSlice S128x3 ![0, 15] (bp1 L) slices_S128x63_o0_15_S128x3
def aa7 : FVec F S128x3 .f32 := extractStridedSlice S128x3 ![0, 18] (bp1 L) slices_S128x63_o0_18_S128x3
def aa8 : FVec F S128x3 .f32 := extractStridedSlice S128x3 ![0, 21] (bp1 L) slices_S128x63_o0_21_S128x3
def aa9 : FVec F S128x3 .f32 := extractStridedSlice S128x3 ![0, 24] (bp1 L) slices_S128x63_o0_24_S128x3
def aa12 : FVec F S128x3 .f32 := extractStridedSlice S128x3 ![0, 33] (bp1 L) slices_S128x63_o0_33_S128x3
def aa13 : FVec F S128x3 .f32 := extractStridedSlice S128x3 ![0, 36] (bp1 L) slices_S128x63_o0_36_S128x3
def aa14 : FVec F S128x3 .f32 := extractStridedSlice S128x3 ![0, 39] (bp1 L) slices_S128x63_o0_39_S128x3
def aa16 : FVec F S128x3 .f32 := extractStridedSlice S128x3 ![0, 45] (bp1 L) slices_S128x63_o0_45_S128x3
def aa17 : FVec F S128x3 .f32 := extractStridedSlice S128x3 ![0, 48] (bp1 L) slices_S128x63_o0_48_S128x3
def aa18 : FVec F S128x3 .f32 := extractStridedSlice S128x3 ![0, 51] (bp1 L) slices_S128x63_o0_51_S128x3
def aa19 : FVec F S128x3 .f32 := extractStridedSlice S128x3 ![0, 54] (bp1 L) slices_S128x63_o0_54_S128x3
def lt0 : FVec F S128x3 .f32 := addf (sk0 L) (tr1 L)
def lt1 : FVec F S128x3 .f32 := subf (sk1 L) (sk0 L)
def lt2 : FVec F S128x3 .f32 := subf (sk2 L) (sk0 L)
def lt3 : FVec F S128x3 .f32 := subf (sk3 L) (sk0 L)
def lt4 : FVec F S128x3 .f32 := subf (sk4 L) (sk1 L)
def lt5 : FVec F S128x3 .f32 := subf (sk5 L) (sk2 L)
def lt6 : FVec F S128x3 .f32 := subf (sk6 L) (sk3 L)
def lt7 : FVec F S128x3 .f32 := subf (sk7 L) (sk4 L)
def lt8 : FVec F S128x3 .f32 := subf (sk8 L) (sk5 L)
def lt9 : FVec F S128x3 .f32 := subf (sk9 L) (sk6 L)
def lt10 : FVec F S128x3 .f32 := subf (sk10 L) (sk7 L)
def lt11 : FVec F S128x3 .f32 := subf (sk11 L) (sk8 L)
def lt12 : FVec F S128x3 .f32 := subf (sk12 L) (sk9 L)
def lt13 : FVec F S128x3 .f32 := subf (sk13 L) (sk9 L)
def lt14 : FVec F S128x3 .f32 := subf (sk14 L) (sk9 L)
def lt15 : FVec F S128x3 .f32 := subf (sk15 L) (sk12 L)
def lt16 : FVec F S128x3 .f32 := subf (sk16 L) (sk13 L)
def lt17 : FVec F S128x3 .f32 := subf (sk17 L) (sk14 L)
def lt18 : FVec F S128x3 .f32 := subf (sk18 L) (sk16 L)
def lt19 : FVec F S128x3 .f32 := subf (sk19 L) (sk17 L)
def lt20 : FVec F S128x3 .f32 := subf (sk20 L) (sk18 L)
def lt21 : FVec F S128x3 .f32 := subf (sk21 L) (sk19 L)
def gR0 : M9 F := rod (aa0 L)
def gR1 : M9 F := mm3 (gR0 L) (rod (aa1 L))
def gR2 : M9 F := mm3 (gR0 L) (rod (aa2 L))
def gR3 : M9 F := mm3 (gR0 L) (rod (aa3 L))
def gR4 : M9 F := mm3 (gR1 L) (rod (aa4 L))
def gR5 : M9 F := mm3 (gR2 L) (rod (aa5 L))
def gR6 : M9 F := mm3 (gR3 L) (rod (aa6 L))
def gR7 : M9 F := mm3 (gR4 L) (rod (aa7 L))
def gR8 : M9 F := mm3 (gR5 L) (rod (aa8 L))
def gR9 : M9 F := mm3 (gR6 L) (rod (aa9 L))
def gR12 : M9 F := mm3 (gR9 L) (rod (aa12 L))
def gR13 : M9 F := mm3 (gR9 L) (rod (aa13 L))
def gR14 : M9 F := mm3 (gR9 L) (rod (aa14 L))
def gR16 : M9 F := mm3 (gR13 L) (rod (aa16 L))
def gR17 : M9 F := mm3 (gR14 L) (rod (aa17 L))
def gR18 : M9 F := mm3 (gR16 L) (rod (aa18 L))
def gR19 : M9 F := mm3 (gR17 L) (rod (aa19 L))
def gT0 : FVec F S128x3 .f32 := lt0 L
def gT1 : FVec F S128x3 .f32 := addf (mv3 (gR0 L) (lt1 L)) (gT0 L)
def gT2 : FVec F S128x3 .f32 := addf (mv3 (gR0 L) (lt2 L)) (gT0 L)
def gT3 : FVec F S128x3 .f32 := addf (mv3 (gR0 L) (lt3 L)) (gT0 L)
def gT4 : FVec F S128x3 .f32 := addf (mv3 (gR1 L) (lt4 L)) (gT1 L)
def gT5 : FVec F S128x3 .f32 := addf (mv3 (gR2 L) (lt5 L)) (gT2 L)
def gT6 : FVec F S128x3 .f32 := addf (mv3 (gR3 L) (lt6 L)) (gT3 L)
def gT7 : FVec F S128x3 .f32 := addf (mv3 (gR4 L) (lt7 L)) (gT4 L)
def gT8 : FVec F S128x3 .f32 := addf (mv3 (gR5 L) (lt8 L)) (gT5 L)
def gT9 : FVec F S128x3 .f32 := addf (mv3 (gR6 L) (lt9 L)) (gT6 L)
def gT10 : FVec F S128x3 .f32 := addf (mv3 (gR7 L) (lt10 L)) (gT7 L)
def gT11 : FVec F S128x3 .f32 := addf (mv3 (gR8 L) (lt11 L)) (gT8 L)
def gT12 : FVec F S128x3 .f32 := addf (mv3 (gR9 L) (lt12 L)) (gT9 L)
def gT13 : FVec F S128x3 .f32 := addf (mv3 (gR9 L) (lt13 L)) (gT9 L)
def gT14 : FVec F S128x3 .f32 := addf (mv3 (gR9 L) (lt14 L)) (gT9 L)
def gT15 : FVec F S128x3 .f32 := addf (mv3 (gR12 L) (lt15 L)) (gT12 L)
def gT16 : FVec F S128x3 .f32 := addf (mv3 (gR13 L) (lt16 L)) (gT13 L)
def gT17 : FVec F S128x3 .f32 := addf (mv3 (gR14 L) (lt17 L)) (gT14 L)
def gT18 : FVec F S128x3 .f32 := addf (mv3 (gR16 L) (lt18 L)) (gT16 L)
def gT19 : FVec F S128x3 .f32 := addf (mv3 (gR17 L) (lt19 L)) (gT17 L)
def gT20 : FVec F S128x3 .f32 := addf (mv3 (gR18 L) (lt20 L)) (gT18 L)
def gT21 : FVec F S128x3 .f32 := addf (mv3 (gR19 L) (lt21 L)) (gT19 L)

/-- The block's value: the 22 global translations stacked along a new middle axis. -/
def blockOut : FVec F S128x22x3 .f32 :=
  concatenate S128x22x3 1 [⟨S128x1x3, shapeCast S128x1x3 (gT0 L) shapeCasts_S128x3_S128x1x3⟩, ⟨S128x1x3, shapeCast S128x1x3 (gT1 L) shapeCasts_S128x3_S128x1x3⟩, ⟨S128x1x3, shapeCast S128x1x3 (gT2 L) shapeCasts_S128x3_S128x1x3⟩, ⟨S128x1x3, shapeCast S128x1x3 (gT3 L) shapeCasts_S128x3_S128x1x3⟩, ⟨S128x1x3, shapeCast S128x1x3 (gT4 L) shapeCasts_S128x3_S128x1x3⟩, ⟨S128x1x3, shapeCast S128x1x3 (gT5 L) shapeCasts_S128x3_S128x1x3⟩, ⟨S128x1x3, shapeCast S128x1x3 (gT6 L) shapeCasts_S128x3_S128x1x3⟩, ⟨S128x1x3, shapeCast S128x1x3 (gT7 L) shapeCasts_S128x3_S128x1x3⟩, ⟨S128x1x3, shapeCast S128x1x3 (gT8 L) shapeCasts_S128x3_S128x1x3⟩, ⟨S128x1x3, shapeCast S128x1x3 (gT9 L) shapeCasts_S128x3_S128x1x3⟩, ⟨S128x1x3, shapeCast S128x1x3 (gT10 L) shapeCasts_S128x3_S128x1x3⟩, ⟨S128x1x3, shapeCast S128x1x3 (gT11 L) shapeCasts_S128x3_S128x1x3⟩, ⟨S128x1x3, shapeCast S128x1x3 (gT12 L) shapeCasts_S128x3_S128x1x3⟩, ⟨S128x1x3, shapeCast S128x1x3 (gT13 L) shapeCasts_S128x3_S128x1x3⟩, ⟨S128x1x3, shapeCast S128x1x3 (gT14 L) shapeCasts_S128x3_S128x1x3⟩, ⟨S128x1x3, shapeCast S128x1x3 (gT15 L) shapeCasts_S128x3_S128x1x3⟩, ⟨S128x1x3, shapeCast S128x1x3 (gT16 L) shapeCasts_S128x3_S128x1x3⟩, ⟨S128x1x3, shapeCast S128x1x3 (gT17 L) shapeCasts_S128x3_S128x1x3⟩, ⟨S128x1x3, shapeCast S128x1x3 (gT18 L) shapeCasts_S128x3_S128x1x3⟩, ⟨S128x1x3, shapeCast S128x1x3 (gT19 L) shapeCasts_S128x3_S128x1x3⟩, ⟨S128x1x3, shapeCast S128x1x3 (gT20 L) shapeCasts_S128x3_S128x1x3⟩, ⟨S128x1x3, shapeCast S128x1x3 (gT21 L) shapeCasts_S128x3_S128x1x3⟩] concatenates_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x22x3_d1

end Cert.KernelIdeal.Blk

end
-- ==== Proof.BlockEq.lean ====
/-
  What the kernel body leaves in the output window's buffer is the block function of the six loaded blocks: the
  body's stored value, named piece by piece, unfolds to the same operations in the same order.
-/
import proofs.«129627_j26603027432101_2_alg».proof.Proof.FrameKernelIdeal
import proofs.«129627_j26603027432101_2_alg».proof.Proof.Block

noncomputable section

namespace Cert.KernelIdeal.Blk

open Idealize.ShloMosaic Cert.KernelIdeal Cert.KernelIdeal.Gen Cert.KernelIdeal.GenP

variable {F : FTy → Type} [FloatOps F]

/-- The six loads of the body, each through its whole-block rectangle. -/
def loadsOf (x0 : Vec F S128x63 .f32) (x1 : Vec F S128x10 .f32) (x2 : Vec F S128x3 .f32) (x3 : Vec F S128x3 .f32)
    (x4 : Vec F S1x66 .f32) (x5 : Vec F S10x66 .f32) : Loads F :=
  ⟨View.ld x0 r0_0, View.ld x1 r0_1, View.ld x2 r0_2, View.ld x3 r0_2, View.ld x4 r0_3, View.ld x5 r0_4⟩

theorem out0_6_eq (x0 : Vec F S128x63 .f32) (x1 : Vec F S128x10 .f32) (x2 : Vec F S128x3 .f32) (x3 : Vec F S128x3 .f32)
    (x4 : Vec F S1x66 .f32) (x5 : Vec F S10x66 .f32) :
    out0_6 x0 x1 x2 x3 x4 x5 = View.canon [⟨r0_5, blockOut (loadsOf x0 x1 x2 x3 x4 x5)⟩] :=
  rfl

end Cert.KernelIdeal.Blk

end
-- ==== Proof.LibColumnCast.lean ====
/-
  A column vector and its flat form. A sum along the lanes that keeps its axis has shape `[a, 1]`; the flat form of the
  same numbers has shape `[a]`. The two casts between them move no element: entry `(i, 0)` of the column is entry `i`
  of the flat vector, because both sit at row-major position `i`.
-/
import Idealize.ShloMosaic.Lib.Pipeline.Value
import Idealize.ShloMosaic.Lib.ValueIdx

noncomputable section

namespace Cert.Lib.ColumnCast

open Idealize.ShloMosaic Idealize.ShloMosaic.ValueIdx

variable {α : Type}

/-- A flat `[a]` vector cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the flat `[a]` vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast

end
-- ==== Proof.LibColumnBroadcast.lean ====
/-
  A column broadcast along the lanes. A per-row quantity kept as a column `[a, 1]` (a row's maximum, a row's sum) is
  broadcast to `[a, b]` by repeating its one entry along each row: entry `(p, c)` of the result is entry `(p, 0)` of
  the column, whatever the lane `c`.
-/
import Idealize.ShloMosaic.Lib.Pipeline.Value
import Idealize.ShloMosaic.Lib.ValueIdx

noncomputable section

namespace Cert.Lib.ColumnBroadcast

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast

end
-- ==== Proof.LibLaneOps.lean ====
/-
  Three readings at an index, over literal two-axis shapes: the sum of an [a, c] matrix along its lanes at a row; one
  column of an [a, b] array cut out as an [a, 1] slice; and the scalar at one lane of a one-row array, taken as a
  [1, 1] slice and extracted.
-/
import Idealize.ShloMosaic.Lib.ValueIdx
import Idealize.ShloMosaic.Lib.Pipeline.Value
import Idealize.ShloMosaic.PureOps.Ideal.Laws

noncomputable section

namespace Cert.Lib.LaneOps

open Idealize.ShloMosaic Idealize.ShloMosaic.ValueIdx

variable {α : Type}

/-- The sum of an `[a, c]` matrix along its lanes reads, at row `r`, the sum over `k` of the matrix at `(r, k)`. -/
theorem laneSum2_apply {a c : ℕ} (src : FVec Ideal ⟨2, ![a, c]⟩ .f32)
    (h : (⟨2, ![a, c]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin c, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- Column `j` of an `[a, b]` array, cut out as an `[a, 1]` slice, reads at `(r, 0)` the array at `(r, j)`. -/
theorem colSlice_apply {a b : ℕ} (x : (⟨2, ![a, b]⟩ : Shape).Idx → α) (j : ℕ) (hj : j < b)
    (h : (⟨2, ![a, b]⟩ : Shape).Slices ![0, j] ⟨2, ![a, 1]⟩) (r : Fin a) :
    extractStridedSlice ⟨2, ![a, 1]⟩ ![0, j] x h (ix2 r (0 : Fin 1)) = x (ix2 r (⟨j, hj⟩ : Fin b)) := by
  refine extractStridedSlice_apply ![0, j] x h (ix2 r (0 : Fin 1)) (ix2 r (⟨j, hj⟩ : Fin b)) fun ax => ?_
  match ax with
  | ⟨0, _⟩ => exact (Nat.zero_add _).symm
  | ⟨1, _⟩ => rfl

/-- The scalar at lane `j` of a one-row array, taken as a `[1, 1]` slice and then extracted. -/
theorem laneScalar_apply {b : ℕ} (x : (⟨2, ![1, b]⟩ : Shape).Idx → α) (j : ℕ) (hj : j < b)
    (h : (⟨2, ![1, b]⟩ : Shape).Slices ![0, j] ⟨2, ![1, 1]⟩) (hp : ∀ a, (![0, 0] : Fin 2 → ℕ) a < (⟨2, ![1, 1]⟩ : Shape).size a) :
    extractAt ![0, 0] (extractStridedSlice ⟨2, ![1, 1]⟩ ![0, j] x h) hp = x (ix2 (0 : Fin 1) (⟨j, hj⟩ : Fin b)) := by
  unfold extractAt
  refine extractStridedSlice_apply ![0, j] x h _ (ix2 (0 : Fin 1) (⟨j, hj⟩ : Fin b)) fun ax => ?_
  match ax with
  | ⟨0, _⟩ => rfl
  | ⟨1, _⟩ => rfl

end Cert.Lib.LaneOps

end
-- ==== Proof.LibKeepdimsLayout.lean ====
/-
  Layout operations, lane sums and a plain two-axis matrix product read at an index given by coordinates, for the
  keepdims shapes a pairwise network meets: a trailing or middle unit axis added by a shape cast, two leading unit axes
  added or dropped, two leading axes merged into one and a trailing axis split in two (both row-major), a broadcast
  along one or two unit axes of a rank-3 array, a sum over the first axis of a matrix and over the last axis of a
  rank-3 array, and a matrix product into a zero accumulator as the sum over the contracted coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayLayout

open Idealize.ShloMosaic Idealize.ShloMosaic.ValueIdx

variable {α : Type}

/-! ## Shape casts that add or drop unit axes -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, d)`, the operand at `(i, d)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (d : Fin c) :
    shapeCast ⟨3, ![a, 1, c]⟩ x h (ix3 i u d) = x (ix2 i d) :=
  shapeCast_apply x h _ _ (by
    have hu : u.val = 0 := by omega
    rw [Shape.rowMajor_val_three, Shape.rowMajor_val_two]
    show i.val * c + d.val = (i.val * 1 + u.val) * c + d.val
    rw [hu, Nat.mul_one, Nat.add_zero])

/-- A vector `[c]` cast to `[1, 1, c]` reads, at `(u, v, d)`, the operand at `d`. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

/-! ## Row-major merges and splits -/

/-- An `[a, b, c]` array cast to `[n, c]` with the two leading axes merged reads, at `(r, d)` with `r = i * b + j`,
    the operand at `(i, j, d)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (d : Fin c) (r : Fin n)
    (hr : r.val = i.val * b + j.val) :
    shapeCast ⟨2, ![n, c]⟩ x h (ix2 r d) = x (ix3 i j d) :=
  shapeCast_apply x h _ _ (by
    rw [Shape.rowMajor_val_three, Shape.rowMajor_val_two]
    show (i.val * b + j.val) * c + d.val = r.val * c + d.val
    rw [hr])

/-- An `[n, c]` array cast to `[a, m]` with `n = a * b` rows regrouped `b` to a row, so `m = b * c`, reads, at
    `(i, q)` with `q = j * c + o`, the operand at `(r, o)` with `r = i * b + j`. -/
theorem shapeCast_nc_am_apply {a b c n m : ℕ} (x : (⟨2, ![n, c]⟩ : Shape).Idx → α)
    (h : (⟨2, ![n, c]⟩ : Shape).ShapeCasts ⟨2, ![a, m]⟩) (hm : m = b * c) (i : Fin a) (j : Fin b) (o : Fin c)
    (r : Fin n) (q : Fin m) (hr : r.val = i.val * b + j.val) (hq : q.val = j.val * c + o.val) :
    shapeCast ⟨2, ![a, m]⟩ x h (ix2 i q) = x (ix2 r o) :=
  shapeCast_apply x h _ _ (by
    rw [Shape.rowMajor_val_two, Shape.rowMajor_val_two]
    show r.val * c + o.val = i.val * m + q.val
    rw [hr, hq, hm]
    ring)

/-! ## Broadcasts of a rank-3 array along its unit axes -/

/-- An `[a, 1, c]` array broadcast to `[a, b, c]` reads, at `(i, j, d)`, the operand at `(i, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (d : Fin c) :
    broadcastTo ⟨3, ![a, b, c]⟩ v h (ix3 i j d) = v (ix3 i (0 : Fin 1) d) := by
  refine broadcastTo_apply v h (ix3 i j d) (ix3 i (0 : Fin 1) d) fun ax => ?_
  match ax with
  | ⟨0, _⟩ =>
    show i.val = if a = 1 then 0 else i.val
    split
    · have := i.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(i, j, d)`, the operand at `(0, j, d)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (d : Fin c) :
    broadcastTo ⟨3, ![a, b, c]⟩ v h (ix3 i j d) = v (ix3 (0 : Fin 1) j d) := by
  refine broadcastTo_apply v h (ix3 i j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- A `[1, 1, c]` array broadcast to `[a, b, c]` reads, at `(i, j, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (d : Fin c) :
    broadcastTo ⟨3, ![a, b, c]⟩ v h (ix3 i j d) = v (ix3 (0 : Fin 1) (0 : Fin 1) d) := by
  refine broadcastTo_apply v h (ix3 i j d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- An `[a, b, 1]` array broadcast to `[a, b, c]` reads, at `(i, j, d)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Sums over one axis -/

/-- The sum of an `[a, c]` matrix over its rows reads, at `f`, the sum over `r` of the matrix at `(r, f)`. -/
theorem rowSum_apply {a c : ℕ} (src : FVec Ideal ⟨2, ![a, c]⟩ .f32)
    (h : (⟨2, ![a, c]⟩ : Shape).Reduces [0] ⟨1, ![c]⟩) (hφ : FKind.Formats .f32)
    (hacc : (0x00000000#32 : BitVec 32) = 0x00000000#32) (f : Fin c) :
    multiReduction .add [0] ⟨1, ![c]⟩ src 0x00000000#32 h hφ hacc (ix1 f) = ∑ r : Fin a, src (ix2 r f) := by
  refine (Ideal.multiReduction_add_single src 0x00000000#32 h hφ hacc (ix1 f)).trans ?_
  refine Finset.sum_congr rfl fun r _ => congrArg src (funext fun ax => Fin.ext ?_)
  match ax with
  | ⟨0, _⟩ => rfl
  | ⟨1, _⟩ => rfl

/-- The sum of an `[a, b, c]` array over its last axis reads, at `(i, j)`, the sum over `d` of the array at
    `(i, j, d)`. -/
theorem laneSum_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ d : Fin c, src (ix3 i j d) := by
  refine (Ideal.multiReduction_add_single src 0x00000000#32 h hφ hacc (ix2 i j)).trans ?_
  refine Finset.sum_congr rfl fun d _ => congrArg src (funext fun ax => Fin.ext ?_)
  match ax with
  | ⟨0, _⟩ => rfl
  | ⟨1, _⟩ => rfl
  | ⟨2, _⟩ => rfl

/-! ## A plain matrix product into a zero accumulator -/

/-- For dimension numbers that contract the left operand's columns with the right operand's rows (`hl0` … `hr1`: the
    operand indices at an output index and a contraction position, read off the numbers), an `[m, k] · [k, n]`
    product into the zero splat reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision) (lhs : FVec Ideal ⟨2, ![m, k]⟩ φ₁) (rhs : FVec Ideal ⟨2, ![k, n]⟩ φ₂)
    (r : Fin m) (c : Fin n) :
    matmul D prec lhs rhs (constant (F := Ideal) ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.KernelIdeal.PayLayout

end
-- ==== Proof.BlockRead.lean ====
/-
  The block operations read at one token row, on the extended reals.

  Every operation of the block acts on each of the 128 rows by itself: an entry of row `r` of a result depends on row
  `r` of the operands only. So each block function, read at row `r`, is the corresponding function of Spec.lean on the
  row's numbers: `rod` is Rodrigues' formula of the row's axis-angle vector (its sum of squares is the lane sum of the
  products, its length the column that sum is kept in, broadcast back along the three lanes for the division), `mm3` the
  3×3 product of the two rows' matrices and `mv3` the row's matrix applied to the row's vector (its three results set
  side by side again).
-/
import proofs.«129627_j26603027432101_2_alg».proof.Proof.Block
import proofs.«129627_j26603027432101_2_alg».proof.Proof.Spec
import proofs.«129627_j26603027432101_2_alg».proof.Proof.LibColumnCast
import proofs.«129627_j26603027432101_2_alg».proof.Proof.LibColumnBroadcast
import proofs.«129627_j26603027432101_2_alg».proof.Proof.LibLaneOps
import proofs.«129627_j26603027432101_2_alg».proof.Proof.LibKeepdimsLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blk

open Idealize.ShloMosaic Idealize.ShloMosaic.ValueIdx Cert.KernelIdeal Cert.KernelIdeal.Gen
open Cert.Lib.ColumnCast Cert.Lib.ColumnBroadcast Cert.Lib.LaneOps

/-- Row `r` of a block of vectors. -/
def rowVec (w : FVec Ideal S128x3 .f32) (r : Fin 128) : FK.Vec3 := fun c => w (ix2 r c)

/-- Row `r` of a block of 3×3 matrices. -/
def rowMat (A : M9 Ideal) (r : Fin 128) : FK.Mat3 :=
  ![![A.e00 (ix2 r (0 : Fin 1)), A.e01 (ix2 r (0 : Fin 1)), A.e02 (ix2 r (0 : Fin 1))],
    ![A.e10 (ix2 r (0 : Fin 1)), A.e11 (ix2 r (0 : Fin 1)), A.e12 (ix2 r (0 : Fin 1))],
    ![A.e20 (ix2 r (0 : Fin 1)), A.e21 (ix2 r (0 : Fin 1)), A.e22 (ix2 r (0 : Fin 1))]]

section Rod

variable (aa : FVec Ideal S128x3 .f32) (r : Fin 128)

/-- The length column of a block of axis-angle vectors, as `rod` computes it. -/
def lenCol : FVec Ideal S128x1 .f32 :=
  sqrt (addf (shapeCast S128x1 (multiReduction .add [1] S128 (mulf aa aa) 0x00000000#32 reduces_S128x3_S128 (.inl rfl) rfl)
    shapeCasts_S128_S128x1) (broadcast S128x1 (Scalar.ofBits .f32 0x2B8CBCCC#32)))

theorem lenCol_apply : lenCol aa (ix2 r (0 : Fin 1)) = FK.angle (rowVec aa r) := by
  unfold lenCol FK.angle
  show Ideal.sqrt ((shapeCast S128x1 (multiReduction .add [1] S128 (mulf aa aa) 0x00000000#32 reduces_S128x3_S128 (.inl rfl) rfl)
      shapeCasts_S128_S128x1) (ix2 r (0 : Fin 1)) + FK.eps) = _
  rw [shapeCast_a_a1_apply, laneSum2_apply, Fin.sum_univ_three]
  rfl

/-- The unit-axis block: each vector over its length, the length broadcast along the three lanes. -/
def axisBlk : FVec Ideal S128x3 .f32 := divf aa (broadcastTo S128x3 (lenCol aa) broadcasts_S128x1_S128x3)

theorem axisBlk_apply (c : Fin 3) : axisBlk aa (ix2 r c) = FK.axis (rowVec aa r) c := by
  unfold axisBlk FK.axis
  show Ideal.div (aa (ix2 r c)) (broadcastTo S128x3 (lenCol aa) broadcasts_S128x1_S128x3 (ix2 r c)) = _
  rw [broadcastTo_a1_ab_apply, lenCol_apply]
  rfl

theorem rod_apply : rowMat (rod aa) r = FK.rot (rowVec aa r) := by
  have hx : extractStridedSlice S128x1 ![0, 0] (axisBlk aa) slices_S128x3_o0_0_S128x1 (ix2 r (0 : Fin 1)) = FK.axis (rowVec aa r) 0 :=
    (colSlice_apply (axisBlk aa) 0 (by decide) slices_S128x3_o0_0_S128x1 r).trans (axisBlk_apply aa r _)
  have hy : extractStridedSlice S128x1 ![0, 1] (axisBlk aa) slices_S128x3_o0_1_S128x1 (ix2 r (0 : Fin 1)) = FK.axis (rowVec aa r) 1 :=
    (colSlice_apply (axisBlk aa) 1 (by decide) slices_S128x3_o0_1_S128x1 r).trans (axisBlk_apply aa r _)
  have hz : extractStridedSlice S128x1 ![0, 2] (axisBlk aa) slices_S128x3_o0_2_S128x1 (ix2 r (0 : Fin 1)) = FK.axis (rowVec aa r) 2 :=
    (colSlice_apply (axisBlk aa) 2 (by decide) slices_S128x3_o0_2_S128x1 r).trans (axisBlk_apply aa r _)
  have hl := lenCol_apply aa r
  unfold rowMat FK.rot
  simp only []
  rw [← hx, ← hy, ← hz, ← hl]
  rfl

end Rod

/-- A block of 3×3 products, read at a row, is the product of the two rows' matrices. -/
theorem mm3_apply (A B : M9 Ideal) (r : Fin 128) : rowMat (mm3 A B) r = FK.mm (rowMat A r) (rowMat B r) := by
  funext i k
  fin_cases i <;> fin_cases k <;> rfl

/-- Three columns set side by side: lane `c` of the result is column `c`. -/
theorem cat3_apply (p0 p1 p2 : FVec Ideal S128x1 .f32)
    (h : Shape.Concatenates (([⟨S128x1, p0⟩, ⟨S128x1, p1⟩, ⟨S128x1, p2⟩] : List ((s : Shape) × (s.Idx → Ideal .f32))).map (·.1)) S128x3 1)
    (r : Fin 128) (c : Fin 3) :
    concatenate S128x3 1 [⟨S128x1, p0⟩, ⟨S128x1, p1⟩, ⟨S128x1, p2⟩] h (ix2 r c) = (![p0, p1, p2] c) (ix2 r (0 : Fin 1)) := by
  match c with
  | ⟨0, _⟩ =>
    exact concatenate_apply_piece (1 : Fin 2) [⟨S128x1, p0⟩, ⟨S128x1, p1⟩, ⟨S128x1, p2⟩] h (ix2 r (⟨0, by decide⟩ : Fin 3)) 0 (by simp)
      S128x1 p0 rfl rfl 0 rfl (ix2 r (0 : Fin 1))
      (fun b hb => match b with
        | ⟨0, _⟩ => rfl
        | ⟨1, _⟩ => absurd rfl hb) rfl
  | ⟨1, _⟩ =>
    exact concatenate_apply_piece (1 : Fin 2) [⟨S128x1, p0⟩, ⟨S128x1, p1⟩, ⟨S128x1, p2⟩] h (ix2 r (⟨1, by decide⟩ : Fin 3)) 1 (by simp)
      S128x1 p1 rfl rfl 1 rfl (ix2 r (0 : Fin 1))
      (fun b hb => match b with
        | ⟨0, _⟩ => rfl
        | ⟨1, _⟩ => absurd rfl hb) rfl
  | ⟨2, _⟩ =>
    exact concatenate_apply_piece (1 : Fin 2) [⟨S128x1, p0⟩, ⟨S128x1, p1⟩, ⟨S128x1, p2⟩] h (ix2 r (⟨2, by decide⟩ : Fin 3)) 2 (by simp)
      S128x1 p2 rfl rfl 2 rfl (ix2 r (0 : Fin 1))
      (fun b hb => match b with
        | ⟨0, _⟩ => rfl
        | ⟨1, _⟩ => absurd rfl hb) rfl

/-- A block of matrices applied to a block of vectors, read at a row and a lane: the row's matrix applied to the row's
    vector. -/
theorem mv3_apply (A : M9 Ideal) (w : FVec Ideal S128x3 .f32) (r : Fin 128) (c : Fin 3) :
    mv3 A w (ix2 r c) = FK.mv (rowMat A r) (rowVec w r) c := by
  have h0 := colSlice_apply w 0 (by decide) slices_S128x3_o0_0_S128x1 r
  have h1 := colSlice_apply w 1 (by decide) slices_S128x3_o0_1_S128x1 r
  have h2 := colSlice_apply w 2 (by decide) slices_S128x3_o0_2_S128x1 r
  unfold mv3
  rw [cat3_apply]
  match c with
  | ⟨0, _⟩ =>
    show (addf (addf (mulf A.e00 _) (mulf A.e01 _)) (mulf A.e02 _)) (ix2 r (0 : Fin 1)) = _
    simp only [addf_apply, mulf_apply]
    rw [h0, h1, h2]
    rfl
  | ⟨1, _⟩ =>
    show (addf (addf (mulf A.e10 _) (mulf A.e11 _)) (mulf A.e12 _)) (ix2 r (0 : Fin 1)) = _
    simp only [addf_apply, mulf_apply]
    rw [h0, h1, h2]
    rfl
  | ⟨2, _⟩ =>
    show (addf (addf (mulf A.e20 _) (mulf A.e21 _)) (mulf A.e22 _)) (ix2 r (0 : Fin 1)) = _
    simp only [addf_apply, mulf_apply]
    rw [h0, h1, h2]
    rfl

/-- Row `k` of a `[n, b]` array, cut out as a `[1, b]` slice, reads at `(0, q)` the array at `(k, q)`. -/
theorem rowSlice_apply {n b : ℕ} {α : Type} (x : (⟨2, ![n, b]⟩ : Shape).Idx → α) (k : ℕ) (hk : k < n)
    (h : (⟨2, ![n, b]⟩ : Shape).Slices ![k, 0] ⟨2, ![1, b]⟩) (q : Fin b) :
    extractStridedSlice ⟨2, ![1, b]⟩ ![k, 0] x h (ix2 (0 : Fin 1) q) = x (ix2 (⟨k, hk⟩ : Fin n) q) := by
  refine extractStridedSlice_apply ![k, 0] x h (ix2 (0 : Fin 1) q) (ix2 (⟨k, hk⟩ : Fin n) q) fun ax => ?_
  match ax with
  | ⟨0, _⟩ => rfl
  | ⟨1, _⟩ => exact (Nat.zero_add _).symm

/-- A sum over ten terms, written out left to right. -/
theorem sum_univ_ten {M : Type*} [AddCommMonoid M] (f : Fin 10 → M) :
    ∑ k, f k = f 0 + f 1 + f 2 + f 3 + f 4 + f 5 + f 6 + f 7 + f 8 + f 9 := by
  simp only [Fin.sum_univ_succ, Fin.sum_univ_zero, add_zero, add_assoc]
  rfl

/-- The skeleton of a block at row `r`, lane `q`: the template's entry plus the ten coefficient-times-basis products. -/
theorem skeleton_apply (be : FVec Ideal S128x10 .f32) (jt : FVec Ideal S1x66 .f32) (sd : FVec Ideal S10x66 .f32)
    (r : Fin 128) (q : Fin 66) :
    skeleton be jt sd (ix2 r q) = jt (ix2 (0 : Fin 1) q) + ∑ k : Fin 10, be (ix2 r k) * sd (ix2 k q) := by
  have hb : ∀ (k : ℕ) (hk : k < 10) (h : S128x10.Slices ![0, k] S128x1),
      broadcastTo S128x66 (extractStridedSlice S128x1 ![0, k] be h) broadcasts_S128x1_S128x66 (ix2 r q) = be (ix2 r (⟨k, hk⟩ : Fin 10)) :=
    fun k hk h => (broadcastTo_a1_ab_apply _ _ r q).trans (colSlice_apply be k hk h r)
  have hs : ∀ (k : ℕ) (hk : k < 10) (h : S10x66.Slices ![k, 0] S1x66),
      broadcastTo S128x66 (extractStridedSlice S1x66 ![k, 0] sd h) broadcasts_S1x66_S128x66 (ix2 r q) = sd (ix2 (⟨k, hk⟩ : Fin 10) q) :=
    fun k hk h => (broadcastTo_1b_ab_apply _ _ r q).trans (rowSlice_apply sd k hk h q)
  have hj : broadcastTo S128x66 (shapeCast S1x66 jt shapeCasts_S1x66_S1x66) broadcasts_S1x66_S128x66 (ix2 r q) = jt (ix2 (0 : Fin 1) q) := by
    rw [broadcastTo_1b_ab_apply, shapeCast_self]
  unfold skeleton
  simp only [addf_apply, mulf_apply]
  rw [hj, hb 0 (by decide), hs 0 (by decide), hb 1 (by decide), hs 1 (by decide), hb 2 (by decide), hs 2 (by decide), hb 3 (by decide), hs 3 (by decide), hb 4 (by decide), hs 4 (by decide), hb 5 (by decide), hs 5 (by decide), hb 6 (by decide), hs 6 (by decide), hb 7 (by decide), hs 7 (by decide), hb 8 (by decide), hs 8 (by decide), hb 9 (by decide), hs 9 (by decide)]
  rw [sum_univ_ten]
  simp only [add_assoc]
  rfl

/-- A band of three lanes from lane `o` of an `[a, b]` array reads, at `(r, c)`, the array at `(r, o + c)`. -/
theorem bandSlice_apply {a b : ℕ} {α : Type} (x : (⟨2, ![a, b]⟩ : Shape).Idx → α) (o : ℕ) (ho : o + 3 ≤ b)
    (h : (⟨2, ![a, b]⟩ : Shape).Slices ![0, o] ⟨2, ![a, 3]⟩) (r : Fin a) (c : Fin 3) :
    extractStridedSlice ⟨2, ![a, 3]⟩ ![0, o] x h (ix2 r c) = x (ix2 r (⟨o + c.val, by omega⟩ : Fin b)) := by
  refine extractStridedSlice_apply ![0, o] x h (ix2 r c) (ix2 r (⟨o + c.val, by omega⟩ : Fin b)) fun ax => ?_
  match ax with
  | ⟨0, _⟩ => exact (Nat.zero_add _).symm
  | ⟨1, _⟩ => rfl

section Rows

variable (L : Loads Ideal) (r : Fin 128)

/-- Joint `j`'s axis-angle vector in row `r` of the loaded blocks. -/
def aaRow (j : Fin 22) : FK.Vec3 := fun c =>
  if j = 0 then L.go (ix2 r c) else L.bp (ix2 r (⟨3 * (j.val - 1) + c.val, by omega⟩ : Fin 63))

/-- Joint `j`'s skeleton position in row `r`. -/
def skRow (j : Fin 22) (c : Fin 3) : EReal :=
  L.jt (ix2 (0 : Fin 1) (⟨3 * j.val + c.val, by omega⟩ : Fin 66))
    + ∑ k : Fin 10, L.be (ix2 r k) * L.sd (ix2 k (⟨3 * j.val + c.val, by omega⟩ : Fin 66))

/-- Joint `j`'s local offset in row `r`. -/
def ltRow (j : Fin 22) : FK.Vec3 := fun c =>
  if j = 0 then skRow L r 0 c + L.tr (ix2 r c) else skRow L r j c - skRow L r (FK.parent j) c

/-- The poses of row `r`. -/
def poseRow (j : Fin 22) : FK.Mat3 × FK.Vec3 := FK.pose (fun j => FK.rot (aaRow L r j)) (ltRow L r) j

theorem skSlice_apply (j : ℕ) (hj : j < 22) (h : S128x66.Slices ![0, 3 * j] S128x3) (c : Fin 3) :
    extractStridedSlice S128x3 ![0, 3 * j] (skel L) h (ix2 r c) = skRow L r ⟨j, hj⟩ c := by
  rw [bandSlice_apply (skel L) (3 * j) (by omega) h r c]
  unfold skel be1 jt1 sd1
  rw [skeleton_apply, shapeCast_self, shapeCast_self, shapeCast_self]
  rfl

theorem aaSlice_apply (j : ℕ) (hj0 : 0 < j) (hj : j < 22) (h : S128x63.Slices ![0, 3 * (j - 1)] S128x3) :
    rowVec (extractStridedSlice S128x3 ![0, 3 * (j - 1)] (bp1 L) h) r = aaRow L r ⟨j, hj⟩ := by
  funext c
  unfold rowVec
  rw [bandSlice_apply (bp1 L) (3 * (j - 1)) (by omega) h r c]
  unfold bp1 aaRow
  rw [shapeCast_self, if_neg (by intro e; have := congrArg Fin.val e; simp at this; omega)]

theorem aa0_row : rowVec (aa0 L) r = aaRow L r 0 := by
  funext c
  unfold rowVec aa0 go1 aaRow
  rw [shapeCast_self, if_pos rfl]

theorem sk0_apply (c : Fin 3) : sk0 L (ix2 r c) = skRow L r 0 c := skSlice_apply L r 0 (by decide) _ c
theorem sk1_apply (c : Fin 3) : sk1 L (ix2 r c) = skRow L r 1 c := skSlice_apply L r 1 (by decide) _ c
theorem sk2_apply (c : Fin 3) : sk2 L (ix2 r c) = skRow L r 2 c := skSlice_apply L r 2 (by decide) _ c
theorem sk3_apply (c : Fin 3) : sk3 L (ix2 r c) = skRow L r 3 c := skSlice_apply L r 3 (by decide) _ c
theorem sk4_apply (c : Fin 3) : sk4 L (ix2 r c) = skRow L r 4 c := skSlice_apply L r 4 (by decide) _ c
theorem sk5_apply (c : Fin 3) : sk5 L (ix2 r c) = skRow L r 5 c := skSlice_apply L r 5 (by decide) _ c
theorem sk6_apply (c : Fin 3) : sk6 L (ix2 r c) = skRow L r 6 c := skSlice_apply L r 6 (by decide) _ c
theorem sk7_apply (c : Fin 3) : sk7 L (ix2 r c) = skRow L r 7 c := skSlice_apply L r 7 (by decide) _ c
theorem sk8_apply (c : Fin 3) : sk8 L (ix2 r c) = skRow L r 8 c := skSlice_apply L r 8 (by decide) _ c
theorem sk9_apply (c : Fin 3) : sk9 L (ix2 r c) = skRow L r 9 c := skSlice_apply L r 9 (by decide) _ c
theorem sk10_apply (c : Fin 3) : sk10 L (ix2 r c) = skRow L r 10 c := skSlice_apply L r 10 (by decide) _ c
theorem sk11_apply (c : Fin 3) : sk11 L (ix2 r c) = skRow L r 11 c := skSlice_apply L r 11 (by decide) _ c
theorem sk12_apply (c : Fin 3) : sk12 L (ix2 r c) = skRow L r 12 c := skSlice_apply L r 12 (by decide) _ c
theorem sk13_apply (c : Fin 3) : sk13 L (ix2 r c) = skRow L r 13 c := skSlice_apply L r 13 (by decide) _ c
theorem sk14_apply (c : Fin 3) : sk14 L (ix2 r c) = skRow L r 14 c := skSlice_apply L r 14 (by decide) _ c
theorem sk15_apply (c : Fin 3) : sk15 L (ix2 r c) = skRow L r 15 c := skSlice_apply L r 15 (by decide) _ c
theorem sk16_apply (c : Fin 3) : sk16 L (ix2 r c) = skRow L r 16 c := skSlice_apply L r 16 (by decide) _ c
theorem sk17_apply (c : Fin 3) : sk17 L (ix2 r c) = skRow L r 17 c := skSlice_apply L r 17 (by decide) _ c
theorem sk18_apply (c : Fin 3) : sk18 L (ix2 r c) = skRow L r 18 c := skSlice_apply L r 18 (by decide) _ c
theorem sk19_apply (c : Fin 3) : sk19 L (ix2 r c) = skRow L r 19 c := skSlice_apply L r 19 (by decide) _ c
theorem sk20_apply (c : Fin 3) : sk20 L (ix2 r c) = skRow L r 20 c := skSlice_apply L r 20 (by decide) _ c
theorem sk21_apply (c : Fin 3) : sk21 L (ix2 r c) = skRow L r 21 c := skSlice_apply L r 21 (by decide) _ c
theorem aa1_row : rowVec (aa1 L) r = aaRow L r 1 := aaSlice_apply L r 1 (by decide) (by decide) _
theorem aa2_row : rowVec (aa2 L) r = aaRow L r 2 := aaSlice_apply L r 2 (by decide) (by decide) _
theorem aa3_row : rowVec (aa3 L) r = aaRow L r 3 := aaSlice_apply L r 3 (by decide) (by decide) _
theorem aa4_row : rowVec (aa4 L) r = aaRow L r 4 := aaSlice_apply L r 4 (by decide) (by decide) _
theorem aa5_row : rowVec (aa5 L) r = aaRow L r 5 := aaSlice_apply L r 5 (by decide) (by decide) _
theorem aa6_row : rowVec (aa6 L) r = aaRow L r 6 := aaSlice_apply L r 6 (by decide) (by decide) _
theorem aa7_row : rowVec (aa7 L) r = aaRow L r 7 := aaSlice_apply L r 7 (by decide) (by decide) _
theorem aa8_row : rowVec (aa8 L) r = aaRow L r 8 := aaSlice_apply L r 8 (by decide) (by decide) _
theorem aa9_row : rowVec (aa9 L) r = aaRow L r 9 := aaSlice_apply L r 9 (by decide) (by decide) _
theorem aa12_row : rowVec (aa12 L) r = aaRow L r 12 := aaSlice_apply L r 12 (by decide) (by decide) _
theorem aa13_row : rowVec (aa13 L) r = aaRow L r 13 := aaSlice_apply L r 13 (by decide) (by decide) _
theorem aa14_row : rowVec (aa14 L) r = aaRow L r 14 := aaSlice_apply L r 14 (by decide) (by decide) _
theorem aa16_row : rowVec (aa16 L) r = aaRow L r 16 := aaSlice_apply L r 16 (by decide) (by decide) _
theorem aa17_row : rowVec (aa17 L) r = aaRow L r 17 := aaSlice_apply L r 17 (by decide) (by decide) _
theorem aa18_row : rowVec (aa18 L) r = aaRow L r 18 := aaSlice_apply L r 18 (by decide) (by decide) _
theorem aa19_row : rowVec (aa19 L) r = aaRow L r 19 := aaSlice_apply L r 19 (by decide) (by decide) _

theorem lt0_row : rowVec (lt0 L) r = ltRow L r 0 := by
  funext c
  unfold rowVec lt0 tr1 ltRow
  rw [addf_apply, sk0_apply, shapeCast_self, if_pos rfl]

theorem lt1_row : rowVec (lt1 L) r = ltRow L r 1 := by
  funext c
  unfold rowVec lt1 ltRow
  rw [subf_apply, sk1_apply, sk0_apply, if_neg (by decide)]
  rfl
theorem lt2_row : rowVec (lt2 L) r = ltRow L r 2 := by
  funext c
  unfold rowVec lt2 ltRow
  rw [subf_apply, sk2_apply, sk0_apply, if_neg (by decide)]
  rfl
theorem lt3_row : rowVec (lt3 L) r = ltRow L r 3 := by
  funext c
  unfold rowVec lt3 ltRow
  rw [subf_apply, sk3_apply, sk0_apply, if_neg (by decide)]
  rfl
theorem lt4_row : rowVec (lt4 L) r = ltRow L r 4 := by
  funext c
  unfold rowVec lt4 ltRow
  rw [subf_apply, sk4_apply, sk1_apply, if_neg (by decide)]
  rfl
theorem lt5_row : rowVec (lt5 L) r = ltRow L r 5 := by
  funext c
  unfold rowVec lt5 ltRow
  rw [subf_apply, sk5_apply, sk2_apply, if_neg (by decide)]
  rfl
theorem lt6_row : rowVec (lt6 L) r = ltRow L r 6 := by
  funext c
  unfold rowVec lt6 ltRow
  rw [subf_apply, sk6_apply, sk3_apply, if_neg (by decide)]
  rfl
theorem lt7_row : rowVec (lt7 L) r = ltRow L r 7 := by
  funext c
  unfold rowVec lt7 ltRow
  rw [subf_apply, sk7_apply, sk4_apply, if_neg (by decide)]
  rfl
theorem lt8_row : rowVec (lt8 L) r = ltRow L r 8 := by
  funext c
  unfold rowVec lt8 ltRow
  rw [subf_apply, sk8_apply, sk5_apply, if_neg (by decide)]
  rfl
theorem lt9_row : rowVec (lt9 L) r = ltRow L r 9 := by
  funext c
  unfold rowVec lt9 ltRow
  rw [subf_apply, sk9_apply, sk6_apply, if_neg (by decide)]
  rfl
theorem lt10_row : rowVec (lt10 L) r = ltRow L r 10 := by
  funext c
  unfold rowVec lt10 ltRow
  rw [subf_apply, sk10_apply, sk7_apply, if_neg (by decide)]
  rfl
theorem lt11_row : rowVec (lt11 L) r = ltRow L r 11 := by
  funext c
  unfold rowVec lt11 ltRow
  rw [subf_apply, sk11_apply, sk8_apply, if_neg (by decide)]
  rfl
theorem lt12_row : rowVec (lt12 L) r = ltRow L r 12 := by
  funext c
  unfold rowVec lt12 ltRow
  rw [subf_apply, sk12_apply, sk9_apply, if_neg (by decide)]
  rfl
theorem lt13_row : rowVec (lt13 L) r = ltRow L r 13 := by
  funext c
  unfold rowVec lt13 ltRow
  rw [subf_apply, sk13_apply, sk9_apply, if_neg (by decide)]
  rfl
theorem lt14_row : rowVec (lt14 L) r = ltRow L r 14 := by
  funext c
  unfold rowVec lt14 ltRow
  rw [subf_apply, sk14_apply, sk9_apply, if_neg (by decide)]
  rfl
theorem lt15_row : rowVec (lt15 L) r = ltRow L r 15 := by
  funext c
  unfold rowVec lt15 ltRow
  rw [subf_apply, sk15_apply, sk12_apply, if_neg (by decide)]
  rfl
theorem lt16_row : rowVec (lt16 L) r = ltRow L r 16 := by
  funext c
  unfold rowVec lt16 ltRow
  rw [subf_apply, sk16_apply, sk13_apply, if_neg (by decide)]
  rfl
theorem lt17_row : rowVec (lt17 L) r = ltRow L r 17 := by
  funext c
  unfold rowVec lt17 ltRow
  rw [subf_apply, sk17_apply, sk14_apply, if_neg (by decide)]
  rfl
theorem lt18_row : rowVec (lt18 L) r = ltRow L r 18 := by
  funext c
  unfold rowVec lt18 ltRow
  rw [subf_apply, sk18_apply, sk16_apply, if_neg (by decide)]
  rfl
theorem lt19_row : rowVec (lt19 L) r = ltRow L r 19 := by
  funext c
  unfold rowVec lt19 ltRow
  rw [subf_apply, sk19_apply, sk17_apply, if_neg (by decide)]
  rfl
theorem lt20_row : rowVec (lt20 L) r = ltRow L r 20 := by
  funext c
  unfold rowVec lt20 ltRow
  rw [subf_apply, sk20_apply, sk18_apply, if_neg (by decide)]
  rfl
theorem lt21_row : rowVec (lt21 L) r = ltRow L r 21 := by
  funext c
  unfold rowVec lt21 ltRow
  rw [subf_apply, sk21_apply, sk19_apply, if_neg (by decide)]
  rfl

/-- One step of the rotation chain at a row. -/
theorem gR_step (j p : Fin 22) (hj : j ≠ 0) (hp : FK.parent j = p) (Gp : M9 Ideal) (aa : FVec Ideal S128x3 .f32)
    (hGp : rowMat Gp r = (poseRow L r p).1) (haa : rowVec aa r = aaRow L r j) :
    rowMat (mm3 Gp (rod aa)) r = (poseRow L r j).1 := by
  unfold poseRow at hGp ⊢
  rw [mm3_apply, rod_apply, hGp, haa, FK.pose_succ _ _ j hj, hp]

/-- One step of the translation chain at a row. -/
theorem gT_step (j p : Fin 22) (hj : j ≠ 0) (hp : FK.parent j = p) (Gp : M9 Ideal) (Tp lt : FVec Ideal S128x3 .f32)
    (hGp : rowMat Gp r = (poseRow L r p).1) (hTp : ∀ c, Tp (ix2 r c) = (poseRow L r p).2 c)
    (hlt : rowVec lt r = ltRow L r j) (c : Fin 3) :
    addf (mv3 Gp lt) Tp (ix2 r c) = (poseRow L r j).2 c := by
  unfold poseRow at hGp hTp ⊢
  rw [addf_apply, mv3_apply, hGp, hTp, hlt, FK.pose_succ _ _ j hj, hp]

theorem gR0_apply : rowMat (gR0 L) r = (poseRow L r 0).1 := by
  unfold gR0 poseRow
  rw [rod_apply, aa0_row, FK.pose_zero]

theorem gT0_apply (c : Fin 3) : gT0 L (ix2 r c) = (poseRow L r 0).2 c := by
  unfold gT0 poseRow
  rw [FK.pose_zero]
  exact congrFun (lt0_row L r) c

theorem gR1_apply : rowMat (gR1 L) r = (poseRow L r 1).1 :=
  gR_step L r 1 0 (by decide) rfl _ _ (gR0_apply L r) (aa1_row L r)
theorem gR2_apply : rowMat (gR2 L) r = (poseRow L r 2).1 :=
  gR_step L r 2 0 (by decide) rfl _ _ (gR0_apply L r) (aa2_row L r)
theorem gR3_apply : rowMat (gR3 L) r = (poseRow L r 3).1 :=
  gR_step L r 3 0 (by decide) rfl _ _ (gR0_apply L r) (aa3_row L r)
theorem gR4_apply : rowMat (gR4 L) r = (poseRow L r 4).1 :=
  gR_step L r 4 1 (by decide) rfl _ _ (gR1_apply L r) (aa4_row L r)
theorem gR5_apply : rowMat (gR5 L) r = (poseRow L r 5).1 :=
  gR_step L r 5 2 (by decide) rfl _ _ (gR2_apply L r) (aa5_row L r)
theorem gR6_apply : rowMat (gR6 L) r = (poseRow L r 6).1 :=
  gR_step L r 6 3 (by decide) rfl _ _ (gR3_apply L r) (aa6_row L r)
theorem gR7_apply : rowMat (gR7 L) r = (poseRow L r 7).1 :=
  gR_step L r 7 4 (by decide) rfl _ _ (gR4_apply L r) (aa7_row L r)
theorem gR8_apply : rowMat (gR8 L) r = (poseRow L r 8).1 :=
  gR_step L r 8 5 (by decide) rfl _ _ (gR5_apply L r) (aa8_row L r)
theorem gR9_apply : rowMat (gR9 L) r = (poseRow L r 9).1 :=
  gR_step L r 9 6 (by decide) rfl _ _ (gR6_apply L r) (aa9_row L r)
theorem gR12_apply : rowMat (gR12 L) r = (poseRow L r 12).1 :=
  gR_step L r 12 9 (by decide) rfl _ _ (gR9_apply L r) (aa12_row L r)
theorem gR13_apply : rowMat (gR13 L) r = (poseRow L r 13).1 :=
  gR_step L r 13 9 (by decide) rfl _ _ (gR9_apply L r) (aa13_row L r)
theorem gR14_apply : rowMat (gR14 L) r = (poseRow L r 14).1 :=
  gR_step L r 14 9 (by decide) rfl _ _ (gR9_apply L r) (aa14_row L r)
theorem gR16_apply : rowMat (gR16 L) r = (poseRow L r 16).1 :=
  gR_step L r 16 13 (by decide) rfl _ _ (gR13_apply L r) (aa16_row L r)
theorem gR17_apply : rowMat (gR17 L) r = (poseRow L r 17).1 :=
  gR_step L r 17 14 (by decide) rfl _ _ (gR14_apply L r) (aa17_row L r)
theorem gR18_apply : rowMat (gR18 L) r = (poseRow L r 18).1 :=
  gR_step L r 18 16 (by decide) rfl _ _ (gR16_apply L r) (aa18_row L r)
theorem gR19_apply : rowMat (gR19 L) r = (poseRow L r 19).1 :=
  gR_step L r 19 17 (by decide) rfl _ _ (gR17_apply L r) (aa19_row L r)
theorem gT1_apply (c : Fin 3) : gT1 L (ix2 r c) = (poseRow L r 1).2 c :=
  gT_step L r 1 0 (by decide) rfl _ _ _ (gR0_apply L r) (gT0_apply L r) (lt1_row L r) c
theorem gT2_apply (c : Fin 3) : gT2 L (ix2 r c) = (poseRow L r 2).2 c :=
  gT_step L r 2 0 (by decide) rfl _ _ _ (gR0_apply L r) (gT0_apply L r) (lt2_row L r) c
theorem gT3_apply (c : Fin 3) : gT3 L (ix2 r c) = (poseRow L r 3).2 c :=
  gT_step L r 3 0 (by decide) rfl _ _ _ (gR0_apply L r) (gT0_apply L r) (lt3_row L r) c
theorem gT4_apply (c : Fin 3) : gT4 L (ix2 r c) = (poseRow L r 4).2 c :=
  gT_step L r 4 1 (by decide) rfl _ _ _ (gR1_apply L r) (gT1_apply L r) (lt4_row L r) c
theorem gT5_apply (c : Fin 3) : gT5 L (ix2 r c) = (poseRow L r 5).2 c :=
  gT_step L r 5 2 (by decide) rfl _ _ _ (gR2_apply L r) (gT2_apply L r) (lt5_row L r) c
theorem gT6_apply (c : Fin 3) : gT6 L (ix2 r c) = (poseRow L r 6).2 c :=
  gT_step L r 6 3 (by decide) rfl _ _ _ (gR3_apply L r) (gT3_apply L r) (lt6_row L r) c
theorem gT7_apply (c : Fin 3) : gT7 L (ix2 r c) = (poseRow L r 7).2 c :=
  gT_step L r 7 4 (by decide) rfl _ _ _ (gR4_apply L r) (gT4_apply L r) (lt7_row L r) c
theorem gT8_apply (c : Fin 3) : gT8 L (ix2 r c) = (poseRow L r 8).2 c :=
  gT_step L r 8 5 (by decide) rfl _ _ _ (gR5_apply L r) (gT5_apply L r) (lt8_row L r) c
theorem gT9_apply (c : Fin 3) : gT9 L (ix2 r c) = (poseRow L r 9).2 c :=
  gT_step L r 9 6 (by decide) rfl _ _ _ (gR6_apply L r) (gT6_apply L r) (lt9_row L r) c
theorem gT10_apply (c : Fin 3) : gT10 L (ix2 r c) = (poseRow L r 10).2 c :=
  gT_step L r 10 7 (by decide) rfl _ _ _ (gR7_apply L r) (gT7_apply L r) (lt10_row L r) c
theorem gT11_apply (c : Fin 3) : gT11 L (ix2 r c) = (poseRow L r 11).2 c :=
  gT_step L r 11 8 (by decide) rfl _ _ _ (gR8_apply L r) (gT8_apply L r) (lt11_row L r) c
theorem gT12_apply (c : Fin 3) : gT12 L (ix2 r c) = (poseRow L r 12).2 c :=
  gT_step L r 12 9 (by decide) rfl _ _ _ (gR9_apply L r) (gT9_apply L r) (lt12_row L r) c
theorem gT13_apply (c : Fin 3) : gT13 L (ix2 r c) = (poseRow L r 13).2 c :=
  gT_step L r 13 9 (by decide) rfl _ _ _ (gR9_apply L r) (gT9_apply L r) (lt13_row L r) c
theorem gT14_apply (c : Fin 3) : gT14 L (ix2 r c) = (poseRow L r 14).2 c :=
  gT_step L r 14 9 (by decide) rfl _ _ _ (gR9_apply L r) (gT9_apply L r) (lt14_row L r) c
theorem gT15_apply (c : Fin 3) : gT15 L (ix2 r c) = (poseRow L r 15).2 c :=
  gT_step L r 15 12 (by decide) rfl _ _ _ (gR12_apply L r) (gT12_apply L r) (lt15_row L r) c
theorem gT16_apply (c : Fin 3) : gT16 L (ix2 r c) = (poseRow L r 16).2 c :=
  gT_step L r 16 13 (by decide) rfl _ _ _ (gR13_apply L r) (gT13_apply L r) (lt16_row L r) c
theorem gT17_apply (c : Fin 3) : gT17 L (ix2 r c) = (poseRow L r 17).2 c :=
  gT_step L r 17 14 (by decide) rfl _ _ _ (gR14_apply L r) (gT14_apply L r) (lt17_row L r) c
theorem gT18_apply (c : Fin 3) : gT18 L (ix2 r c) = (poseRow L r 18).2 c :=
  gT_step L r 18 16 (by decide) rfl _ _ _ (gR16_apply L r) (gT16_apply L r) (lt18_row L r) c
theorem gT19_apply (c : Fin 3) : gT19 L (ix2 r c) = (poseRow L r 19).2 c :=
  gT_step L r 19 17 (by decide) rfl _ _ _ (gR17_apply L r) (gT17_apply L r) (lt19_row L r) c
theorem gT20_apply (c : Fin 3) : gT20 L (ix2 r c) = (poseRow L r 20).2 c :=
  gT_step L r 20 18 (by decide) rfl _ _ _ (gR18_apply L r) (gT18_apply L r) (lt20_row L r) c
theorem gT21_apply (c : Fin 3) : gT21 L (ix2 r c) = (poseRow L r 21).2 c :=
  gT_step L r 21 19 (by decide) rfl _ _ _ (gR19_apply L r) (gT19_apply L r) (lt21_row L r) c

end Rows

section Stack

open Cert.KernelIdeal.PayLayout

variable (L : Loads Ideal) (r : Fin 128)

/-- The 22 global translations, each with a unit middle axis, in joint order. -/
def gTs : Fin 22 → (S128x1x3.Idx → Ideal .f32) :=
  ![shapeCast S128x1x3 (gT0 L) shapeCasts_S128x3_S128x1x3,
    shapeCast S128x1x3 (gT1 L) shapeCasts_S128x3_S128x1x3,
    shapeCast S128x1x3 (gT2 L) shapeCasts_S128x3_S128x1x3,
    shapeCast S128x1x3 (gT3 L) shapeCasts_S128x3_S128x1x3,
    shapeCast S128x1x3 (gT4 L) shapeCasts_S128x3_S128x1x3,
    shapeCast S128x1x3 (gT5 L) shapeCasts_S128x3_S128x1x3,
    shapeCast S128x1x3 (gT6 L) shapeCasts_S128x3_S128x1x3,
    shapeCast S128x1x3 (gT7 L) shapeCasts_S128x3_S128x1x3,
    shapeCast S128x1x3 (gT8 L) shapeCasts_S128x3_S128x1x3,
    shapeCast S128x1x3 (gT9 L) shapeCasts_S128x3_S128x1x3,
    shapeCast S128x1x3 (gT10 L) shapeCasts_S128x3_S128x1x3,
    shapeCast S128x1x3 (gT11 L) shapeCasts_S128x3_S128x1x3,
    shapeCast S128x1x3 (gT12 L) shapeCasts_S128x3_S128x1x3,
    shapeCast S128x1x3 (gT13 L) shapeCasts_S128x3_S128x1x3,
    shapeCast S128x1x3 (gT14 L) shapeCasts_S128x3_S128x1x3,
    shapeCast S128x1x3 (gT15 L) shapeCasts_S128x3_S128x1x3,
    shapeCast S128x1x3 (gT16 L) shapeCasts_S128x3_S128x1x3,
    shapeCast S128x1x3 (gT17 L) shapeCasts_S128x3_S128x1x3,
    shapeCast S128x1x3 (gT18 L) shapeCasts_S128x3_S128x1x3,
    shapeCast S128x1x3 (gT19 L) shapeCasts_S128x3_S128x1x3,
    shapeCast S128x1x3 (gT20 L) shapeCasts_S128x3_S128x1x3,
    shapeCast S128x1x3 (gT21 L) shapeCasts_S128x3_S128x1x3]

theorem gTsCat : Shape.Concatenates ((List.ofFn fun n : Fin 22 => (⟨S128x1x3, gTs L n⟩ : (s : Shape) × (s.Idx → Ideal .f32))).map (·.1)) S128x22x3 1 :=
  concatenates_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x1x3_S128x22x3_d1

theorem blockOut_eq : blockOut L
    = concatenate S128x22x3 1 (List.ofFn fun n : Fin 22 => (⟨S128x1x3, gTs L n⟩ : (s : Shape) × (s.Idx → Ideal .f32))) (gTsCat L) := rfl

/-- The stack read at row `r`, joint `j`, coordinate `c`: piece `j`, at `(r, 0, c)`. -/
theorem stack_apply (j : Fin 22) (c : Fin 3) : blockOut L (ix3 r j c) = gTs L j (ix3 r (0 : Fin 1) c) := by
  rw [blockOut_eq]
  exact concatenate_ofFn_apply (t := S128x22x3) (s₁ := S128x1x3) (1 : Fin 3) (gTs L) (gTsCat L) rfl 1 rfl (ix3 r j c) j
    (Nat.div_one _) (ix3 r (0 : Fin 1) c) (Nat.mod_one _).symm
    (fun b hb => match b with
      | ⟨0, _⟩ => rfl
      | ⟨1, _⟩ => absurd rfl hb
      | ⟨2, _⟩ => rfl)

/-- The block's value at row `r`, joint `j`, coordinate `c`: the joint's position in that row's poses. -/
theorem blockOut_apply (j : Fin 22) (c : Fin 3) : blockOut L (ix3 r j c) = (poseRow L r j).2 c := by
  rw [stack_apply]
  match j with
  | ⟨0, _⟩ =>
    show shapeCast S128x1x3 (gT0 L) shapeCasts_S128x3_S128x1x3 (ix3 r (0 : Fin 1) c) = _
    rw [shapeCast_ac_a1c_apply]
    exact gT0_apply L r c
  | ⟨1, _⟩ =>
    show shapeCast S128x1x3 (gT1 L) shapeCasts_S128x3_S128x1x3 (ix3 r (0 : Fin 1) c) = _
    rw [shapeCast_ac_a1c_apply]
    exact gT1_apply L r c
  | ⟨2, _⟩ =>
    show shapeCast S128x1x3 (gT2 L) shapeCasts_S128x3_S128x1x3 (ix3 r (0 : Fin 1) c) = _
    rw [shapeCast_ac_a1c_apply]
    exact gT2_apply L r c
  | ⟨3, _⟩ =>
    show shapeCast S128x1x3 (gT3 L) shapeCasts_S128x3_S128x1x3 (ix3 r (0 : Fin 1) c) = _
    rw [shapeCast_ac_a1c_apply]
    exact gT3_apply L r c
  | ⟨4, _⟩ =>
    show shapeCast S128x1x3 (gT4 L) shapeCasts_S128x3_S128x1x3 (ix3 r (0 : Fin 1) c) = _
    rw [shapeCast_ac_a1c_apply]
    exact gT4_apply L r c
  | ⟨5, _⟩ =>
    show shapeCast S128x1x3 (gT5 L) shapeCasts_S128x3_S128x1x3 (ix3 r (0 : Fin 1) c) = _
    rw [shapeCast_ac_a1c_apply]
    exact gT5_apply L r c
  | ⟨6, _⟩ =>
    show shapeCast S128x1x3 (gT6 L) shapeCasts_S128x3_S128x1x3 (ix3 r (0 : Fin 1) c) = _
    rw [shapeCast_ac_a1c_apply]
    exact gT6_apply L r c
  | ⟨7, _⟩ =>
    show shapeCast S128x1x3 (gT7 L) shapeCasts_S128x3_S128x1x3 (ix3 r (0 : Fin 1) c) = _
    rw [shapeCast_ac_a1c_apply]
    exact gT7_apply L r c
  | ⟨8, _⟩ =>
    show shapeCast S128x1x3 (gT8 L) shapeCasts_S128x3_S128x1x3 (ix3 r (0 : Fin 1) c) = _
    rw [shapeCast_ac_a1c_apply]
    exact gT8_apply L r c
  | ⟨9, _⟩ =>
    show shapeCast S128x1x3 (gT9 L) shapeCasts_S128x3_S128x1x3 (ix3 r (0 : Fin 1) c) = _
    rw [shapeCast_ac_a1c_apply]
    exact gT9_apply L r c
  | ⟨10, _⟩ =>
    show shapeCast S128x1x3 (gT10 L) shapeCasts_S128x3_S128x1x3 (ix3 r (0 : Fin 1) c) = _
    rw [shapeCast_ac_a1c_apply]
    exact gT10_apply L r c
  | ⟨11, _⟩ =>
    show shapeCast S128x1x3 (gT11 L) shapeCasts_S128x3_S128x1x3 (ix3 r (0 : Fin 1) c) = _
    rw [shapeCast_ac_a1c_apply]
    exact gT11_apply L r c
  | ⟨12, _⟩ =>
    show shapeCast S128x1x3 (gT12 L) shapeCasts_S128x3_S128x1x3 (ix3 r (0 : Fin 1) c) = _
    rw [shapeCast_ac_a1c_apply]
    exact gT12_apply L r c
  | ⟨13, _⟩ =>
    show shapeCast S128x1x3 (gT13 L) shapeCasts_S128x3_S128x1x3 (ix3 r (0 : Fin 1) c) = _
    rw [shapeCast_ac_a1c_apply]
    exact gT13_apply L r c
  | ⟨14, _⟩ =>
    show shapeCast S128x1x3 (gT14 L) shapeCasts_S128x3_S128x1x3 (ix3 r (0 : Fin 1) c) = _
    rw [shapeCast_ac_a1c_apply]
    exact gT14_apply L r c
  | ⟨15, _⟩ =>
    show shapeCast S128x1x3 (gT15 L) shapeCasts_S128x3_S128x1x3 (ix3 r (0 : Fin 1) c) = _
    rw [shapeCast_ac_a1c_apply]
    exact gT15_apply L r c
  | ⟨16, _⟩ =>
    show shapeCast S128x1x3 (gT16 L) shapeCasts_S128x3_S128x1x3 (ix3 r (0 : Fin 1) c) = _
    rw [shapeCast_ac_a1c_apply]
    exact gT16_apply L r c
  | ⟨17, _⟩ =>
    show shapeCast S128x1x3 (gT17 L) shapeCasts_S128x3_S128x1x3 (ix3 r (0 : Fin 1) c) = _
    rw [shapeCast_ac_a1c_apply]
    exact gT17_apply L r c
  | ⟨18, _⟩ =>
    show shapeCast S128x1x3 (gT18 L) shapeCasts_S128x3_S128x1x3 (ix3 r (0 : Fin 1) c) = _
    rw [shapeCast_ac_a1c_apply]
    exact gT18_apply L r c
  | ⟨19, _⟩ =>
    show shapeCast S128x1x3 (gT19 L) shapeCasts_S128x3_S128x1x3 (ix3 r (0 : Fin 1) c) = _
    rw [shapeCast_ac_a1c_apply]
    exact gT19_apply L r c
  | ⟨20, _⟩ =>
    show shapeCast S128x1x3 (gT20 L) shapeCasts_S128x3_S128x1x3 (ix3 r (0 : Fin 1) c) = _
    rw [shapeCast_ac_a1c_apply]
    exact gT20_apply L r c
  | ⟨21, _⟩ =>
    show shapeCast S128x1x3 (gT21 L) shapeCasts_S128x3_S128x1x3 (ix3 r (0 : Fin 1) c) = _
    rw [shapeCast_ac_a1c_apply]
    exact gT21_apply L r c
  | ⟨n + 22, h⟩ => exact absurd h (by omega)

end Stack

end Cert.KernelIdeal.Blk

end
-- ==== Proof.KernelValueA.lean ====
/-
  What the region finds in its input windows' arrays, index by index: before the region the host reshapes the four
  per-token arguments [64, 2048, k] to [131072, k] (row n is token (n / 2048, n % 2048)), the template [22, 3] to the row
  [1, 66] (lane q is joint q / 3, coordinate q % 3) and the shape basis [22, 3, 10], transposed to [10, 22, 3], to
  [10, 66] (row k, lane q is joint q / 3, coordinate q % 3, direction k). No element is moved by a reshape: both sides
  sit at the same row-major position.
-/
import proofs.«129627_j26603027432101_2_alg».proof.Proof.FrameKernelIdeal
import proofs.«129627_j26603027432101_2_alg».proof.Proof.Token
import proofs.«129627_j26603027432101_2_alg».proof.Proof.Out
import proofs.«129627_j26603027432101_2_alg».proof.Proof.BlockEq
import proofs.«129627_j26603027432101_2_alg».proof.Proof.BlockRead
import Idealize.ShloMosaic.Lib.StableHlo.Run
import Idealize.ShloMosaic.Lib.Pipeline.Value
import Idealize.ShloMosaic.Lib.ValueIdx

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ) (c : Dev nD)

/-- The six arguments as launched on core `c`. -/
def argsOf : FK.Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5)⟩

theorem V_v0 : (V m c main_v0 : S131072x63.Idx → EReal)
    = shapeCast S131072x63 (m ((c : Thread nD τ).loc main_arg0)) shapeCasts_S64x2048x63_S131072x63 := by
  show StableHlo.after hostOps0 (fun b => m (c, b)) (Proc.devRef .tc main_v0) = _
  after_results
  rfl

theorem V_v1 : (V m c main_v1 : S131072x10.Idx → EReal)
    = shapeCast S131072x10 (m ((c : Thread nD τ).loc main_arg1)) shapeCasts_S64x2048x10_S131072x10 := by
  show StableHlo.after hostOps0 (fun b => m (c, b)) (Proc.devRef .tc main_v1) = _
  after_results
  rfl

theorem V_v2 : (V m c main_v2 : S131072x3.Idx → EReal)
    = shapeCast S131072x3 (m ((c : Thread nD τ).loc main_arg2)) shapeCasts_S64x2048x3_S131072x3 := by
  show StableHlo.after hostOps0 (fun b => m (c, b)) (Proc.devRef .tc main_v2) = _
  after_results
  rfl

theorem V_v3 : (V m c main_v3 : S131072x3.Idx → EReal)
    = shapeCast S131072x3 (m ((c : Thread nD τ).loc main_arg3)) shapeCasts_S64x2048x3_S131072x3 := by
  show StableHlo.after hostOps0 (fun b => m (c, b)) (Proc.devRef .tc main_v3) = _
  after_results
  rfl

theorem V_v4 : (V m c main_v4 : S1x66.Idx → EReal)
    = shapeCast S1x66 (m ((c : Thread nD τ).loc main_arg4)) shapeCasts_S22x3_S1x66 := by
  show StableHlo.after hostOps0 (fun b => m (c, b)) (Proc.devRef .tc main_v4) = _
  after_results
  rfl

theorem V_v6 : (V m c main_v6 : S10x66.Idx → EReal)
    = shapeCast S10x66 (transpose S10x22x3 [2, 0, 1] (m ((c : Thread nD τ).loc main_arg5)) transposes_S22x3x10_S10x22x3_2_0_1)
        shapeCasts_S10x22x3_S10x66 := by
  show StableHlo.after hostOps0 (fun b => m (c, b)) (Proc.devRef .tc main_v6) = _
  after_results
  rfl

/-! ## The region-entry arrays read back to the arguments -/

section Reads

variable (m : (ℓ : Loc nD τ sig) → Buf (Elt Ideal) ℓ) (c : Dev nD)

/-- Row `n` of the flattened per-token arrays is token `(n / 2048, n % 2048)`. -/
abbrev tokB (n : Fin 131072) : Fin 64 := ⟨n.val / 2048, by omega⟩
abbrev tokL (n : Fin 131072) : Fin 2048 := ⟨n.val % 2048, by omega⟩

theorem rd_bp (n : Fin 131072) (k : Fin 63) : V m c main_v0 (ix2 n k) = (argsOf m c).bp (ix3 (tokB n) (tokL n) k) := by
  refine (congrFun (V_v0 m c) (ix2 n k)).trans (shapeCast_apply _ _ _ _ ?_)
  show (S64x2048x63.rowMajor (ix3 (tokB n) (tokL n) k)).val = (S131072x63.rowMajor (ix2 n k)).val
  rw [Shape.rowMajor_val_three, Shape.rowMajor_val_two]
  show (n.val / 2048 * 2048 + n.val % 2048) * 63 + k.val = n.val * 63 + k.val
  rw [Nat.div_add_mod']

theorem rd_be (n : Fin 131072) (k : Fin 10) : V m c main_v1 (ix2 n k) = (argsOf m c).be (ix3 (tokB n) (tokL n) k) := by
  refine (congrFun (V_v1 m c) (ix2 n k)).trans (shapeCast_apply _ _ _ _ ?_)
  show (S64x2048x10.rowMajor (ix3 (tokB n) (tokL n) k)).val = (S131072x10.rowMajor (ix2 n k)).val
  rw [Shape.rowMajor_val_three, Shape.rowMajor_val_two]
  show (n.val / 2048 * 2048 + n.val % 2048) * 10 + k.val = n.val * 10 + k.val
  rw [Nat.div_add_mod']

theorem rd_go (n : Fin 131072) (k : Fin 3) : V m c main_v2 (ix2 n k) = (argsOf m c).go (ix3 (tokB n) (tokL n) k) := by
  refine (congrFun (V_v2 m c) (ix2 n k)).trans (shapeCast_apply _ _ _ _ ?_)
  show (S64x2048x3.rowMajor (ix3 (tokB n) (tokL n) k)).val = (S131072x3.rowMajor (ix2 n k)).val
  rw [Shape.rowMajor_val_three, Shape.rowMajor_val_two]
  show (n.val / 2048 * 2048 + n.val % 2048) * 3 + k.val = n.val * 3 + k.val
  rw [Nat.div_add_mod']

theorem rd_tr (n : Fin 131072) (k : Fin 3) : V m c main_v3 (ix2 n k) = (argsOf m c).tr (ix3 (tokB n) (tokL n) k) := by
  refine (congrFun (V_v3 m c) (ix2 n k)).trans (shapeCast_apply _ _ _ _ ?_)
  show (S64x2048x3.rowMajor (ix3 (tokB n) (tokL n) k)).val = (S131072x3.rowMajor (ix2 n k)).val
  rw [Shape.rowMajor_val_three, Shape.rowMajor_val_two]
  show (n.val / 2048 * 2048 + n.val % 2048) * 3 + k.val = n.val * 3 + k.val
  rw [Nat.div_add_mod']

/-- Lane `3 j + c` of the template row is the template's entry `(j, c)`. -/
theorem rd_jt (j : Fin 22) (cc : Fin 3) :
    V m c main_v4 (ix2 (0 : Fin 1) (⟨3 * j.val + cc.val, by omega⟩ : Fin 66)) = (argsOf m c).jt (ix2 j cc) := by
  refine (congrFun (V_v4 m c) _).trans (shapeCast_apply _ _ _ _ ?_)
  show (S22x3.rowMajor (ix2 j cc)).val = (S1x66.rowMajor (ix2 (0 : Fin 1) (⟨3 * j.val + cc.val, by omega⟩ : Fin 66))).val
  rw [Shape.rowMajor_val_two, Shape.rowMajor_val_two]
  show j.val * 3 + cc.val = 0 * 66 + (3 * j.val + cc.val)
  omega

/-- Row `k`, lane `3 j + c` of the basis as the region finds it is the basis's entry `(j, c, k)`. -/
theorem rd_sd (k : Fin 10) (j : Fin 22) (cc : Fin 3) :
    V m c main_v6 (ix2 k (⟨3 * j.val + cc.val, by omega⟩ : Fin 66)) = (argsOf m c).sd (ix3 j cc k) := by
  refine (congrFun (V_v6 m c) _).trans ?_
  refine (shapeCast_apply _ _ _ (ix3 k j cc) ?_).trans ?_
  · show (S10x22x3.rowMajor (ix3 k j cc)).val = (S10x66.rowMajor (ix2 k (⟨3 * j.val + cc.val, by omega⟩ : Fin 66))).val
    rw [Shape.rowMajor_val_three, Shape.rowMajor_val_two]
    show (k.val * 22 + j.val) * 3 + cc.val = k.val * 66 + (3 * j.val + cc.val)
    omega
  · refine transpose_apply _ _ _ _ (ix3 j cc k) fun b => ?_
    match b with
    | ⟨0, _⟩ => rfl
    | ⟨1, _⟩ => rfl
    | ⟨2, _⟩ => rfl

end Reads

/-! ## A window's block at a grid point -/

section Blocks

variable (m : (ℓ : Loc nD τ sig) → Buf (Elt Ideal) ℓ) (c : Dev nD)

theorem t_lt (t : Fin cfg0.N) : t.val < 1024 := by
  have h := t.isLt
  have e : cfg0.N = 1024 := N_0
  omega

/-- The printed index maps, decided over the grid: the four per-token windows and the output move with the point along
    their first axis; the template's and the basis's windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- Row `r` of the block of point `t` is row `128 t + r` of the array. -/
abbrev rowOf (t : Fin cfg0.N) (r : Fin 128) : Fin 131072 := ⟨t.val * 128 + r.val, by have := t_lt t; omega⟩

theorem iblk0_apply (t : Fin cfg0.N) (r : Fin 128) (k : Fin 63) :
    iblk m c 0 t (ix2 r k) = V m c main_v0 (ix2 (rowOf t r) k) := by
  show V m c main_v0 (((cfg0.win 0).blk t).view.emb (ix2 r k)) = _
  refine congrArg (V m c main_v0) (funext fun a => Fin.ext ?_)
  have e := idx_facts t
  match a with
  | ⟨0, _⟩ => show win0_0.index t (0 : Fin 2) * 128 + 1 * r.val = t.val * 128 + r.val; rw [e.1]; omega
  | ⟨1, _⟩ => show win0_0.index t (1 : Fin 2) * 63 + 1 * k.val = k.val; rw [e.2.1]; omega

theorem iblk1_apply (t : Fin cfg0.N) (r : Fin 128) (k : Fin 10) :
    iblk m c 1 t (ix2 r k) = V m c main_v1 (ix2 (rowOf t r) k) := by
  show V m c main_v1 (((cfg0.win 1).blk t).view.emb (ix2 r k)) = _
  refine congrArg (V m c main_v1) (funext fun a => Fin.ext ?_)
  have e := idx_facts t
  match a with
  | ⟨0, _⟩ => show win0_1.index t (0 : Fin 2) * 128 + 1 * r.val = t.val * 128 + r.val; rw [e.2.2.1]; omega
  | ⟨1, _⟩ => show win0_1.index t (1 : Fin 2) * 10 + 1 * k.val = k.val; rw [e.2.2.2.1]; omega

theorem iblk2_apply (t : Fin cfg0.N) (r : Fin 128) (k : Fin 3) :
    iblk m c 2 t (ix2 r k) = V m c main_v2 (ix2 (rowOf t r) k) := by
  show V m c main_v2 (((cfg0.win 2).blk t).view.emb (ix2 r k)) = _
  refine congrArg (V m c main_v2) (funext fun a => Fin.ext ?_)
  have e := idx_facts t
  match a with
  | ⟨0, _⟩ => show win0_2.index t (0 : Fin 2) * 128 + 1 * r.val = t.val * 128 + r.val; rw [e.2.2.2.2.1]; omega
  | ⟨1, _⟩ => show win0_2.index t (1 : Fin 2) * 3 + 1 * k.val = k.val; rw [e.2.2.2.2.2.1]; omega

theorem iblk3_apply (t : Fin cfg0.N) (r : Fin 128) (k : Fin 3) :
    iblk m c 3 t (ix2 r k) = V m c main_v3 (ix2 (rowOf t r) k) := by
  show V m c main_v3 (((cfg0.win 3).blk t).view.emb (ix2 r k)) = _
  refine congrArg (V m c main_v3) (funext fun a => Fin.ext ?_)
  have e := idx_facts t
  match a with
  | ⟨0, _⟩ => show win0_3.index t (0 : Fin 2) * 128 + 1 * r.val = t.val * 128 + r.val; rw [e.2.2.2.2.2.2.1]; omega
  | ⟨1, _⟩ => show win0_3.index t (1 : Fin 2) * 3 + 1 * k.val = k.val; rw [e.2.2.2.2.2.2.2.1]; omega

theorem iblk4_apply (t : Fin cfg0.N) (q : Fin 66) :
    iblk m c 4 t (ix2 (0 : Fin 1) q) = V m c main_v4 (ix2 (0 : Fin 1) q) := by
  show V m c main_v4 (((cfg0.win 4).blk t).view.emb (ix2 (0 : Fin 1) q)) = _
  refine congrArg (V m c main_v4) (funext fun a => Fin.ext ?_)
  have e := idx_facts t
  match a with
  | ⟨0, _⟩ => show win0_4.index t (0 : Fin 2) * 1 + 1 * 0 = 0; rw [e.2.2.2.2.2.2.2.2.1]
  | ⟨1, _⟩ => show win0_4.index t (1 : Fin 2) * 66 + 1 * q.val = q.val; rw [e.2.2.2.2.2.2.2.2.2.1]; omega

theorem iblk5_apply (t : Fin cfg0.N) (k : Fin 10) (q : Fin 66) :
    iblk m c 5 t (ix2 k q) = V m c main_v6 (ix2 k q) := by
  show V m c main_v6 (((cfg0.win 5).blk t).view.emb (ix2 k q)) = _
  refine congrArg (V m c main_v6) (funext fun a => Fin.ext ?_)
  have e := idx_facts t
  match a with
  | ⟨0, _⟩ => show win0_5.index t (0 : Fin 2) * 10 + 1 * k.val = k.val; rw [e.2.2.2.2.2.2.2.2.2.2.1]; omega
  | ⟨1, _⟩ => show win0_5.index t (1 : Fin 2) * 66 + 1 * q.val = q.val; rw [e.2.2.2.2.2.2.2.2.2.2.2.1]; omega

end Blocks

/-! ## A block row is a token -/

section Token

open Cert.KernelIdeal.Blk

variable (m : (ℓ : Loc nD τ sig) → Buf (Elt Ideal) ℓ) (c : Dev nD)

/-- The six blocks the body loads at point `t`. -/
def Lt (t : Fin cfg0.N) : Loads Ideal :=
  loadsOf (iblk m c 0 t) (iblk m c 1 t) (iblk m c 2 t) (iblk m c 3 t) (iblk m c 4 t) (iblk m c 5 t)

theorem hz2 : (![0, 0] : Fin 2 → Nat) = fun _ => 0 := funext fun a => by fin_cases a <;> rfl

variable (t : Fin cfg0.N) (r : Fin 128)

theorem Lt_bp (k : Fin 63) :
    (Lt m c t).bp (ix2 r k) = (argsOf m c).bp (ix3 (tokB (rowOf t r)) (tokL (rowOf t r)) k) :=
  (congrFun (View.ld_unit_zero (S := S128x63) hz2 inb_S128x63_S128x63_0_0 (iblk m c 0 t)) (ix2 r k)).trans
    ((iblk0_apply m c t r k).trans (rd_bp m c (rowOf t r) k))

theorem Lt_be (k : Fin 10) :
    (Lt m c t).be (ix2 r k) = (argsOf m c).be (ix3 (tokB (rowOf t r)) (tokL (rowOf t r)) k) :=
  (congrFun (View.ld_unit_zero (S := S128x10) hz2 inb_S128x10_S128x10_0_0 (iblk m c 1 t)) (ix2 r k)).trans
    ((iblk1_apply m c t r k).trans (rd_be m c (rowOf t r) k))

theorem Lt_go (k : Fin 3) :
    (Lt m c t).go (ix2 r k) = (argsOf m c).go (ix3 (tokB (rowOf t r)) (tokL (rowOf t r)) k) :=
  (congrFun (View.ld_unit_zero (S := S128x3) hz2 inb_S128x3_S128x3_0_0 (iblk m c 2 t)) (ix2 r k)).trans
    ((iblk2_apply m c t r k).trans (rd_go m c (rowOf t r) k))

theorem Lt_tr (k : Fin 3) :
    (Lt m c t).tr (ix2 r k) = (argsOf m c).tr (ix3 (tokB (rowOf t r)) (tokL (rowOf t r)) k) :=
  (congrFun (View.ld_unit_zero (S := S128x3) hz2 inb_S128x3_S128x3_0_0 (iblk m c 3 t)) (ix2 r k)).trans
    ((iblk3_apply m c t r k).trans (rd_tr m c (rowOf t r) k))

theorem Lt_jt (j : Fin 22) (cc : Fin 3) :
    (Lt m c t).jt (ix2 (0 : Fin 1) (⟨3 * j.val + cc.val, by omega⟩ : Fin 66)) = (argsOf m c).jt (ix2 j cc) :=
  (congrFun (View.ld_unit_zero (S := S1x66) hz2 inb_S1x66_S1x66_0_0 (iblk m c 4 t)) _).trans
    ((iblk4_apply m c t _).trans (rd_jt m c j cc))

theorem Lt_sd (k : Fin 10) (j : Fin 22) (cc : Fin 3) :
    (Lt m c t).sd (ix2 k (⟨3 * j.val + cc.val, by omega⟩ : Fin 66)) = (argsOf m c).sd (ix3 j cc k) :=
  (congrFun (View.ld_unit_zero (S := S10x66) hz2 inb_S10x66_S10x66_0_0 (iblk m c 5 t)) _).trans
    ((iblk5_apply m c t k _).trans (rd_sd m c k j cc))

theorem aaRow_eq (j : Fin 22) :
    aaRow (Lt m c t) r j = FK.aaTok (argsOf m c) (tokB (rowOf t r)) (tokL (rowOf t r)) j := by
  funext cc
  unfold aaRow FK.aaTok
  by_cases h : j = 0
  · rw [if_pos h, if_pos h]; exact Lt_go m c t r cc
  · rw [if_neg h, if_neg h]; exact Lt_bp m c t r _

theorem skRow_eq (j : Fin 22) (cc : Fin 3) :
    skRow (Lt m c t) r j cc = FK.skTok (argsOf m c) (tokB (rowOf t r)) (tokL (rowOf t r)) j cc := by
  unfold skRow FK.skTok
  rw [Lt_jt m c t j cc]
  refine congrArg _ (Finset.sum_congr rfl fun k _ => ?_)
  rw [Lt_be m c t r k, Lt_sd m c t k j cc]

theorem ltRow_eq (j : Fin 22) :
    ltRow (Lt m c t) r j = FK.ltTok (argsOf m c) (tokB (rowOf t r)) (tokL (rowOf t r)) j := by
  funext cc
  unfold ltRow FK.ltTok
  by_cases h : j = 0
  · rw [if_pos h, if_pos h, skRow_eq, Lt_tr m c t r cc]
  · rw [if_neg h, if_neg h, skRow_eq, skRow_eq]

/-- The block of point `t` at row `r`, joint `j`, coordinate `cc` is the joint's position at the token of that row. -/
theorem block_joints (j : Fin 22) (cc : Fin 3) :
    blockOut (Lt m c t) (ix3 r j cc) = FK.joints (argsOf m c) (tokB (rowOf t r)) (tokL (rowOf t r)) j cc := by
  rw [blockOut_apply]
  have h1 : (fun j => FK.rot (aaRow (Lt m c t) r j)) = FK.RTok (argsOf m c) (tokB (rowOf t r)) (tokL (rowOf t r)) :=
    funext fun j => by unfold FK.RTok; rw [aaRow_eq]
  have h2 : ltRow (Lt m c t) r = FK.ltTok (argsOf m c) (tokB (rowOf t r)) (tokL (rowOf t r)) :=
    funext fun j => ltRow_eq m c t r j
  unfold poseRow FK.joints
  rw [h1, h2]

end Token

end Cert.KernelIdeal.KV

end
-- ==== Proof.KernelValue.lean ====
/-
  From the blocks to the array, and the kernel's run read back.

  The output window's array after the region is one function `G` of the arguments: row n holds the joint positions of
  token (n / 2048, n % 2048). Point t of the grid writes back rows 128 t … 128 t + 127, and there the block function of
  the loaded blocks is `G` (a block row is a token: KernelValueA.lean); the 1024 blocks tile the array, so the array ends
  at `G`. The reshape after the region moves no element, so the result buffer holds the joint positions of every token.
-/
import proofs.«129627_j26603027432101_2_alg».proof.Proof.KernelValueA

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.GenP

/-! ## From blocks to the array, and the run -/

section Final

open Cert.KernelIdeal.Blk
open Idealize.ShloMosaic.Pipeline (Dat)

variable (m : (ℓ : Loc nD τ sig) → Buf (Elt Ideal) ℓ) (ρ : Dev nD → PrngReg) (c : Dev nD)

theorem hz3 : (![0, 0, 0] : Fin 3 → Nat) = fun _ => 0 := funext fun a => by fin_cases a <;> rfl

/-- The output window's array after the region, as one function of the arguments: row `n` holds the joint positions
    of token `(n / 2048, n % 2048)`. -/
def G : S131072x22x3.Idx → EReal := fun i =>
  FK.joints (argsOf m c) (tokB ⟨(i 0).val, (i 0).isLt⟩) (tokL ⟨(i 0).val, (i 0).isLt⟩) ⟨(i 1).val, (i 1).isLt⟩ ⟨(i 2).val, (i 2).isLt⟩

/-- Row `y₀` of the block of point `t` is row `128 t + y₀` of the array; the other two coordinates are kept. -/
def emb6 (t : Fin cfg0.N) (y : S128x22x3.Idx) : S131072x22x3.Idx :=
  ix3 (rowOf t ⟨(y 0).val, (y 0).isLt⟩) (⟨(y 1).val, (y 1).isLt⟩ : Fin 22) (⟨(y 2).val, (y 2).isLt⟩ : Fin 3)

/-- The block function at point `t` is `G` on the rows of that point. -/
theorem block_eq_G (t : Fin cfg0.N) :
    blockOut (loadsOf (iblk m c 0 t) (iblk m c 1 t) (iblk m c 2 t) (iblk m c 3 t) (iblk m c 4 t) (iblk m c 5 t))
      = fun y : S128x22x3.Idx => G m c (emb6 t y) := by
  funext y
  obtain ⟨r, j, cc, rfl⟩ : ∃ (r : Fin 128) (j : Fin 22) (cc : Fin 3), y = ix3 r j cc := ⟨y 0, y 1, y 2, eq_ix3 y⟩
  show blockOut (Lt m c t) (ix3 r j cc) = _
  rw [block_joints]
  rfl

/-- What point `t` writes back is block `t` of `G`. -/
theorem flushed6_eq (t : Fin cfg0.N) :
    (dats m 0 c).flushed 6 t = ((cfg0.win 6).blk t).view.read (Elt Ideal) (G m c) := by
  show (cfg0.win 6).cut (grid0.coords t) ((dats m 0 c).after 6 t) = _
  rw [after0_6, out0_6_eq]
  rw [View.canon_unit_zero hz3]
  show (cfg0.win 6).cut (grid0.coords t)
    (blockOut (loadsOf (iblk m c 0 t) (iblk m c 1 t) (iblk m c 2 t) (iblk m c 3 t) (iblk m c 4 t) (iblk m c 5 t))) = _
  rw [block_eq_G]
  have e := idx_facts t
  funext y
  show G m c (emb6 t y) = G m c (((cfg0.win 6).blk t).view.emb y)
  refine congrArg (G m c) (funext fun a => Fin.ext ?_)
  match a with
  | ⟨0, _⟩ =>
    show t.val * 128 + (y 0).val = win0_6.index t (0 : Fin 3) * 128 + 1 * (y 0).val
    rw [e.2.2.2.2.2.2.2.2.2.2.2.2.1]; omega
  | ⟨1, _⟩ =>
    show (y 1).val = win0_6.index t (1 : Fin 3) * 22 + 1 * (y 1).val
    rw [e.2.2.2.2.2.2.2.2.2.2.2.2.2.1]; omega
  | ⟨2, _⟩ =>
    show (y 2).val = win0_6.index t (2 : Fin 3) * 3 + 1 * (y 2).val
    rw [e.2.2.2.2.2.2.2.2.2.2.2.2.2.2]; omega

/-- An index of the array is in point `t`'s block iff each coordinate is in the block's range on its axis. -/
theorem mem_blk6 (t : Fin cfg0.N) (i : S131072x22x3.Idx) :
    i ∈ ((cfg0.win 6).blk t).view.set ↔ ∀ a : Fin 3, win0_6.index t a * S128x22x3.size a ≤ (i a).val ∧ (i a).val < win0_6.index t a * S128x22x3.size a + S128x22x3.size a := by
  show i ∈ ((View.whole main_v7).slice (win0_6.rect t)).set ↔ _
  rw [View.set_slice_whole, Rect.mem_set_unit]
  exact Iff.rfl

/-- Every row of the array is in the block of the point its row number over 128 names. -/
theorem cover6 (i : S131072x22x3.Idx) :
    ∃ t : Fin cfg0.N, (cfg0.win 6).flush t = true ∧ i ∈ ((cfg0.win 6).blk t).view.set := by
  have hi0 : (i 0).val < 131072 := (i 0).isLt
  have hi1 : (i 1).val < 22 := (i 1).isLt
  have hi2 : (i 2).val < 3 := (i 2).isLt
  have hN : cfg0.N = 1024 := N_0
  let t : Fin cfg0.N := ⟨(i 0).val / 128, by rw [hN]; omega⟩
  have e := idx_facts t
  refine ⟨t, flush0_6 t, ?_⟩
  rw [mem_blk6]
  intro a
  match a with
  | ⟨0, _⟩ =>
    show win0_6.index t (0 : Fin 3) * 128 ≤ (i 0).val ∧ (i 0).val < win0_6.index t (0 : Fin 3) * 128 + 128
    rw [e.2.2.2.2.2.2.2.2.2.2.2.2.1]
    show (i 0).val / 128 * 128 ≤ (i 0).val ∧ (i 0).val < (i 0).val / 128 * 128 + 128
    omega
  | ⟨1, _⟩ =>
    show win0_6.index t (1 : Fin 3) * 22 ≤ (i 1).val ∧ (i 1).val < win0_6.index t (1 : Fin 3) * 22 + 22
    rw [e.2.2.2.2.2.2.2.2.2.2.2.2.2.1]; omega
  | ⟨2, _⟩ =>
    show win0_6.index t (2 : Fin 3) * 3 ≤ (i 2).val ∧ (i 2).val < win0_6.index t (2 : Fin 3) * 3 + 3
    rw [e.2.2.2.2.2.2.2.2.2.2.2.2.2.2]; omega

/-- The array after the region is `G`. -/
theorem final6 : (dats m 0 c).arrAt 6 cfg0.N = G m c :=
  (dats m 0 c).arrAt_eq_of_cover 6 (G m c) (fun t _ => flushed6_eq m c t) cover6

/-- The reshape after the region moves no element: the result at `(b, l, j, cc)` is the array at row `2048 b + l`. -/
theorem tail_eq (A : S131072x22x3.Idx → EReal) (hA : A = G m c) :
    shapeCast S64x2048x22x3 A shapeCasts_S131072x22x3_S64x2048x22x3 = FK.out (argsOf m c) := by
  subst hA
  funext i
  obtain ⟨b, l, j, cc, rfl⟩ : ∃ (b : Fin 64) (l : Fin 2048) (j : Fin 22) (cc : Fin 3), i = ix4 b l j cc :=
    ⟨i 0, i 1, i 2, i 3, eq_ix4 i⟩
  rw [FK.out_apply]
  refine (shapeCast_apply _ _ _ (ix3 (⟨b.val * 2048 + l.val, by omega⟩ : Fin 131072) j cc) ?_).trans ?_
  · show (S131072x22x3.rowMajor (ix3 (⟨b.val * 2048 + l.val, by omega⟩ : Fin 131072) j cc)).val = (S64x2048x22x3.rowMajor (ix4 b l j cc)).val
    rw [Shape.rowMajor_val_three, Shape.rowMajor_val_four]
    rfl
  · unfold G
    congr 1
    · exact Fin.ext (by show (b.val * 2048 + l.val) / 2048 = b.val; omega)
    · exact Fin.ext (by show (b.val * 2048 + l.val) % 2048 = l.val; omega)

end Final

/-! ## The run, read -/

section Run

variable (m : (ℓ : Loc nD τ sig) → Buf (Elt Ideal) ℓ) (ρ : Dev nD → PrngReg)

/-- After the run the result buffer holds the joint positions of every token: the reshape of the output window's
    array, which is `G`. -/
theorem post_v8 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v8) = FK.out (argsOf m c) := by
  refine ((h c).2 main_v8 (Pipeline.mem_restRefs_of main_v8 (by decide) (by decide))).trans ?_
  unfold Pipeline.afterTail₀
  show StableHlo.after hostOps1 _ (Proc.devRef .tc main_v8) = _
  after_results
  refine tail_eq m c _ ?_
  exact (Pipeline.withArrays_arr spec0 launch0.win.arr_inj c _ _ 6).trans (final6 m c)

/-- Every weakly fair execution of the idealized kernel's program terminates with the result buffer at the joint
    positions of every token and the arguments unchanged. -/
theorem run : θ_run defs (onTc (τ := τ) (main (F := Ideal))) ⟨m, fun _ => 0, ρ⟩ fun r => ∀ c : Dev nD,
      r.2.mem ((c.tc : Thread nD τ).loc main_v8) = FK.out (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨post_v8 m r h c,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Run

end Cert.KernelIdeal.KV

end
-- ==== Proof.RefTerm.lean ====
/-
  The reference program's values, one name per buffer.
  `In F` is the six arguments' contents. For each buffer the program writes, `RefTerm.‹buffer› x` is the
  function of the operation that writes it, applied to the names of the buffers the operation reads: the
  program read as a system of equations, each buffer defined once from earlier ones. A reshape is the
  row-major re-indexing `shapeCast`; a constant is its literal.
  The contents type of a buffer of shape `S` and element type `e` is spelled `(⟨S, e⟩ : BufTy).Contents (Elt F)`,
  which unfolds to `S.Idx → F .f32` (`FVec F S .f32`) at a float type and to `S.Idx → BitVec w` (`IVec S w`) at an integer one.
-/
import proofs.«129627_j26603027432101_2_alg».proof.ReferenceIdeal

noncomputable section

namespace Cert.ReferenceIdeal.RefTerm

open Idealize.ShloMosaic Idealize.SL.Sem Cert.ReferenceIdeal
open Cert.ReferenceIdeal.Facts₀ Cert.ReferenceIdeal.Facts

variable {F : FTy → Type} [FloatOps F] [Cert.ReferenceIdeal.Facts]

/-- The contents of the six arguments. -/
structure In (F : FTy → Type) where
  a0 : (⟨S64x2048x63, .f32⟩ : BufTy).Contents (Elt F)
  a1 : (⟨S64x2048x10, .f32⟩ : BufTy).Contents (Elt F)
  a2 : (⟨S64x2048x3, .f32⟩ : BufTy).Contents (Elt F)
  a3 : (⟨S64x2048x3, .f32⟩ : BufTy).Contents (Elt F)
  a4 : (⟨S22x3, .f32⟩ : BufTy).Contents (Elt F)
  a5 : (⟨S22x3x10, .f32⟩ : BufTy).Contents (Elt F)

def c (x : In F) : (⟨S22, .i32⟩ : BufTy).Contents (Elt F) :=
  fun i => lit0 (S22.rowMajor i)
def cst (x : In F) : (⟨S4, .f32⟩ : BufTy).Contents (Elt F) :=
  fun i => FloatOps.ofBits .f32 (lit1 (S4.rowMajor i))
def v0 (x : In F) : (⟨S64x2048x66, .f32⟩ : BufTy).Contents (Elt F) :=
  concatenate S64x2048x66 2 [⟨S64x2048x3, x.a2⟩, ⟨S64x2048x63, x.a0⟩] concatenates_S64x2048x3_S64x2048x63_S64x2048x66_d2
def v1 (x : In F) : (⟨S64x2048x22x3, .f32⟩ : BufTy).Contents (Elt F) :=
  shapeCast S64x2048x22x3 (v0 x) shapeCasts_S64x2048x66_S64x2048x22x3
def v2 (x : In F) : (⟨S64x2048x22x3, .f32⟩ : BufTy).Contents (Elt F) :=
  mulf (v1 x) (v1 x)
def cst_0 (x : In F) : (⟨S_, .f32⟩ : BufTy).Contents (Elt F) :=
  constant S_ .f32 0x00000000#32
def v3 (x : In F) : (⟨S64x2048x22, .f32⟩ : BufTy).Contents (Elt F) :=
  Host.reduceAdd (v2 x) (cst_0 x) reducesTo_S64x2048x22x3_S64x2048x22_d3 h_S_
def v4 (x : In F) : (⟨S64x2048x22x1, .f32⟩ : BufTy).Contents (Elt F) :=
  broadcastInDim S64x2048x22x1 ![0, 1, 2] bcast_S64x2048x22_S64x2048x22x1_0_1_2 (v3 x)
def cst_1 (x : In F) : (⟨S_, .f32⟩ : BufTy).Contents (Elt F) :=
  constant S_ .f32 0x2B8CBCCC#32
def v5 (x : In F) : (⟨S64x2048x22x1, .f32⟩ : BufTy).Contents (Elt F) :=
  broadcastInDim S64x2048x22x1 ![] bcast_S_S64x2048x22x1 (cst_1 x)
def v6 (x : In F) : (⟨S64x2048x22x1, .f32⟩ : BufTy).Contents (Elt F) :=
  addf (v4 x) (v5 x)
def v7 (x : In F) : (⟨S64x2048x22x1, .f32⟩ : BufTy).Contents (Elt F) :=
  Host.sqrt (v6 x)
def v8 (x : In F) : (⟨S64x2048x22x3, .f32⟩ : BufTy).Contents (Elt F) :=
  broadcastInDim S64x2048x22x3 ![0, 1, 2, 3] bcast_S64x2048x22x1_S64x2048x22x3_0_1_2_3 (v7 x)
def v9 (x : In F) : (⟨S64x2048x22x3, .f32⟩ : BufTy).Contents (Elt F) :=
  Host.divf (v1 x) (v8 x)
def v10 (x : In F) : (⟨S64x2048x22x1, .f32⟩ : BufTy).Contents (Elt F) :=
  extractStridedSlice S64x2048x22x1 ![0, 0, 0, 0] (v9 x) slices_S64x2048x22x3_S64x2048x22x1_0_0_0_0
def v11 (x : In F) : (⟨S64x2048x22, .f32⟩ : BufTy).Contents (Elt F) :=
  shapeCast S64x2048x22 (v10 x) shapeCasts_S64x2048x22x1_S64x2048x22
def v12 (x : In F) : (⟨S64x2048x22x1, .f32⟩ : BufTy).Contents (Elt F) :=
  extractStridedSlice S64x2048x22x1 ![0, 0, 0, 1] (v9 x) slices_S64x2048x22x3_S64x2048x22x1_0_0_0_1
def v13 (x : In F) : (⟨S64x2048x22, .f32⟩ : BufTy).Contents (Elt F) :=
  shapeCast S64x2048x22 (v12 x) shapeCasts_S64x2048x22x1_S64x2048x22
def v14 (x : In F) : (⟨S64x2048x22x1, .f32⟩ : BufTy).Contents (Elt F) :=
  extractStridedSlice S64x2048x22x1 ![0, 0, 0, 2] (v9 x) slices_S64x2048x22x3_S64x2048x22x1_0_0_0_2
def v15 (x : In F) : (⟨S64x2048x22, .f32⟩ : BufTy).Contents (Elt F) :=
  shapeCast S64x2048x22 (v14 x) shapeCasts_S64x2048x22x1_S64x2048x22
def v16 (x : In F) : (⟨S64x2048x22, .f32⟩ : BufTy).Contents (Elt F) :=
  shapeCast S64x2048x22 (v7 x) shapeCasts_S64x2048x22x1_S64x2048x22
def v17 (x : In F) : (⟨S64x2048x22, .f32⟩ : BufTy).Contents (Elt F) :=
  Host.cos (v16 x)
def v18 (x : In F) : (⟨S64x2048x22, .f32⟩ : BufTy).Contents (Elt F) :=
  Host.sin (v16 x)
def cst_2 (x : In F) : (⟨S_, .f32⟩ : BufTy).Contents (Elt F) :=
  constant S_ .f32 0x3F800000#32
def v19 (x : In F) : (⟨S64x2048x22, .f32⟩ : BufTy).Contents (Elt F) :=
  broadcastInDim S64x2048x22 ![] bcast_S_S64x2048x22 (cst_2 x)
def v20 (x : In F) : (⟨S64x2048x22, .f32⟩ : BufTy).Contents (Elt F) :=
  subf (v19 x) (v17 x)
def v21 (x : In F) : (⟨S64x2048x22, .f32⟩ : BufTy).Contents (Elt F) :=
  mulf (v20 x) (v11 x)
def v22 (x : In F) : (⟨S64x2048x22, .f32⟩ : BufTy).Contents (Elt F) :=
  mulf (v21 x) (v11 x)
def v23 (x : In F) : (⟨S64x2048x22, .f32⟩ : BufTy).Contents (Elt F) :=
  addf (v22 x) (v17 x)
def v24 (x : In F) : (⟨S64x2048x22, .f32⟩ : BufTy).Contents (Elt F) :=
  mulf (v20 x) (v11 x)
def v25 (x : In F) : (⟨S64x2048x22, .f32⟩ : BufTy).Contents (Elt F) :=
  mulf (v24 x) (v13 x)
def v26 (x : In F) : (⟨S64x2048x22, .f32⟩ : BufTy).Contents (Elt F) :=
  mulf (v18 x) (v15 x)
def v27 (x : In F) : (⟨S64x2048x22, .f32⟩ : BufTy).Contents (Elt F) :=
  subf (v25 x) (v26 x)
def v28 (x : In F) : (⟨S64x2048x22, .f32⟩ : BufTy).Contents (Elt F) :=
  mulf (v20 x) (v11 x)
def v29 (x : In F) : (⟨S64x2048x22, .f32⟩ : BufTy).Contents (Elt F) :=
  mulf (v28 x) (v15 x)
def v30 (x : In F) : (⟨S64x2048x22, .f32⟩ : BufTy).Contents (Elt F) :=
  mulf (v18 x) (v13 x)
def v31 (x : In F) : (⟨S64x2048x22, .f32⟩ : BufTy).Contents (Elt F) :=
  addf (v29 x) (v30 x)
def v32 (x : In F) : (⟨S64x2048x22, .f32⟩ : BufTy).Contents (Elt F) :=
  mulf (v20 x) (v11 x)
def v33 (x : In F) : (⟨S64x2048x22, .f32⟩ : BufTy).Contents (Elt F) :=
  mulf (v32 x) (v13 x)
def v34 (x : In F) : (⟨S64x2048x22, .f32⟩ : BufTy).Contents (Elt F) :=
  mulf (v18 x) (v15 x)
def v35 (x : In F) : (⟨S64x2048x22, .f32⟩ : BufTy).Contents (Elt F) :=
  addf (v33 x) (v34 x)
def v36 (x : In F) : (⟨S64x2048x22, .f32⟩ : BufTy).Contents (Elt F) :=
  mulf (v20 x) (v13 x)
def v37 (x : In F) : (⟨S64x2048x22, .f32⟩ : BufTy).Contents (Elt F) :=
  mulf (v36 x) (v13 x)
def v38 (x : In F) : (⟨S64x2048x22, .f32⟩ : BufTy).Contents (Elt F) :=
  addf (v37 x) (v17 x)
def v39 (x : In F) : (⟨S64x2048x22, .f32⟩ : BufTy).Contents (Elt F) :=
  mulf (v20 x) (v13 x)
def v40 (x : In F) : (⟨S64x2048x22, .f32⟩ : BufTy).Contents (Elt F) :=
  mulf (v39 x) (v15 x)
def v41 (x : In F) : (⟨S64x2048x22, .f32⟩ : BufTy).Contents (Elt F) :=
  mulf (v18 x) (v11 x)
def v42 (x : In F) : (⟨S64x2048x22, .f32⟩ : BufTy).Contents (Elt F) :=
  subf (v40 x) (v41 x)
def v43 (x : In F) : (⟨S64x2048x22, .f32⟩ : BufTy).Contents (Elt F) :=
  mulf (v20 x) (v11 x)
def v44 (x : In F) : (⟨S64x2048x22, .f32⟩ : BufTy).Contents (Elt F) :=
  mulf (v43 x) (v15 x)
def v45 (x : In F) : (⟨S64x2048x22, .f32⟩ : BufTy).Contents (Elt F) :=
  mulf (v18 x) (v13 x)
def v46 (x : In F) : (⟨S64x2048x22, .f32⟩ : BufTy).Contents (Elt F) :=
  subf (v44 x) (v45 x)
def v47 (x : In F) : (⟨S64x2048x22, .f32⟩ : BufTy).Contents (Elt F) :=
  mulf (v20 x) (v13 x)
def v48 (x : In F) : (⟨S64x2048x22, .f32⟩ : BufTy).Contents (Elt F) :=
  mulf (v47 x) (v15 x)
def v49 (x : In F) : (⟨S64x2048x22, .f32⟩ : BufTy).Contents (Elt F) :=
  mulf (v18 x) (v11 x)
def v50 (x : In F) : (⟨S64x2048x22, .f32⟩ : BufTy).Contents (Elt F) :=
  addf (v48 x) (v49 x)
def v51 (x : In F) : (⟨S64x2048x22, .f32⟩ : BufTy).Contents (Elt F) :=
  mulf (v20 x) (v15 x)
def v52 (x : In F) : (⟨S64x2048x22, .f32⟩ : BufTy).Contents (Elt F) :=
  mulf (v51 x) (v15 x)
def v53 (x : In F) : (⟨S64x2048x22, .f32⟩ : BufTy).Contents (Elt F) :=
  addf (v52 x) (v17 x)
def v54 (x : In F) : (⟨S64x2048x22x1, .f32⟩ : BufTy).Contents (Elt F) :=
  broadcastInDim S64x2048x22x1 ![0, 1, 2] bcast_S64x2048x22_S64x2048x22x1_0_1_2 (v23 x)
def v55 (x : In F) : (⟨S64x2048x22x1, .f32⟩ : BufTy).Contents (Elt F) :=
  broadcastInDim S64x2048x22x1 ![0, 1, 2] bcast_S64x2048x22_S64x2048x22x1_0_1_2 (v27 x)
def v56 (x : In F) : (⟨S64x2048x22x1, .f32⟩ : BufTy).Contents (Elt F) :=
  broadcastInDim S64x2048x22x1 ![0, 1, 2] bcast_S64x2048x22_S64x2048x22x1_0_1_2 (v31 x)
def v57 (x : In F) : (⟨S64x2048x22x1, .f32⟩ : BufTy).Contents (Elt F) :=
  broadcastInDim S64x2048x22x1 ![0, 1, 2] bcast_S64x2048x22_S64x2048x22x1_0_1_2 (v35 x)
def v58 (x : In F) : (⟨S64x2048x22x1, .f32⟩ : BufTy).Contents (Elt F) :=
  broadcastInDim S64x2048x22x1 ![0, 1, 2] bcast_S64x2048x22_S64x2048x22x1_0_1_2 (v38 x)
def v59 (x : In F) : (⟨S64x2048x22x1, .f32⟩ : BufTy).Contents (Elt F) :=
  broadcastInDim S64x2048x22x1 ![0, 1, 2] bcast_S64x2048x22_S64x2048x22x1_0_1_2 (v42 x)
def v60 (x : In F) : (⟨S64x2048x22x1, .f32⟩ : BufTy).Contents (Elt F) :=
  broadcastInDim S64x2048x22x1 ![0, 1, 2] bcast_S64x2048x22_S64x2048x22x1_0_1_2 (v46 x)
def v61 (x : In F) : (⟨S64x2048x22x1, .f32⟩ : BufTy).Contents (Elt F) :=
  broadcastInDim S64x2048x22x1 ![0, 1, 2] bcast_S64x2048x22_S64x2048x22x1_0_1_2 (v50 x)
def v62 (x : In F) : (⟨S64x2048x22x1, .f32⟩ : BufTy).Contents (Elt F) :=
  broadcastInDim S64x2048x22x1 ![0, 1, 2] bcast_S64x2048x22_S64x2048x22x1_0_1_2 (v53 x)
def v63 (x : In F) : (⟨S64x2048x22x9, .f32⟩ : BufTy).Contents (Elt F) :=
  concatenate S64x2048x22x9 3 [⟨S64x2048x22x1, (v54 x)⟩, ⟨S64x2048x22x1, (v55 x)⟩, ⟨S64x2048x22x1, (v56 x)⟩, ⟨S64x2048x22x1, (v57 x)⟩, ⟨S64x2048x22x1, (v58 x)⟩, ⟨S64x2048x22x1, (v59 x)⟩, ⟨S64x2048x22x1, (v60 x)⟩, ⟨S64x2048x22x1, (v61 x)⟩, ⟨S64x2048x22x1, (v62 x)⟩] concatenates_S64x2048x22x1_S64x2048x22x1_S64x2048x22x1_S64x2048x22x1_S64x2048x22x1_S64x2048x22x1_S64x2048x22x1_S64x2048x22x1_S64x2048x22x1_S64x2048x22x9_d3
def v64 (x : In F) : (⟨S64x2048x22x3x3, .f32⟩ : BufTy).Contents (Elt F) :=
  shapeCast S64x2048x22x3x3 (v63 x) shapeCasts_S64x2048x22x9_S64x2048x22x3x3
def v65 (x : In F) : (⟨S1x1x22x3, .f32⟩ : BufTy).Contents (Elt F) :=
  broadcastInDim S1x1x22x3 ![2, 3] bcast_S22x3_S1x1x22x3_2_3 x.a4
def v66 (x : In F) : (⟨S64x2048x22x3, .f32⟩ : BufTy).Contents (Elt F) :=
  Host.dotGeneral dot_S64x2048x10_S22x3x10_S64x2048x22x3_2_2_01_01_n_n none x.a1 x.a5
def v67 (x : In F) : (⟨S64x2048x22x3, .f32⟩ : BufTy).Contents (Elt F) :=
  broadcastInDim S64x2048x22x3 ![0, 1, 2, 3] bcast_S1x1x22x3_S64x2048x22x3_0_1_2_3 (v65 x)
def v68 (x : In F) : (⟨S64x2048x22x3, .f32⟩ : BufTy).Contents (Elt F) :=
  addf (v67 x) (v66 x)
def c_3 (x : In F) : (⟨S_, .i32⟩ : BufTy).Contents (Elt F) :=
  constantI S_ 32 0#32
def v69 (x : In F) : (⟨S22, .i32⟩ : BufTy).Contents (Elt F) :=
  broadcastInDim S22 ![] bcast_S_S22 (c_3 x)
def v70 (x : In F) : (⟨S22, .i1⟩ : BufTy).Contents (Elt F) :=
  cmpi .slt (c x) (v69 x)
def c_4 (x : In F) : (⟨S_, .i32⟩ : BufTy).Contents (Elt F) :=
  constantI S_ 32 22#32
def v71 (x : In F) : (⟨S22, .i32⟩ : BufTy).Contents (Elt F) :=
  broadcastInDim S22 ![] bcast_S_S22 (c_4 x)
def v72 (x : In F) : (⟨S22, .i32⟩ : BufTy).Contents (Elt F) :=
  addi (c x) (v71 x)
def v73 (x : In F) : (⟨S22, .i32⟩ : BufTy).Contents (Elt F) :=
  select (v70 x) (v72 x) (c x)
def v74 (x : In F) : (⟨S22x1, .i32⟩ : BufTy).Contents (Elt F) :=
  broadcastInDim S22x1 ![0] bcast_S22_S22x1_0 (v73 x)
def v75 (x : In F) : (⟨S64x2048x22x3, .f32⟩ : BufTy).Contents (Elt F) :=
  Host.gather gather_S64x2048x22x3_S22x1_S64x2048x22x3_013_2_n_n_2_1_64204813 (v68 x) (v74 x)
def v76 (x : In F) : (⟨S64x2048x22x3, .f32⟩ : BufTy).Contents (Elt F) :=
  subf (v68 x) (v75 x)
def v77 (x : In F) : (⟨S64x2048x1x3, .f32⟩ : BufTy).Contents (Elt F) :=
  extractStridedSlice S64x2048x1x3 ![0, 0, 0, 0] (v68 x) slices_S64x2048x22x3_S64x2048x1x3_0_0_0_0
def v78 (x : In F) : (⟨S64x2048x3, .f32⟩ : BufTy).Contents (Elt F) :=
  shapeCast S64x2048x3 (v77 x) shapeCasts_S64x2048x1x3_S64x2048x3
def v79 (x : In F) : (⟨S64x2048x3, .f32⟩ : BufTy).Contents (Elt F) :=
  addf (v78 x) x.a3
def c_5 (x : In F) : (⟨S_, .i32⟩ : BufTy).Contents (Elt F) :=
  constantI S_ 32 0#32
def v80 (x : In F) : (⟨S1, .i32⟩ : BufTy).Contents (Elt F) :=
  broadcastInDim S1 ![] bcast_S_S1 (c_5 x)
def v81 (x : In F) : (⟨S64x2048x22x3, .f32⟩ : BufTy).Contents (Elt F) :=
  Host.scatter scatter_S64x2048x22x3_S1_S64x2048x3_012_2_2_0 (fun _ b => b) (v76 x) (v80 x) (v79 x)
def v82 (x : In F) : (⟨S64x2048x22x3x1, .f32⟩ : BufTy).Contents (Elt F) :=
  broadcastInDim S64x2048x22x3x1 ![0, 1, 2, 3] bcast_S64x2048x22x3_S64x2048x22x3x1_0_1_2_3 (v81 x)
def v83 (x : In F) : (⟨S64x2048x22x3x4, .f32⟩ : BufTy).Contents (Elt F) :=
  concatenate S64x2048x22x3x4 4 [⟨S64x2048x22x3x3, (v64 x)⟩, ⟨S64x2048x22x3x1, (v82 x)⟩] concatenates_S64x2048x22x3x3_S64x2048x22x3x1_S64x2048x22x3x4_d4
def v84 (x : In F) : (⟨S64x2048x22x1x4, .f32⟩ : BufTy).Contents (Elt F) :=
  broadcastInDim S64x2048x22x1x4 ![4] bcast_S4_S64x2048x22x1x4_4 (cst x)
def v85 (x : In F) : (⟨S64x2048x22x4x4, .f32⟩ : BufTy).Contents (Elt F) :=
  concatenate S64x2048x22x4x4 3 [⟨S64x2048x22x3x4, (v83 x)⟩, ⟨S64x2048x22x1x4, (v84 x)⟩] concatenates_S64x2048x22x3x4_S64x2048x22x1x4_S64x2048x22x4x4_d3
def v86 (x : In F) : (⟨S64x2048x1x4x4, .f32⟩ : BufTy).Contents (Elt F) :=
  extractStridedSlice S64x2048x1x4x4 ![0, 0, 0, 0, 0] (v85 x) slices_S64x2048x22x4x4_S64x2048x1x4x4_0_0_0_0_0
def v87 (x : In F) : (⟨S64x2048x4x4, .f32⟩ : BufTy).Contents (Elt F) :=
  shapeCast S64x2048x4x4 (v86 x) shapeCasts_S64x2048x1x4x4_S64x2048x4x4
def v88 (x : In F) : (⟨S64x2048x1x4x4, .f32⟩ : BufTy).Contents (Elt F) :=
  extractStridedSlice S64x2048x1x4x4 ![0, 0, 1, 0, 0] (v85 x) slices_S64x2048x22x4x4_S64x2048x1x4x4_0_0_1_0_0
def v89 (x : In F) : (⟨S64x2048x4x4, .f32⟩ : BufTy).Contents (Elt F) :=
  shapeCast S64x2048x4x4 (v88 x) shapeCasts_S64x2048x1x4x4_S64x2048x4x4
def v90 (x : In F) : (⟨S64x2048x4x4, .f32⟩ : BufTy).Contents (Elt F) :=
  Host.dotGeneral dot_S64x2048x4x4_S64x2048x4x4_S64x2048x4x4_3_2_2_3_01_01 none (v87 x) (v89 x)
def v91 (x : In F) : (⟨S64x2048x1x4x4, .f32⟩ : BufTy).Contents (Elt F) :=
  extractStridedSlice S64x2048x1x4x4 ![0, 0, 2, 0, 0] (v85 x) slices_S64x2048x22x4x4_S64x2048x1x4x4_0_0_2_0_0
def v92 (x : In F) : (⟨S64x2048x4x4, .f32⟩ : BufTy).Contents (Elt F) :=
  shapeCast S64x2048x4x4 (v91 x) shapeCasts_S64x2048x1x4x4_S64x2048x4x4
def v93 (x : In F) : (⟨S64x2048x4x4, .f32⟩ : BufTy).Contents (Elt F) :=
  Host.dotGeneral dot_S64x2048x4x4_S64x2048x4x4_S64x2048x4x4_3_2_2_3_01_01 none (v87 x) (v92 x)
def v94 (x : In F) : (⟨S64x2048x1x4x4, .f32⟩ : BufTy).Contents (Elt F) :=
  extractStridedSlice S64x2048x1x4x4 ![0, 0, 3, 0, 0] (v85 x) slices_S64x2048x22x4x4_S64x2048x1x4x4_0_0_3_0_0
def v95 (x : In F) : (⟨S64x2048x4x4, .f32⟩ : BufTy).Contents (Elt F) :=
  shapeCast S64x2048x4x4 (v94 x) shapeCasts_S64x2048x1x4x4_S64x2048x4x4
def v96 (x : In F) : (⟨S64x2048x4x4, .f32⟩ : BufTy).Contents (Elt F) :=
  Host.dotGeneral dot_S64x2048x4x4_S64x2048x4x4_S64x2048x4x4_3_2_2_3_01_01 none (v87 x) (v95 x)
def v97 (x : In F) : (⟨S64x2048x1x4x4, .f32⟩ : BufTy).Contents (Elt F) :=
  extractStridedSlice S64x2048x1x4x4 ![0, 0, 4, 0, 0] (v85 x) slices_S64x2048x22x4x4_S64x2048x1x4x4_0_0_4_0_0
def v98 (x : In F) : (⟨S64x2048x4x4, .f32⟩ : BufTy).Contents (Elt F) :=
  shapeCast S64x2048x4x4 (v97 x) shapeCasts_S64x2048x1x4x4_S64x2048x4x4
def v99 (x : In F) : (⟨S64x2048x4x4, .f32⟩ : BufTy).Contents (Elt F) :=
  Host.dotGeneral dot_S64x2048x4x4_S64x2048x4x4_S64x2048x4x4_3_2_2_3_01_01 none (v90 x) (v98 x)
def v100 (x : In F) : (⟨S64x2048x1x4x4, .f32⟩ : BufTy).Contents (Elt F) :=
  extractStridedSlice S64x2048x1x4x4 ![0, 0, 5, 0, 0] (v85 x) slices_S64x2048x22x4x4_S64x2048x1x4x4_0_0_5_0_0
def v101 (x : In F) : (⟨S64x2048x4x4, .f32⟩ : BufTy).Contents (Elt F) :=
  shapeCast S64x2048x4x4 (v100 x) shapeCasts_S64x2048x1x4x4_S64x2048x4x4
def v102 (x : In F) : (⟨S64x2048x4x4, .f32⟩ : BufTy).Contents (Elt F) :=
  Host.dotGeneral dot_S64x2048x4x4_S64x2048x4x4_S64x2048x4x4_3_2_2_3_01_01 none (v93 x) (v101 x)
def v103 (x : In F) : (⟨S64x2048x1x4x4, .f32⟩ : BufTy).Contents (Elt F) :=
  extractStridedSlice S64x2048x1x4x4 ![0, 0, 6, 0, 0] (v85 x) slices_S64x2048x22x4x4_S64x2048x1x4x4_0_0_6_0_0
def v104 (x : In F) : (⟨S64x2048x4x4, .f32⟩ : BufTy).Contents (Elt F) :=
  shapeCast S64x2048x4x4 (v103 x) shapeCasts_S64x2048x1x4x4_S64x2048x4x4
def v105 (x : In F) : (⟨S64x2048x4x4, .f32⟩ : BufTy).Contents (Elt F) :=
  Host.dotGeneral dot_S64x2048x4x4_S64x2048x4x4_S64x2048x4x4_3_2_2_3_01_01 none (v96 x) (v104 x)
def v106 (x : In F) : (⟨S64x2048x1x4x4, .f32⟩ : BufTy).Contents (Elt F) :=
  extractStridedSlice S64x2048x1x4x4 ![0, 0, 7, 0, 0] (v85 x) slices_S64x2048x22x4x4_S64x2048x1x4x4_0_0_7_0_0
def v107 (x : In F) : (⟨S64x2048x4x4, .f32⟩ : BufTy).Contents (Elt F) :=
  shapeCast S64x2048x4x4 (v106 x) shapeCasts_S64x2048x1x4x4_S64x2048x4x4
def v108 (x : In F) : (⟨S64x2048x4x4, .f32⟩ : BufTy).Contents (Elt F) :=
  Host.dotGeneral dot_S64x2048x4x4_S64x2048x4x4_S64x2048x4x4_3_2_2_3_01_01 none (v99 x) (v107 x)
def v109 (x : In F) : (⟨S64x2048x1x4x4, .f32⟩ : BufTy).Contents (Elt F) :=
  extractStridedSlice S64x2048x1x4x4 ![0, 0, 8, 0, 0] (v85 x) slices_S64x2048x22x4x4_S64x2048x1x4x4_0_0_8_0_0
def v110 (x : In F) : (⟨S64x2048x4x4, .f32⟩ : BufTy).Contents (Elt F) :=
  shapeCast S64x2048x4x4 (v109 x) shapeCasts_S64x2048x1x4x4_S64x2048x4x4
def v111 (x : In F) : (⟨S64x2048x4x4, .f32⟩ : BufTy).Contents (Elt F) :=
  Host.dotGeneral dot_S64x2048x4x4_S64x2048x4x4_S64x2048x4x4_3_2_2_3_01_01 none (v102 x) (v110 x)
def v112 (x : In F) : (⟨S64x2048x1x4x4, .f32⟩ : BufTy).Contents (Elt F) :=
  extractStridedSlice S64x2048x1x4x4 ![0, 0, 9, 0, 0] (v85 x) slices_S64x2048x22x4x4_S64x2048x1x4x4_0_0_9_0_0
def v113 (x : In F) : (⟨S64x2048x4x4, .f32⟩ : BufTy).Contents (Elt F) :=
  shapeCast S64x2048x4x4 (v112 x) shapeCasts_S64x2048x1x4x4_S64x2048x4x4
def v114 (x : In F) : (⟨S64x2048x4x4, .f32⟩ : BufTy).Contents (Elt F) :=
  Host.dotGeneral dot_S64x2048x4x4_S64x2048x4x4_S64x2048x4x4_3_2_2_3_01_01 none (v105 x) (v113 x)
def v115 (x : In F) : (⟨S64x2048x1x4x4, .f32⟩ : BufTy).Contents (Elt F) :=
  extractStridedSlice S64x2048x1x4x4 ![0, 0, 10, 0, 0] (v85 x) slices_S64x2048x22x4x4_S64x2048x1x4x4_0_0_10_0_0
def v116 (x : In F) : (⟨S64x2048x4x4, .f32⟩ : BufTy).Contents (Elt F) :=
  shapeCast S64x2048x4x4 (v115 x) shapeCasts_S64x2048x1x4x4_S64x2048x4x4
def v117 (x : In F) : (⟨S64x2048x4x4, .f32⟩ : BufTy).Contents (Elt F) :=
  Host.dotGeneral dot_S64x2048x4x4_S64x2048x4x4_S64x2048x4x4_3_2_2_3_01_01 none (v108 x) (v116 x)
def v118 (x : In F) : (⟨S64x2048x1x4x4, .f32⟩ : BufTy).Contents (Elt F) :=
  extractStridedSlice S64x2048x1x4x4 ![0, 0, 11, 0, 0] (v85 x) slices_S64x2048x22x4x4_S64x2048x1x4x4_0_0_11_0_0
def v119 (x : In F) : (⟨S64x2048x4x4, .f32⟩ : BufTy).Contents (Elt F) :=
  shapeCast S64x2048x4x4 (v118 x) shapeCasts_S64x2048x1x4x4_S64x2048x4x4
def v120 (x : In F) : (⟨S64x2048x4x4, .f32⟩ : BufTy).Contents (Elt F) :=
  Host.dotGeneral dot_S64x2048x4x4_S64x2048x4x4_S64x2048x4x4_3_2_2_3_01_01 none (v111 x) (v119 x)
def v121 (x : In F) : (⟨S64x2048x1x4x4, .f32⟩ : BufTy).Contents (Elt F) :=
  extractStridedSlice S64x2048x1x4x4 ![0, 0, 12, 0, 0] (v85 x) slices_S64x2048x22x4x4_S64x2048x1x4x4_0_0_12_0_0
def v122 (x : In F) : (⟨S64x2048x4x4, .f32⟩ : BufTy).Contents (Elt F) :=
  shapeCast S64x2048x4x4 (v121 x) shapeCasts_S64x2048x1x4x4_S64x2048x4x4
def v123 (x : In F) : (⟨S64x2048x4x4, .f32⟩ : BufTy).Contents (Elt F) :=
  Host.dotGeneral dot_S64x2048x4x4_S64x2048x4x4_S64x2048x4x4_3_2_2_3_01_01 none (v114 x) (v122 x)
def v124 (x : In F) : (⟨S64x2048x1x4x4, .f32⟩ : BufTy).Contents (Elt F) :=
  extractStridedSlice S64x2048x1x4x4 ![0, 0, 13, 0, 0] (v85 x) slices_S64x2048x22x4x4_S64x2048x1x4x4_0_0_13_0_0
def v125 (x : In F) : (⟨S64x2048x4x4, .f32⟩ : BufTy).Contents (Elt F) :=
  shapeCast S64x2048x4x4 (v124 x) shapeCasts_S64x2048x1x4x4_S64x2048x4x4
def v126 (x : In F) : (⟨S64x2048x4x4, .f32⟩ : BufTy).Contents (Elt F) :=
  Host.dotGeneral dot_S64x2048x4x4_S64x2048x4x4_S64x2048x4x4_3_2_2_3_01_01 none (v114 x) (v125 x)
def v127 (x : In F) : (⟨S64x2048x1x4x4, .f32⟩ : BufTy).Contents (Elt F) :=
  extractStridedSlice S64x2048x1x4x4 ![0, 0, 14, 0, 0] (v85 x) slices_S64x2048x22x4x4_S64x2048x1x4x4_0_0_14_0_0
def v128 (x : In F) : (⟨S64x2048x4x4, .f32⟩ : BufTy).Contents (Elt F) :=
  shapeCast S64x2048x4x4 (v127 x) shapeCasts_S64x2048x1x4x4_S64x2048x4x4
def v129 (x : In F) : (⟨S64x2048x4x4, .f32⟩ : BufTy).Contents (Elt F) :=
  Host.dotGeneral dot_S64x2048x4x4_S64x2048x4x4_S64x2048x4x4_3_2_2_3_01_01 none (v114 x) (v128 x)
def v130 (x : In F) : (⟨S64x2048x1x4x4, .f32⟩ : BufTy).Contents (Elt F) :=
  extractStridedSlice S64x2048x1x4x4 ![0, 0, 15, 0, 0] (v85 x) slices_S64x2048x22x4x4_S64x2048x1x4x4_0_0_15_0_0
def v131 (x : In F) : (⟨S64x2048x4x4, .f32⟩ : BufTy).Contents (Elt F) :=
  shapeCast S64x2048x4x4 (v130 x) shapeCasts_S64x2048x1x4x4_S64x2048x4x4
def v132 (x : In F) : (⟨S64x2048x4x4, .f32⟩ : BufTy).Contents (Elt F) :=
  Host.dotGeneral dot_S64x2048x4x4_S64x2048x4x4_S64x2048x4x4_3_2_2_3_01_01 none (v123 x) (v131 x)
def v133 (x : In F) : (⟨S64x2048x1x4x4, .f32⟩ : BufTy).Contents (Elt F) :=
  extractStridedSlice S64x2048x1x4x4 ![0, 0, 16, 0, 0] (v85 x) slices_S64x2048x22x4x4_S64x2048x1x4x4_0_0_16_0_0
def v134 (x : In F) : (⟨S64x2048x4x4, .f32⟩ : BufTy).Contents (Elt F) :=
  shapeCast S64x2048x4x4 (v133 x) shapeCasts_S64x2048x1x4x4_S64x2048x4x4
def v135 (x : In F) : (⟨S64x2048x4x4, .f32⟩ : BufTy).Contents (Elt F) :=
  Host.dotGeneral dot_S64x2048x4x4_S64x2048x4x4_S64x2048x4x4_3_2_2_3_01_01 none (v126 x) (v134 x)
def v136 (x : In F) : (⟨S64x2048x1x4x4, .f32⟩ : BufTy).Contents (Elt F) :=
  extractStridedSlice S64x2048x1x4x4 ![0, 0, 17, 0, 0] (v85 x) slices_S64x2048x22x4x4_S64x2048x1x4x4_0_0_17_0_0
def v137 (x : In F) : (⟨S64x2048x4x4, .f32⟩ : BufTy).Contents (Elt F) :=
  shapeCast S64x2048x4x4 (v136 x) shapeCasts_S64x2048x1x4x4_S64x2048x4x4
def v138 (x : In F) : (⟨S64x2048x4x4, .f32⟩ : BufTy).Contents (Elt F) :=
  Host.dotGeneral dot_S64x2048x4x4_S64x2048x4x4_S64x2048x4x4_3_2_2_3_01_01 none (v129 x) (v137 x)
def v139 (x : In F) : (⟨S64x2048x1x4x4, .f32⟩ : BufTy).Contents (Elt F) :=
  extractStridedSlice S64x2048x1x4x4 ![0, 0, 18, 0, 0] (v85 x) slices_S64x2048x22x4x4_S64x2048x1x4x4_0_0_18_0_0
def v140 (x : In F) : (⟨S64x2048x4x4, .f32⟩ : BufTy).Contents (Elt F) :=
  shapeCast S64x2048x4x4 (v139 x) shapeCasts_S64x2048x1x4x4_S64x2048x4x4
def v141 (x : In F) : (⟨S64x2048x4x4, .f32⟩ : BufTy).Contents (Elt F) :=
  Host.dotGeneral dot_S64x2048x4x4_S64x2048x4x4_S64x2048x4x4_3_2_2_3_01_01 none (v135 x) (v140 x)
def v142 (x : In F) : (⟨S64x2048x1x4x4, .f32⟩ : BufTy).Contents (Elt F) :=
  extractStridedSlice S64x2048x1x4x4 ![0, 0, 19, 0, 0] (v85 x) slices_S64x2048x22x4x4_S64x2048x1x4x4_0_0_19_0_0
def v143 (x : In F) : (⟨S64x2048x4x4, .f32⟩ : BufTy).Contents (Elt F) :=
  shapeCast S64x2048x4x4 (v142 x) shapeCasts_S64x2048x1x4x4_S64x2048x4x4
def v144 (x : In F) : (⟨S64x2048x4x4, .f32⟩ : BufTy).Contents (Elt F) :=
  Host.dotGeneral dot_S64x2048x4x4_S64x2048x4x4_S64x2048x4x4_3_2_2_3_01_01 none (v138 x) (v143 x)
def v145 (x : In F) : (⟨S64x2048x1x4x4, .f32⟩ : BufTy).Contents (Elt F) :=
  extractStridedSlice S64x2048x1x4x4 ![0, 0, 20, 0, 0] (v85 x) slices_S64x2048x22x4x4_S64x2048x1x4x4_0_0_20_0_0
def v146 (x : In F) : (⟨S64x2048x4x4, .f32⟩ : BufTy).Contents (Elt F) :=
  shapeCast S64x2048x4x4 (v145 x) shapeCasts_S64x2048x1x4x4_S64x2048x4x4
def v147 (x : In F) : (⟨S64x2048x4x4, .f32⟩ : BufTy).Contents (Elt F) :=
  Host.dotGeneral dot_S64x2048x4x4_S64x2048x4x4_S64x2048x4x4_3_2_2_3_01_01 none (v141 x) (v146 x)
def v148 (x : In F) : (⟨S64x2048x1x4x4, .f32⟩ : BufTy).Contents (Elt F) :=
  extractStridedSlice S64x2048x1x4x4 ![0, 0, 21, 0, 0] (v85 x) slices_S64x2048x22x4x4_S64x2048x1x4x4_0_0_21_0_0
def v149 (x : In F) : (⟨S64x2048x4x4, .f32⟩ : BufTy).Contents (Elt F) :=
  shapeCast S64x2048x4x4 (v148 x) shapeCasts_S64x2048x1x4x4_S64x2048x4x4
def v150 (x : In F) : (⟨S64x2048x4x4, .f32⟩ : BufTy).Contents (Elt F) :=
  Host.dotGeneral dot_S64x2048x4x4_S64x2048x4x4_S64x2048x4x4_3_2_2_3_01_01 none (v144 x) (v149 x)
def v151 (x : In F) : (⟨S64x2048x1x4x4, .f32⟩ : BufTy).Contents (Elt F) :=
  broadcastInDim S64x2048x1x4x4 ![0, 1, 3, 4] bcast_S64x2048x4x4_S64x2048x1x4x4_0_1_3_4 (v87 x)
def v152 (x : In F) : (⟨S64x2048x1x4x4, .f32⟩ : BufTy).Contents (Elt F) :=
  broadcastInDim S64x2048x1x4x4 ![0, 1, 3, 4] bcast_S64x2048x4x4_S64x2048x1x4x4_0_1_3_4 (v90 x)
def v153 (x : In F) : (⟨S64x2048x1x4x4, .f32⟩ : BufTy).Contents (Elt F) :=
  broadcastInDim S64x2048x1x4x4 ![0, 1, 3, 4] bcast_S64x2048x4x4_S64x2048x1x4x4_0_1_3_4 (v93 x)
def v154 (x : In F) : (⟨S64x2048x1x4x4, .f32⟩ : BufTy).Contents (Elt F) :=
  broadcastInDim S64x2048x1x4x4 ![0, 1, 3, 4] bcast_S64x2048x4x4_S64x2048x1x4x4_0_1_3_4 (v96 x)
def v155 (x : In F) : (⟨S64x2048x1x4x4, .f32⟩ : BufTy).Contents (Elt F) :=
  broadcastInDim S64x2048x1x4x4 ![0, 1, 3, 4] bcast_S64x2048x4x4_S64x2048x1x4x4_0_1_3_4 (v99 x)
def v156 (x : In F) : (⟨S64x2048x1x4x4, .f32⟩ : BufTy).Contents (Elt F) :=
  broadcastInDim S64x2048x1x4x4 ![0, 1, 3, 4] bcast_S64x2048x4x4_S64x2048x1x4x4_0_1_3_4 (v102 x)
def v157 (x : In F) : (⟨S64x2048x1x4x4, .f32⟩ : BufTy).Contents (Elt F) :=
  broadcastInDim S64x2048x1x4x4 ![0, 1, 3, 4] bcast_S64x2048x4x4_S64x2048x1x4x4_0_1_3_4 (v105 x)
def v158 (x : In F) : (⟨S64x2048x1x4x4, .f32⟩ : BufTy).Contents (Elt F) :=
  broadcastInDim S64x2048x1x4x4 ![0, 1, 3, 4] bcast_S64x2048x4x4_S64x2048x1x4x4_0_1_3_4 (v108 x)
def v159 (x : In F) : (⟨S64x2048x1x4x4, .f32⟩ : BufTy).Contents (Elt F) :=
  broadcastInDim S64x2048x1x4x4 ![0, 1, 3, 4] bcast_S64x2048x4x4_S64x2048x1x4x4_0_1_3_4 (v111 x)
def v160 (x : In F) : (⟨S64x2048x1x4x4, .f32⟩ : BufTy).Contents (Elt F) :=
  broadcastInDim S64x2048x1x4x4 ![0, 1, 3, 4] bcast_S64x2048x4x4_S64x2048x1x4x4_0_1_3_4 (v114 x)
def v161 (x : In F) : (⟨S64x2048x1x4x4, .f32⟩ : BufTy).Contents (Elt F) :=
  broadcastInDim S64x2048x1x4x4 ![0, 1, 3, 4] bcast_S64x2048x4x4_S64x2048x1x4x4_0_1_3_4 (v117 x)
def v162 (x : In F) : (⟨S64x2048x1x4x4, .f32⟩ : BufTy).Contents (Elt F) :=
  broadcastInDim S64x2048x1x4x4 ![0, 1, 3, 4] bcast_S64x2048x4x4_S64x2048x1x4x4_0_1_3_4 (v120 x)
def v163 (x : In F) : (⟨S64x2048x1x4x4, .f32⟩ : BufTy).Contents (Elt F) :=
  broadcastInDim S64x2048x1x4x4 ![0, 1, 3, 4] bcast_S64x2048x4x4_S64x2048x1x4x4_0_1_3_4 (v123 x)
def v164 (x : In F) : (⟨S64x2048x1x4x4, .f32⟩ : BufTy).Contents (Elt F) :=
  broadcastInDim S64x2048x1x4x4 ![0, 1, 3, 4] bcast_S64x2048x4x4_S64x2048x1x4x4_0_1_3_4 (v126 x)
def v165 (x : In F) : (⟨S64x2048x1x4x4, .f32⟩ : BufTy).Contents (Elt F) :=
  broadcastInDim S64x2048x1x4x4 ![0, 1, 3, 4] bcast_S64x2048x4x4_S64x2048x1x4x4_0_1_3_4 (v129 x)
def v166 (x : In F) : (⟨S64x2048x1x4x4, .f32⟩ : BufTy).Contents (Elt F) :=
  broadcastInDim S64x2048x1x4x4 ![0, 1, 3, 4] bcast_S64x2048x4x4_S64x2048x1x4x4_0_1_3_4 (v132 x)
def v167 (x : In F) : (⟨S64x2048x1x4x4, .f32⟩ : BufTy).Contents (Elt F) :=
  broadcastInDim S64x2048x1x4x4 ![0, 1, 3, 4] bcast_S64x2048x4x4_S64x2048x1x4x4_0_1_3_4 (v135 x)
def v168 (x : In F) : (⟨S64x2048x1x4x4, .f32⟩ : BufTy).Contents (Elt F) :=
  broadcastInDim S64x2048x1x4x4 ![0, 1, 3, 4] bcast_S64x2048x4x4_S64x2048x1x4x4_0_1_3_4 (v138 x)
def v169 (x : In F) : (⟨S64x2048x1x4x4, .f32⟩ : BufTy).Contents (Elt F) :=
  broadcastInDim S64x2048x1x4x4 ![0, 1, 3, 4] bcast_S64x2048x4x4_S64x2048x1x4x4_0_1_3_4 (v141 x)
def v170 (x : In F) : (⟨S64x2048x1x4x4, .f32⟩ : BufTy).Contents (Elt F) :=
  broadcastInDim S64x2048x1x4x4 ![0, 1, 3, 4] bcast_S64x2048x4x4_S64x2048x1x4x4_0_1_3_4 (v144 x)
def v171 (x : In F) : (⟨S64x2048x1x4x4, .f32⟩ : BufTy).Contents (Elt F) :=
  broadcastInDim S64x2048x1x4x4 ![0, 1, 3, 4] bcast_S64x2048x4x4_S64x2048x1x4x4_0_1_3_4 (v147 x)
def v172 (x : In F) : (⟨S64x2048x1x4x4, .f32⟩ : BufTy).Contents (Elt F) :=
  broadcastInDim S64x2048x1x4x4 ![0, 1, 3, 4] bcast_S64x2048x4x4_S64x2048x1x4x4_0_1_3_4 (v150 x)
def v173 (x : In F) : (⟨S64x2048x16x4x4, .f32⟩ : BufTy).Contents (Elt F) :=
  concatenate S64x2048x16x4x4 2 [⟨S64x2048x1x4x4, (v151 x)⟩, ⟨S64x2048x1x4x4, (v152 x)⟩, ⟨S64x2048x1x4x4, (v153 x)⟩, ⟨S64x2048x1x4x4, (v154 x)⟩, ⟨S64x2048x1x4x4, (v155 x)⟩, ⟨S64x2048x1x4x4, (v156 x)⟩, ⟨S64x2048x1x4x4, (v157 x)⟩, ⟨S64x2048x1x4x4, (v158 x)⟩, ⟨S64x2048x1x4x4, (v159 x)⟩, ⟨S64x2048x1x4x4, (v160 x)⟩, ⟨S64x2048x1x4x4, (v161 x)⟩, ⟨S64x2048x1x4x4, (v162 x)⟩, ⟨S64x2048x1x4x4, (v163 x)⟩, ⟨S64x2048x1x4x4, (v164 x)⟩, ⟨S64x2048x1x4x4, (v165 x)⟩, ⟨S64x2048x1x4x4, (v166 x)⟩] concatenates_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x16x4x4_d2
def v174 (x : In F) : (⟨S64x2048x6x4x4, .f32⟩ : BufTy).Contents (Elt F) :=
  concatenate S64x2048x6x4x4 2 [⟨S64x2048x1x4x4, (v167 x)⟩, ⟨S64x2048x1x4x4, (v168 x)⟩, ⟨S64x2048x1x4x4, (v169 x)⟩, ⟨S64x2048x1x4x4, (v170 x)⟩, ⟨S64x2048x1x4x4, (v171 x)⟩, ⟨S64x2048x1x4x4, (v172 x)⟩] concatenates_S64x2048x1x4x4_S64x2048x1x4x4_S64x2048x1x4x4_S64x2048x1x4x4_S64x2048x1x4x4_S64x2048x1x4x4_S64x2048x6x4x4_d2
def v175 (x : In F) : (⟨S64x2048x22x4x4, .f32⟩ : BufTy).Contents (Elt F) :=
  concatenate S64x2048x22x4x4 2 [⟨S64x2048x16x4x4, (v173 x)⟩, ⟨S64x2048x6x4x4, (v174 x)⟩] concatenates_S64x2048x16x4x4_S64x2048x6x4x4_S64x2048x22x4x4_d2
def v176 (x : In F) : (⟨S64x2048x22x3x1, .f32⟩ : BufTy).Contents (Elt F) :=
  extractStridedSlice S64x2048x22x3x1 ![0, 0, 0, 0, 3] (v175 x) slices_S64x2048x22x4x4_S64x2048x22x3x1_0_0_0_0_3
def v177 (x : In F) : (⟨S64x2048x22x3, .f32⟩ : BufTy).Contents (Elt F) :=
  shapeCast S64x2048x22x3 (v176 x) shapeCasts_S64x2048x22x3x1_S64x2048x22x3

end Cert.ReferenceIdeal.RefTerm

end
-- ==== Proof.RefOps.lean ====
/-
  The reference program as a list of operations.

  @main is a straight line of 186 host operations, each writing ONE buffer that no other operation writes
  (single assignment), reading only buffers written earlier or arguments. So the contents after the whole
  line satisfy one equation per operation:
      after ops V y = f (after ops V a) (after ops V b)
  (the operations after the one that writes y leave y alone; none of the operations from that one on
  writes a or b, so what the operation read is what the line ends with). The equations are the `step_*`
  lemmas below, proved for any list of operations whose written references are listed (`SSA`).
  Then the program itself: its four windows as lists, `main = seq ops` window by window, and the list of
  references it writes.
-/
import proofs.«129627_j26603027432101_2_alg».proof.ReferenceIdeal
import Idealize.ShloMosaic.Lib.StableHlo.Run

set_option Elab.async false

noncomputable section

namespace Cert.ReferenceIdeal.RefOps

open Cert.ReferenceIdeal Idealize.ShloMosaic Idealize.ShloMosaic.TcCoe Idealize.SL.Sem Idealize.ShloMosaic.StableHlo

/-! ## Lists of operations in single-assignment form -/

section General

variable {τ : Topo} {sig : RefSig} {Val : EltTy → Type}

/-- Two lines run one after the other: the second starts from what the first leaves. -/
theorem after_app (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Operation k of `l` writes exactly the reference k of `W`. -/
def SSA (l : List (HloOp τ sig Val)) (W : List (Ref sig .tc)) : Prop :=
  l.map HloOp.writes = W.map fun w => ({Proc.devRef (τ := τ) .tc w} : Finset (DevRef τ sig))

theorem SSA.drop {l : List (HloOp τ sig Val)} {W : List (Ref sig .tc)} (h : SSA l W) (k : Nat) :
    SSA (l.drop k) (W.drop k) := by
  unfold SSA at h ⊢
  rw [List.map_drop, List.map_drop, h]

/-- A reference not in the list is written by no operation. -/
theorem not_written {l : List (HloOp τ sig Val)} {W : List (Ref sig .tc)} (h : SSA l W) {b : Ref sig .tc} (hb : b ∉ W) :
    ∀ op ∈ l, Proc.devRef (τ := τ) .tc b ∉ op.writes := by
  intro op hop hmem
  have hw : op.writes ∈ l.map HloOp.writes := List.mem_map_of_mem hop
  rw [h] at hw
  obtain ⟨w, hwW, e⟩ := List.mem_map.mp hw
  rw [← e, Finset.mem_singleton] at hmem
  exact hb (Proc.devRef_injective _ hmem ▸ hwW)

/-- A reference none of the operations from k on writes: the whole line leaves it as the first k do. -/
theorem after_read_at {l : List (HloOp τ sig Val)} {W : List (Ref sig .tc)} (h : SSA l W) (k : Nat) {b : Ref sig .tc}
    (hb : b ∉ W.drop k) (V : Valuation τ sig Val) :
    after l V (Proc.devRef .tc b) = after (l.take k) V (Proc.devRef .tc b) := by
  have e : after l V = after (l.drop k) (after (l.take k) V) := by
    rw [← after_app, List.take_append_drop]
  rw [e]
  exact after_of_forall_not_mem _ _ (not_written (h.drop k) hb)

/-- A reference none of the operations after k writes: the whole line leaves it as operation k does. -/
theorem after_write_at {l : List (HloOp τ sig Val)} {W : List (Ref sig .tc)} (h : SSA l W) (k : Nat) (hk : k < l.length)
    {y : Ref sig .tc} (hy : y ∉ W.drop (k + 1)) (V : Valuation τ sig Val) :
    after l V (Proc.devRef .tc y) = (l[k]).result (after (l.take k) V) (Proc.devRef .tc y) := by
  have e : after l V = after (l.drop (k + 1)) ((l[k]).result (after (l.take k) V)) := by
    rw [← after_cons, ← after_app, List.getElem_cons_drop, List.take_append_drop]
  rw [e]
  exact after_of_forall_not_mem _ _ (not_written (h.drop (k + 1)) hy)

variable {l : List (HloOp τ sig Val)} {W : List (Ref sig .tc)}

/-! The equation of each kind of operation, at the contents the whole line ends with. -/

theorem step_nullary (h : SSA l W) (k : Nat) (hk : k < l.length) (y : Ref sig .tc) (v : y.ty.Contents Val) (hy)
    (hop : l[k] = nullary y v hy) (hyW : y ∉ W.drop (k + 1)) (V : Valuation τ sig Val) :
    after l V (Proc.devRef .tc y) = v := by
  rw [after_write_at h k hk hyW V, hop]
  exact nullary_result y v hy _

theorem step_unary (h : SSA l W) (k : Nat) (hk : k < l.length) (a y : Ref sig .tc)
    (f : a.ty.Contents Val → y.ty.Contents Val) (ha hy)
    (hop : l[k] = unary a y f ha hy) (hyW : y ∉ W.drop (k + 1)) (haW : a ∉ W.drop k) (V : Valuation τ sig Val) :
    after l V (Proc.devRef .tc y) = f (after l V (Proc.devRef .tc a)) := by
  rw [after_write_at h k hk hyW V, hop, after_read_at h k haW V]
  exact unary_result a y f ha hy _

theorem step_binary (h : SSA l W) (k : Nat) (hk : k < l.length) (a b y : Ref sig .tc)
    (f : a.ty.Contents Val → b.ty.Contents Val → y.ty.Contents Val) (ha hb hy)
    (hop : l[k] = binary a b y f ha hb hy) (hyW : y ∉ W.drop (k + 1)) (haW : a ∉ W.drop k) (hbW : b ∉ W.drop k)
    (V : Valuation τ sig Val) :
    after l V (Proc.devRef .tc y) = f (after l V (Proc.devRef .tc a)) (after l V (Proc.devRef .tc b)) := by
  rw [after_write_at h k hk hyW V, hop, after_read_at h k haW V, after_read_at h k hbW V]
  exact binary_result a b y f ha hb hy _

theorem step_ternary (h : SSA l W) (k : Nat) (hk : k < l.length) (c a b y : Ref sig .tc)
    (f : c.ty.Contents Val → a.ty.Contents Val → b.ty.Contents Val → y.ty.Contents Val) (hc ha hb hy)
    (hop : l[k] = ternary c a b y f hc ha hb hy) (hyW : y ∉ W.drop (k + 1))
    (hcW : c ∉ W.drop k) (haW : a ∉ W.drop k) (hbW : b ∉ W.drop k) (V : Valuation τ sig Val) :
    after l V (Proc.devRef .tc y)
      = f (after l V (Proc.devRef .tc c)) (after l V (Proc.devRef .tc a)) (after l V (Proc.devRef .tc b)) := by
  rw [after_write_at h k hk hyW V, hop, after_read_at h k hcW V, after_read_at h k haW V, after_read_at h k hbW V]
  exact ternary_result c a b y f hc ha hb hy _

theorem step_reshape (h : SSA l W) (k : Nat) (hk : k < l.length) (a y : Ref sig .tc)
    (he : a.ty.elt = y.ty.elt) (hn : a.ty.shape.ShapeCasts y.ty.shape) (ha hy)
    (hop : l[k] = reshape a y he hn ha hy) (hyW : y ∉ W.drop (k + 1)) (haW : a ∉ W.drop k) (V : Valuation τ sig Val) :
    after l V (Proc.devRef .tc y) = fun i => he ▸ shapeCast y.ty.shape (after l V (Proc.devRef .tc a)) hn i := by
  rw [after_write_at h k hk hyW V, hop, after_read_at h k haW V]
  exact reshape_result a y he hn ha hy _

theorem step_nary {n : Nat} (h : SSA l W) (k : Nat) (hk : k < l.length) (xs : Fin n → Ref sig .tc) (y : Ref sig .tc)
    (f : ((j : Fin n) → (xs j).ty.Contents Val) → y.ty.Contents Val) (hxs hy)
    (hop : l[k] = nary xs y f hxs hy) (hyW : y ∉ W.drop (k + 1)) (hxW : ∀ j, xs j ∉ W.drop k) (V : Valuation τ sig Val) :
    after l V (Proc.devRef .tc y) = f (fun j => after l V (Proc.devRef .tc (xs j))) := by
  rw [after_write_at h k hk hyW V, hop, nary_result]
  congr 1
  funext j
  exact (after_read_at h k (hxW j) V).symm

end General

/-! ## The program as a list -/

variable {F : FTy → Type} [FloatOps F] [Cert.ReferenceIdeal.Facts]
open Cert.ReferenceIdeal.Facts₀ Cert.ReferenceIdeal.Facts

/-- @main's operations 1 … 60 of 186. -/
abbrev ops_part0 : List (HloOp τ sig (Elt F)) :=
  [ StableHlo.nullary main_c (fun i => lit0 (S22.rowMajor i)),
    StableHlo.nullary main_cst (fun i => FloatOps.ofBits .f32 (lit1 (S4.rowMajor i))),
    StableHlo.binary main_arg2 main_arg0 main_v0 ((fun a b => concatenate S64x2048x66 2 [⟨S64x2048x3, a⟩, ⟨S64x2048x63, b⟩] concatenates_S64x2048x3_S64x2048x63_S64x2048x66_d2) : (⟨S64x2048x3, .f32⟩ : BufTy).Contents (Elt F) → (⟨S64x2048x63, .f32⟩ : BufTy).Contents (Elt F) → (⟨S64x2048x66, .f32⟩ : BufTy).Contents (Elt F)),
    StableHlo.reshape main_v0 main_v1 rfl shapeCasts_S64x2048x66_S64x2048x22x3,
    StableHlo.binary main_v1 main_v1 main_v2 (mulf : (⟨S64x2048x22x3, .f32⟩ : BufTy).Contents (Elt F) → (⟨S64x2048x22x3, .f32⟩ : BufTy).Contents (Elt F) → (⟨S64x2048x22x3, .f32⟩ : BufTy).Contents (Elt F)),
    StableHlo.nullary main_cst_0 (constant S_ .f32 0x00000000#32),
    StableHlo.binary main_v2 main_cst_0 main_v3 ((fun x v => Host.reduceAdd x v reducesTo_S64x2048x22x3_S64x2048x22_d3 h_S_) : (⟨S64x2048x22x3, .f32⟩ : BufTy).Contents (Elt F) → (⟨S_, .f32⟩ : BufTy).Contents (Elt F) → (⟨S64x2048x22, .f32⟩ : BufTy).Contents (Elt F)),
    StableHlo.unary main_v3 main_v4 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.nullary main_cst_1 (constant S_ .f32 0x2B8CBCCC#32),
    StableHlo.unary main_cst_1 main_v5 (broadcastInDim S64x2048x22x1 ![] bcast_S_S64x2048x22x1 : (⟨S_, .f32⟩ : BufTy).Contents (Elt F) → (⟨S64x2048x22x1, .f32⟩ : BufTy).Contents (Elt F)),
    StableHlo.binary main_v4 main_v5 main_v6 (addf : (⟨S64x2048x22x1, .f32⟩ : BufTy).Contents (Elt F) → (⟨S64x2048x22x1, .f32⟩ : BufTy).Contents (Elt F) → (⟨S64x2048x22x1, .f32⟩ : BufTy).Contents (Elt F)),
    StableHlo.unary main_v6 main_v7 (Host.sqrt : (⟨S64x2048x22x1, .f32⟩ : BufTy).Contents (Elt F) → (⟨S64x2048x22x1, .f32⟩ : BufTy).Contents (Elt F)),
    StableHlo.unary main_v7 main_v8 (broadcastInDim S64x2048x22x3 ![0, 1, 2, 3] bcast_S64x2048x22x1_S64x2048x22x3_0_1_2_3 : (⟨S64x2048x22x1, .f32⟩ : BufTy).Contents (Elt F) → (⟨S64x2048x22x3, .f32⟩ : BufTy).Contents (Elt F)),
    StableHlo.binary main_v1 main_v8 main_v9 (Host.divf : (⟨S64x2048x22x3, .f32⟩ : BufTy).Contents (Elt F) → (⟨S64x2048x22x3, .f32⟩ : BufTy).Contents (Elt F) → (⟨S64x2048x22x3, .f32⟩ : BufTy).Contents (Elt F)),
    StableHlo.unary main_v9 main_v10 ((extractStridedSlice S64x2048x22x1 ![0, 0, 0, 0] · slices_S64x2048x22x3_S64x2048x22x1_0_0_0_0) : (⟨S64x2048x22x3, .f32⟩ : BufTy).Contents (Elt F) → (⟨S64x2048x22x1, .f32⟩ : BufTy).Contents (Elt F)),
    StableHlo.reshape main_v10 main_v11 rfl shapeCasts_S64x2048x22x1_S64x2048x22,
    StableHlo.unary main_v9 main_v12 ((extractStridedSlice S64x2048x22x1 ![0, 0, 0, 1] · slices_S64x2048x22x3_S64x2048x22x1_0_0_0_1) : (⟨S64x2048x22x3, .f32⟩ : BufTy).Contents (Elt F) → (⟨S64x2048x22x1, .f32⟩ : BufTy).Contents (Elt F)),
    StableHlo.reshape main_v12 main_v13 rfl shapeCasts_S64x2048x22x1_S64x2048x22,
    StableHlo.unary main_v9 main_v14 ((extractStridedSlice S64x2048x22x1 ![0, 0, 0, 2] · slices_S64x2048x22x3_S64x2048x22x1_0_0_0_2) : (⟨S64x2048x22x3, .f32⟩ : BufTy).Contents (Elt F) → (⟨S64x2048x22x1, .f32⟩ : BufTy).Contents (Elt F)),
    StableHlo.reshape main_v14 main_v15 rfl shapeCasts_S64x2048x22x1_S64x2048x22,
    StableHlo.reshape main_v7 main_v16 rfl shapeCasts_S64x2048x22x1_S64x2048x22,
    StableHlo.unary main_v16 main_v17 (Host.cos : (⟨S64x2048x22, .f32⟩ : BufTy).Contents (Elt F) → (⟨S64x2048x22, .f32⟩ : BufTy).Contents (Elt F)),
    StableHlo.unary main_v16 main_v18 (Host.sin : (⟨S64x2048x22, .f32⟩ : BufTy).Contents (Elt F) → (⟨S64x2048x22, .f32⟩ : BufTy).Contents (Elt F)),
    StableHlo.nullary main_cst_2 (constant S_ .f32 0x3F800000#32),
    StableHlo.unary main_cst_2 main_v19 (broadcastInDim S64x2048x22 ![] bcast_S_S64x2048x22 : (⟨S_, .f32⟩ : BufTy).Contents (Elt F) → (⟨S64x2048x22, .f32⟩ : BufTy).Contents (Elt F)),
    StableHlo.binary main_v19 main_v17 main_v20 (subf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v11 main_v21 (mulf : (⟨S64x2048x22, .f32⟩ : BufTy).Contents (Elt F) → (⟨S64x2048x22, .f32⟩ : BufTy).Contents (Elt F) → (⟨S64x2048x22, .f32⟩ : BufTy).Contents (Elt F)),
    StableHlo.binary main_v21 main_v11 main_v22 (mulf : (⟨S64x2048x22, .f32⟩ : BufTy).Contents (Elt F) → (⟨S64x2048x22, .f32⟩ : BufTy).Contents (Elt F) → (⟨S64x2048x22, .f32⟩ : BufTy).Contents (Elt F)),
    StableHlo.binary main_v22 main_v17 main_v23 (addf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v11 main_v24 (mulf : (⟨S64x2048x22, .f32⟩ : BufTy).Contents (Elt F) → (⟨S64x2048x22, .f32⟩ : BufTy).Contents (Elt F) → (⟨S64x2048x22, .f32⟩ : BufTy).Contents (Elt F)),
    StableHlo.binary main_v24 main_v13 main_v25 (mulf : (⟨S64x2048x22, .f32⟩ : BufTy).Contents (Elt F) → (⟨S64x2048x22, .f32⟩ : BufTy).Contents (Elt F) → (⟨S64x2048x22, .f32⟩ : BufTy).Contents (Elt F)),
    StableHlo.binary main_v18 main_v15 main_v26 (mulf : (⟨S64x2048x22, .f32⟩ : BufTy).Contents (Elt F) → (⟨S64x2048x22, .f32⟩ : BufTy).Contents (Elt F) → (⟨S64x2048x22, .f32⟩ : BufTy).Contents (Elt F)),
    StableHlo.binary main_v25 main_v26 main_v27 (subf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v11 main_v28 (mulf : (⟨S64x2048x22, .f32⟩ : BufTy).Contents (Elt F) → (⟨S64x2048x22, .f32⟩ : BufTy).Contents (Elt F) → (⟨S64x2048x22, .f32⟩ : BufTy).Contents (Elt F)),
    StableHlo.binary main_v28 main_v15 main_v29 (mulf : (⟨S64x2048x22, .f32⟩ : BufTy).Contents (Elt F) → (⟨S64x2048x22, .f32⟩ : BufTy).Contents (Elt F) → (⟨S64x2048x22, .f32⟩ : BufTy).Contents (Elt F)),
    StableHlo.binary main_v18 main_v13 main_v30 (mulf : (⟨S64x2048x22, .f32⟩ : BufTy).Contents (Elt F) → (⟨S64x2048x22, .f32⟩ : BufTy).Contents (Elt F) → (⟨S64x2048x22, .f32⟩ : BufTy).Contents (Elt F)),
    StableHlo.binary main_v29 main_v30 main_v31 (addf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v11 main_v32 (mulf : (⟨S64x2048x22, .f32⟩ : BufTy).Contents (Elt F) → (⟨S64x2048x22, .f32⟩ : BufTy).Contents (Elt F) → (⟨S64x2048x22, .f32⟩ : BufTy).Contents (Elt F)),
    StableHlo.binary main_v32 main_v13 main_v33 (mulf : (⟨S64x2048x22, .f32⟩ : BufTy).Contents (Elt F) → (⟨S64x2048x22, .f32⟩ : BufTy).Contents (Elt F) → (⟨S64x2048x22, .f32⟩ : BufTy).Contents (Elt F)),
    StableHlo.binary main_v18 main_v15 main_v34 (mulf : (⟨S64x2048x22, .f32⟩ : BufTy).Contents (Elt F) → (⟨S64x2048x22, .f32⟩ : BufTy).Contents (Elt F) → (⟨S64x2048x22, .f32⟩ : BufTy).Contents (Elt F)),
    StableHlo.binary main_v33 main_v34 main_v35 (addf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v13 main_v36 (mulf : (⟨S64x2048x22, .f32⟩ : BufTy).Contents (Elt F) → (⟨S64x2048x22, .f32⟩ : BufTy).Contents (Elt F) → (⟨S64x2048x22, .f32⟩ : BufTy).Contents (Elt F)),
    StableHlo.binary main_v36 main_v13 main_v37 (mulf : (⟨S64x2048x22, .f32⟩ : BufTy).Contents (Elt F) → (⟨S64x2048x22, .f32⟩ : BufTy).Contents (Elt F) → (⟨S64x2048x22, .f32⟩ : BufTy).Contents (Elt F)),
    StableHlo.binary main_v37 main_v17 main_v38 (addf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v13 main_v39 (mulf : (⟨S64x2048x22, .f32⟩ : BufTy).Contents (Elt F) → (⟨S64x2048x22, .f32⟩ : BufTy).Contents (Elt F) → (⟨S64x2048x22, .f32⟩ : BufTy).Contents (Elt F)),
    StableHlo.binary main_v39 main_v15 main_v40 (mulf : (⟨S64x2048x22, .f32⟩ : BufTy).Contents (Elt F) → (⟨S64x2048x22, .f32⟩ : BufTy).Contents (Elt F) → (⟨S64x2048x22, .f32⟩ : BufTy).Contents (Elt F)),
    StableHlo.binary main_v18 main_v11 main_v41 (mulf : (⟨S64x2048x22, .f32⟩ : BufTy).Contents (Elt F) → (⟨S64x2048x22, .f32⟩ : BufTy).Contents (Elt F) → (⟨S64x2048x22, .f32⟩ : BufTy).Contents (Elt F)),
    StableHlo.binary main_v40 main_v41 main_v42 (subf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v11 main_v43 (mulf : (⟨S64x2048x22, .f32⟩ : BufTy).Contents (Elt F) → (⟨S64x2048x22, .f32⟩ : BufTy).Contents (Elt F) → (⟨S64x2048x22, .f32⟩ : BufTy).Contents (Elt F)),
    StableHlo.binary main_v43 main_v15 main_v44 (mulf : (⟨S64x2048x22, .f32⟩ : BufTy).Contents (Elt F) → (⟨S64x2048x22, .f32⟩ : BufTy).Contents (Elt F) → (⟨S64x2048x22, .f32⟩ : BufTy).Contents (Elt F)),
    StableHlo.binary main_v18 main_v13 main_v45 (mulf : (⟨S64x2048x22, .f32⟩ : BufTy).Contents (Elt F) → (⟨S64x2048x22, .f32⟩ : BufTy).Contents (Elt F) → (⟨S64x2048x22, .f32⟩ : BufTy).Contents (Elt F)),
    StableHlo.binary main_v44 main_v45 main_v46 (subf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v13 main_v47 (mulf : (⟨S64x2048x22, .f32⟩ : BufTy).Contents (Elt F) → (⟨S64x2048x22, .f32⟩ : BufTy).Contents (Elt F) → (⟨S64x2048x22, .f32⟩ : BufTy).Contents (Elt F)),
    StableHlo.binary main_v47 main_v15 main_v48 (mulf : (⟨S64x2048x22, .f32⟩ : BufTy).Contents (Elt F) → (⟨S64x2048x22, .f32⟩ : BufTy).Contents (Elt F) → (⟨S64x2048x22, .f32⟩ : BufTy).Contents (Elt F)),
    StableHlo.binary main_v18 main_v11 main_v49 (mulf : (⟨S64x2048x22, .f32⟩ : BufTy).Contents (Elt F) → (⟨S64x2048x22, .f32⟩ : BufTy).Contents (Elt F) → (⟨S64x2048x22, .f32⟩ : BufTy).Contents (Elt F)),
    StableHlo.binary main_v48 main_v49 main_v50 (addf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v15 main_v51 (mulf : (⟨S64x2048x22, .f32⟩ : BufTy).Contents (Elt F) → (⟨S64x2048x22, .f32⟩ : BufTy).Contents (Elt F) → (⟨S64x2048x22, .f32⟩ : BufTy).Contents (Elt F)),
    StableHlo.binary main_v51 main_v15 main_v52 (mulf : (⟨S64x2048x22, .f32⟩ : BufTy).Contents (Elt F) → (⟨S64x2048x22, .f32⟩ : BufTy).Contents (Elt F) → (⟨S64x2048x22, .f32⟩ : BufTy).Contents (Elt F)),
    StableHlo.binary main_v52 main_v17 main_v53 (addf : (⟨S64x2048x22, .f32⟩ : BufTy).Contents (Elt F) → (⟨S64x2048x22, .f32⟩ : BufTy).Contents (Elt F) → (⟨S64x2048x22, .f32⟩ : BufTy).Contents (Elt F)),
    StableHlo.unary main_v23 main_v54 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) ]

/-- @main's operations 61 … 120 of 186. -/
abbrev ops_part1 : List (HloOp τ sig (Elt F)) :=
  [ StableHlo.unary main_v27 main_v55 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v31 main_v56 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v35 main_v57 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v38 main_v58 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v42 main_v59 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v46 main_v60 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v50 main_v61 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v53 main_v62 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.nary ![main_v54, main_v55, main_v56, main_v57, main_v58, main_v59, main_v60, main_v61, main_v62] main_v63 (fun u => concatenate S64x2048x22x9 3 [⟨S64x2048x22x1, u 0⟩, ⟨S64x2048x22x1, u 1⟩, ⟨S64x2048x22x1, u 2⟩, ⟨S64x2048x22x1, u 3⟩, ⟨S64x2048x22x1, u 4⟩, ⟨S64x2048x22x1, u 5⟩, ⟨S64x2048x22x1, u 6⟩, ⟨S64x2048x22x1, u 7⟩, ⟨S64x2048x22x1, u 8⟩] concatenates_S64x2048x22x1_S64x2048x22x1_S64x2048x22x1_S64x2048x22x1_S64x2048x22x1_S64x2048x22x1_S64x2048x22x1_S64x2048x22x1_S64x2048x22x1_S64x2048x22x9_d3),
    StableHlo.reshape main_v63 main_v64 rfl shapeCasts_S64x2048x22x9_S64x2048x22x3x3,
    StableHlo.unary main_arg4 main_v65 (broadcastInDim S1x1x22x3 ![2, 3] bcast_S22x3_S1x1x22x3_2_3 : (⟨S22x3, .f32⟩ : BufTy).Contents (Elt F) → (⟨S1x1x22x3, .f32⟩ : BufTy).Contents (Elt F)),
    StableHlo.binary main_arg1 main_arg5 main_v66 ((fun l r => Host.dotGeneral dot_S64x2048x10_S22x3x10_S64x2048x22x3_2_2_01_01_n_n none l r) : (⟨S64x2048x10, .f32⟩ : BufTy).Contents (Elt F) → (⟨S22x3x10, .f32⟩ : BufTy).Contents (Elt F) → (⟨S64x2048x22x3, .f32⟩ : BufTy).Contents (Elt F)),
    StableHlo.unary main_v65 main_v67 (broadcastInDim S64x2048x22x3 ![0, 1, 2, 3] bcast_S1x1x22x3_S64x2048x22x3_0_1_2_3 : (⟨S1x1x22x3, .f32⟩ : BufTy).Contents (Elt F) → (⟨S64x2048x22x3, .f32⟩ : BufTy).Contents (Elt F)),
    StableHlo.binary main_v67 main_v66 main_v68 (addf : (⟨S64x2048x22x3, .f32⟩ : BufTy).Contents (Elt F) → (⟨S64x2048x22x3, .f32⟩ : BufTy).Contents (Elt F) → (⟨S64x2048x22x3, .f32⟩ : BufTy).Contents (Elt F)),
    StableHlo.nullary main_c_3 (constantI S_ 32 0#32),
    StableHlo.unary main_c_3 main_v69 (broadcastInDim S22 ![] bcast_S_S22 : (⟨S_, .i32⟩ : BufTy).Contents (Elt F) → (⟨S22, .i32⟩ : BufTy).Contents (Elt F)),
    StableHlo.binary main_c main_v69 main_v70 (cmpi .slt : (⟨S22, .i32⟩ : BufTy).Contents (Elt F) → (⟨S22, .i32⟩ : BufTy).Contents (Elt F) → (⟨S22, .i1⟩ : BufTy).Contents (Elt F)),
    StableHlo.nullary main_c_4 (constantI S_ 32 22#32),
    StableHlo.unary main_c_4 main_v71 (broadcastInDim S22 ![] bcast_S_S22 : (⟨S_, .i32⟩ : BufTy).Contents (Elt F) → (⟨S22, .i32⟩ : BufTy).Contents (Elt F)),
    StableHlo.binary main_c main_v71 main_v72 (addi : (⟨S22, .i32⟩ : BufTy).Contents (Elt F) → (⟨S22, .i32⟩ : BufTy).Contents (Elt F) → (⟨S22, .i32⟩ : BufTy).Contents (Elt F)),
    StableHlo.ternary main_v70 main_v72 main_c main_v73 (select : (⟨S22, .i1⟩ : BufTy).Contents (Elt F) → (⟨S22, .i32⟩ : BufTy).Contents (Elt F) → (⟨S22, .i32⟩ : BufTy).Contents (Elt F) → (⟨S22, .i32⟩ : BufTy).Contents (Elt F)),
    StableHlo.unary main_v73 main_v74 (broadcastInDim S22x1 ![0] bcast_S22_S22x1_0 : (⟨S22, .i32⟩ : BufTy).Contents (Elt F) → (⟨S22x1, .i32⟩ : BufTy).Contents (Elt F)),
    StableHlo.binary main_v68 main_v74 main_v75 ((fun x i => Host.gather gather_S64x2048x22x3_S22x1_S64x2048x22x3_013_2_n_n_2_1_64204813 x i) : (⟨S64x2048x22x3, .f32⟩ : BufTy).Contents (Elt F) → (⟨S22x1, .i32⟩ : BufTy).Contents (Elt F) → (⟨S64x2048x22x3, .f32⟩ : BufTy).Contents (Elt F)),
    StableHlo.binary main_v68 main_v75 main_v76 (subf : (⟨S64x2048x22x3, .f32⟩ : BufTy).Contents (Elt F) → (⟨S64x2048x22x3, .f32⟩ : BufTy).Contents (Elt F) → (⟨S64x2048x22x3, .f32⟩ : BufTy).Contents (Elt F)),
    StableHlo.unary main_v68 main_v77 ((extractStridedSlice S64x2048x1x3 ![0, 0, 0, 0] · slices_S64x2048x22x3_S64x2048x1x3_0_0_0_0) : (⟨S64x2048x22x3, .f32⟩ : BufTy).Contents (Elt F) → (⟨S64x2048x1x3, .f32⟩ : BufTy).Contents (Elt F)),
    StableHlo.reshape main_v77 main_v78 rfl shapeCasts_S64x2048x1x3_S64x2048x3,
    StableHlo.binary main_v78 main_arg3 main_v79 (addf : (⟨S64x2048x3, .f32⟩ : BufTy).Contents (Elt F) → (⟨S64x2048x3, .f32⟩ : BufTy).Contents (Elt F) → (⟨S64x2048x3, .f32⟩ : BufTy).Contents (Elt F)),
    StableHlo.nullary main_c_5 (constantI S_ 32 0#32),
    StableHlo.unary main_c_5 main_v80 (broadcastInDim S1 ![] bcast_S_S1 : (⟨S_, .i32⟩ : BufTy).Contents (Elt F) → (⟨S1, .i32⟩ : BufTy).Contents (Elt F)),
    StableHlo.ternary main_v76 main_v80 main_v79 main_v81 ((fun x i u => Host.scatter scatter_S64x2048x22x3_S1_S64x2048x3_012_2_2_0 (fun _ b => b) x i u) : (⟨S64x2048x22x3, .f32⟩ : BufTy).Contents (Elt F) → (⟨S1, .i32⟩ : BufTy).Contents (Elt F) → (⟨S64x2048x3, .f32⟩ : BufTy).Contents (Elt F) → (⟨S64x2048x22x3, .f32⟩ : BufTy).Contents (Elt F)),
    StableHlo.unary main_v81 main_v82 (broadcastInDim S64x2048x22x3x1 ![0, 1, 2, 3] bcast_S64x2048x22x3_S64x2048x22x3x1_0_1_2_3 : (⟨S64x2048x22x3, .f32⟩ : BufTy).Contents (Elt F) → (⟨S64x2048x22x3x1, .f32⟩ : BufTy).Contents (Elt F)),
    StableHlo.binary main_v64 main_v82 main_v83 ((fun a b => concatenate S64x2048x22x3x4 4 [⟨S64x2048x22x3x3, a⟩, ⟨S64x2048x22x3x1, b⟩] concatenates_S64x2048x22x3x3_S64x2048x22x3x1_S64x2048x22x3x4_d4) : (⟨S64x2048x22x3x3, .f32⟩ : BufTy).Contents (Elt F) → (⟨S64x2048x22x3x1, .f32⟩ : BufTy).Contents (Elt F) → (⟨S64x2048x22x3x4, .f32⟩ : BufTy).Contents (Elt F)),
    StableHlo.unary main_cst main_v84 (broadcastInDim S64x2048x22x1x4 ![4] bcast_S4_S64x2048x22x1x4_4 : (⟨S4, .f32⟩ : BufTy).Contents (Elt F) → (⟨S64x2048x22x1x4, .f32⟩ : BufTy).Contents (Elt F)),
    StableHlo.binary main_v83 main_v84 main_v85 ((fun a b => concatenate S64x2048x22x4x4 3 [⟨S64x2048x22x3x4, a⟩, ⟨S64x2048x22x1x4, b⟩] concatenates_S64x2048x22x3x4_S64x2048x22x1x4_S64x2048x22x4x4_d3) : (⟨S64x2048x22x3x4, .f32⟩ : BufTy).Contents (Elt F) → (⟨S64x2048x22x1x4, .f32⟩ : BufTy).Contents (Elt F) → (⟨S64x2048x22x4x4, .f32⟩ : BufTy).Contents (Elt F)),
    StableHlo.unary main_v85 main_v86 ((extractStridedSlice S64x2048x1x4x4 ![0, 0, 0, 0, 0] · slices_S64x2048x22x4x4_S64x2048x1x4x4_0_0_0_0_0) : (⟨S64x2048x22x4x4, .f32⟩ : BufTy).Contents (Elt F) → (⟨S64x2048x1x4x4, .f32⟩ : BufTy).Contents (Elt F)),
    StableHlo.reshape main_v86 main_v87 rfl shapeCasts_S64x2048x1x4x4_S64x2048x4x4,
    StableHlo.unary main_v85 main_v88 ((extractStridedSlice S64x2048x1x4x4 ![0, 0, 1, 0, 0] · slices_S64x2048x22x4x4_S64x2048x1x4x4_0_0_1_0_0) : (⟨S64x2048x22x4x4, .f32⟩ : BufTy).Contents (Elt F) → (⟨S64x2048x1x4x4, .f32⟩ : BufTy).Contents (Elt F)),
    StableHlo.reshape main_v88 main_v89 rfl shapeCasts_S64x2048x1x4x4_S64x2048x4x4,
    StableHlo.binary main_v87 main_v89 main_v90 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v91 ((extractStridedSlice S64x2048x1x4x4 ![0, 0, 2, 0, 0] · slices_S64x2048x22x4x4_S64x2048x1x4x4_0_0_2_0_0) : (⟨S64x2048x22x4x4, .f32⟩ : BufTy).Contents (Elt F) → (⟨S64x2048x1x4x4, .f32⟩ : BufTy).Contents (Elt F)),
    StableHlo.reshape main_v91 main_v92 rfl shapeCasts_S64x2048x1x4x4_S64x2048x4x4,
    StableHlo.binary main_v87 main_v92 main_v93 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v94 ((extractStridedSlice S64x2048x1x4x4 ![0, 0, 3, 0, 0] · slices_S64x2048x22x4x4_S64x2048x1x4x4_0_0_3_0_0) : (⟨S64x2048x22x4x4, .f32⟩ : BufTy).Contents (Elt F) → (⟨S64x2048x1x4x4, .f32⟩ : BufTy).Contents (Elt F)),
    StableHlo.reshape main_v94 main_v95 rfl shapeCasts_S64x2048x1x4x4_S64x2048x4x4,
    StableHlo.binary main_v87 main_v95 main_v96 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v97 ((extractStridedSlice S64x2048x1x4x4 ![0, 0, 4, 0, 0] · slices_S64x2048x22x4x4_S64x2048x1x4x4_0_0_4_0_0) : (⟨S64x2048x22x4x4, .f32⟩ : BufTy).Contents (Elt F) → (⟨S64x2048x1x4x4, .f32⟩ : BufTy).Contents (Elt F)),
    StableHlo.reshape main_v97 main_v98 rfl shapeCasts_S64x2048x1x4x4_S64x2048x4x4,
    StableHlo.binary main_v90 main_v98 main_v99 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v100 ((extractStridedSlice S64x2048x1x4x4 ![0, 0, 5, 0, 0] · slices_S64x2048x22x4x4_S64x2048x1x4x4_0_0_5_0_0) : (⟨S64x2048x22x4x4, .f32⟩ : BufTy).Contents (Elt F) → (⟨S64x2048x1x4x4, .f32⟩ : BufTy).Contents (Elt F)),
    StableHlo.reshape main_v100 main_v101 rfl shapeCasts_S64x2048x1x4x4_S64x2048x4x4,
    StableHlo.binary main_v93 main_v101 main_v102 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v103 ((extractStridedSlice S64x2048x1x4x4 ![0, 0, 6, 0, 0] · slices_S64x2048x22x4x4_S64x2048x1x4x4_0_0_6_0_0) : (⟨S64x2048x22x4x4, .f32⟩ : BufTy).Contents (Elt F) → (⟨S64x2048x1x4x4, .f32⟩ : BufTy).Contents (Elt F)),
    StableHlo.reshape main_v103 main_v104 rfl shapeCasts_S64x2048x1x4x4_S64x2048x4x4,
    StableHlo.binary main_v96 main_v104 main_v105 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v106 ((extractStridedSlice S64x2048x1x4x4 ![0, 0, 7, 0, 0] · slices_S64x2048x22x4x4_S64x2048x1x4x4_0_0_7_0_0) : (⟨S64x2048x22x4x4, .f32⟩ : BufTy).Contents (Elt F) → (⟨S64x2048x1x4x4, .f32⟩ : BufTy).Contents (Elt F)),
    StableHlo.reshape main_v106 main_v107 rfl shapeCasts_S64x2048x1x4x4_S64x2048x4x4,
    StableHlo.binary main_v99 main_v107 main_v108 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v109 ((extractStridedSlice S64x2048x1x4x4 ![0, 0, 8, 0, 0] · slices_S64x2048x22x4x4_S64x2048x1x4x4_0_0_8_0_0) : (⟨S64x2048x22x4x4, .f32⟩ : BufTy).Contents (Elt F) → (⟨S64x2048x1x4x4, .f32⟩ : BufTy).Contents (Elt F)),
    StableHlo.reshape main_v109 main_v110 rfl shapeCasts_S64x2048x1x4x4_S64x2048x4x4,
    StableHlo.binary main_v102 main_v110 main_v111 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) ]

/-- @main's operations 121 … 180 of 186. -/
abbrev ops_part2 : List (HloOp τ sig (Elt F)) :=
  [ StableHlo.unary main_v85 main_v112 ((extractStridedSlice S64x2048x1x4x4 ![0, 0, 9, 0, 0] · slices_S64x2048x22x4x4_S64x2048x1x4x4_0_0_9_0_0) : (⟨S64x2048x22x4x4, .f32⟩ : BufTy).Contents (Elt F) → (⟨S64x2048x1x4x4, .f32⟩ : BufTy).Contents (Elt F)),
    StableHlo.reshape main_v112 main_v113 rfl shapeCasts_S64x2048x1x4x4_S64x2048x4x4,
    StableHlo.binary main_v105 main_v113 main_v114 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v115 ((extractStridedSlice S64x2048x1x4x4 ![0, 0, 10, 0, 0] · slices_S64x2048x22x4x4_S64x2048x1x4x4_0_0_10_0_0) : (⟨S64x2048x22x4x4, .f32⟩ : BufTy).Contents (Elt F) → (⟨S64x2048x1x4x4, .f32⟩ : BufTy).Contents (Elt F)),
    StableHlo.reshape main_v115 main_v116 rfl shapeCasts_S64x2048x1x4x4_S64x2048x4x4,
    StableHlo.binary main_v108 main_v116 main_v117 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v118 ((extractStridedSlice S64x2048x1x4x4 ![0, 0, 11, 0, 0] · slices_S64x2048x22x4x4_S64x2048x1x4x4_0_0_11_0_0) : (⟨S64x2048x22x4x4, .f32⟩ : BufTy).Contents (Elt F) → (⟨S64x2048x1x4x4, .f32⟩ : BufTy).Contents (Elt F)),
    StableHlo.reshape main_v118 main_v119 rfl shapeCasts_S64x2048x1x4x4_S64x2048x4x4,
    StableHlo.binary main_v111 main_v119 main_v120 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v121 ((extractStridedSlice S64x2048x1x4x4 ![0, 0, 12, 0, 0] · slices_S64x2048x22x4x4_S64x2048x1x4x4_0_0_12_0_0) : (⟨S64x2048x22x4x4, .f32⟩ : BufTy).Contents (Elt F) → (⟨S64x2048x1x4x4, .f32⟩ : BufTy).Contents (Elt F)),
    StableHlo.reshape main_v121 main_v122 rfl shapeCasts_S64x2048x1x4x4_S64x2048x4x4,
    StableHlo.binary main_v114 main_v122 main_v123 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v124 ((extractStridedSlice S64x2048x1x4x4 ![0, 0, 13, 0, 0] · slices_S64x2048x22x4x4_S64x2048x1x4x4_0_0_13_0_0) : (⟨S64x2048x22x4x4, .f32⟩ : BufTy).Contents (Elt F) → (⟨S64x2048x1x4x4, .f32⟩ : BufTy).Contents (Elt F)),
    StableHlo.reshape main_v124 main_v125 rfl shapeCasts_S64x2048x1x4x4_S64x2048x4x4,
    StableHlo.binary main_v114 main_v125 main_v126 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v127 ((extractStridedSlice S64x2048x1x4x4 ![0, 0, 14, 0, 0] · slices_S64x2048x22x4x4_S64x2048x1x4x4_0_0_14_0_0) : (⟨S64x2048x22x4x4, .f32⟩ : BufTy).Contents (Elt F) → (⟨S64x2048x1x4x4, .f32⟩ : BufTy).Contents (Elt F)),
    StableHlo.reshape main_v127 main_v128 rfl shapeCasts_S64x2048x1x4x4_S64x2048x4x4,
    StableHlo.binary main_v114 main_v128 main_v129 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v130 ((extractStridedSlice S64x2048x1x4x4 ![0, 0, 15, 0, 0] · slices_S64x2048x22x4x4_S64x2048x1x4x4_0_0_15_0_0) : (⟨S64x2048x22x4x4, .f32⟩ : BufTy).Contents (Elt F) → (⟨S64x2048x1x4x4, .f32⟩ : BufTy).Contents (Elt F)),
    StableHlo.reshape main_v130 main_v131 rfl shapeCasts_S64x2048x1x4x4_S64x2048x4x4,
    StableHlo.binary main_v123 main_v131 main_v132 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v133 ((extractStridedSlice S64x2048x1x4x4 ![0, 0, 16, 0, 0] · slices_S64x2048x22x4x4_S64x2048x1x4x4_0_0_16_0_0) : (⟨S64x2048x22x4x4, .f32⟩ : BufTy).Contents (Elt F) → (⟨S64x2048x1x4x4, .f32⟩ : BufTy).Contents (Elt F)),
    StableHlo.reshape main_v133 main_v134 rfl shapeCasts_S64x2048x1x4x4_S64x2048x4x4,
    StableHlo.binary main_v126 main_v134 main_v135 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v136 ((extractStridedSlice S64x2048x1x4x4 ![0, 0, 17, 0, 0] · slices_S64x2048x22x4x4_S64x2048x1x4x4_0_0_17_0_0) : (⟨S64x2048x22x4x4, .f32⟩ : BufTy).Contents (Elt F) → (⟨S64x2048x1x4x4, .f32⟩ : BufTy).Contents (Elt F)),
    StableHlo.reshape main_v136 main_v137 rfl shapeCasts_S64x2048x1x4x4_S64x2048x4x4,
    StableHlo.binary main_v129 main_v137 main_v138 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v139 ((extractStridedSlice S64x2048x1x4x4 ![0, 0, 18, 0, 0] · slices_S64x2048x22x4x4_S64x2048x1x4x4_0_0_18_0_0) : (⟨S64x2048x22x4x4, .f32⟩ : BufTy).Contents (Elt F) → (⟨S64x2048x1x4x4, .f32⟩ : BufTy).Contents (Elt F)),
    StableHlo.reshape main_v139 main_v140 rfl shapeCasts_S64x2048x1x4x4_S64x2048x4x4,
    StableHlo.binary main_v135 main_v140 main_v141 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v142 ((extractStridedSlice S64x2048x1x4x4 ![0, 0, 19, 0, 0] · slices_S64x2048x22x4x4_S64x2048x1x4x4_0_0_19_0_0) : (⟨S64x2048x22x4x4, .f32⟩ : BufTy).Contents (Elt F) → (⟨S64x2048x1x4x4, .f32⟩ : BufTy).Contents (Elt F)),
    StableHlo.reshape main_v142 main_v143 rfl shapeCasts_S64x2048x1x4x4_S64x2048x4x4,
    StableHlo.binary main_v138 main_v143 main_v144 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v145 ((extractStridedSlice S64x2048x1x4x4 ![0, 0, 20, 0, 0] · slices_S64x2048x22x4x4_S64x2048x1x4x4_0_0_20_0_0) : (⟨S64x2048x22x4x4, .f32⟩ : BufTy).Contents (Elt F) → (⟨S64x2048x1x4x4, .f32⟩ : BufTy).Contents (Elt F)),
    StableHlo.reshape main_v145 main_v146 rfl shapeCasts_S64x2048x1x4x4_S64x2048x4x4,
    StableHlo.binary main_v141 main_v146 main_v147 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v148 ((extractStridedSlice S64x2048x1x4x4 ![0, 0, 21, 0, 0] · slices_S64x2048x22x4x4_S64x2048x1x4x4_0_0_21_0_0) : (⟨S64x2048x22x4x4, .f32⟩ : BufTy).Contents (Elt F) → (⟨S64x2048x1x4x4, .f32⟩ : BufTy).Contents (Elt F)),
    StableHlo.reshape main_v148 main_v149 rfl shapeCasts_S64x2048x1x4x4_S64x2048x4x4,
    StableHlo.binary main_v144 main_v149 main_v150 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v87 main_v151 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v90 main_v152 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v93 main_v153 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v96 main_v154 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v99 main_v155 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v102 main_v156 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v105 main_v157 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v108 main_v158 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v111 main_v159 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v114 main_v160 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v117 main_v161 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v120 main_v162 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v123 main_v163 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v126 main_v164 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v129 main_v165 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v132 main_v166 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v135 main_v167 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v138 main_v168 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v141 main_v169 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v144 main_v170 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v147 main_v171 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) ]

/-- @main's operations 181 … 186 of 186. -/
abbrev ops_part3 : List (HloOp τ sig (Elt F)) :=
  [ StableHlo.unary main_v150 main_v172 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.nary ![main_v151, main_v152, main_v153, main_v154, main_v155, main_v156, main_v157, main_v158, main_v159, main_v160, main_v161, main_v162, main_v163, main_v164, main_v165, main_v166] main_v173 (fun u => concatenate S64x2048x16x4x4 2 [⟨S64x2048x1x4x4, u 0⟩, ⟨S64x2048x1x4x4, u 1⟩, ⟨S64x2048x1x4x4, u 2⟩, ⟨S64x2048x1x4x4, u 3⟩, ⟨S64x2048x1x4x4, u 4⟩, ⟨S64x2048x1x4x4, u 5⟩, ⟨S64x2048x1x4x4, u 6⟩, ⟨S64x2048x1x4x4, u 7⟩, ⟨S64x2048x1x4x4, u 8⟩, ⟨S64x2048x1x4x4, u 9⟩, ⟨S64x2048x1x4x4, u 10⟩, ⟨S64x2048x1x4x4, u 11⟩, ⟨S64x2048x1x4x4, u 12⟩, ⟨S64x2048x1x4x4, u 13⟩, ⟨S64x2048x1x4x4, u 14⟩, ⟨S64x2048x1x4x4, u 15⟩] concatenates_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x16x4x4_d2),
    StableHlo.nary ![main_v167, main_v168, main_v169, main_v170, main_v171, main_v172] main_v174 (fun u => concatenate S64x2048x6x4x4 2 [⟨S64x2048x1x4x4, u 0⟩, ⟨S64x2048x1x4x4, u 1⟩, ⟨S64x2048x1x4x4, u 2⟩, ⟨S64x2048x1x4x4, u 3⟩, ⟨S64x2048x1x4x4, u 4⟩, ⟨S64x2048x1x4x4, u 5⟩] concatenates_S64x2048x1x4x4_S64x2048x1x4x4_S64x2048x1x4x4_S64x2048x1x4x4_S64x2048x1x4x4_S64x2048x1x4x4_S64x2048x6x4x4_d2),
    StableHlo.binary main_v173 main_v174 main_v175 ((fun a b => concatenate S64x2048x22x4x4 2 [⟨S64x2048x16x4x4, a⟩, ⟨S64x2048x6x4x4, b⟩] concatenates_S64x2048x16x4x4_S64x2048x6x4x4_S64x2048x22x4x4_d2) : (⟨S64x2048x16x4x4, .f32⟩ : BufTy).Contents (Elt F) → (⟨S64x2048x6x4x4, .f32⟩ : BufTy).Contents (Elt F) → (⟨S64x2048x22x4x4, .f32⟩ : BufTy).Contents (Elt F)),
    StableHlo.unary main_v175 main_v176 ((extractStridedSlice S64x2048x22x3x1 ![0, 0, 0, 0, 3] · slices_S64x2048x22x4x4_S64x2048x22x3x1_0_0_0_0_3) : (⟨S64x2048x22x4x4, .f32⟩ : BufTy).Contents (Elt F) → (⟨S64x2048x22x3x1, .f32⟩ : BufTy).Contents (Elt F)),
    StableHlo.reshape main_v176 main_v177 rfl shapeCasts_S64x2048x22x3x1_S64x2048x22x3 ]

/-- @main's 186 operations, in order. -/
abbrev ops : List (HloOp τ sig (Elt F)) :=
  ops_part0 ++ (ops_part1 ++ (ops_part2 ++ (ops_part3)))

/-- The reference each operation writes, in order. -/
abbrev written : List (Ref sig .tc) :=
  [main_c, main_cst, main_v0, main_v1, main_v2, main_cst_0, main_v3, main_v4, main_cst_1, main_v5, main_v6, main_v7, main_v8, main_v9, main_v10, main_v11, main_v12, main_v13, main_v14, main_v15, main_v16, main_v17, main_v18, main_cst_2, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_c_3, main_v69, main_v70, main_c_4, main_v71, main_v72, main_v73, main_v74, main_v75, main_v76, main_v77, main_v78, main_v79, main_c_5, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177]

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., nullary_bufs_sub .., binary_bufs_sub .., reshape_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., reshape_bufs_sub .., unary_bufs_sub .., unary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., unary_bufs_sub ..⟩
set_option maxRecDepth 8192 in
theorem ops_part1_sub : (ops_part1 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub .., reshape_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., nullary_bufs_sub .., unary_bufs_sub .., ternary_bufs_sub .., unary_bufs_sub .., binary_bufs_sub .., unary_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩
set_option maxRecDepth 8192 in
theorem ops_part2_sub : (ops_part2 : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
set_option maxRecDepth 8192 in
theorem ops_part3_sub : (ops_part3 : List (HloOp τ sig (Elt F))).Forall fun op => op.bufs ⊆ tcRefs τ sig :=
  ⟨unary_bufs_sub .., nary_bufs_sub .., nary_bufs_sub .., binary_bufs_sub .., unary_bufs_sub .., reshape_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h, List.forall_iff_forall_mem.mp ops_part2_sub op h, List.forall_iff_forall_mem.mp ops_part3_sub op h]

set_option maxRecDepth 8192 in
/-- Operation k writes reference k of `written`, and nothing else. -/
theorem ops_writes : SSA (ops : List (HloOp τ sig (Elt F))) written := rfl

theorem ops_length : (ops : List (HloOp τ sig (Elt F))).length = 186 := rfl

/-- An index below 186 is an index into the program. -/
theorem lt_len {k : Nat} (h : k < 186) : k < (ops : List (HloOp τ sig (Elt F))).length := by
  rw [ops_length]; exact h

end Cert.ReferenceIdeal.RefOps

end
-- ==== Proof.RefRun.lean ====
/-
  The run of the reference program, read back as names.

  By induction along the program (each operation's equation at the final contents, RefOps.lean), each
  buffer's final contents is its name in RefTerm.lean; `run_seq` then gives the statement over every weakly
  fair execution: the result buffer ends at `RefTerm.v177` of the arguments' launch contents, the arguments
  unchanged.
-/
import proofs.«129627_j26603027432101_2_alg».proof.Proof.RefTerm
import proofs.«129627_j26603027432101_2_alg».proof.Proof.RefOps
import proofs.«129627_j26603027432101_2_alg».proof.Proof.Gen.ReferenceIdeal
import Idealize.ShloMosaic.Lib.StableHlo.Run

set_option Elab.async false

noncomputable section

namespace Cert.ReferenceIdeal.RefRun

open Cert.ReferenceIdeal Cert.ReferenceIdeal.RefOps Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-! ## Each buffer's final contents is its name -/

/-- The arguments' contents in a valuation. -/
def argsAt (V0 : Valuation τ sig (Elt F)) : RefTerm.In F :=
  ⟨V0 (Proc.devRef .tc main_arg0), V0 (Proc.devRef .tc main_arg1), V0 (Proc.devRef .tc main_arg2),
   V0 (Proc.devRef .tc main_arg3), V0 (Proc.devRef .tc main_arg4), V0 (Proc.devRef .tc main_arg5)⟩

set_option maxRecDepth 8192

theorem at_arg0 (V0 : Valuation τ sig (Elt F)) : after ops V0 (Proc.devRef .tc main_arg0) = (argsAt V0).a0 :=
  after_of_forall_not_mem ops V0 (not_written ops_writes (by decide))
theorem at_arg1 (V0 : Valuation τ sig (Elt F)) : after ops V0 (Proc.devRef .tc main_arg1) = (argsAt V0).a1 :=
  after_of_forall_not_mem ops V0 (not_written ops_writes (by decide))
theorem at_arg2 (V0 : Valuation τ sig (Elt F)) : after ops V0 (Proc.devRef .tc main_arg2) = (argsAt V0).a2 :=
  after_of_forall_not_mem ops V0 (not_written ops_writes (by decide))
theorem at_arg3 (V0 : Valuation τ sig (Elt F)) : after ops V0 (Proc.devRef .tc main_arg3) = (argsAt V0).a3 :=
  after_of_forall_not_mem ops V0 (not_written ops_writes (by decide))
theorem at_arg4 (V0 : Valuation τ sig (Elt F)) : after ops V0 (Proc.devRef .tc main_arg4) = (argsAt V0).a4 :=
  after_of_forall_not_mem ops V0 (not_written ops_writes (by decide))
theorem at_arg5 (V0 : Valuation τ sig (Elt F)) : after ops V0 (Proc.devRef .tc main_arg5) = (argsAt V0).a5 :=
  after_of_forall_not_mem ops V0 (not_written ops_writes (by decide))
theorem at_c (V0 : Valuation τ sig (Elt F)) : after ops V0 (Proc.devRef .tc main_c) = RefTerm.c (argsAt V0) :=
  (step_nullary ops_writes 0 (lt_len (by decide)) main_c (fun i => lit0 (S22.rowMajor i)) (by exact ⟨by decide, rfl⟩) rfl (by decide) V0).trans rfl
theorem at_cst (V0 : Valuation τ sig (Elt F)) : after ops V0 (Proc.devRef .tc main_cst) = RefTerm.cst (argsAt V0) :=
  (step_nullary ops_writes 1 (lt_len (by decide)) main_cst (fun i => FloatOps.ofBits .f32 (lit1 (S4.rowMajor i))) (by exact ⟨by decide, rfl⟩) rfl (by decide) V0).trans rfl
theorem at_v0 (V0 : Valuation τ sig (Elt F)) : after ops V0 (Proc.devRef .tc main_v0) = RefTerm.v0 (argsAt V0) :=
  (step_binary ops_writes 2 (lt_len (by decide)) main_arg2 main_arg0 main_v0 ((fun a b => concatenate S64x2048x66 2 [⟨S64x2048x3, a⟩, ⟨S64x2048x63, b⟩] concatenates_S64x2048x3_S64x2048x63_S64x2048x66_d2) : (⟨S64x2048x3, .f32⟩ : BufTy).Contents (Elt F) → (⟨S64x2048x63, .f32⟩ : BufTy).Contents (Elt F) → (⟨S64x2048x66, .f32⟩ : BufTy).Contents (Elt F)) (by exact ⟨by decide, rfl⟩) (by exact ⟨by decide, rfl⟩) (by exact ⟨by decide, rfl⟩) rfl (by decide) (by decide) (by decide) V0).trans (by rw [at_arg2 V0, at_arg0 V0]; rfl)
theorem at_v1 (V0 : Valuation τ sig (Elt F)) : after ops V0 (Proc.devRef .tc main_v1) = RefTerm.v1 (argsAt V0) :=
  (step_reshape ops_writes 3 (lt_len (by decide)) main_v0 main_v1 rfl shapeCasts_S64x2048x66_S64x2048x22x3 (by exact ⟨by decide, rfl⟩) (by exact ⟨by decide, rfl⟩) rfl (by decide) (by decide) V0).trans (by rw [at_v0 V0]; rfl)
theorem at_v2 (V0 : Valuation τ sig (Elt F)) : after ops V0 (Proc.devRef .tc main_v2) = RefTerm.v2 (argsAt V0) :=
  (step_binary ops_writes 4 (lt_len (by decide)) main_v1 main_v1 main_v2 (mulf : (⟨S64x2048x22x3, .f32⟩ : BufTy).Contents (Elt F) → (⟨S64x2048x22x3, .f32⟩ : BufTy).Contents (Elt F) → (⟨S64x2048x22x3, .f32⟩ : BufTy).Contents (Elt F)) (by exact ⟨by decide, rfl⟩) (by exact ⟨by decide, rfl⟩) (by exact ⟨by decide, rfl⟩) rfl (by decide) (by decide) (by decide) V0).trans (by rw [at_v1 V0]; rfl)
theorem at_cst_0 (V0 : Valuation τ sig (Elt F)) : after ops V0 (Proc.devRef .tc main_cst_0) = RefTerm.cst_0 (argsAt V0) :=
  (step_nullary ops_writes 5 (lt_len (by decide)) main_cst_0 (constant S_ .f32 0x00000000#32) (by exact ⟨by decide, rfl⟩) rfl (by decide) V0).trans rfl
theorem at_v3 (V0 : Valuation τ sig (Elt F)) : after ops V0 (Proc.devRef .tc main_v3) = RefTerm.v3 (argsAt V0) :=
  (step_binary ops_writes 6 (lt_len (by decide)) main_v2 main_cst_0 main_v3 ((fun x v => Host.reduceAdd x v reducesTo_S64x2048x22x3_S64x2048x22_d3 h_S_) : (⟨S64x2048x22x3, .f32⟩ : BufTy).Contents (Elt F) → (⟨S_, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v2 V0, at_cst_0 V0]; rfl)
theorem at_v4 (V0 : Valuation τ sig (Elt F)) : after ops V0 (Proc.devRef .tc main_v4) = RefTerm.v4 (argsAt V0) :=
  (step_unary ops_writes 7 (lt_len (by decide)) main_v3 main_v4 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v3 V0]; rfl)
theorem at_cst_1 (V0 : Valuation τ sig (Elt F)) : after ops V0 (Proc.devRef .tc main_cst_1) = RefTerm.cst_1 (argsAt V0) :=
  (step_nullary ops_writes 8 (lt_len (by decide)) main_cst_1 (constant S_ .f32 0x2B8CBCCC#32) (by exact ⟨by decide, rfl⟩) rfl (by decide) V0).trans rfl
theorem at_v5 (V0 : Valuation τ sig (Elt F)) : after ops V0 (Proc.devRef .tc main_v5) = RefTerm.v5 (argsAt V0) :=
  (step_unary ops_writes 9 (lt_len (by decide)) main_cst_1 main_v5 (broadcastInDim S64x2048x22x1 ![] bcast_S_S64x2048x22x1 : (⟨S_, .f32⟩ : BufTy).Contents (Elt F) → (⟨S64x2048x22x1, .f32⟩ : BufTy).Contents (Elt F)) (by exact ⟨by decide, rfl⟩) (by exact ⟨by decide, rfl⟩) rfl (by decide) (by decide) V0).trans (by rw [at_cst_1 V0]; rfl)
theorem at_v6 (V0 : Valuation τ sig (Elt F)) : after ops V0 (Proc.devRef .tc main_v6) = RefTerm.v6 (argsAt V0) :=
  (step_binary ops_writes 10 (lt_len (by decide)) main_v4 main_v5 main_v6 (addf : (⟨S64x2048x22x1, .f32⟩ : BufTy).Contents (Elt F) → (⟨S64x2048x22x1, .f32⟩ : BufTy).Contents (Elt F) → (⟨S64x2048x22x1, .f32⟩ : BufTy).Contents (Elt F)) (by exact ⟨by decide, rfl⟩) (by exact ⟨by decide, rfl⟩) (by exact ⟨by decide, rfl⟩) rfl (by decide) (by decide) (by decide) V0).trans (by rw [at_v4 V0, at_v5 V0]; rfl)
theorem at_v7 (V0 : Valuation τ sig (Elt F)) : after ops V0 (Proc.devRef .tc main_v7) = RefTerm.v7 (argsAt V0) :=
  (step_unary ops_writes 11 (lt_len (by decide)) main_v6 main_v7 (Host.sqrt : (⟨S64x2048x22x1, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v6 V0]; rfl)
theorem at_v8 (V0 : Valuation τ sig (Elt F)) : after ops V0 (Proc.devRef .tc main_v8) = RefTerm.v8 (argsAt V0) :=
  (step_unary ops_writes 12 (lt_len (by decide)) main_v7 main_v8 (broadcastInDim S64x2048x22x3 ![0, 1, 2, 3] bcast_S64x2048x22x1_S64x2048x22x3_0_1_2_3 : (⟨S64x2048x22x1, .f32⟩ : BufTy).Contents (Elt F) → (⟨S64x2048x22x3, .f32⟩ : BufTy).Contents (Elt F)) (by exact ⟨by decide, rfl⟩) (by exact ⟨by decide, rfl⟩) rfl (by decide) (by decide) V0).trans (by rw [at_v7 V0]; rfl)
theorem at_v9 (V0 : Valuation τ sig (Elt F)) : after ops V0 (Proc.devRef .tc main_v9) = RefTerm.v9 (argsAt V0) :=
  (step_binary ops_writes 13 (lt_len (by decide)) main_v1 main_v8 main_v9 (Host.divf : (⟨S64x2048x22x3, .f32⟩ : BufTy).Contents (Elt F) → (⟨S64x2048x22x3, .f32⟩ : BufTy).Contents (Elt F) → (⟨S64x2048x22x3, .f32⟩ : BufTy).Contents (Elt F)) (by exact ⟨by decide, rfl⟩) (by exact ⟨by decide, rfl⟩) (by exact ⟨by decide, rfl⟩) rfl (by decide) (by decide) (by decide) V0).trans (by rw [at_v1 V0, at_v8 V0]; rfl)
theorem at_v10 (V0 : Valuation τ sig (Elt F)) : after ops V0 (Proc.devRef .tc main_v10) = RefTerm.v10 (argsAt V0) :=
  (step_unary ops_writes 14 (lt_len (by decide)) main_v9 main_v10 ((extractStridedSlice S64x2048x22x1 ![0, 0, 0, 0] · slices_S64x2048x22x3_S64x2048x22x1_0_0_0_0) : (⟨S64x2048x22x3, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v9 V0]; rfl)
theorem at_v11 (V0 : Valuation τ sig (Elt F)) : after ops V0 (Proc.devRef .tc main_v11) = RefTerm.v11 (argsAt V0) :=
  (step_reshape ops_writes 15 (lt_len (by decide)) main_v10 main_v11 rfl shapeCasts_S64x2048x22x1_S64x2048x22 (by exact ⟨by decide, rfl⟩) (by exact ⟨by decide, rfl⟩) rfl (by decide) (by decide) V0).trans (by rw [at_v10 V0]; rfl)
theorem at_v12 (V0 : Valuation τ sig (Elt F)) : after ops V0 (Proc.devRef .tc main_v12) = RefTerm.v12 (argsAt V0) :=
  (step_unary ops_writes 16 (lt_len (by decide)) main_v9 main_v12 ((extractStridedSlice S64x2048x22x1 ![0, 0, 0, 1] · slices_S64x2048x22x3_S64x2048x22x1_0_0_0_1) : (⟨S64x2048x22x3, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v9 V0]; rfl)
theorem at_v13 (V0 : Valuation τ sig (Elt F)) : after ops V0 (Proc.devRef .tc main_v13) = RefTerm.v13 (argsAt V0) :=
  (step_reshape ops_writes 17 (lt_len (by decide)) main_v12 main_v13 rfl shapeCasts_S64x2048x22x1_S64x2048x22 (by exact ⟨by decide, rfl⟩) (by exact ⟨by decide, rfl⟩) rfl (by decide) (by decide) V0).trans (by rw [at_v12 V0]; rfl)
theorem at_v14 (V0 : Valuation τ sig (Elt F)) : after ops V0 (Proc.devRef .tc main_v14) = RefTerm.v14 (argsAt V0) :=
  (step_unary ops_writes 18 (lt_len (by decide)) main_v9 main_v14 ((extractStridedSlice S64x2048x22x1 ![0, 0, 0, 2] · slices_S64x2048x22x3_S64x2048x22x1_0_0_0_2) : (⟨S64x2048x22x3, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v9 V0]; rfl)
theorem at_v15 (V0 : Valuation τ sig (Elt F)) : after ops V0 (Proc.devRef .tc main_v15) = RefTerm.v15 (argsAt V0) :=
  (step_reshape ops_writes 19 (lt_len (by decide)) main_v14 main_v15 rfl shapeCasts_S64x2048x22x1_S64x2048x22 (by exact ⟨by decide, rfl⟩) (by exact ⟨by decide, rfl⟩) rfl (by decide) (by decide) V0).trans (by rw [at_v14 V0]; rfl)
theorem at_v16 (V0 : Valuation τ sig (Elt F)) : after ops V0 (Proc.devRef .tc main_v16) = RefTerm.v16 (argsAt V0) :=
  (step_reshape ops_writes 20 (lt_len (by decide)) main_v7 main_v16 rfl shapeCasts_S64x2048x22x1_S64x2048x22 (by exact ⟨by decide, rfl⟩) (by exact ⟨by decide, rfl⟩) rfl (by decide) (by decide) V0).trans (by rw [at_v7 V0]; rfl)
theorem at_v17 (V0 : Valuation τ sig (Elt F)) : after ops V0 (Proc.devRef .tc main_v17) = RefTerm.v17 (argsAt V0) :=
  (step_unary ops_writes 21 (lt_len (by decide)) main_v16 main_v17 (Host.cos : (⟨S64x2048x22, .f32⟩ : BufTy).Contents (Elt F) → (⟨S64x2048x22, .f32⟩ : BufTy).Contents (Elt F)) (by exact ⟨by decide, rfl⟩) (by exact ⟨by decide, rfl⟩) rfl (by decide) (by decide) V0).trans (by rw [at_v16 V0]; rfl)
theorem at_v18 (V0 : Valuation τ sig (Elt F)) : after ops V0 (Proc.devRef .tc main_v18) = RefTerm.v18 (argsAt V0) :=
  (step_unary ops_writes 22 (lt_len (by decide)) main_v16 main_v18 (Host.sin : (⟨S64x2048x22, .f32⟩ : BufTy).Contents (Elt F) → (⟨S64x2048x22, .f32⟩ : BufTy).Contents (Elt F)) (by exact ⟨by decide, rfl⟩) (by exact ⟨by decide, rfl⟩) rfl (by decide) (by decide) V0).trans (by rw [at_v16 V0]; rfl)
theorem at_cst_2 (V0 : Valuation τ sig (Elt F)) : after ops V0 (Proc.devRef .tc main_cst_2) = RefTerm.cst_2 (argsAt V0) :=
  (step_nullary ops_writes 23 (lt_len (by decide)) main_cst_2 (constant S_ .f32 0x3F800000#32) (by exact ⟨by decide, rfl⟩) rfl (by decide) V0).trans rfl
theorem at_v19 (V0 : Valuation τ sig (Elt F)) : after ops V0 (Proc.devRef .tc main_v19) = RefTerm.v19 (argsAt V0) :=
  (step_unary ops_writes 24 (lt_len (by decide)) main_cst_2 main_v19 (broadcastInDim S64x2048x22 ![] bcast_S_S64x2048x22 : (⟨S_, .f32⟩ : BufTy).Contents (Elt F) → (⟨S64x2048x22, .f32⟩ : BufTy).Contents (Elt F)) (by exact ⟨by decide, rfl⟩) (by exact ⟨by decide, rfl⟩) rfl (by decide) (by decide) V0).trans (by rw [at_cst_2 V0]; rfl)
theorem at_v20 (V0 : Valuation τ sig (Elt F)) : after ops V0 (Proc.devRef .tc main_v20) = RefTerm.v20 (argsAt V0) :=
  (step_binary ops_writes 25 (lt_len (by decide)) main_v19 main_v17 main_v20 (subf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v19 V0, at_v17 V0]; rfl)
theorem at_v21 (V0 : Valuation τ sig (Elt F)) : after ops V0 (Proc.devRef .tc main_v21) = RefTerm.v21 (argsAt V0) :=
  (step_binary ops_writes 26 (lt_len (by decide)) main_v20 main_v11 main_v21 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v20 V0, at_v11 V0]; rfl)
theorem at_v22 (V0 : Valuation τ sig (Elt F)) : after ops V0 (Proc.devRef .tc main_v22) = RefTerm.v22 (argsAt V0) :=
  (step_binary ops_writes 27 (lt_len (by decide)) main_v21 main_v11 main_v22 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v21 V0, at_v11 V0]; rfl)
theorem at_v23 (V0 : Valuation τ sig (Elt F)) : after ops V0 (Proc.devRef .tc main_v23) = RefTerm.v23 (argsAt V0) :=
  (step_binary ops_writes 28 (lt_len (by decide)) main_v22 main_v17 main_v23 (addf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v22 V0, at_v17 V0]; rfl)
theorem at_v24 (V0 : Valuation τ sig (Elt F)) : after ops V0 (Proc.devRef .tc main_v24) = RefTerm.v24 (argsAt V0) :=
  (step_binary ops_writes 29 (lt_len (by decide)) main_v20 main_v11 main_v24 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v20 V0, at_v11 V0]; rfl)
theorem at_v25 (V0 : Valuation τ sig (Elt F)) : after ops V0 (Proc.devRef .tc main_v25) = RefTerm.v25 (argsAt V0) :=
  (step_binary ops_writes 30 (lt_len (by decide)) main_v24 main_v13 main_v25 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v24 V0, at_v13 V0]; rfl)
theorem at_v26 (V0 : Valuation τ sig (Elt F)) : after ops V0 (Proc.devRef .tc main_v26) = RefTerm.v26 (argsAt V0) :=
  (step_binary ops_writes 31 (lt_len (by decide)) main_v18 main_v15 main_v26 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v18 V0, at_v15 V0]; rfl)
theorem at_v27 (V0 : Valuation τ sig (Elt F)) : after ops V0 (Proc.devRef .tc main_v27) = RefTerm.v27 (argsAt V0) :=
  (step_binary ops_writes 32 (lt_len (by decide)) main_v25 main_v26 main_v27 (subf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v25 V0, at_v26 V0]; rfl)
theorem at_v28 (V0 : Valuation τ sig (Elt F)) : after ops V0 (Proc.devRef .tc main_v28) = RefTerm.v28 (argsAt V0) :=
  (step_binary ops_writes 33 (lt_len (by decide)) main_v20 main_v11 main_v28 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v20 V0, at_v11 V0]; rfl)
theorem at_v29 (V0 : Valuation τ sig (Elt F)) : after ops V0 (Proc.devRef .tc main_v29) = RefTerm.v29 (argsAt V0) :=
  (step_binary ops_writes 34 (lt_len (by decide)) main_v28 main_v15 main_v29 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v28 V0, at_v15 V0]; rfl)
theorem at_v30 (V0 : Valuation τ sig (Elt F)) : after ops V0 (Proc.devRef .tc main_v30) = RefTerm.v30 (argsAt V0) :=
  (step_binary ops_writes 35 (lt_len (by decide)) main_v18 main_v13 main_v30 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v18 V0, at_v13 V0]; rfl)
theorem at_v31 (V0 : Valuation τ sig (Elt F)) : after ops V0 (Proc.devRef .tc main_v31) = RefTerm.v31 (argsAt V0) :=
  (step_binary ops_writes 36 (lt_len (by decide)) main_v29 main_v30 main_v31 (addf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v29 V0, at_v30 V0]; rfl)
theorem at_v32 (V0 : Valuation τ sig (Elt F)) : after ops V0 (Proc.devRef .tc main_v32) = RefTerm.v32 (argsAt V0) :=
  (step_binary ops_writes 37 (lt_len (by decide)) main_v20 main_v11 main_v32 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v20 V0, at_v11 V0]; rfl)
theorem at_v33 (V0 : Valuation τ sig (Elt F)) : after ops V0 (Proc.devRef .tc main_v33) = RefTerm.v33 (argsAt V0) :=
  (step_binary ops_writes 38 (lt_len (by decide)) main_v32 main_v13 main_v33 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v32 V0, at_v13 V0]; rfl)
theorem at_v34 (V0 : Valuation τ sig (Elt F)) : after ops V0 (Proc.devRef .tc main_v34) = RefTerm.v34 (argsAt V0) :=
  (step_binary ops_writes 39 (lt_len (by decide)) main_v18 main_v15 main_v34 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v18 V0, at_v15 V0]; rfl)
theorem at_v35 (V0 : Valuation τ sig (Elt F)) : after ops V0 (Proc.devRef .tc main_v35) = RefTerm.v35 (argsAt V0) :=
  (step_binary ops_writes 40 (lt_len (by decide)) main_v33 main_v34 main_v35 (addf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v33 V0, at_v34 V0]; rfl)
theorem at_v36 (V0 : Valuation τ sig (Elt F)) : after ops V0 (Proc.devRef .tc main_v36) = RefTerm.v36 (argsAt V0) :=
  (step_binary ops_writes 41 (lt_len (by decide)) main_v20 main_v13 main_v36 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v20 V0, at_v13 V0]; rfl)
theorem at_v37 (V0 : Valuation τ sig (Elt F)) : after ops V0 (Proc.devRef .tc main_v37) = RefTerm.v37 (argsAt V0) :=
  (step_binary ops_writes 42 (lt_len (by decide)) main_v36 main_v13 main_v37 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v36 V0, at_v13 V0]; rfl)
theorem at_v38 (V0 : Valuation τ sig (Elt F)) : after ops V0 (Proc.devRef .tc main_v38) = RefTerm.v38 (argsAt V0) :=
  (step_binary ops_writes 43 (lt_len (by decide)) main_v37 main_v17 main_v38 (addf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v37 V0, at_v17 V0]; rfl)
theorem at_v39 (V0 : Valuation τ sig (Elt F)) : after ops V0 (Proc.devRef .tc main_v39) = RefTerm.v39 (argsAt V0) :=
  (step_binary ops_writes 44 (lt_len (by decide)) main_v20 main_v13 main_v39 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v20 V0, at_v13 V0]; rfl)
theorem at_v40 (V0 : Valuation τ sig (Elt F)) : after ops V0 (Proc.devRef .tc main_v40) = RefTerm.v40 (argsAt V0) :=
  (step_binary ops_writes 45 (lt_len (by decide)) main_v39 main_v15 main_v40 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v39 V0, at_v15 V0]; rfl)
theorem at_v41 (V0 : Valuation τ sig (Elt F)) : after ops V0 (Proc.devRef .tc main_v41) = RefTerm.v41 (argsAt V0) :=
  (step_binary ops_writes 46 (lt_len (by decide)) main_v18 main_v11 main_v41 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v18 V0, at_v11 V0]; rfl)
theorem at_v42 (V0 : Valuation τ sig (Elt F)) : after ops V0 (Proc.devRef .tc main_v42) = RefTerm.v42 (argsAt V0) :=
  (step_binary ops_writes 47 (lt_len (by decide)) main_v40 main_v41 main_v42 (subf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v40 V0, at_v41 V0]; rfl)
theorem at_v43 (V0 : Valuation τ sig (Elt F)) : after ops V0 (Proc.devRef .tc main_v43) = RefTerm.v43 (argsAt V0) :=
  (step_binary ops_writes 48 (lt_len (by decide)) main_v20 main_v11 main_v43 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v20 V0, at_v11 V0]; rfl)
theorem at_v44 (V0 : Valuation τ sig (Elt F)) : after ops V0 (Proc.devRef .tc main_v44) = RefTerm.v44 (argsAt V0) :=
  (step_binary ops_writes 49 (lt_len (by decide)) main_v43 main_v15 main_v44 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v43 V0, at_v15 V0]; rfl)
theorem at_v45 (V0 : Valuation τ sig (Elt F)) : after ops V0 (Proc.devRef .tc main_v45) = RefTerm.v45 (argsAt V0) :=
  (step_binary ops_writes 50 (lt_len (by decide)) main_v18 main_v13 main_v45 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v18 V0, at_v13 V0]; rfl)
theorem at_v46 (V0 : Valuation τ sig (Elt F)) : after ops V0 (Proc.devRef .tc main_v46) = RefTerm.v46 (argsAt V0) :=
  (step_binary ops_writes 51 (lt_len (by decide)) main_v44 main_v45 main_v46 (subf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v44 V0, at_v45 V0]; rfl)
theorem at_v47 (V0 : Valuation τ sig (Elt F)) : after ops V0 (Proc.devRef .tc main_v47) = RefTerm.v47 (argsAt V0) :=
  (step_binary ops_writes 52 (lt_len (by decide)) main_v20 main_v13 main_v47 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v20 V0, at_v13 V0]; rfl)
theorem at_v48 (V0 : Valuation τ sig (Elt F)) : after ops V0 (Proc.devRef .tc main_v48) = RefTerm.v48 (argsAt V0) :=
  (step_binary ops_writes 53 (lt_len (by decide)) main_v47 main_v15 main_v48 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v47 V0, at_v15 V0]; rfl)
theorem at_v49 (V0 : Valuation τ sig (Elt F)) : after ops V0 (Proc.devRef .tc main_v49) = RefTerm.v49 (argsAt V0) :=
  (step_binary ops_writes 54 (lt_len (by decide)) main_v18 main_v11 main_v49 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v18 V0, at_v11 V0]; rfl)
theorem at_v50 (V0 : Valuation τ sig (Elt F)) : after ops V0 (Proc.devRef .tc main_v50) = RefTerm.v50 (argsAt V0) :=
  (step_binary ops_writes 55 (lt_len (by decide)) main_v48 main_v49 main_v50 (addf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v48 V0, at_v49 V0]; rfl)
theorem at_v51 (V0 : Valuation τ sig (Elt F)) : after ops V0 (Proc.devRef .tc main_v51) = RefTerm.v51 (argsAt V0) :=
  (step_binary ops_writes 56 (lt_len (by decide)) main_v20 main_v15 main_v51 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v20 V0, at_v15 V0]; rfl)
theorem at_v52 (V0 : Valuation τ sig (Elt F)) : after ops V0 (Proc.devRef .tc main_v52) = RefTerm.v52 (argsAt V0) :=
  (step_binary ops_writes 57 (lt_len (by decide)) main_v51 main_v15 main_v52 (mulf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v51 V0, at_v15 V0]; rfl)
theorem at_v53 (V0 : Valuation τ sig (Elt F)) : after ops V0 (Proc.devRef .tc main_v53) = RefTerm.v53 (argsAt V0) :=
  (step_binary ops_writes 58 (lt_len (by decide)) main_v52 main_v17 main_v53 (addf : (⟨S64x2048x22, .f32⟩ : BufTy).Contents (Elt F) → (⟨S64x2048x22, .f32⟩ : BufTy).Contents (Elt F) → (⟨S64x2048x22, .f32⟩ : BufTy).Contents (Elt F)) (by exact ⟨by decide, rfl⟩) (by exact ⟨by decide, rfl⟩) (by exact ⟨by decide, rfl⟩) rfl (by decide) (by decide) (by decide) V0).trans (by rw [at_v52 V0, at_v17 V0]; rfl)
theorem at_v54 (V0 : Valuation τ sig (Elt F)) : after ops V0 (Proc.devRef .tc main_v54) = RefTerm.v54 (argsAt V0) :=
  (step_unary ops_writes 59 (lt_len (by decide)) main_v23 main_v54 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v23 V0]; rfl)
theorem at_v55 (V0 : Valuation τ sig (Elt F)) : after ops V0 (Proc.devRef .tc main_v55) = RefTerm.v55 (argsAt V0) :=
  (step_unary ops_writes 60 (lt_len (by decide)) main_v27 main_v55 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v27 V0]; rfl)
theorem at_v56 (V0 : Valuation τ sig (Elt F)) : after ops V0 (Proc.devRef .tc main_v56) = RefTerm.v56 (argsAt V0) :=
  (step_unary ops_writes 61 (lt_len (by decide)) main_v31 main_v56 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v31 V0]; rfl)
theorem at_v57 (V0 : Valuation τ sig (Elt F)) : after ops V0 (Proc.devRef .tc main_v57) = RefTerm.v57 (argsAt V0) :=
  (step_unary ops_writes 62 (lt_len (by decide)) main_v35 main_v57 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v35 V0]; rfl)
theorem at_v58 (V0 : Valuation τ sig (Elt F)) : after ops V0 (Proc.devRef .tc main_v58) = RefTerm.v58 (argsAt V0) :=
  (step_unary ops_writes 63 (lt_len (by decide)) main_v38 main_v58 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v38 V0]; rfl)
theorem at_v59 (V0 : Valuation τ sig (Elt F)) : after ops V0 (Proc.devRef .tc main_v59) = RefTerm.v59 (argsAt V0) :=
  (step_unary ops_writes 64 (lt_len (by decide)) main_v42 main_v59 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v42 V0]; rfl)
theorem at_v60 (V0 : Valuation τ sig (Elt F)) : after ops V0 (Proc.devRef .tc main_v60) = RefTerm.v60 (argsAt V0) :=
  (step_unary ops_writes 65 (lt_len (by decide)) main_v46 main_v60 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v46 V0]; rfl)
theorem at_v61 (V0 : Valuation τ sig (Elt F)) : after ops V0 (Proc.devRef .tc main_v61) = RefTerm.v61 (argsAt V0) :=
  (step_unary ops_writes 66 (lt_len (by decide)) main_v50 main_v61 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v50 V0]; rfl)
theorem at_v62 (V0 : Valuation τ sig (Elt F)) : after ops V0 (Proc.devRef .tc main_v62) = RefTerm.v62 (argsAt V0) :=
  (step_unary ops_writes 67 (lt_len (by decide)) main_v53 main_v62 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (by exact ⟨by decide, rfl⟩) (by exact ⟨by decide, rfl⟩) rfl (by decide) (by decide) V0).trans (by rw [at_v53 V0]; rfl)
theorem at_v63 (V0 : Valuation τ sig (Elt F)) : after ops V0 (Proc.devRef .tc main_v63) = RefTerm.v63 (argsAt V0) :=
  (step_nary ops_writes 68 (lt_len (by decide)) ![main_v54, main_v55, main_v56, main_v57, main_v58, main_v59, main_v60, main_v61, main_v62] main_v63 (fun u => concatenate S64x2048x22x9 3 [⟨S64x2048x22x1, u 0⟩, ⟨S64x2048x22x1, u 1⟩, ⟨S64x2048x22x1, u 2⟩, ⟨S64x2048x22x1, u 3⟩, ⟨S64x2048x22x1, u 4⟩, ⟨S64x2048x22x1, u 5⟩, ⟨S64x2048x22x1, u 6⟩, ⟨S64x2048x22x1, u 7⟩, ⟨S64x2048x22x1, u 8⟩] concatenates_S64x2048x22x1_S64x2048x22x1_S64x2048x22x1_S64x2048x22x1_S64x2048x22x1_S64x2048x22x1_S64x2048x22x1_S64x2048x22x1_S64x2048x22x1_S64x2048x22x9_d3) (by decide) (by exact ⟨by decide, rfl⟩) rfl (by decide) (by decide) V0).trans (by
    show concatenate S64x2048x22x9 3 [⟨S64x2048x22x1, (after ops V0 (Proc.devRef .tc main_v54))⟩, ⟨S64x2048x22x1, (after ops V0 (Proc.devRef .tc main_v55))⟩, ⟨S64x2048x22x1, (after ops V0 (Proc.devRef .tc main_v56))⟩, ⟨S64x2048x22x1, (after ops V0 (Proc.devRef .tc main_v57))⟩, ⟨S64x2048x22x1, (after ops V0 (Proc.devRef .tc main_v58))⟩, ⟨S64x2048x22x1, (after ops V0 (Proc.devRef .tc main_v59))⟩, ⟨S64x2048x22x1, (after ops V0 (Proc.devRef .tc main_v60))⟩, ⟨S64x2048x22x1, (after ops V0 (Proc.devRef .tc main_v61))⟩, ⟨S64x2048x22x1, (after ops V0 (Proc.devRef .tc main_v62))⟩] concatenates_S64x2048x22x1_S64x2048x22x1_S64x2048x22x1_S64x2048x22x1_S64x2048x22x1_S64x2048x22x1_S64x2048x22x1_S64x2048x22x1_S64x2048x22x1_S64x2048x22x9_d3 = _
    rw [at_v54 V0, at_v55 V0, at_v56 V0, at_v57 V0, at_v58 V0, at_v59 V0, at_v60 V0, at_v61 V0, at_v62 V0]; rfl)
theorem at_v64 (V0 : Valuation τ sig (Elt F)) : after ops V0 (Proc.devRef .tc main_v64) = RefTerm.v64 (argsAt V0) :=
  (step_reshape ops_writes 69 (lt_len (by decide)) main_v63 main_v64 rfl shapeCasts_S64x2048x22x9_S64x2048x22x3x3 (by exact ⟨by decide, rfl⟩) (by exact ⟨by decide, rfl⟩) rfl (by decide) (by decide) V0).trans (by rw [at_v63 V0]; rfl)
theorem at_v65 (V0 : Valuation τ sig (Elt F)) : after ops V0 (Proc.devRef .tc main_v65) = RefTerm.v65 (argsAt V0) :=
  (step_unary ops_writes 70 (lt_len (by decide)) main_arg4 main_v65 (broadcastInDim S1x1x22x3 ![2, 3] bcast_S22x3_S1x1x22x3_2_3 : (⟨S22x3, .f32⟩ : BufTy).Contents (Elt F) → (⟨S1x1x22x3, .f32⟩ : BufTy).Contents (Elt F)) (by exact ⟨by decide, rfl⟩) (by exact ⟨by decide, rfl⟩) rfl (by decide) (by decide) V0).trans (by rw [at_arg4 V0]; rfl)
theorem at_v66 (V0 : Valuation τ sig (Elt F)) : after ops V0 (Proc.devRef .tc main_v66) = RefTerm.v66 (argsAt V0) :=
  (step_binary ops_writes 71 (lt_len (by decide)) main_arg1 main_arg5 main_v66 ((fun l r => Host.dotGeneral dot_S64x2048x10_S22x3x10_S64x2048x22x3_2_2_01_01_n_n none l r) : (⟨S64x2048x10, .f32⟩ : BufTy).Contents (Elt F) → (⟨S22x3x10, .f32⟩ : BufTy).Contents (Elt F) → (⟨S64x2048x22x3, .f32⟩ : BufTy).Contents (Elt F)) (by exact ⟨by decide, rfl⟩) (by exact ⟨by decide, rfl⟩) (by exact ⟨by decide, rfl⟩) rfl (by decide) (by decide) (by decide) V0).trans (by rw [at_arg1 V0, at_arg5 V0]; rfl)
theorem at_v67 (V0 : Valuation τ sig (Elt F)) : after ops V0 (Proc.devRef .tc main_v67) = RefTerm.v67 (argsAt V0) :=
  (step_unary ops_writes 72 (lt_len (by decide)) main_v65 main_v67 (broadcastInDim S64x2048x22x3 ![0, 1, 2, 3] bcast_S1x1x22x3_S64x2048x22x3_0_1_2_3 : (⟨S1x1x22x3, .f32⟩ : BufTy).Contents (Elt F) → (⟨S64x2048x22x3, .f32⟩ : BufTy).Contents (Elt F)) (by exact ⟨by decide, rfl⟩) (by exact ⟨by decide, rfl⟩) rfl (by decide) (by decide) V0).trans (by rw [at_v65 V0]; rfl)
theorem at_v68 (V0 : Valuation τ sig (Elt F)) : after ops V0 (Proc.devRef .tc main_v68) = RefTerm.v68 (argsAt V0) :=
  (step_binary ops_writes 73 (lt_len (by decide)) main_v67 main_v66 main_v68 (addf : (⟨S64x2048x22x3, .f32⟩ : BufTy).Contents (Elt F) → (⟨S64x2048x22x3, .f32⟩ : BufTy).Contents (Elt F) → (⟨S64x2048x22x3, .f32⟩ : BufTy).Contents (Elt F)) (by exact ⟨by decide, rfl⟩) (by exact ⟨by decide, rfl⟩) (by exact ⟨by decide, rfl⟩) rfl (by decide) (by decide) (by decide) V0).trans (by rw [at_v67 V0, at_v66 V0]; rfl)
theorem at_c_3 (V0 : Valuation τ sig (Elt F)) : after ops V0 (Proc.devRef .tc main_c_3) = RefTerm.c_3 (argsAt V0) :=
  (step_nullary ops_writes 74 (lt_len (by decide)) main_c_3 (constantI S_ 32 0#32) (by exact ⟨by decide, rfl⟩) rfl (by decide) V0).trans rfl
theorem at_v69 (V0 : Valuation τ sig (Elt F)) : after ops V0 (Proc.devRef .tc main_v69) = RefTerm.v69 (argsAt V0) :=
  (step_unary ops_writes 75 (lt_len (by decide)) main_c_3 main_v69 (broadcastInDim S22 ![] bcast_S_S22 : (⟨S_, .i32⟩ : BufTy).Contents (Elt F) → (⟨S22, .i32⟩ : BufTy).Contents (Elt F)) (by exact ⟨by decide, rfl⟩) (by exact ⟨by decide, rfl⟩) rfl (by decide) (by decide) V0).trans (by rw [at_c_3 V0]; rfl)
theorem at_v70 (V0 : Valuation τ sig (Elt F)) : after ops V0 (Proc.devRef .tc main_v70) = RefTerm.v70 (argsAt V0) :=
  (step_binary ops_writes 76 (lt_len (by decide)) main_c main_v69 main_v70 (cmpi .slt : (⟨S22, .i32⟩ : BufTy).Contents (Elt F) → (⟨S22, .i32⟩ : BufTy).Contents (Elt F) → (⟨S22, .i1⟩ : BufTy).Contents (Elt F)) (by exact ⟨by decide, rfl⟩) (by exact ⟨by decide, rfl⟩) (by exact ⟨by decide, rfl⟩) rfl (by decide) (by decide) (by decide) V0).trans (by rw [at_c V0, at_v69 V0]; rfl)
theorem at_c_4 (V0 : Valuation τ sig (Elt F)) : after ops V0 (Proc.devRef .tc main_c_4) = RefTerm.c_4 (argsAt V0) :=
  (step_nullary ops_writes 77 (lt_len (by decide)) main_c_4 (constantI S_ 32 22#32) (by exact ⟨by decide, rfl⟩) rfl (by decide) V0).trans rfl
theorem at_v71 (V0 : Valuation τ sig (Elt F)) : after ops V0 (Proc.devRef .tc main_v71) = RefTerm.v71 (argsAt V0) :=
  (step_unary ops_writes 78 (lt_len (by decide)) main_c_4 main_v71 (broadcastInDim S22 ![] bcast_S_S22 : (⟨S_, .i32⟩ : BufTy).Contents (Elt F) → (⟨S22, .i32⟩ : BufTy).Contents (Elt F)) (by exact ⟨by decide, rfl⟩) (by exact ⟨by decide, rfl⟩) rfl (by decide) (by decide) V0).trans (by rw [at_c_4 V0]; rfl)
theorem at_v72 (V0 : Valuation τ sig (Elt F)) : after ops V0 (Proc.devRef .tc main_v72) = RefTerm.v72 (argsAt V0) :=
  (step_binary ops_writes 79 (lt_len (by decide)) main_c main_v71 main_v72 (addi : (⟨S22, .i32⟩ : BufTy).Contents (Elt F) → (⟨S22, .i32⟩ : BufTy).Contents (Elt F) → (⟨S22, .i32⟩ : BufTy).Contents (Elt F)) (by exact ⟨by decide, rfl⟩) (by exact ⟨by decide, rfl⟩) (by exact ⟨by decide, rfl⟩) rfl (by decide) (by decide) (by decide) V0).trans (by rw [at_c V0, at_v71 V0]; rfl)
theorem at_v73 (V0 : Valuation τ sig (Elt F)) : after ops V0 (Proc.devRef .tc main_v73) = RefTerm.v73 (argsAt V0) :=
  (step_ternary ops_writes 80 (lt_len (by decide)) main_v70 main_v72 main_c main_v73 (select : (⟨S22, .i1⟩ : BufTy).Contents (Elt F) → (⟨S22, .i32⟩ : BufTy).Contents (Elt F) → (⟨S22, .i32⟩ : BufTy).Contents (Elt F) → (⟨S22, .i32⟩ : BufTy).Contents (Elt F)) (by exact ⟨by decide, rfl⟩) (by exact ⟨by decide, rfl⟩) (by exact ⟨by decide, rfl⟩) (by exact ⟨by decide, rfl⟩) rfl (by decide) (by decide) (by decide) (by decide) V0).trans (by rw [at_v70 V0, at_v72 V0, at_c V0]; rfl)
theorem at_v74 (V0 : Valuation τ sig (Elt F)) : after ops V0 (Proc.devRef .tc main_v74) = RefTerm.v74 (argsAt V0) :=
  (step_unary ops_writes 81 (lt_len (by decide)) main_v73 main_v74 (broadcastInDim S22x1 ![0] bcast_S22_S22x1_0 : (⟨S22, .i32⟩ : BufTy).Contents (Elt F) → (⟨S22x1, .i32⟩ : BufTy).Contents (Elt F)) (by exact ⟨by decide, rfl⟩) (by exact ⟨by decide, rfl⟩) rfl (by decide) (by decide) V0).trans (by rw [at_v73 V0]; rfl)
theorem at_v75 (V0 : Valuation τ sig (Elt F)) : after ops V0 (Proc.devRef .tc main_v75) = RefTerm.v75 (argsAt V0) :=
  (step_binary ops_writes 82 (lt_len (by decide)) main_v68 main_v74 main_v75 ((fun x i => Host.gather gather_S64x2048x22x3_S22x1_S64x2048x22x3_013_2_n_n_2_1_64204813 x i) : (⟨S64x2048x22x3, .f32⟩ : BufTy).Contents (Elt F) → (⟨S22x1, .i32⟩ : BufTy).Contents (Elt F) → (⟨S64x2048x22x3, .f32⟩ : BufTy).Contents (Elt F)) (by exact ⟨by decide, rfl⟩) (by exact ⟨by decide, rfl⟩) (by exact ⟨by decide, rfl⟩) rfl (by decide) (by decide) (by decide) V0).trans (by rw [at_v68 V0, at_v74 V0]; rfl)
theorem at_v76 (V0 : Valuation τ sig (Elt F)) : after ops V0 (Proc.devRef .tc main_v76) = RefTerm.v76 (argsAt V0) :=
  (step_binary ops_writes 83 (lt_len (by decide)) main_v68 main_v75 main_v76 (subf : (⟨S64x2048x22x3, .f32⟩ : BufTy).Contents (Elt F) → (⟨S64x2048x22x3, .f32⟩ : BufTy).Contents (Elt F) → (⟨S64x2048x22x3, .f32⟩ : BufTy).Contents (Elt F)) (by exact ⟨by decide, rfl⟩) (by exact ⟨by decide, rfl⟩) (by exact ⟨by decide, rfl⟩) rfl (by decide) (by decide) (by decide) V0).trans (by rw [at_v68 V0, at_v75 V0]; rfl)
theorem at_v77 (V0 : Valuation τ sig (Elt F)) : after ops V0 (Proc.devRef .tc main_v77) = RefTerm.v77 (argsAt V0) :=
  (step_unary ops_writes 84 (lt_len (by decide)) main_v68 main_v77 ((extractStridedSlice S64x2048x1x3 ![0, 0, 0, 0] · slices_S64x2048x22x3_S64x2048x1x3_0_0_0_0) : (⟨S64x2048x22x3, .f32⟩ : BufTy).Contents (Elt F) → (⟨S64x2048x1x3, .f32⟩ : BufTy).Contents (Elt F)) (by exact ⟨by decide, rfl⟩) (by exact ⟨by decide, rfl⟩) rfl (by decide) (by decide) V0).trans (by rw [at_v68 V0]; rfl)
theorem at_v78 (V0 : Valuation τ sig (Elt F)) : after ops V0 (Proc.devRef .tc main_v78) = RefTerm.v78 (argsAt V0) :=
  (step_reshape ops_writes 85 (lt_len (by decide)) main_v77 main_v78 rfl shapeCasts_S64x2048x1x3_S64x2048x3 (by exact ⟨by decide, rfl⟩) (by exact ⟨by decide, rfl⟩) rfl (by decide) (by decide) V0).trans (by rw [at_v77 V0]; rfl)
theorem at_v79 (V0 : Valuation τ sig (Elt F)) : after ops V0 (Proc.devRef .tc main_v79) = RefTerm.v79 (argsAt V0) :=
  (step_binary ops_writes 86 (lt_len (by decide)) main_v78 main_arg3 main_v79 (addf : (⟨S64x2048x3, .f32⟩ : BufTy).Contents (Elt F) → (⟨S64x2048x3, .f32⟩ : BufTy).Contents (Elt F) → (⟨S64x2048x3, .f32⟩ : BufTy).Contents (Elt F)) (by exact ⟨by decide, rfl⟩) (by exact ⟨by decide, rfl⟩) (by exact ⟨by decide, rfl⟩) rfl (by decide) (by decide) (by decide) V0).trans (by rw [at_v78 V0, at_arg3 V0]; rfl)
theorem at_c_5 (V0 : Valuation τ sig (Elt F)) : after ops V0 (Proc.devRef .tc main_c_5) = RefTerm.c_5 (argsAt V0) :=
  (step_nullary ops_writes 87 (lt_len (by decide)) main_c_5 (constantI S_ 32 0#32) (by exact ⟨by decide, rfl⟩) rfl (by decide) V0).trans rfl
theorem at_v80 (V0 : Valuation τ sig (Elt F)) : after ops V0 (Proc.devRef .tc main_v80) = RefTerm.v80 (argsAt V0) :=
  (step_unary ops_writes 88 (lt_len (by decide)) main_c_5 main_v80 (broadcastInDim S1 ![] bcast_S_S1 : (⟨S_, .i32⟩ : BufTy).Contents (Elt F) → (⟨S1, .i32⟩ : BufTy).Contents (Elt F)) (by exact ⟨by decide, rfl⟩) (by exact ⟨by decide, rfl⟩) rfl (by decide) (by decide) V0).trans (by rw [at_c_5 V0]; rfl)
theorem at_v81 (V0 : Valuation τ sig (Elt F)) : after ops V0 (Proc.devRef .tc main_v81) = RefTerm.v81 (argsAt V0) :=
  (step_ternary ops_writes 89 (lt_len (by decide)) main_v76 main_v80 main_v79 main_v81 ((fun x i u => Host.scatter scatter_S64x2048x22x3_S1_S64x2048x3_012_2_2_0 (fun _ b => b) x i u) : (⟨S64x2048x22x3, .f32⟩ : BufTy).Contents (Elt F) → (⟨S1, .i32⟩ : BufTy).Contents (Elt F) → (⟨S64x2048x3, .f32⟩ : BufTy).Contents (Elt F) → (⟨S64x2048x22x3, .f32⟩ : BufTy).Contents (Elt F)) (by exact ⟨by decide, rfl⟩) (by exact ⟨by decide, rfl⟩) (by exact ⟨by decide, rfl⟩) (by exact ⟨by decide, rfl⟩) rfl (by decide) (by decide) (by decide) (by decide) V0).trans (by rw [at_v76 V0, at_v80 V0, at_v79 V0]; rfl)
theorem at_v82 (V0 : Valuation τ sig (Elt F)) : after ops V0 (Proc.devRef .tc main_v82) = RefTerm.v82 (argsAt V0) :=
  (step_unary ops_writes 90 (lt_len (by decide)) main_v81 main_v82 (broadcastInDim S64x2048x22x3x1 ![0, 1, 2, 3] bcast_S64x2048x22x3_S64x2048x22x3x1_0_1_2_3 : (⟨S64x2048x22x3, .f32⟩ : BufTy).Contents (Elt F) → (⟨S64x2048x22x3x1, .f32⟩ : BufTy).Contents (Elt F)) (by exact ⟨by decide, rfl⟩) (by exact ⟨by decide, rfl⟩) rfl (by decide) (by decide) V0).trans (by rw [at_v81 V0]; rfl)
theorem at_v83 (V0 : Valuation τ sig (Elt F)) : after ops V0 (Proc.devRef .tc main_v83) = RefTerm.v83 (argsAt V0) :=
  (step_binary ops_writes 91 (lt_len (by decide)) main_v64 main_v82 main_v83 ((fun a b => concatenate S64x2048x22x3x4 4 [⟨S64x2048x22x3x3, a⟩, ⟨S64x2048x22x3x1, b⟩] concatenates_S64x2048x22x3x3_S64x2048x22x3x1_S64x2048x22x3x4_d4) : (⟨S64x2048x22x3x3, .f32⟩ : BufTy).Contents (Elt F) → (⟨S64x2048x22x3x1, .f32⟩ : BufTy).Contents (Elt F) → (⟨S64x2048x22x3x4, .f32⟩ : BufTy).Contents (Elt F)) (by exact ⟨by decide, rfl⟩) (by exact ⟨by decide, rfl⟩) (by exact ⟨by decide, rfl⟩) rfl (by decide) (by decide) (by decide) V0).trans (by rw [at_v64 V0, at_v82 V0]; rfl)
theorem at_v84 (V0 : Valuation τ sig (Elt F)) : after ops V0 (Proc.devRef .tc main_v84) = RefTerm.v84 (argsAt V0) :=
  (step_unary ops_writes 92 (lt_len (by decide)) main_cst main_v84 (broadcastInDim S64x2048x22x1x4 ![4] bcast_S4_S64x2048x22x1x4_4 : (⟨S4, .f32⟩ : BufTy).Contents (Elt F) → (⟨S64x2048x22x1x4, .f32⟩ : BufTy).Contents (Elt F)) (by exact ⟨by decide, rfl⟩) (by exact ⟨by decide, rfl⟩) rfl (by decide) (by decide) V0).trans (by rw [at_cst V0]; rfl)
theorem at_v85 (V0 : Valuation τ sig (Elt F)) : after ops V0 (Proc.devRef .tc main_v85) = RefTerm.v85 (argsAt V0) :=
  (step_binary ops_writes 93 (lt_len (by decide)) main_v83 main_v84 main_v85 ((fun a b => concatenate S64x2048x22x4x4 3 [⟨S64x2048x22x3x4, a⟩, ⟨S64x2048x22x1x4, b⟩] concatenates_S64x2048x22x3x4_S64x2048x22x1x4_S64x2048x22x4x4_d3) : (⟨S64x2048x22x3x4, .f32⟩ : BufTy).Contents (Elt F) → (⟨S64x2048x22x1x4, .f32⟩ : BufTy).Contents (Elt F) → (⟨S64x2048x22x4x4, .f32⟩ : BufTy).Contents (Elt F)) (by exact ⟨by decide, rfl⟩) (by exact ⟨by decide, rfl⟩) (by exact ⟨by decide, rfl⟩) rfl (by decide) (by decide) (by decide) V0).trans (by rw [at_v83 V0, at_v84 V0]; rfl)
theorem at_v86 (V0 : Valuation τ sig (Elt F)) : after ops V0 (Proc.devRef .tc main_v86) = RefTerm.v86 (argsAt V0) :=
  (step_unary ops_writes 94 (lt_len (by decide)) main_v85 main_v86 ((extractStridedSlice S64x2048x1x4x4 ![0, 0, 0, 0, 0] · slices_S64x2048x22x4x4_S64x2048x1x4x4_0_0_0_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v87 (V0 : Valuation τ sig (Elt F)) : after ops V0 (Proc.devRef .tc main_v87) = RefTerm.v87 (argsAt V0) :=
  (step_reshape ops_writes 95 (lt_len (by decide)) main_v86 main_v87 rfl shapeCasts_S64x2048x1x4x4_S64x2048x4x4 (by exact ⟨by decide, rfl⟩) (by exact ⟨by decide, rfl⟩) rfl (by decide) (by decide) V0).trans (by rw [at_v86 V0]; rfl)
theorem at_v88 (V0 : Valuation τ sig (Elt F)) : after ops V0 (Proc.devRef .tc main_v88) = RefTerm.v88 (argsAt V0) :=
  (step_unary ops_writes 96 (lt_len (by decide)) main_v85 main_v88 ((extractStridedSlice S64x2048x1x4x4 ![0, 0, 1, 0, 0] · slices_S64x2048x22x4x4_S64x2048x1x4x4_0_0_1_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v89 (V0 : Valuation τ sig (Elt F)) : after ops V0 (Proc.devRef .tc main_v89) = RefTerm.v89 (argsAt V0) :=
  (step_reshape ops_writes 97 (lt_len (by decide)) main_v88 main_v89 rfl shapeCasts_S64x2048x1x4x4_S64x2048x4x4 (by exact ⟨by decide, rfl⟩) (by exact ⟨by decide, rfl⟩) rfl (by decide) (by decide) V0).trans (by rw [at_v88 V0]; rfl)
theorem at_v90 (V0 : Valuation τ sig (Elt F)) : after ops V0 (Proc.devRef .tc main_v90) = RefTerm.v90 (argsAt V0) :=
  (step_binary ops_writes 98 (lt_len (by decide)) main_v87 main_v89 main_v90 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v87 V0, at_v89 V0]; rfl)
theorem at_v91 (V0 : Valuation τ sig (Elt F)) : after ops V0 (Proc.devRef .tc main_v91) = RefTerm.v91 (argsAt V0) :=
  (step_unary ops_writes 99 (lt_len (by decide)) main_v85 main_v91 ((extractStridedSlice S64x2048x1x4x4 ![0, 0, 2, 0, 0] · slices_S64x2048x22x4x4_S64x2048x1x4x4_0_0_2_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v92 (V0 : Valuation τ sig (Elt F)) : after ops V0 (Proc.devRef .tc main_v92) = RefTerm.v92 (argsAt V0) :=
  (step_reshape ops_writes 100 (lt_len (by decide)) main_v91 main_v92 rfl shapeCasts_S64x2048x1x4x4_S64x2048x4x4 (by exact ⟨by decide, rfl⟩) (by exact ⟨by decide, rfl⟩) rfl (by decide) (by decide) V0).trans (by rw [at_v91 V0]; rfl)
theorem at_v93 (V0 : Valuation τ sig (Elt F)) : after ops V0 (Proc.devRef .tc main_v93) = RefTerm.v93 (argsAt V0) :=
  (step_binary ops_writes 101 (lt_len (by decide)) main_v87 main_v92 main_v93 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v87 V0, at_v92 V0]; rfl)
theorem at_v94 (V0 : Valuation τ sig (Elt F)) : after ops V0 (Proc.devRef .tc main_v94) = RefTerm.v94 (argsAt V0) :=
  (step_unary ops_writes 102 (lt_len (by decide)) main_v85 main_v94 ((extractStridedSlice S64x2048x1x4x4 ![0, 0, 3, 0, 0] · slices_S64x2048x22x4x4_S64x2048x1x4x4_0_0_3_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v95 (V0 : Valuation τ sig (Elt F)) : after ops V0 (Proc.devRef .tc main_v95) = RefTerm.v95 (argsAt V0) :=
  (step_reshape ops_writes 103 (lt_len (by decide)) main_v94 main_v95 rfl shapeCasts_S64x2048x1x4x4_S64x2048x4x4 (by exact ⟨by decide, rfl⟩) (by exact ⟨by decide, rfl⟩) rfl (by decide) (by decide) V0).trans (by rw [at_v94 V0]; rfl)
theorem at_v96 (V0 : Valuation τ sig (Elt F)) : after ops V0 (Proc.devRef .tc main_v96) = RefTerm.v96 (argsAt V0) :=
  (step_binary ops_writes 104 (lt_len (by decide)) main_v87 main_v95 main_v96 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v87 V0, at_v95 V0]; rfl)
theorem at_v97 (V0 : Valuation τ sig (Elt F)) : after ops V0 (Proc.devRef .tc main_v97) = RefTerm.v97 (argsAt V0) :=
  (step_unary ops_writes 105 (lt_len (by decide)) main_v85 main_v97 ((extractStridedSlice S64x2048x1x4x4 ![0, 0, 4, 0, 0] · slices_S64x2048x22x4x4_S64x2048x1x4x4_0_0_4_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v98 (V0 : Valuation τ sig (Elt F)) : after ops V0 (Proc.devRef .tc main_v98) = RefTerm.v98 (argsAt V0) :=
  (step_reshape ops_writes 106 (lt_len (by decide)) main_v97 main_v98 rfl shapeCasts_S64x2048x1x4x4_S64x2048x4x4 (by exact ⟨by decide, rfl⟩) (by exact ⟨by decide, rfl⟩) rfl (by decide) (by decide) V0).trans (by rw [at_v97 V0]; rfl)
theorem at_v99 (V0 : Valuation τ sig (Elt F)) : after ops V0 (Proc.devRef .tc main_v99) = RefTerm.v99 (argsAt V0) :=
  (step_binary ops_writes 107 (lt_len (by decide)) main_v90 main_v98 main_v99 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v90 V0, at_v98 V0]; rfl)
theorem at_v100 (V0 : Valuation τ sig (Elt F)) : after ops V0 (Proc.devRef .tc main_v100) = RefTerm.v100 (argsAt V0) :=
  (step_unary ops_writes 108 (lt_len (by decide)) main_v85 main_v100 ((extractStridedSlice S64x2048x1x4x4 ![0, 0, 5, 0, 0] · slices_S64x2048x22x4x4_S64x2048x1x4x4_0_0_5_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v101 (V0 : Valuation τ sig (Elt F)) : after ops V0 (Proc.devRef .tc main_v101) = RefTerm.v101 (argsAt V0) :=
  (step_reshape ops_writes 109 (lt_len (by decide)) main_v100 main_v101 rfl shapeCasts_S64x2048x1x4x4_S64x2048x4x4 (by exact ⟨by decide, rfl⟩) (by exact ⟨by decide, rfl⟩) rfl (by decide) (by decide) V0).trans (by rw [at_v100 V0]; rfl)
theorem at_v102 (V0 : Valuation τ sig (Elt F)) : after ops V0 (Proc.devRef .tc main_v102) = RefTerm.v102 (argsAt V0) :=
  (step_binary ops_writes 110 (lt_len (by decide)) main_v93 main_v101 main_v102 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v93 V0, at_v101 V0]; rfl)
theorem at_v103 (V0 : Valuation τ sig (Elt F)) : after ops V0 (Proc.devRef .tc main_v103) = RefTerm.v103 (argsAt V0) :=
  (step_unary ops_writes 111 (lt_len (by decide)) main_v85 main_v103 ((extractStridedSlice S64x2048x1x4x4 ![0, 0, 6, 0, 0] · slices_S64x2048x22x4x4_S64x2048x1x4x4_0_0_6_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v104 (V0 : Valuation τ sig (Elt F)) : after ops V0 (Proc.devRef .tc main_v104) = RefTerm.v104 (argsAt V0) :=
  (step_reshape ops_writes 112 (lt_len (by decide)) main_v103 main_v104 rfl shapeCasts_S64x2048x1x4x4_S64x2048x4x4 (by exact ⟨by decide, rfl⟩) (by exact ⟨by decide, rfl⟩) rfl (by decide) (by decide) V0).trans (by rw [at_v103 V0]; rfl)
theorem at_v105 (V0 : Valuation τ sig (Elt F)) : after ops V0 (Proc.devRef .tc main_v105) = RefTerm.v105 (argsAt V0) :=
  (step_binary ops_writes 113 (lt_len (by decide)) main_v96 main_v104 main_v105 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v96 V0, at_v104 V0]; rfl)
theorem at_v106 (V0 : Valuation τ sig (Elt F)) : after ops V0 (Proc.devRef .tc main_v106) = RefTerm.v106 (argsAt V0) :=
  (step_unary ops_writes 114 (lt_len (by decide)) main_v85 main_v106 ((extractStridedSlice S64x2048x1x4x4 ![0, 0, 7, 0, 0] · slices_S64x2048x22x4x4_S64x2048x1x4x4_0_0_7_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v107 (V0 : Valuation τ sig (Elt F)) : after ops V0 (Proc.devRef .tc main_v107) = RefTerm.v107 (argsAt V0) :=
  (step_reshape ops_writes 115 (lt_len (by decide)) main_v106 main_v107 rfl shapeCasts_S64x2048x1x4x4_S64x2048x4x4 (by exact ⟨by decide, rfl⟩) (by exact ⟨by decide, rfl⟩) rfl (by decide) (by decide) V0).trans (by rw [at_v106 V0]; rfl)
theorem at_v108 (V0 : Valuation τ sig (Elt F)) : after ops V0 (Proc.devRef .tc main_v108) = RefTerm.v108 (argsAt V0) :=
  (step_binary ops_writes 116 (lt_len (by decide)) main_v99 main_v107 main_v108 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v99 V0, at_v107 V0]; rfl)
theorem at_v109 (V0 : Valuation τ sig (Elt F)) : after ops V0 (Proc.devRef .tc main_v109) = RefTerm.v109 (argsAt V0) :=
  (step_unary ops_writes 117 (lt_len (by decide)) main_v85 main_v109 ((extractStridedSlice S64x2048x1x4x4 ![0, 0, 8, 0, 0] · slices_S64x2048x22x4x4_S64x2048x1x4x4_0_0_8_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v110 (V0 : Valuation τ sig (Elt F)) : after ops V0 (Proc.devRef .tc main_v110) = RefTerm.v110 (argsAt V0) :=
  (step_reshape ops_writes 118 (lt_len (by decide)) main_v109 main_v110 rfl shapeCasts_S64x2048x1x4x4_S64x2048x4x4 (by exact ⟨by decide, rfl⟩) (by exact ⟨by decide, rfl⟩) rfl (by decide) (by decide) V0).trans (by rw [at_v109 V0]; rfl)
theorem at_v111 (V0 : Valuation τ sig (Elt F)) : after ops V0 (Proc.devRef .tc main_v111) = RefTerm.v111 (argsAt V0) :=
  (step_binary ops_writes 119 (lt_len (by decide)) main_v102 main_v110 main_v111 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v102 V0, at_v110 V0]; rfl)
theorem at_v112 (V0 : Valuation τ sig (Elt F)) : after ops V0 (Proc.devRef .tc main_v112) = RefTerm.v112 (argsAt V0) :=
  (step_unary ops_writes 120 (lt_len (by decide)) main_v85 main_v112 ((extractStridedSlice S64x2048x1x4x4 ![0, 0, 9, 0, 0] · slices_S64x2048x22x4x4_S64x2048x1x4x4_0_0_9_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v113 (V0 : Valuation τ sig (Elt F)) : after ops V0 (Proc.devRef .tc main_v113) = RefTerm.v113 (argsAt V0) :=
  (step_reshape ops_writes 121 (lt_len (by decide)) main_v112 main_v113 rfl shapeCasts_S64x2048x1x4x4_S64x2048x4x4 (by exact ⟨by decide, rfl⟩) (by exact ⟨by decide, rfl⟩) rfl (by decide) (by decide) V0).trans (by rw [at_v112 V0]; rfl)
theorem at_v114 (V0 : Valuation τ sig (Elt F)) : after ops V0 (Proc.devRef .tc main_v114) = RefTerm.v114 (argsAt V0) :=
  (step_binary ops_writes 122 (lt_len (by decide)) main_v105 main_v113 main_v114 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v105 V0, at_v113 V0]; rfl)
theorem at_v115 (V0 : Valuation τ sig (Elt F)) : after ops V0 (Proc.devRef .tc main_v115) = RefTerm.v115 (argsAt V0) :=
  (step_unary ops_writes 123 (lt_len (by decide)) main_v85 main_v115 ((extractStridedSlice S64x2048x1x4x4 ![0, 0, 10, 0, 0] · slices_S64x2048x22x4x4_S64x2048x1x4x4_0_0_10_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v116 (V0 : Valuation τ sig (Elt F)) : after ops V0 (Proc.devRef .tc main_v116) = RefTerm.v116 (argsAt V0) :=
  (step_reshape ops_writes 124 (lt_len (by decide)) main_v115 main_v116 rfl shapeCasts_S64x2048x1x4x4_S64x2048x4x4 (by exact ⟨by decide, rfl⟩) (by exact ⟨by decide, rfl⟩) rfl (by decide) (by decide) V0).trans (by rw [at_v115 V0]; rfl)
theorem at_v117 (V0 : Valuation τ sig (Elt F)) : after ops V0 (Proc.devRef .tc main_v117) = RefTerm.v117 (argsAt V0) :=
  (step_binary ops_writes 125 (lt_len (by decide)) main_v108 main_v116 main_v117 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v108 V0, at_v116 V0]; rfl)
theorem at_v118 (V0 : Valuation τ sig (Elt F)) : after ops V0 (Proc.devRef .tc main_v118) = RefTerm.v118 (argsAt V0) :=
  (step_unary ops_writes 126 (lt_len (by decide)) main_v85 main_v118 ((extractStridedSlice S64x2048x1x4x4 ![0, 0, 11, 0, 0] · slices_S64x2048x22x4x4_S64x2048x1x4x4_0_0_11_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v119 (V0 : Valuation τ sig (Elt F)) : after ops V0 (Proc.devRef .tc main_v119) = RefTerm.v119 (argsAt V0) :=
  (step_reshape ops_writes 127 (lt_len (by decide)) main_v118 main_v119 rfl shapeCasts_S64x2048x1x4x4_S64x2048x4x4 (by exact ⟨by decide, rfl⟩) (by exact ⟨by decide, rfl⟩) rfl (by decide) (by decide) V0).trans (by rw [at_v118 V0]; rfl)
theorem at_v120 (V0 : Valuation τ sig (Elt F)) : after ops V0 (Proc.devRef .tc main_v120) = RefTerm.v120 (argsAt V0) :=
  (step_binary ops_writes 128 (lt_len (by decide)) main_v111 main_v119 main_v120 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v111 V0, at_v119 V0]; rfl)
theorem at_v121 (V0 : Valuation τ sig (Elt F)) : after ops V0 (Proc.devRef .tc main_v121) = RefTerm.v121 (argsAt V0) :=
  (step_unary ops_writes 129 (lt_len (by decide)) main_v85 main_v121 ((extractStridedSlice S64x2048x1x4x4 ![0, 0, 12, 0, 0] · slices_S64x2048x22x4x4_S64x2048x1x4x4_0_0_12_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v122 (V0 : Valuation τ sig (Elt F)) : after ops V0 (Proc.devRef .tc main_v122) = RefTerm.v122 (argsAt V0) :=
  (step_reshape ops_writes 130 (lt_len (by decide)) main_v121 main_v122 rfl shapeCasts_S64x2048x1x4x4_S64x2048x4x4 (by exact ⟨by decide, rfl⟩) (by exact ⟨by decide, rfl⟩) rfl (by decide) (by decide) V0).trans (by rw [at_v121 V0]; rfl)
theorem at_v123 (V0 : Valuation τ sig (Elt F)) : after ops V0 (Proc.devRef .tc main_v123) = RefTerm.v123 (argsAt V0) :=
  (step_binary ops_writes 131 (lt_len (by decide)) main_v114 main_v122 main_v123 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v114 V0, at_v122 V0]; rfl)
theorem at_v124 (V0 : Valuation τ sig (Elt F)) : after ops V0 (Proc.devRef .tc main_v124) = RefTerm.v124 (argsAt V0) :=
  (step_unary ops_writes 132 (lt_len (by decide)) main_v85 main_v124 ((extractStridedSlice S64x2048x1x4x4 ![0, 0, 13, 0, 0] · slices_S64x2048x22x4x4_S64x2048x1x4x4_0_0_13_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v125 (V0 : Valuation τ sig (Elt F)) : after ops V0 (Proc.devRef .tc main_v125) = RefTerm.v125 (argsAt V0) :=
  (step_reshape ops_writes 133 (lt_len (by decide)) main_v124 main_v125 rfl shapeCasts_S64x2048x1x4x4_S64x2048x4x4 (by exact ⟨by decide, rfl⟩) (by exact ⟨by decide, rfl⟩) rfl (by decide) (by decide) V0).trans (by rw [at_v124 V0]; rfl)
theorem at_v126 (V0 : Valuation τ sig (Elt F)) : after ops V0 (Proc.devRef .tc main_v126) = RefTerm.v126 (argsAt V0) :=
  (step_binary ops_writes 134 (lt_len (by decide)) main_v114 main_v125 main_v126 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v114 V0, at_v125 V0]; rfl)
theorem at_v127 (V0 : Valuation τ sig (Elt F)) : after ops V0 (Proc.devRef .tc main_v127) = RefTerm.v127 (argsAt V0) :=
  (step_unary ops_writes 135 (lt_len (by decide)) main_v85 main_v127 ((extractStridedSlice S64x2048x1x4x4 ![0, 0, 14, 0, 0] · slices_S64x2048x22x4x4_S64x2048x1x4x4_0_0_14_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v128 (V0 : Valuation τ sig (Elt F)) : after ops V0 (Proc.devRef .tc main_v128) = RefTerm.v128 (argsAt V0) :=
  (step_reshape ops_writes 136 (lt_len (by decide)) main_v127 main_v128 rfl shapeCasts_S64x2048x1x4x4_S64x2048x4x4 (by exact ⟨by decide, rfl⟩) (by exact ⟨by decide, rfl⟩) rfl (by decide) (by decide) V0).trans (by rw [at_v127 V0]; rfl)
theorem at_v129 (V0 : Valuation τ sig (Elt F)) : after ops V0 (Proc.devRef .tc main_v129) = RefTerm.v129 (argsAt V0) :=
  (step_binary ops_writes 137 (lt_len (by decide)) main_v114 main_v128 main_v129 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v114 V0, at_v128 V0]; rfl)
theorem at_v130 (V0 : Valuation τ sig (Elt F)) : after ops V0 (Proc.devRef .tc main_v130) = RefTerm.v130 (argsAt V0) :=
  (step_unary ops_writes 138 (lt_len (by decide)) main_v85 main_v130 ((extractStridedSlice S64x2048x1x4x4 ![0, 0, 15, 0, 0] · slices_S64x2048x22x4x4_S64x2048x1x4x4_0_0_15_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v131 (V0 : Valuation τ sig (Elt F)) : after ops V0 (Proc.devRef .tc main_v131) = RefTerm.v131 (argsAt V0) :=
  (step_reshape ops_writes 139 (lt_len (by decide)) main_v130 main_v131 rfl shapeCasts_S64x2048x1x4x4_S64x2048x4x4 (by exact ⟨by decide, rfl⟩) (by exact ⟨by decide, rfl⟩) rfl (by decide) (by decide) V0).trans (by rw [at_v130 V0]; rfl)
theorem at_v132 (V0 : Valuation τ sig (Elt F)) : after ops V0 (Proc.devRef .tc main_v132) = RefTerm.v132 (argsAt V0) :=
  (step_binary ops_writes 140 (lt_len (by decide)) main_v123 main_v131 main_v132 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v123 V0, at_v131 V0]; rfl)
theorem at_v133 (V0 : Valuation τ sig (Elt F)) : after ops V0 (Proc.devRef .tc main_v133) = RefTerm.v133 (argsAt V0) :=
  (step_unary ops_writes 141 (lt_len (by decide)) main_v85 main_v133 ((extractStridedSlice S64x2048x1x4x4 ![0, 0, 16, 0, 0] · slices_S64x2048x22x4x4_S64x2048x1x4x4_0_0_16_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v134 (V0 : Valuation τ sig (Elt F)) : after ops V0 (Proc.devRef .tc main_v134) = RefTerm.v134 (argsAt V0) :=
  (step_reshape ops_writes 142 (lt_len (by decide)) main_v133 main_v134 rfl shapeCasts_S64x2048x1x4x4_S64x2048x4x4 (by exact ⟨by decide, rfl⟩) (by exact ⟨by decide, rfl⟩) rfl (by decide) (by decide) V0).trans (by rw [at_v133 V0]; rfl)
theorem at_v135 (V0 : Valuation τ sig (Elt F)) : after ops V0 (Proc.devRef .tc main_v135) = RefTerm.v135 (argsAt V0) :=
  (step_binary ops_writes 143 (lt_len (by decide)) main_v126 main_v134 main_v135 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v126 V0, at_v134 V0]; rfl)
theorem at_v136 (V0 : Valuation τ sig (Elt F)) : after ops V0 (Proc.devRef .tc main_v136) = RefTerm.v136 (argsAt V0) :=
  (step_unary ops_writes 144 (lt_len (by decide)) main_v85 main_v136 ((extractStridedSlice S64x2048x1x4x4 ![0, 0, 17, 0, 0] · slices_S64x2048x22x4x4_S64x2048x1x4x4_0_0_17_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v137 (V0 : Valuation τ sig (Elt F)) : after ops V0 (Proc.devRef .tc main_v137) = RefTerm.v137 (argsAt V0) :=
  (step_reshape ops_writes 145 (lt_len (by decide)) main_v136 main_v137 rfl shapeCasts_S64x2048x1x4x4_S64x2048x4x4 (by exact ⟨by decide, rfl⟩) (by exact ⟨by decide, rfl⟩) rfl (by decide) (by decide) V0).trans (by rw [at_v136 V0]; rfl)
theorem at_v138 (V0 : Valuation τ sig (Elt F)) : after ops V0 (Proc.devRef .tc main_v138) = RefTerm.v138 (argsAt V0) :=
  (step_binary ops_writes 146 (lt_len (by decide)) main_v129 main_v137 main_v138 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v129 V0, at_v137 V0]; rfl)
theorem at_v139 (V0 : Valuation τ sig (Elt F)) : after ops V0 (Proc.devRef .tc main_v139) = RefTerm.v139 (argsAt V0) :=
  (step_unary ops_writes 147 (lt_len (by decide)) main_v85 main_v139 ((extractStridedSlice S64x2048x1x4x4 ![0, 0, 18, 0, 0] · slices_S64x2048x22x4x4_S64x2048x1x4x4_0_0_18_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v140 (V0 : Valuation τ sig (Elt F)) : after ops V0 (Proc.devRef .tc main_v140) = RefTerm.v140 (argsAt V0) :=
  (step_reshape ops_writes 148 (lt_len (by decide)) main_v139 main_v140 rfl shapeCasts_S64x2048x1x4x4_S64x2048x4x4 (by exact ⟨by decide, rfl⟩) (by exact ⟨by decide, rfl⟩) rfl (by decide) (by decide) V0).trans (by rw [at_v139 V0]; rfl)
theorem at_v141 (V0 : Valuation τ sig (Elt F)) : after ops V0 (Proc.devRef .tc main_v141) = RefTerm.v141 (argsAt V0) :=
  (step_binary ops_writes 149 (lt_len (by decide)) main_v135 main_v140 main_v141 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v135 V0, at_v140 V0]; rfl)
theorem at_v142 (V0 : Valuation τ sig (Elt F)) : after ops V0 (Proc.devRef .tc main_v142) = RefTerm.v142 (argsAt V0) :=
  (step_unary ops_writes 150 (lt_len (by decide)) main_v85 main_v142 ((extractStridedSlice S64x2048x1x4x4 ![0, 0, 19, 0, 0] · slices_S64x2048x22x4x4_S64x2048x1x4x4_0_0_19_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v143 (V0 : Valuation τ sig (Elt F)) : after ops V0 (Proc.devRef .tc main_v143) = RefTerm.v143 (argsAt V0) :=
  (step_reshape ops_writes 151 (lt_len (by decide)) main_v142 main_v143 rfl shapeCasts_S64x2048x1x4x4_S64x2048x4x4 (by exact ⟨by decide, rfl⟩) (by exact ⟨by decide, rfl⟩) rfl (by decide) (by decide) V0).trans (by rw [at_v142 V0]; rfl)
theorem at_v144 (V0 : Valuation τ sig (Elt F)) : after ops V0 (Proc.devRef .tc main_v144) = RefTerm.v144 (argsAt V0) :=
  (step_binary ops_writes 152 (lt_len (by decide)) main_v138 main_v143 main_v144 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v138 V0, at_v143 V0]; rfl)
theorem at_v145 (V0 : Valuation τ sig (Elt F)) : after ops V0 (Proc.devRef .tc main_v145) = RefTerm.v145 (argsAt V0) :=
  (step_unary ops_writes 153 (lt_len (by decide)) main_v85 main_v145 ((extractStridedSlice S64x2048x1x4x4 ![0, 0, 20, 0, 0] · slices_S64x2048x22x4x4_S64x2048x1x4x4_0_0_20_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v146 (V0 : Valuation τ sig (Elt F)) : after ops V0 (Proc.devRef .tc main_v146) = RefTerm.v146 (argsAt V0) :=
  (step_reshape ops_writes 154 (lt_len (by decide)) main_v145 main_v146 rfl shapeCasts_S64x2048x1x4x4_S64x2048x4x4 (by exact ⟨by decide, rfl⟩) (by exact ⟨by decide, rfl⟩) rfl (by decide) (by decide) V0).trans (by rw [at_v145 V0]; rfl)
theorem at_v147 (V0 : Valuation τ sig (Elt F)) : after ops V0 (Proc.devRef .tc main_v147) = RefTerm.v147 (argsAt V0) :=
  (step_binary ops_writes 155 (lt_len (by decide)) main_v141 main_v146 main_v147 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v141 V0, at_v146 V0]; rfl)
theorem at_v148 (V0 : Valuation τ sig (Elt F)) : after ops V0 (Proc.devRef .tc main_v148) = RefTerm.v148 (argsAt V0) :=
  (step_unary ops_writes 156 (lt_len (by decide)) main_v85 main_v148 ((extractStridedSlice S64x2048x1x4x4 ![0, 0, 21, 0, 0] · slices_S64x2048x22x4x4_S64x2048x1x4x4_0_0_21_0_0) : (⟨S64x2048x22x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v85 V0]; rfl)
theorem at_v149 (V0 : Valuation τ sig (Elt F)) : after ops V0 (Proc.devRef .tc main_v149) = RefTerm.v149 (argsAt V0) :=
  (step_reshape ops_writes 157 (lt_len (by decide)) main_v148 main_v149 rfl shapeCasts_S64x2048x1x4x4_S64x2048x4x4 (by exact ⟨by decide, rfl⟩) (by exact ⟨by decide, rfl⟩) rfl (by decide) (by decide) V0).trans (by rw [at_v148 V0]; rfl)
theorem at_v150 (V0 : Valuation τ sig (Elt F)) : after ops V0 (Proc.devRef .tc main_v150) = RefTerm.v150 (argsAt V0) :=
  (step_binary ops_writes 158 (lt_len (by decide)) main_v144 main_v149 main_v150 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (by exact ⟨by decide, rfl⟩) (by exact ⟨by decide, rfl⟩) (by exact ⟨by decide, rfl⟩) rfl (by decide) (by decide) (by decide) V0).trans (by rw [at_v144 V0, at_v149 V0]; rfl)
theorem at_v151 (V0 : Valuation τ sig (Elt F)) : after ops V0 (Proc.devRef .tc main_v151) = RefTerm.v151 (argsAt V0) :=
  (step_unary ops_writes 159 (lt_len (by decide)) main_v87 main_v151 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v87 V0]; rfl)
theorem at_v152 (V0 : Valuation τ sig (Elt F)) : after ops V0 (Proc.devRef .tc main_v152) = RefTerm.v152 (argsAt V0) :=
  (step_unary ops_writes 160 (lt_len (by decide)) main_v90 main_v152 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v90 V0]; rfl)
theorem at_v153 (V0 : Valuation τ sig (Elt F)) : after ops V0 (Proc.devRef .tc main_v153) = RefTerm.v153 (argsAt V0) :=
  (step_unary ops_writes 161 (lt_len (by decide)) main_v93 main_v153 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v93 V0]; rfl)
theorem at_v154 (V0 : Valuation τ sig (Elt F)) : after ops V0 (Proc.devRef .tc main_v154) = RefTerm.v154 (argsAt V0) :=
  (step_unary ops_writes 162 (lt_len (by decide)) main_v96 main_v154 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v96 V0]; rfl)
theorem at_v155 (V0 : Valuation τ sig (Elt F)) : after ops V0 (Proc.devRef .tc main_v155) = RefTerm.v155 (argsAt V0) :=
  (step_unary ops_writes 163 (lt_len (by decide)) main_v99 main_v155 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v99 V0]; rfl)
theorem at_v156 (V0 : Valuation τ sig (Elt F)) : after ops V0 (Proc.devRef .tc main_v156) = RefTerm.v156 (argsAt V0) :=
  (step_unary ops_writes 164 (lt_len (by decide)) main_v102 main_v156 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v102 V0]; rfl)
theorem at_v157 (V0 : Valuation τ sig (Elt F)) : after ops V0 (Proc.devRef .tc main_v157) = RefTerm.v157 (argsAt V0) :=
  (step_unary ops_writes 165 (lt_len (by decide)) main_v105 main_v157 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v105 V0]; rfl)
theorem at_v158 (V0 : Valuation τ sig (Elt F)) : after ops V0 (Proc.devRef .tc main_v158) = RefTerm.v158 (argsAt V0) :=
  (step_unary ops_writes 166 (lt_len (by decide)) main_v108 main_v158 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v108 V0]; rfl)
theorem at_v159 (V0 : Valuation τ sig (Elt F)) : after ops V0 (Proc.devRef .tc main_v159) = RefTerm.v159 (argsAt V0) :=
  (step_unary ops_writes 167 (lt_len (by decide)) main_v111 main_v159 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v111 V0]; rfl)
theorem at_v160 (V0 : Valuation τ sig (Elt F)) : after ops V0 (Proc.devRef .tc main_v160) = RefTerm.v160 (argsAt V0) :=
  (step_unary ops_writes 168 (lt_len (by decide)) main_v114 main_v160 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v114 V0]; rfl)
theorem at_v161 (V0 : Valuation τ sig (Elt F)) : after ops V0 (Proc.devRef .tc main_v161) = RefTerm.v161 (argsAt V0) :=
  (step_unary ops_writes 169 (lt_len (by decide)) main_v117 main_v161 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v117 V0]; rfl)
theorem at_v162 (V0 : Valuation τ sig (Elt F)) : after ops V0 (Proc.devRef .tc main_v162) = RefTerm.v162 (argsAt V0) :=
  (step_unary ops_writes 170 (lt_len (by decide)) main_v120 main_v162 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v120 V0]; rfl)
theorem at_v163 (V0 : Valuation τ sig (Elt F)) : after ops V0 (Proc.devRef .tc main_v163) = RefTerm.v163 (argsAt V0) :=
  (step_unary ops_writes 171 (lt_len (by decide)) main_v123 main_v163 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v123 V0]; rfl)
theorem at_v164 (V0 : Valuation τ sig (Elt F)) : after ops V0 (Proc.devRef .tc main_v164) = RefTerm.v164 (argsAt V0) :=
  (step_unary ops_writes 172 (lt_len (by decide)) main_v126 main_v164 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v126 V0]; rfl)
theorem at_v165 (V0 : Valuation τ sig (Elt F)) : after ops V0 (Proc.devRef .tc main_v165) = RefTerm.v165 (argsAt V0) :=
  (step_unary ops_writes 173 (lt_len (by decide)) main_v129 main_v165 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v129 V0]; rfl)
theorem at_v166 (V0 : Valuation τ sig (Elt F)) : after ops V0 (Proc.devRef .tc main_v166) = RefTerm.v166 (argsAt V0) :=
  (step_unary ops_writes 174 (lt_len (by decide)) main_v132 main_v166 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v132 V0]; rfl)
theorem at_v167 (V0 : Valuation τ sig (Elt F)) : after ops V0 (Proc.devRef .tc main_v167) = RefTerm.v167 (argsAt V0) :=
  (step_unary ops_writes 175 (lt_len (by decide)) main_v135 main_v167 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v135 V0]; rfl)
theorem at_v168 (V0 : Valuation τ sig (Elt F)) : after ops V0 (Proc.devRef .tc main_v168) = RefTerm.v168 (argsAt V0) :=
  (step_unary ops_writes 176 (lt_len (by decide)) main_v138 main_v168 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v138 V0]; rfl)
theorem at_v169 (V0 : Valuation τ sig (Elt F)) : after ops V0 (Proc.devRef .tc main_v169) = RefTerm.v169 (argsAt V0) :=
  (step_unary ops_writes 177 (lt_len (by decide)) main_v141 main_v169 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v141 V0]; rfl)
theorem at_v170 (V0 : Valuation τ sig (Elt F)) : after ops V0 (Proc.devRef .tc main_v170) = RefTerm.v170 (argsAt V0) :=
  (step_unary ops_writes 178 (lt_len (by decide)) main_v144 main_v170 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v144 V0]; rfl)
theorem at_v171 (V0 : Valuation τ sig (Elt F)) : after ops V0 (Proc.devRef .tc main_v171) = RefTerm.v171 (argsAt V0) :=
  (step_unary ops_writes 179 (lt_len (by decide)) main_v147 main_v171 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v147 V0]; rfl)
theorem at_v172 (V0 : Valuation τ sig (Elt F)) : after ops V0 (Proc.devRef .tc main_v172) = RefTerm.v172 (argsAt V0) :=
  (step_unary ops_writes 180 (lt_len (by decide)) main_v150 main_v172 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (by exact ⟨by decide, rfl⟩) (by exact ⟨by decide, rfl⟩) rfl (by decide) (by decide) V0).trans (by rw [at_v150 V0]; rfl)
theorem at_v173 (V0 : Valuation τ sig (Elt F)) : after ops V0 (Proc.devRef .tc main_v173) = RefTerm.v173 (argsAt V0) :=
  (step_nary ops_writes 181 (lt_len (by decide)) ![main_v151, main_v152, main_v153, main_v154, main_v155, main_v156, main_v157, main_v158, main_v159, main_v160, main_v161, main_v162, main_v163, main_v164, main_v165, main_v166] main_v173 (fun u => concatenate S64x2048x16x4x4 2 [⟨S64x2048x1x4x4, u 0⟩, ⟨S64x2048x1x4x4, u 1⟩, ⟨S64x2048x1x4x4, u 2⟩, ⟨S64x2048x1x4x4, u 3⟩, ⟨S64x2048x1x4x4, u 4⟩, ⟨S64x2048x1x4x4, u 5⟩, ⟨S64x2048x1x4x4, u 6⟩, ⟨S64x2048x1x4x4, u 7⟩, ⟨S64x2048x1x4x4, u 8⟩, ⟨S64x2048x1x4x4, u 9⟩, ⟨S64x2048x1x4x4, u 10⟩, ⟨S64x2048x1x4x4, u 11⟩, ⟨S64x2048x1x4x4, u 12⟩, ⟨S64x2048x1x4x4, u 13⟩, ⟨S64x2048x1x4x4, u 14⟩, ⟨S64x2048x1x4x4, u 15⟩] concatenates_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x16x4x4_d2) (by decide) (by exact ⟨by decide, rfl⟩) rfl (by decide) (by decide) V0).trans (by
    show concatenate S64x2048x16x4x4 2 [⟨S64x2048x1x4x4, (after ops V0 (Proc.devRef .tc main_v151))⟩, ⟨S64x2048x1x4x4, (after ops V0 (Proc.devRef .tc main_v152))⟩, ⟨S64x2048x1x4x4, (after ops V0 (Proc.devRef .tc main_v153))⟩, ⟨S64x2048x1x4x4, (after ops V0 (Proc.devRef .tc main_v154))⟩, ⟨S64x2048x1x4x4, (after ops V0 (Proc.devRef .tc main_v155))⟩, ⟨S64x2048x1x4x4, (after ops V0 (Proc.devRef .tc main_v156))⟩, ⟨S64x2048x1x4x4, (after ops V0 (Proc.devRef .tc main_v157))⟩, ⟨S64x2048x1x4x4, (after ops V0 (Proc.devRef .tc main_v158))⟩, ⟨S64x2048x1x4x4, (after ops V0 (Proc.devRef .tc main_v159))⟩, ⟨S64x2048x1x4x4, (after ops V0 (Proc.devRef .tc main_v160))⟩, ⟨S64x2048x1x4x4, (after ops V0 (Proc.devRef .tc main_v161))⟩, ⟨S64x2048x1x4x4, (after ops V0 (Proc.devRef .tc main_v162))⟩, ⟨S64x2048x1x4x4, (after ops V0 (Proc.devRef .tc main_v163))⟩, ⟨S64x2048x1x4x4, (after ops V0 (Proc.devRef .tc main_v164))⟩, ⟨S64x2048x1x4x4, (after ops V0 (Proc.devRef .tc main_v165))⟩, ⟨S64x2048x1x4x4, (after ops V0 (Proc.devRef .tc main_v166))⟩] concatenates_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x16x4x4_d2 = _
    rw [at_v151 V0, at_v152 V0, at_v153 V0, at_v154 V0, at_v155 V0, at_v156 V0, at_v157 V0, at_v158 V0, at_v159 V0, at_v160 V0, at_v161 V0, at_v162 V0, at_v163 V0, at_v164 V0, at_v165 V0, at_v166 V0]; rfl)
theorem at_v174 (V0 : Valuation τ sig (Elt F)) : after ops V0 (Proc.devRef .tc main_v174) = RefTerm.v174 (argsAt V0) :=
  (step_nary ops_writes 182 (lt_len (by decide)) ![main_v167, main_v168, main_v169, main_v170, main_v171, main_v172] main_v174 (fun u => concatenate S64x2048x6x4x4 2 [⟨S64x2048x1x4x4, u 0⟩, ⟨S64x2048x1x4x4, u 1⟩, ⟨S64x2048x1x4x4, u 2⟩, ⟨S64x2048x1x4x4, u 3⟩, ⟨S64x2048x1x4x4, u 4⟩, ⟨S64x2048x1x4x4, u 5⟩] concatenates_S64x2048x1x4x4_S64x2048x1x4x4_S64x2048x1x4x4_S64x2048x1x4x4_S64x2048x1x4x4_S64x2048x1x4x4_S64x2048x6x4x4_d2) (by decide) (by exact ⟨by decide, rfl⟩) rfl (by decide) (by decide) V0).trans (by
    show concatenate S64x2048x6x4x4 2 [⟨S64x2048x1x4x4, (after ops V0 (Proc.devRef .tc main_v167))⟩, ⟨S64x2048x1x4x4, (after ops V0 (Proc.devRef .tc main_v168))⟩, ⟨S64x2048x1x4x4, (after ops V0 (Proc.devRef .tc main_v169))⟩, ⟨S64x2048x1x4x4, (after ops V0 (Proc.devRef .tc main_v170))⟩, ⟨S64x2048x1x4x4, (after ops V0 (Proc.devRef .tc main_v171))⟩, ⟨S64x2048x1x4x4, (after ops V0 (Proc.devRef .tc main_v172))⟩] concatenates_S64x2048x1x4x4_S64x2048x1x4x4_S64x2048x1x4x4_S64x2048x1x4x4_S64x2048x1x4x4_S64x2048x1x4x4_S64x2048x6x4x4_d2 = _
    rw [at_v167 V0, at_v168 V0, at_v169 V0, at_v170 V0, at_v171 V0, at_v172 V0]; rfl)
theorem at_v175 (V0 : Valuation τ sig (Elt F)) : after ops V0 (Proc.devRef .tc main_v175) = RefTerm.v175 (argsAt V0) :=
  (step_binary ops_writes 183 (lt_len (by decide)) main_v173 main_v174 main_v175 ((fun a b => concatenate S64x2048x22x4x4 2 [⟨S64x2048x16x4x4, a⟩, ⟨S64x2048x6x4x4, b⟩] concatenates_S64x2048x16x4x4_S64x2048x6x4x4_S64x2048x22x4x4_d2) : (⟨S64x2048x16x4x4, .f32⟩ : BufTy).Contents (Elt F) → (⟨S64x2048x6x4x4, .f32⟩ : BufTy).Contents (Elt F) → (⟨S64x2048x22x4x4, .f32⟩ : BufTy).Contents (Elt F)) (by exact ⟨by decide, rfl⟩) (by exact ⟨by decide, rfl⟩) (by exact ⟨by decide, rfl⟩) rfl (by decide) (by decide) (by decide) V0).trans (by rw [at_v173 V0, at_v174 V0]; rfl)
theorem at_v176 (V0 : Valuation τ sig (Elt F)) : after ops V0 (Proc.devRef .tc main_v176) = RefTerm.v176 (argsAt V0) :=
  (step_unary ops_writes 184 (lt_len (by decide)) main_v175 main_v176 ((extractStridedSlice S64x2048x22x3x1 ![0, 0, 0, 0, 3] · slices_S64x2048x22x4x4_S64x2048x22x3x1_0_0_0_0_3) : (⟨S64x2048x22x4x4, .f32⟩ : BufTy).Contents (Elt F) → (⟨S64x2048x22x3x1, .f32⟩ : BufTy).Contents (Elt F)) (by exact ⟨by decide, rfl⟩) (by exact ⟨by decide, rfl⟩) rfl (by decide) (by decide) V0).trans (by rw [at_v175 V0]; rfl)
theorem at_v177 (V0 : Valuation τ sig (Elt F)) : after ops V0 (Proc.devRef .tc main_v177) = RefTerm.v177 (argsAt V0) :=
  (step_reshape ops_writes 185 (lt_len (by decide)) main_v176 main_v177 rfl shapeCasts_S64x2048x22x3x1_S64x2048x22x3 (by exact ⟨by decide, rfl⟩) (by exact ⟨by decide, rfl⟩) rfl (by decide) (by decide) V0).trans (by rw [at_v176 V0]; rfl)

/-! ## The run -/

set_option maxRecDepth 8192 in
/-- No operation of the program leaves a buffer's contents undetermined. -/
theorem ops_fresh_map :
    (ops : List (HloOp τ sig (Elt F))).map HloOp.fresh = List.replicate 186 (∅ : Finset (DevRef τ sig)) := rfl

theorem ops_fresh (op : HloOp τ sig (Elt F)) (hop : op ∈ (ops : List (HloOp τ sig (Elt F)))) : op.fresh = ∅ := by
  have h : op.fresh ∈ (ops : List (HloOp τ sig (Elt F))).map HloOp.fresh := List.mem_map_of_mem hop
  rw [ops_fresh_map] at h
  exact List.eq_of_mem_replicate h

/-- The arguments' contents in the launch memory, on device c. -/
def argsOf (m : (ℓ : Loc nD τ sig) → Buf (Elt F) ℓ) (c : Dev nD) : RefTerm.In F :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5)⟩

theorem argsAt_launch (m : (ℓ : Loc nD τ sig) → Buf (Elt F) ℓ) (c : Dev nD) : argsAt (launchContents m c) = argsOf m c := rfl

/-- On every device, for any float values, from any memory with zero counters: every weakly fair execution of
    @main terminates with the result buffer at its name over the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v177) = RefTerm.v177 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v177).trans ((at_v177 (launchContents m c)).trans (congrArg RefTerm.v177 (argsAt_launch m c))),
       (h c main_arg0).trans (at_arg0 (launchContents m c)),
       (h c main_arg1).trans (at_arg1 (launchContents m c)),
       (h c main_arg2).trans (at_arg2 (launchContents m c)),
       (h c main_arg3).trans (at_arg3 (launchContents m c)),
       (h c main_arg4).trans (at_arg4 (launchContents m c)),
       (h c main_arg5).trans (at_arg5 (launchContents m c))⟩)
    (run_seq scopedRefs_eq scopedSems_eq defs main (fun _ => ops) main_eq (fun _ => ops_sub) m ρ (fun _ op hop => ops_fresh op hop))

end Cert.ReferenceIdeal.RefRun

end
-- ==== Proof.RefReadBase.lean ====
/-
  The six arguments of the reference program, as the arrays the token-by-token mathematics reads.
-/
import proofs.«129627_j26603027432101_2_alg».proof.Proof.RefTerm
import proofs.«129627_j26603027432101_2_alg».proof.Proof.Token
import Idealize.ShloMosaic.Lib.IdealHost
import Idealize.ShloMosaic.Lib.Pipeline.Value

noncomputable section

namespace Cert.ReferenceIdeal.RefRead

open Idealize.ShloMosaic Idealize.ShloMosaic.ValueIdx Cert.ReferenceIdeal
open Cert.ReferenceIdeal.Facts₀ Cert.ReferenceIdeal.Facts

variable [Cert.ReferenceIdeal.Facts]

/-- The six argument arrays in the order the mathematics names them: poses, shape coefficients, root orientation,
    translation, joint template, shape basis. -/
def argsOf (x : RefTerm.In Ideal) : FK.Args := ⟨x.a0, x.a1, x.a2, x.a3, x.a4, x.a5⟩

end Cert.ReferenceIdeal.RefRead

end
-- ==== Proof.RefRead1.lean ====
/-
  The reference program's first values read at an index: the axis-angle vectors (a concatenation and a row-major
  reshape), their squared lengths (a sum over the last axis), and Rodrigues' formula entry by entry.
-/
import proofs.«129627_j26603027432101_2_alg».proof.Proof.RefReadBase

noncomputable section

namespace Cert.ReferenceIdeal.RefRead

open Idealize.ShloMosaic Idealize.ShloMosaic.ValueIdx Cert.ReferenceIdeal
open Cert.ReferenceIdeal.Facts₀ Cert.ReferenceIdeal.Facts

variable [Cert.ReferenceIdeal.Facts]

/-- The concatenated array at a position below 3 is the root orientation. -/
theorem v0_left (x : RefTerm.In Ideal) (b : Fin 64) (l : Fin 2048) (k : Fin 66) (c : Fin 3) (h : k.val = c.val) :
    RefTerm.v0 x (ix3 b l k) = x.a2 (ix3 b l c) := by
  unfold RefTerm.v0
  exact concatenate_pair_apply_left (t := S64x2048x66) (s₁ := S64x2048x3) (s₂ := S64x2048x63) _ _ _ _ (ix3 b l k) rfl (ix3 b l c)
    (by intro a
        match a with
        | ⟨0, _⟩ => exact rfl
        | ⟨1, _⟩ => exact rfl
        | ⟨2, _⟩ => exact h.symm)

/-- The concatenated array at a position from 3 on is the pose array, 3 less. -/
theorem v0_right (x : RefTerm.In Ideal) (b : Fin 64) (l : Fin 2048) (k : Fin 66) (m : Fin 63) (h : m.val + 3 = k.val) :
    RefTerm.v0 x (ix3 b l k) = x.a0 (ix3 b l m) := by
  unfold RefTerm.v0
  exact concatenate_pair_apply_right (t := S64x2048x66) (s₁ := S64x2048x3) (s₂ := S64x2048x63) _ _ _ _ (ix3 b l k) rfl rfl (ix3 b l m)
    (by intro a ha
        match a, ha with
        | ⟨0, _⟩, _ => exact rfl
        | ⟨1, _⟩, _ => exact rfl
        | ⟨2, _⟩, ha => exact absurd rfl ha)
    (by exact h)

/-- The reshape to one vector per joint: joint j's component c sits at position 3 j + c. -/
theorem v1_apply (x : RefTerm.In Ideal) (b : Fin 64) (l : Fin 2048) (j : Fin 22) (c : Fin 3) :
    RefTerm.v1 x (ix4 b l j c) = RefTerm.v0 x (ix3 b l (⟨3 * j.val + c.val, by omega⟩ : Fin 66)) := by
  unfold RefTerm.v1
  exact shapeCast_apply _ _ _ _ (by
    rw [Shape.rowMajor_val_three, Shape.rowMajor_val_four]
    show (b.val * 2048 + l.val) * 66 + (3 * j.val + c.val) = ((b.val * 2048 + l.val) * 22 + j.val) * 3 + c.val
    omega)

/-- Joint j's axis-angle vector. -/
theorem v1_aa (x : RefTerm.In Ideal) (b : Fin 64) (l : Fin 2048) (j : Fin 22) (c : Fin 3) :
    RefTerm.v1 x (ix4 b l j c) = FK.aaTok (argsOf x) b l j c := by
  rw [v1_apply]
  unfold FK.aaTok
  by_cases hj : j = 0
  · subst hj
    rw [if_pos rfl]
    exact v0_left x b l _ c (by simp)
  · rw [if_neg hj]
    have hj' : j.val ≠ 0 := fun h => hj (Fin.ext h)
    exact v0_right x b l _ _ (by show 3 * (j.val - 1) + c.val + 3 = 3 * j.val + c.val; omega)

/-- The squared length: the sum of the three squared components. -/
theorem v3_apply (x : RefTerm.In Ideal) (b : Fin 64) (l : Fin 2048) (j : Fin 22) :
    RefTerm.v3 x (ix3 b l j)
      = RefTerm.v1 x (ix4 b l j 0) * RefTerm.v1 x (ix4 b l j 0) + RefTerm.v1 x (ix4 b l j 1) * RefTerm.v1 x (ix4 b l j 1)
        + RefTerm.v1 x (ix4 b l j 2) * RefTerm.v1 x (ix4 b l j 2) := by
  have hR : S64x2048x22x3.Reduces [3] S64x2048x22 := by decide
  unfold RefTerm.v3
  rw [hostReduceAdd_apply]
  refine (Ideal.hostReduceAdd_single _ hR _ _ _).trans ?_
  have hl : ∀ k : Fin 3, hR.lift (ix3 b l j) k = ix4 b l j k := fun k => by
    funext a
    match a with
    | ⟨0, _⟩ => rfl
    | ⟨1, _⟩ => rfl
    | ⟨2, _⟩ => rfl
    | ⟨3, _⟩ => rfl
  show RefTerm.cst_0 x _ + ∑ k : Fin 3, RefTerm.v2 x (hR.lift (ix3 b l j) k) = _
  rw [Fin.sum_univ_three, hl, hl, hl]
  show Ideal.ofBits .f32 0x00000000#32 + _ = _
  rw [Ideal.ofBits_zero_f32, zero_add]
  rfl

end Cert.ReferenceIdeal.RefRead

end
-- ==== Proof.RefRead2.lean ====
/-
  Rodrigues' formula in the reference program, entry by entry: the angle (the square root of the squared length plus the
  small constant), the unit axis, the cosine and sine, the nine entries, and their assembly into a 3×3 matrix per joint
  (nine unit-extent pieces concatenated along the last axis, reshaped row-major to 3×3).
-/
import proofs.«129627_j26603027432101_2_alg».proof.Proof.RefRead1

noncomputable section

namespace Cert.ReferenceIdeal.RefRead

open Idealize.ShloMosaic Idealize.ShloMosaic.ValueIdx Cert.ReferenceIdeal
open Cert.ReferenceIdeal.Facts₀ Cert.ReferenceIdeal.Facts

variable [Cert.ReferenceIdeal.Facts]

/-- A broadcast that appends a unit axis reads the operand at the leading coordinates. -/
theorem bcast_unit (V : S64x2048x22.Idx → EReal)
    (h : S64x2048x22.BroadcastsInDim S64x2048x22x1 (![0, 1, 2] : Fin 3 → Fin S64x2048x22x1.rank))
    (b : Fin 64) (l : Fin 2048) (j : Fin 22) (u : Fin 1) :
    broadcastInDim S64x2048x22x1 (![0, 1, 2] : Fin 3 → Fin S64x2048x22x1.rank) h V (ix4 b l j u) = V (ix3 b l j) :=
  broadcastInDim_apply _ h V (ix4 b l j u) (ix3 b l j) (by
    intro a
    match a with
    | ⟨0, _⟩ => exact rfl
    | ⟨1, _⟩ => exact rfl
    | ⟨2, _⟩ => exact rfl)

/-- Dropping a trailing unit axis reads the operand at the unit coordinate. -/
theorem drop_unit (V : S64x2048x22x1.Idx → EReal) (hc : S64x2048x22x1.ShapeCasts S64x2048x22)
    (b : Fin 64) (l : Fin 2048) (j : Fin 22) :
    shapeCast S64x2048x22 V hc (ix3 b l j) = V (ix4 b l j (0 : Fin 1)) :=
  shapeCast_apply V hc (ix3 b l j) (ix4 b l j (0 : Fin 1)) (by
    rw [Shape.rowMajor_val_three, Shape.rowMajor_val_four]
    show ((b.val * 2048 + l.val) * 22 + j.val) * 1 + 0 = (b.val * 2048 + l.val) * 22 + j.val
    omega)

/-- Component m of the last axis, sliced out and its unit axis dropped. -/
theorem slice_last (o : Nat) (m : Fin 3) (ho : m.val = o) (V : S64x2048x22x3.Idx → EReal)
    (h : S64x2048x22x3.Slices ![0, 0, 0, o] S64x2048x22x1) (hc : S64x2048x22x1.ShapeCasts S64x2048x22)
    (b : Fin 64) (l : Fin 2048) (j : Fin 22) :
    shapeCast S64x2048x22 (extractStridedSlice S64x2048x22x1 ![0, 0, 0, o] V h) hc (ix3 b l j) = V (ix4 b l j m) := by
  refine (drop_unit _ hc b l j).trans ?_
  exact extractStridedSlice_apply _ V h (ix4 b l j (0 : Fin 1)) (ix4 b l j m) (by
    intro a
    match a with
    | ⟨0, _⟩ => show b.val = 0 + b.val; omega
    | ⟨1, _⟩ => show l.val = 0 + l.val; omega
    | ⟨2, _⟩ => show j.val = 0 + j.val; omega
    | ⟨3, _⟩ => show m.val = o + 0; omega)

theorem v4_apply (x : RefTerm.In Ideal) (b : Fin 64) (l : Fin 2048) (j : Fin 22) (u : Fin 1) : RefTerm.v4 x (ix4 b l j u) = RefTerm.v3 x (ix3 b l j) := by
  unfold RefTerm.v4
  exact bcast_unit _ _ b l j u

theorem v5_apply (x : RefTerm.In Ideal) (i : S64x2048x22x1.Idx) : RefTerm.v5 x i = FK.eps := by
  unfold RefTerm.v5
  exact (broadcastInDim_scalar_apply _ _ _).trans rfl

theorem v7_apply (x : RefTerm.In Ideal) (b : Fin 64) (l : Fin 2048) (j : Fin 22) (u : Fin 1) :
    RefTerm.v7 x (ix4 b l j u) = Ideal.sqrt (RefTerm.v3 x (ix3 b l j) + FK.eps) := by
  show Ideal.sqrt (RefTerm.v4 x (ix4 b l j u) + RefTerm.v5 x (ix4 b l j u)) = _
  rw [v4_apply, v5_apply]

/-- The angle. -/
theorem v7_angle (x : RefTerm.In Ideal) (b : Fin 64) (l : Fin 2048) (j : Fin 22) (u : Fin 1) : RefTerm.v7 x (ix4 b l j u) = FK.angle (FK.aaTok (argsOf x) b l j) := by
  rw [v7_apply, v3_apply, v1_aa, v1_aa, v1_aa]
  rfl

theorem v8_apply (x : RefTerm.In Ideal) (b : Fin 64) (l : Fin 2048) (j : Fin 22) (c : Fin 3) : RefTerm.v8 x (ix4 b l j c) = RefTerm.v7 x (ix4 b l j (0 : Fin 1)) := by
  unfold RefTerm.v8
  exact broadcastInDim_apply _ _ _ (ix4 b l j c) (ix4 b l j (0 : Fin 1)) (by
    intro a
    match a with
    | ⟨0, _⟩ => exact rfl
    | ⟨1, _⟩ => exact rfl
    | ⟨2, _⟩ => exact rfl
    | ⟨3, _⟩ => exact rfl)

/-- The unit axis. -/
theorem v9_axis (x : RefTerm.In Ideal) (b : Fin 64) (l : Fin 2048) (j : Fin 22) (c : Fin 3) : RefTerm.v9 x (ix4 b l j c) = FK.axis (FK.aaTok (argsOf x) b l j) c := by
  show Ideal.div (RefTerm.v1 x (ix4 b l j c)) (RefTerm.v8 x (ix4 b l j c)) = _
  rw [v1_aa, v8_apply, v7_angle]
  rfl

theorem v11_apply (x : RefTerm.In Ideal) (b : Fin 64) (l : Fin 2048) (j : Fin 22) : RefTerm.v11 x (ix3 b l j) = FK.axis (FK.aaTok (argsOf x) b l j) 0 := by
  unfold RefTerm.v11 RefTerm.v10
  exact (slice_last 0 0 rfl _ _ _ b l j).trans (v9_axis x b l j 0)

theorem v13_apply (x : RefTerm.In Ideal) (b : Fin 64) (l : Fin 2048) (j : Fin 22) : RefTerm.v13 x (ix3 b l j) = FK.axis (FK.aaTok (argsOf x) b l j) 1 := by
  unfold RefTerm.v13 RefTerm.v12
  exact (slice_last 1 1 rfl _ _ _ b l j).trans (v9_axis x b l j 1)

theorem v15_apply (x : RefTerm.In Ideal) (b : Fin 64) (l : Fin 2048) (j : Fin 22) : RefTerm.v15 x (ix3 b l j) = FK.axis (FK.aaTok (argsOf x) b l j) 2 := by
  unfold RefTerm.v15 RefTerm.v14
  exact (slice_last 2 2 rfl _ _ _ b l j).trans (v9_axis x b l j 2)

theorem v16_apply (x : RefTerm.In Ideal) (b : Fin 64) (l : Fin 2048) (j : Fin 22) : RefTerm.v16 x (ix3 b l j) = FK.angle (FK.aaTok (argsOf x) b l j) := by
  unfold RefTerm.v16
  exact (drop_unit _ _ b l j).trans (v7_angle x b l j 0)

theorem v17_apply (x : RefTerm.In Ideal) (b : Fin 64) (l : Fin 2048) (j : Fin 22) : RefTerm.v17 x (ix3 b l j) = Ideal.cos (FK.angle (FK.aaTok (argsOf x) b l j)) := by
  show Ideal.cos (RefTerm.v16 x (ix3 b l j)) = _
  rw [v16_apply]

theorem v18_apply (x : RefTerm.In Ideal) (b : Fin 64) (l : Fin 2048) (j : Fin 22) : RefTerm.v18 x (ix3 b l j) = Ideal.sin (FK.angle (FK.aaTok (argsOf x) b l j)) := by
  show Ideal.sin (RefTerm.v16 x (ix3 b l j)) = _
  rw [v16_apply]

theorem v19_apply (x : RefTerm.In Ideal) (i : S64x2048x22.Idx) : RefTerm.v19 x i = FK.one := by
  unfold RefTerm.v19
  exact (broadcastInDim_scalar_apply _ _ _).trans rfl

theorem v20_apply (x : RefTerm.In Ideal) (b : Fin 64) (l : Fin 2048) (j : Fin 22) : RefTerm.v20 x (ix3 b l j) = FK.one - Ideal.cos (FK.angle (FK.aaTok (argsOf x) b l j)) := by
  show RefTerm.v19 x (ix3 b l j) - RefTerm.v17 x (ix3 b l j) = _
  rw [v19_apply, v17_apply]

/-! The nine entries: each is, pointwise, the printed combination of the axis components, the cosine, the sine and
    one minus the cosine; read at a token and joint it is the entry of Rodrigues' matrix. -/

theorem v23_eq (x : RefTerm.In Ideal) (i : S64x2048x22.Idx) :
    RefTerm.v23 x i = RefTerm.v20 x i * RefTerm.v11 x i * RefTerm.v11 x i + RefTerm.v17 x i := rfl

theorem v23_rot (x : RefTerm.In Ideal) (b : Fin 64) (l : Fin 2048) (j : Fin 22) : RefTerm.v23 x (ix3 b l j) = FK.rot (FK.aaTok (argsOf x) b l j) 0 0 := by
  rw [v23_eq, v20_apply, v11_apply, v17_apply]
  rfl

theorem v27_eq (x : RefTerm.In Ideal) (i : S64x2048x22.Idx) :
    RefTerm.v27 x i = RefTerm.v20 x i * RefTerm.v11 x i * RefTerm.v13 x i - RefTerm.v18 x i * RefTerm.v15 x i := rfl

theorem v27_rot (x : RefTerm.In Ideal) (b : Fin 64) (l : Fin 2048) (j : Fin 22) : RefTerm.v27 x (ix3 b l j) = FK.rot (FK.aaTok (argsOf x) b l j) 0 1 := by
  rw [v27_eq, v20_apply, v11_apply, v13_apply, v18_apply, v15_apply]
  rfl

theorem v31_eq (x : RefTerm.In Ideal) (i : S64x2048x22.Idx) :
    RefTerm.v31 x i = RefTerm.v20 x i * RefTerm.v11 x i * RefTerm.v15 x i + RefTerm.v18 x i * RefTerm.v13 x i := rfl

theorem v31_rot (x : RefTerm.In Ideal) (b : Fin 64) (l : Fin 2048) (j : Fin 22) : RefTerm.v31 x (ix3 b l j) = FK.rot (FK.aaTok (argsOf x) b l j) 0 2 := by
  rw [v31_eq, v20_apply, v11_apply, v15_apply, v18_apply, v13_apply]
  rfl

theorem v35_eq (x : RefTerm.In Ideal) (i : S64x2048x22.Idx) :
    RefTerm.v35 x i = RefTerm.v20 x i * RefTerm.v11 x i * RefTerm.v13 x i + RefTerm.v18 x i * RefTerm.v15 x i := rfl

theorem v35_rot (x : RefTerm.In Ideal) (b : Fin 64) (l : Fin 2048) (j : Fin 22) : RefTerm.v35 x (ix3 b l j) = FK.rot (FK.aaTok (argsOf x) b l j) 1 0 := by
  rw [v35_eq, v20_apply, v11_apply, v13_apply, v18_apply, v15_apply]
  rfl

theorem v38_eq (x : RefTerm.In Ideal) (i : S64x2048x22.Idx) :
    RefTerm.v38 x i = RefTerm.v20 x i * RefTerm.v13 x i * RefTerm.v13 x i + RefTerm.v17 x i := rfl

theorem v38_rot (x : RefTerm.In Ideal) (b : Fin 64) (l : Fin 2048) (j : Fin 22) : RefTerm.v38 x (ix3 b l j) = FK.rot (FK.aaTok (argsOf x) b l j) 1 1 := by
  rw [v38_eq, v20_apply, v13_apply, v17_apply]
  rfl

theorem v42_eq (x : RefTerm.In Ideal) (i : S64x2048x22.Idx) :
    RefTerm.v42 x i = RefTerm.v20 x i * RefTerm.v13 x i * RefTerm.v15 x i - RefTerm.v18 x i * RefTerm.v11 x i := rfl

theorem v42_rot (x : RefTerm.In Ideal) (b : Fin 64) (l : Fin 2048) (j : Fin 22) : RefTerm.v42 x (ix3 b l j) = FK.rot (FK.aaTok (argsOf x) b l j) 1 2 := by
  rw [v42_eq, v20_apply, v13_apply, v15_apply, v18_apply, v11_apply]
  rfl

theorem v46_eq (x : RefTerm.In Ideal) (i : S64x2048x22.Idx) :
    RefTerm.v46 x i = RefTerm.v20 x i * RefTerm.v11 x i * RefTerm.v15 x i - RefTerm.v18 x i * RefTerm.v13 x i := rfl

theorem v46_rot (x : RefTerm.In Ideal) (b : Fin 64) (l : Fin 2048) (j : Fin 22) : RefTerm.v46 x (ix3 b l j) = FK.rot (FK.aaTok (argsOf x) b l j) 2 0 := by
  rw [v46_eq, v20_apply, v11_apply, v15_apply, v18_apply, v13_apply]
  rfl

theorem v50_eq (x : RefTerm.In Ideal) (i : S64x2048x22.Idx) :
    RefTerm.v50 x i = RefTerm.v20 x i * RefTerm.v13 x i * RefTerm.v15 x i + RefTerm.v18 x i * RefTerm.v11 x i := rfl

theorem v50_rot (x : RefTerm.In Ideal) (b : Fin 64) (l : Fin 2048) (j : Fin 22) : RefTerm.v50 x (ix3 b l j) = FK.rot (FK.aaTok (argsOf x) b l j) 2 1 := by
  rw [v50_eq, v20_apply, v13_apply, v15_apply, v18_apply, v11_apply]
  rfl

theorem v53_eq (x : RefTerm.In Ideal) (i : S64x2048x22.Idx) :
    RefTerm.v53 x i = RefTerm.v20 x i * RefTerm.v15 x i * RefTerm.v15 x i + RefTerm.v17 x i := rfl

theorem v53_rot (x : RefTerm.In Ideal) (b : Fin 64) (l : Fin 2048) (j : Fin 22) : RefTerm.v53 x (ix3 b l j) = FK.rot (FK.aaTok (argsOf x) b l j) 2 2 := by
  rw [v53_eq, v20_apply, v15_apply, v17_apply]
  rfl

/-! The nine entries, each given a trailing unit axis, are concatenated along it and reshaped row-major to 3×3. -/

/-- A concatenation of unit-extent pieces along the last axis, read at position n: piece n at its one index. -/
theorem cat9_apply (xs : List ((s : Shape) × (s.Idx → EReal)))
    (h : Shape.Concatenates (xs.map (·.1)) S64x2048x22x9 3)
    (n : Nat) (hn : n < xs.length) (x₁ : S64x2048x22x1.Idx → EReal) (hxk : xs[n] = ⟨S64x2048x22x1, x₁⟩)
    (hpre : (((xs.take n).map (·.1)).map fun s =>
      if h : s.rank = S64x2048x22x9.rank then s.size ((3 : Fin S64x2048x22x9.rank).cast h.symm) else 0).sum = n)
    (b : Fin 64) (l : Fin 2048) (j : Fin 22) (e : Fin 9) (he : e.val = n) :
    concatenate S64x2048x22x9 3 xs h (ix4 b l j e) = x₁ (ix4 b l j (0 : Fin 1)) :=
  concatenate_apply_piece 3 xs h (ix4 b l j e) n hn S64x2048x22x1 x₁ hxk rfl n hpre (ix4 b l j (0 : Fin 1))
    (by intro a ha
        match a, ha with
        | ⟨0, _⟩, _ => exact rfl
        | ⟨1, _⟩, _ => exact rfl
        | ⟨2, _⟩, _ => exact rfl
        | ⟨3, _⟩, ha => exact absurd rfl ha)
    (by show n + 0 = e.val; omega)

theorem v63_e0 (x : RefTerm.In Ideal) (b : Fin 64) (l : Fin 2048) (j : Fin 22) (e : Fin 9) (he : e.val = 0) :
    RefTerm.v63 x (ix4 b l j e) = FK.rot (FK.aaTok (argsOf x) b l j) 0 0 := by
  unfold RefTerm.v63
  refine (cat9_apply _ _ 0 (by show (0 : Nat) < 9; decide) (RefTerm.v54 x) rfl rfl b l j e he).trans ?_
  unfold RefTerm.v54
  exact (bcast_unit _ _ b l j 0).trans (v23_rot x b l j)

theorem v63_e1 (x : RefTerm.In Ideal) (b : Fin 64) (l : Fin 2048) (j : Fin 22) (e : Fin 9) (he : e.val = 1) :
    RefTerm.v63 x (ix4 b l j e) = FK.rot (FK.aaTok (argsOf x) b l j) 0 1 := by
  unfold RefTerm.v63
  refine (cat9_apply _ _ 1 (by show (1 : Nat) < 9; decide) (RefTerm.v55 x) rfl rfl b l j e he).trans ?_
  unfold RefTerm.v55
  exact (bcast_unit _ _ b l j 0).trans (v27_rot x b l j)

theorem v63_e2 (x : RefTerm.In Ideal) (b : Fin 64) (l : Fin 2048) (j : Fin 22) (e : Fin 9) (he : e.val = 2) :
    RefTerm.v63 x (ix4 b l j e) = FK.rot (FK.aaTok (argsOf x) b l j) 0 2 := by
  unfold RefTerm.v63
  refine (cat9_apply _ _ 2 (by show (2 : Nat) < 9; decide) (RefTerm.v56 x) rfl rfl b l j e he).trans ?_
  unfold RefTerm.v56
  exact (bcast_unit _ _ b l j 0).trans (v31_rot x b l j)

theorem v63_e3 (x : RefTerm.In Ideal) (b : Fin 64) (l : Fin 2048) (j : Fin 22) (e : Fin 9) (he : e.val = 3) :
    RefTerm.v63 x (ix4 b l j e) = FK.rot (FK.aaTok (argsOf x) b l j) 1 0 := by
  unfold RefTerm.v63
  refine (cat9_apply _ _ 3 (by show (3 : Nat) < 9; decide) (RefTerm.v57 x) rfl rfl b l j e he).trans ?_
  unfold RefTerm.v57
  exact (bcast_unit _ _ b l j 0).trans (v35_rot x b l j)

theorem v63_e4 (x : RefTerm.In Ideal) (b : Fin 64) (l : Fin 2048) (j : Fin 22) (e : Fin 9) (he : e.val = 4) :
    RefTerm.v63 x (ix4 b l j e) = FK.rot (FK.aaTok (argsOf x) b l j) 1 1 := by
  unfold RefTerm.v63
  refine (cat9_apply _ _ 4 (by show (4 : Nat) < 9; decide) (RefTerm.v58 x) rfl rfl b l j e he).trans ?_
  unfold RefTerm.v58
  exact (bcast_unit _ _ b l j 0).trans (v38_rot x b l j)

theorem v63_e5 (x : RefTerm.In Ideal) (b : Fin 64) (l : Fin 2048) (j : Fin 22) (e : Fin 9) (he : e.val = 5) :
    RefTerm.v63 x (ix4 b l j e) = FK.rot (FK.aaTok (argsOf x) b l j) 1 2 := by
  unfold RefTerm.v63
  refine (cat9_apply _ _ 5 (by show (5 : Nat) < 9; decide) (RefTerm.v59 x) rfl rfl b l j e he).trans ?_
  unfold RefTerm.v59
  exact (bcast_unit _ _ b l j 0).trans (v42_rot x b l j)

theorem v63_e6 (x : RefTerm.In Ideal) (b : Fin 64) (l : Fin 2048) (j : Fin 22) (e : Fin 9) (he : e.val = 6) :
    RefTerm.v63 x (ix4 b l j e) = FK.rot (FK.aaTok (argsOf x) b l j) 2 0 := by
  unfold RefTerm.v63
  refine (cat9_apply _ _ 6 (by show (6 : Nat) < 9; decide) (RefTerm.v60 x) rfl rfl b l j e he).trans ?_
  unfold RefTerm.v60
  exact (bcast_unit _ _ b l j 0).trans (v46_rot x b l j)

theorem v63_e7 (x : RefTerm.In Ideal) (b : Fin 64) (l : Fin 2048) (j : Fin 22) (e : Fin 9) (he : e.val = 7) :
    RefTerm.v63 x (ix4 b l j e) = FK.rot (FK.aaTok (argsOf x) b l j) 2 1 := by
  unfold RefTerm.v63
  refine (cat9_apply _ _ 7 (by show (7 : Nat) < 9; decide) (RefTerm.v61 x) rfl rfl b l j e he).trans ?_
  unfold RefTerm.v61
  exact (bcast_unit _ _ b l j 0).trans (v50_rot x b l j)

theorem v63_e8 (x : RefTerm.In Ideal) (b : Fin 64) (l : Fin 2048) (j : Fin 22) (e : Fin 9) (he : e.val = 8) :
    RefTerm.v63 x (ix4 b l j e) = FK.rot (FK.aaTok (argsOf x) b l j) 2 2 := by
  unfold RefTerm.v63
  refine (cat9_apply _ _ 8 (by show (8 : Nat) < 9; decide) (RefTerm.v62 x) rfl rfl b l j e he).trans ?_
  unfold RefTerm.v62
  exact (bcast_unit _ _ b l j 0).trans (v53_rot x b l j)

/-- The reshape to 3×3: entry (r, k) sits at position 3 r + k. -/
theorem v64_apply (x : RefTerm.In Ideal) (b : Fin 64) (l : Fin 2048) (j : Fin 22) (r k : Fin 3) :
    RefTerm.v64 x (ix5 b l j r k) = RefTerm.v63 x (ix4 b l j (⟨3 * r.val + k.val, by omega⟩ : Fin 9)) := by
  unfold RefTerm.v64
  exact shapeCast_apply _ _ (ix5 b l j r k) (ix4 b l j (⟨3 * r.val + k.val, by omega⟩ : Fin 9)) (by
    rw [Shape.rowMajor_val_four, Shape.rowMajor_val_five]
    show ((b.val * 2048 + l.val) * 22 + j.val) * 9 + (3 * r.val + k.val)
      = (((b.val * 2048 + l.val) * 22 + j.val) * 3 + r.val) * 3 + k.val
    omega)

/-- Joint j's rotation: Rodrigues' formula of its axis-angle vector. -/
theorem v64_rot (x : RefTerm.In Ideal) (b : Fin 64) (l : Fin 2048) (j : Fin 22) (r k : Fin 3) :
    RefTerm.v64 x (ix5 b l j r k) = FK.RTok (argsOf x) b l j r k := by
  rw [v64_apply]
  show _ = FK.rot (FK.aaTok (argsOf x) b l j) r k
  match r, k with
  | ⟨0, _⟩, ⟨0, _⟩ => exact v63_e0 x b l j _ rfl
  | ⟨0, _⟩, ⟨1, _⟩ => exact v63_e1 x b l j _ rfl
  | ⟨0, _⟩, ⟨2, _⟩ => exact v63_e2 x b l j _ rfl
  | ⟨1, _⟩, ⟨0, _⟩ => exact v63_e3 x b l j _ rfl
  | ⟨1, _⟩, ⟨1, _⟩ => exact v63_e4 x b l j _ rfl
  | ⟨1, _⟩, ⟨2, _⟩ => exact v63_e5 x b l j _ rfl
  | ⟨2, _⟩, ⟨0, _⟩ => exact v63_e6 x b l j _ rfl
  | ⟨2, _⟩, ⟨1, _⟩ => exact v63_e7 x b l j _ rfl
  | ⟨2, _⟩, ⟨2, _⟩ => exact v63_e8 x b l j _ rfl

end Cert.ReferenceIdeal.RefRead

end
-- ==== Proof.RefRead3.lean ====
/-
  The skeleton in the reference program: the joints' template broadcast over the tokens plus the shape basis contracted
  with the token's coefficients (one contraction axis of extent ten).
-/
import proofs.«129627_j26603027432101_2_alg».proof.Proof.RefReadBase
import Idealize.ShloMosaic.Lib.StackMember

noncomputable section

namespace Cert.ReferenceIdeal.RefRead

open Idealize.ShloMosaic Idealize.ShloMosaic.ValueIdx Cert.ReferenceIdeal
open Cert.ReferenceIdeal.Facts₀ Cert.ReferenceIdeal.Facts

variable [Cert.ReferenceIdeal.Facts]

/-- The template with two leading unit axes. -/
theorem v65_apply (x : RefTerm.In Ideal) (u u' : Fin 1) (j : Fin 22) (c : Fin 3) :
    RefTerm.v65 x (ix4 u u' j c) = x.a4 (ix2 j c) := by
  unfold RefTerm.v65
  exact broadcastInDim_apply _ _ _ (ix4 u u' j c) (ix2 j c) (by
    intro a
    match a with
    | ⟨0, _⟩ => exact rfl
    | ⟨1, _⟩ => exact rfl)

/-- The template broadcast over the tokens. -/
theorem v67_apply (x : RefTerm.In Ideal) (b : Fin 64) (l : Fin 2048) (j : Fin 22) (c : Fin 3) :
    RefTerm.v67 x (ix4 b l j c) = x.a4 (ix2 j c) := by
  unfold RefTerm.v67
  refine (broadcastInDim_apply _ _ _ (ix4 b l j c) (ix4 (0 : Fin 1) (0 : Fin 1) j c) (by
    intro a
    match a with
    | ⟨0, _⟩ => exact rfl
    | ⟨1, _⟩ => exact rfl
    | ⟨2, _⟩ => exact rfl
    | ⟨3, _⟩ => exact rfl)).trans ?_
  exact v65_apply x 0 0 j c

/-- The contraction of the coefficients with the shape basis, read at an index: the sum over the ten directions. -/
theorem v66_apply (x : RefTerm.In Ideal) (b : Fin 64) (l : Fin 2048) (j : Fin 22) (c : Fin 3) :
    RefTerm.v66 x (ix4 b l j c) = ∑ k : Fin 10, x.a1 (ix3 b l k) * x.a5 (ix3 j c k) := by
  unfold RefTerm.v66
  show FloatOps.dotGeneral (F := Ideal) (φ₁ := .f32) (φ₂ := .f32) dot_S64x2048x10_S22x3x10_S64x2048x22x3_2_2_01_01_n_n none .single x.a1 x.a5 (ix4 b l j c) = _
  rw [Ideal.dotGeneral_apply, ← Equiv.sum_comp (contrEquiv1 dot_S64x2048x10_S22x3x10_S64x2048x22x3_2_2_01_01_n_n 10 rfl rfl).symm]
  refine Finset.sum_congr rfl fun k _ => ?_
  have ck := contrEquiv1_symm_val dot_S64x2048x10_S22x3x10_S64x2048x22x3_2_2_01_01_n_n 10 rfl rfl k
  have hl : (dot_S64x2048x10_S22x3x10_S64x2048x22x3_2_2_01_01_n_n).lhsIdx (ix4 b l j c) ((contrEquiv1 _ 10 rfl rfl).symm k) = ix3 b l k := by
    funext ax; apply Fin.ext
    match ax with
    | ⟨0, _⟩ => simp [DotDims.lhsIdx, dot_S64x2048x10_S22x3x10_S64x2048x22x3_2_2_01_01_n_n]; rfl
    | ⟨1, _⟩ => simp [DotDims.lhsIdx, dot_S64x2048x10_S22x3x10_S64x2048x22x3_2_2_01_01_n_n]; rfl
    | ⟨2, _⟩ => simp [DotDims.lhsIdx, dot_S64x2048x10_S22x3x10_S64x2048x22x3_2_2_01_01_n_n]; exact ck
  have hr : (dot_S64x2048x10_S22x3x10_S64x2048x22x3_2_2_01_01_n_n).rhsIdx (ix4 b l j c) ((contrEquiv1 _ 10 rfl rfl).symm k) = ix3 j c k := by
    funext ax; apply Fin.ext
    match ax with
    | ⟨0, _⟩ => simp [DotDims.rhsIdx, dot_S64x2048x10_S22x3x10_S64x2048x22x3_2_2_01_01_n_n]; rfl
    | ⟨1, _⟩ => simp [DotDims.rhsIdx, dot_S64x2048x10_S22x3x10_S64x2048x22x3_2_2_01_01_n_n]; rfl
    | ⟨2, _⟩ => simp [DotDims.rhsIdx, dot_S64x2048x10_S22x3x10_S64x2048x22x3_2_2_01_01_n_n]; exact ck
  rw [hl, hr]

/-- Joint j's skeleton position. -/
theorem v68_sk (x : RefTerm.In Ideal) (b : Fin 64) (l : Fin 2048) (j : Fin 22) (c : Fin 3) :
    RefTerm.v68 x (ix4 b l j c) = FK.skTok (argsOf x) b l j c := by
  show RefTerm.v67 x (ix4 b l j c) + RefTerm.v66 x (ix4 b l j c) = _
  rw [v67_apply, v66_apply]
  rfl

end Cert.ReferenceIdeal.RefRead

end
-- ==== Proof.RefRead4.lean ====
/-
  The local offsets in the reference program. The parent table is an integer constant (wrapped by the number of joints
  where negative, which it never is); the parents' skeleton positions are gathered along the joint axis by it; the
  difference with the joints' own positions is every joint's offset but the root's, whose slot is then overwritten (a
  scatter of one window at joint 0) with the root's position plus the translation.
-/
import proofs.«129627_j26603027432101_2_alg».proof.Proof.RefRead3

noncomputable section

namespace Cert.ReferenceIdeal.RefRead

open Idealize.ShloMosaic Idealize.ShloMosaic.ValueIdx Cert.ReferenceIdeal
open Cert.ReferenceIdeal.Facts₀ Cert.ReferenceIdeal.Facts

variable [Cert.ReferenceIdeal.Facts]

/-! ## The parent table -/

/-- The parent index as the program computes it: the literal, plus 22 where it is negative. -/
def pidx (j : Fin 22) : BitVec 32 :=
  Scalar.select (IntOp.cmpi .slt (lit0 j) 0#32) (IntOp.addi (lit0 j) 22#32) (lit0 j)

/-- Read as a signed integer and clamped into the joint axis, it is the kinematic tree's parent. -/
theorem pidx_parent : ∀ j : Fin 22, min (pidx j).toInt.toNat 21 = (FK.parent j).val := by decide

theorem c_apply (x : RefTerm.In Ideal) (j : Fin 22) : RefTerm.c x (ix1 j) = lit0 j := by
  show lit0 (S22.rowMajor (ix1 j)) = lit0 j
  exact congrArg lit0 (Fin.ext (Shape.rowMajor_val_one (ix1 j)))

theorem v69_apply (x : RefTerm.In Ideal) (i : S22.Idx) : RefTerm.v69 x i = 0#32 := by
  unfold RefTerm.v69
  exact (broadcastInDim_scalar_apply _ _ _).trans rfl

theorem v71_apply (x : RefTerm.In Ideal) (i : S22.Idx) : RefTerm.v71 x i = 22#32 := by
  unfold RefTerm.v71
  exact (broadcastInDim_scalar_apply _ _ _).trans rfl

theorem v73_apply (x : RefTerm.In Ideal) (j : Fin 22) : RefTerm.v73 x (ix1 j) = pidx j := by
  show Scalar.select (IntOp.cmpi .slt (RefTerm.c x (ix1 j)) (RefTerm.v69 x (ix1 j)))
    (IntOp.addi (RefTerm.c x (ix1 j)) (RefTerm.v71 x (ix1 j))) (RefTerm.c x (ix1 j)) = _
  rw [c_apply, v69_apply, v71_apply]
  rfl

theorem v74_apply (x : RefTerm.In Ideal) (j : Fin 22) (u : Fin 1) : RefTerm.v74 x (ix2 j u) = pidx j := by
  unfold RefTerm.v74
  refine (broadcastInDim_apply _ _ _ (ix2 j u) (ix1 j) (by
    intro a
    match a with
    | ⟨0, _⟩ => exact rfl)).trans (v73_apply x j)

/-! ## The gather along the joint axis -/

theorem gather_start_off {w : Nat} (idx : IVec S22x1 w) (y : S64x2048x22x3.Idx) (a : Fin 4) (ha : a ≠ 2) :
    (gather_S64x2048x22x3_S22x1_S64x2048x22x3_013_2_n_n_2_1_64204813).start y idx a = 0 := by
  unfold GatherDims.start
  rw [dif_neg]
  intro h
  exact ha (List.mem_singleton.mp h)

/-- The gather read at an index: the operand at the same token and component, at the joint the index array names
    (read signed and clamped into the joint axis). -/
theorem gather_apply {w : Nat} (V : S64x2048x22x3.Idx → EReal) (idx : IVec S22x1 w)
    (b : Fin 64) (l : Fin 2048) (j : Fin 22) (c : Fin 3) :
    Host.gather gather_S64x2048x22x3_S22x1_S64x2048x22x3_013_2_n_n_2_1_64204813 V idx (ix4 b l j c)
      = V (ix4 b l (⟨min (idx (ix2 j (0 : Fin 1))).toInt.toNat 21, by omega⟩ : Fin 22) c) := by
  unfold Host.gather
  congr 1
  funext a
  refine Fin.ext ?_
  have hb := GatherDims.batchCoord_eq_zero gather_S64x2048x22x3_S22x1_S64x2048x22x3_013_2_n_n_2_1_64204813 (ix4 b l j c) a List.not_mem_nil
  match a, hb with
  | ⟨0, h0⟩, hb =>
    have hs := gather_start_off idx (ix4 b l j c) ⟨0, h0⟩ (Fin.ne_of_val_ne (by show (0 : Nat) ≠ 2; decide))
    have ho : (gather_S64x2048x22x3_S22x1_S64x2048x22x3_013_2_n_n_2_1_64204813).offCoord (ix4 b l j c) ⟨0, h0⟩ = b.val := rfl
    show (gather_S64x2048x22x3_S22x1_S64x2048x22x3_013_2_n_n_2_1_64204813).start (ix4 b l j c) idx ⟨0, h0⟩ + (gather_S64x2048x22x3_S22x1_S64x2048x22x3_013_2_n_n_2_1_64204813).batchCoord (ix4 b l j c) ⟨0, h0⟩ + (gather_S64x2048x22x3_S22x1_S64x2048x22x3_013_2_n_n_2_1_64204813).offCoord (ix4 b l j c) ⟨0, h0⟩ = b.val
    omega
  | ⟨1, h1⟩, hb =>
    have hs := gather_start_off idx (ix4 b l j c) ⟨1, h1⟩ (Fin.ne_of_val_ne (by show (1 : Nat) ≠ 2; decide))
    have ho : (gather_S64x2048x22x3_S22x1_S64x2048x22x3_013_2_n_n_2_1_64204813).offCoord (ix4 b l j c) ⟨1, h1⟩ = l.val := rfl
    show (gather_S64x2048x22x3_S22x1_S64x2048x22x3_013_2_n_n_2_1_64204813).start (ix4 b l j c) idx ⟨1, h1⟩ + (gather_S64x2048x22x3_S22x1_S64x2048x22x3_013_2_n_n_2_1_64204813).batchCoord (ix4 b l j c) ⟨1, h1⟩ + (gather_S64x2048x22x3_S22x1_S64x2048x22x3_013_2_n_n_2_1_64204813).offCoord (ix4 b l j c) ⟨1, h1⟩ = l.val
    omega
  | ⟨2, h2⟩, hb =>
    have ho : (gather_S64x2048x22x3_S22x1_S64x2048x22x3_013_2_n_n_2_1_64204813).offCoord (ix4 b l j c) ⟨2, h2⟩ = 0 := rfl
    have hs : (gather_S64x2048x22x3_S22x1_S64x2048x22x3_013_2_n_n_2_1_64204813).start (ix4 b l j c) idx ⟨2, h2⟩ = min (idx (ix2 j (0 : Fin 1))).toInt.toNat 21 := by
      unfold GatherDims.start
      have hmem : (⟨2, h2⟩ : Fin 4) ∈ (gather_S64x2048x22x3_S22x1_S64x2048x22x3_013_2_n_n_2_1_64204813).startIndexMap := List.mem_singleton.mpr rfl
      rw [dif_pos hmem]
      have hsi : (gather_S64x2048x22x3_S22x1_S64x2048x22x3_013_2_n_n_2_1_64204813).siIdx (ix4 b l j c) ⟨List.idxOf (⟨2, h2⟩ : Fin 4) (gather_S64x2048x22x3_S22x1_S64x2048x22x3_013_2_n_n_2_1_64204813).startIndexMap,
          List.idxOf_lt_length_iff.2 hmem⟩ = ix2 j (0 : Fin 1) := by
        funext b'
        refine Fin.ext ?_
        match b' with
        | ⟨0, _⟩ => rfl
        | ⟨1, _⟩ => rfl
      rw [hsi]
      rfl
    show (gather_S64x2048x22x3_S22x1_S64x2048x22x3_013_2_n_n_2_1_64204813).start (ix4 b l j c) idx ⟨2, h2⟩ + (gather_S64x2048x22x3_S22x1_S64x2048x22x3_013_2_n_n_2_1_64204813).batchCoord (ix4 b l j c) ⟨2, h2⟩ + (gather_S64x2048x22x3_S22x1_S64x2048x22x3_013_2_n_n_2_1_64204813).offCoord (ix4 b l j c) ⟨2, h2⟩
      = min (idx (ix2 j (0 : Fin 1))).toInt.toNat 21
    omega
  | ⟨3, h3⟩, hb =>
    have hs := gather_start_off idx (ix4 b l j c) ⟨3, h3⟩ (Fin.ne_of_val_ne (by show (3 : Nat) ≠ 2; decide))
    have ho : (gather_S64x2048x22x3_S22x1_S64x2048x22x3_013_2_n_n_2_1_64204813).offCoord (ix4 b l j c) ⟨3, h3⟩ = c.val := rfl
    show (gather_S64x2048x22x3_S22x1_S64x2048x22x3_013_2_n_n_2_1_64204813).start (ix4 b l j c) idx ⟨3, h3⟩ + (gather_S64x2048x22x3_S22x1_S64x2048x22x3_013_2_n_n_2_1_64204813).batchCoord (ix4 b l j c) ⟨3, h3⟩ + (gather_S64x2048x22x3_S22x1_S64x2048x22x3_013_2_n_n_2_1_64204813).offCoord (ix4 b l j c) ⟨3, h3⟩ = c.val
    omega

/-- The parents' skeleton positions. -/
theorem v75_apply (x : RefTerm.In Ideal) (b : Fin 64) (l : Fin 2048) (j : Fin 22) (c : Fin 3) :
    RefTerm.v75 x (ix4 b l j c) = RefTerm.v68 x (ix4 b l (FK.parent j) c) := by
  unfold RefTerm.v75
  refine (gather_apply _ _ b l j c).trans ?_
  exact congrArg (fun m : Fin 22 => RefTerm.v68 x (ix4 b l m c))
    (Fin.ext (by show min (RefTerm.v74 x (ix2 j (0 : Fin 1))).toInt.toNat 21 = (FK.parent j).val
                 rw [v74_apply]; exact pidx_parent j))

/-- The root's position plus the translation. -/
theorem v79_apply (x : RefTerm.In Ideal) (b : Fin 64) (l : Fin 2048) (c : Fin 3) :
    RefTerm.v79 x (ix3 b l c) = RefTerm.v68 x (ix4 b l (0 : Fin 22) c) + x.a3 (ix3 b l c) := by
  show RefTerm.v78 x (ix3 b l c) + x.a3 (ix3 b l c) = _
  congr 1
  unfold RefTerm.v78 RefTerm.v77
  refine (shapeCast_apply _ _ (ix3 b l c) (ix4 b l (0 : Fin 1) c) (by
    rw [Shape.rowMajor_val_four, Shape.rowMajor_val_three]
    show ((b.val * 2048 + l.val) * 1 + 0) * 3 + c.val = (b.val * 2048 + l.val) * 3 + c.val
    omega)).trans ?_
  exact extractStridedSlice_apply _ _ _ (ix4 b l (0 : Fin 1) c) (ix4 b l (0 : Fin 22) c) (by
    intro a
    match a with
    | ⟨0, _⟩ => show b.val = 0 + b.val; omega
    | ⟨1, _⟩ => show l.val = 0 + l.val; omega
    | ⟨2, _⟩ => show (0 : Nat) = 0 + 0; omega
    | ⟨3, _⟩ => show c.val = 0 + c.val; omega)

/-! ## The scatter of one window at joint 0

A left fold of single-index updates; at an index no update lands on, the fold leaves the operand's value, and at an
index exactly one update lands on (the update indices without repeats), it leaves that update's value. -/

theorem foldl_untouched {κ ι α : Type} (step : (ι → α) → κ → (ι → α)) (i' : ι) :
    ∀ (L : List κ) (v : ι → α), (∀ k ∈ L, ∀ r, step r k i' = r i') → L.foldl step v i' = v i'
  | [], _, _ => rfl
  | k :: L, v, h => by
    rw [List.foldl_cons, foldl_untouched step i' L (step v k) (fun k' hk' => h k' (List.mem_cons_of_mem _ hk'))]
    exact h k List.mem_cons_self v

theorem foldl_hit {κ ι α : Type} (step : (ι → α) → κ → (ι → α)) (i' : ι) (k0 : κ) (val : α)
    (hhit : ∀ r, step r k0 i' = val) :
    ∀ (L : List κ) (v : ι → α), L.Nodup → k0 ∈ L → (∀ k ∈ L, k ≠ k0 → ∀ r, step r k i' = r i') →
      L.foldl step v i' = val
  | [], _, _, hk, _ => absurd hk List.not_mem_nil
  | k :: L, v, hnd, hk, hmiss => by
    rw [List.foldl_cons]
    by_cases hkk : k = k0
    · subst hkk
      have hnot : k ∉ L := (List.nodup_cons.mp hnd).1
      rw [foldl_untouched step i' L (step v k) (fun k' hk' r =>
        hmiss k' (List.mem_cons_of_mem _ hk') (fun e => hnot (e ▸ hk')) r)]
      exact hhit v
    · have hk' : k0 ∈ L := (List.mem_cons.mp hk).resolve_left (fun e => hkk e.symm)
      exact foldl_hit step i' k0 val hhit L (step v k) (List.nodup_cons.mp hnd).2 hk'
        (fun k' hk'' => hmiss k' (List.mem_cons_of_mem _ hk''))

theorem v80_apply (x : RefTerm.In Ideal) (i : S1.Idx) : RefTerm.v80 x i = 0#32 := by
  unfold RefTerm.v80
  exact (broadcastInDim_scalar_apply _ _ _).trans rfl

/-- Every window starts at zero on every axis: the one scatter index is the constant zero. -/
theorem scatter_start (x : RefTerm.In Ideal) (y : S64x2048x3.Idx) (a : Fin 4) :
    (scatter_S64x2048x22x3_S1_S64x2048x3_012_2_2_0).start y (RefTerm.v80 x) a = 0 := by
  unfold ScatterDims.start
  split
  · rw [v80_apply]; rfl
  · rfl

/-- Where update index (b, l, c) lands: joint 0 of the same token, component c. -/
theorem scatter_result (x : RefTerm.In Ideal) (b : Fin 64) (l : Fin 2048) (c : Fin 3) :
    (scatter_S64x2048x22x3_S1_S64x2048x3_012_2_2_0).resultIdx? (ix3 b l c) (RefTerm.v80 x) = some (ix4 b l (0 : Fin 22) c) := by
  have hw0 : (scatter_S64x2048x22x3_S1_S64x2048x3_012_2_2_0).window (ix3 b l c) (0 : Fin 4) = b.val := rfl
  have hw1 : (scatter_S64x2048x22x3_S1_S64x2048x3_012_2_2_0).window (ix3 b l c) (1 : Fin 4) = l.val := rfl
  have hw2 : (scatter_S64x2048x22x3_S1_S64x2048x3_012_2_2_0).window (ix3 b l c) (2 : Fin 4) = 0 := rfl
  have hw3 : (scatter_S64x2048x22x3_S1_S64x2048x3_012_2_2_0).window (ix3 b l c) (3 : Fin 4) = c.val := rfl
  have hcond : ∀ a : Fin 4, 0 ≤ (scatter_S64x2048x22x3_S1_S64x2048x3_012_2_2_0).start (ix3 b l c) (RefTerm.v80 x) a + ((scatter_S64x2048x22x3_S1_S64x2048x3_012_2_2_0).window (ix3 b l c) a : Int)
      ∧ (scatter_S64x2048x22x3_S1_S64x2048x3_012_2_2_0).start (ix3 b l c) (RefTerm.v80 x) a + ((scatter_S64x2048x22x3_S1_S64x2048x3_012_2_2_0).window (ix3 b l c) a : Int) < (S64x2048x22x3.size a : Int) := by
    intro a
    rw [scatter_start]
    match a with
    | ⟨0, _⟩ => rw [show (scatter_S64x2048x22x3_S1_S64x2048x3_012_2_2_0).window (ix3 b l c) ⟨0, _⟩ = b.val from hw0]; show (0 : Int) ≤ 0 + (b.val : Int) ∧ 0 + (b.val : Int) < ((64 : Nat) : Int); omega
    | ⟨1, _⟩ => rw [show (scatter_S64x2048x22x3_S1_S64x2048x3_012_2_2_0).window (ix3 b l c) ⟨1, _⟩ = l.val from hw1]; show (0 : Int) ≤ 0 + (l.val : Int) ∧ 0 + (l.val : Int) < ((2048 : Nat) : Int); omega
    | ⟨2, _⟩ => rw [show (scatter_S64x2048x22x3_S1_S64x2048x3_012_2_2_0).window (ix3 b l c) ⟨2, _⟩ = 0 from hw2]; show (0 : Int) ≤ 0 + ((0 : Nat) : Int) ∧ 0 + ((0 : Nat) : Int) < ((22 : Nat) : Int); omega
    | ⟨3, _⟩ => rw [show (scatter_S64x2048x22x3_S1_S64x2048x3_012_2_2_0).window (ix3 b l c) ⟨3, _⟩ = c.val from hw3]; show (0 : Int) ≤ 0 + (c.val : Int) ∧ 0 + (c.val : Int) < ((3 : Nat) : Int); omega
  unfold ScatterDims.resultIdx?
  rw [dif_pos hcond]
  congr 1
  funext a
  refine Fin.ext ?_
  show ((scatter_S64x2048x22x3_S1_S64x2048x3_012_2_2_0).start (ix3 b l c) (RefTerm.v80 x) a + ((scatter_S64x2048x22x3_S1_S64x2048x3_012_2_2_0).window (ix3 b l c) a : Int)).toNat = _
  rw [scatter_start]
  match a with
  | ⟨0, _⟩ => rw [show (scatter_S64x2048x22x3_S1_S64x2048x3_012_2_2_0).window (ix3 b l c) ⟨0, _⟩ = b.val from hw0]; show ((0 : Int) + (b.val : Int)).toNat = b.val; omega
  | ⟨1, _⟩ => rw [show (scatter_S64x2048x22x3_S1_S64x2048x3_012_2_2_0).window (ix3 b l c) ⟨1, _⟩ = l.val from hw1]; show ((0 : Int) + (l.val : Int)).toNat = l.val; omega
  | ⟨2, _⟩ => rw [show (scatter_S64x2048x22x3_S1_S64x2048x3_012_2_2_0).window (ix3 b l c) ⟨2, _⟩ = 0 from hw2]; show ((0 : Int) + ((0 : Nat) : Int)).toNat = 0; omega
  | ⟨3, _⟩ => rw [show (scatter_S64x2048x22x3_S1_S64x2048x3_012_2_2_0).window (ix3 b l c) ⟨3, _⟩ = c.val from hw3]; show ((0 : Int) + (c.val : Int)).toNat = c.val; omega

/-- The scatter read at an index: the update at joint 0, the operand elsewhere. -/
theorem v81_apply (x : RefTerm.In Ideal) (b : Fin 64) (l : Fin 2048) (j : Fin 22) (c : Fin 3) :
    RefTerm.v81 x (ix4 b l j c) = if j = 0 then RefTerm.v79 x (ix3 b l c) else RefTerm.v76 x (ix4 b l j c) := by
  have hres : ∀ y : S64x2048x3.Idx, (scatter_S64x2048x22x3_S1_S64x2048x3_012_2_2_0).resultIdx? y (RefTerm.v80 x) = some (ix4 (y 0) (y 1) (0 : Fin 22) (y 2)) := by
    intro y
    have hy := scatter_result x (y 0) (y 1) (y 2)
    exact (congrArg (fun z => (scatter_S64x2048x22x3_S1_S64x2048x3_012_2_2_0).resultIdx? z (RefTerm.v80 x)) (eq_ix3 y)).trans hy
  unfold RefTerm.v81 Host.scatter
  by_cases hj : j = 0
  · subst hj
    rw [if_pos rfl]
    refine foldl_hit _ (ix4 b l (0 : Fin 22) c) (S64x2048x3.rowMajor (ix3 b l c)) _ ?_ _ _
      (List.nodup_finRange _) (List.mem_finRange _) ?_
    · intro r
      simp only [hres, Equiv.symm_apply_apply]
      rw [if_pos]
      rfl
    · intro n _ hn r
      simp only [hres]
      rw [if_neg]
      intro e
      apply hn
      have e0 := congrFun e 0
      have e1 := congrFun e 1
      have e3 := congrFun e 3
      have hy : S64x2048x3.rowMajor.symm n = ix3 b l c := by
        rw [eq_ix3 (S64x2048x3.rowMajor.symm n)]
        exact congr (congr (congrArg ix3 e0.symm) e1.symm) e3.symm
      rw [← hy, Equiv.apply_symm_apply]
  · rw [if_neg hj]
    refine foldl_untouched _ (ix4 b l j c) _ _ ?_
    intro n _ r
    simp only [hres]
    rw [if_neg]
    intro e
    exact hj (congrFun e 2)

/-- Joint j's local offset. -/
theorem v81_lt (x : RefTerm.In Ideal) (b : Fin 64) (l : Fin 2048) (j : Fin 22) (c : Fin 3) :
    RefTerm.v81 x (ix4 b l j c) = FK.ltTok (argsOf x) b l j c := by
  rw [v81_apply]
  unfold FK.ltTok
  by_cases hj : j = 0
  · rw [if_pos hj, if_pos hj, v79_apply, v68_sk]
    rfl
  · rw [if_neg hj, if_neg hj]
    show RefTerm.v68 x (ix4 b l j c) - RefTerm.v75 x (ix4 b l j c) = _
    rw [v75_apply, v68_sk, v68_sk]

end Cert.ReferenceIdeal.RefRead

end
-- ==== Proof.RefRead5.lean ====
/-
  The local 4×4 transforms in the reference program: each joint's rotation with its offset appended as a fourth column,
  over the literal row (zero, zero, zero, one).
-/
import proofs.«129627_j26603027432101_2_alg».proof.Proof.RefRead2
import proofs.«129627_j26603027432101_2_alg».proof.Proof.RefRead4

noncomputable section

namespace Cert.ReferenceIdeal.RefRead

open Idealize.ShloMosaic Idealize.ShloMosaic.ValueIdx Cert.ReferenceIdeal
open Cert.ReferenceIdeal.Facts₀ Cert.ReferenceIdeal.Facts

variable [Cert.ReferenceIdeal.Facts]

theorem v82_apply (x : RefTerm.In Ideal) (b : Fin 64) (l : Fin 2048) (j : Fin 22) (r : Fin 3) (u : Fin 1) :
    RefTerm.v82 x (ix5 b l j r u) = RefTerm.v81 x (ix4 b l j r) := by
  unfold RefTerm.v82
  exact broadcastInDim_apply _ _ _ (ix5 b l j r u) (ix4 b l j r) (by
    intro a
    match a with
    | ⟨0, _⟩ => exact rfl
    | ⟨1, _⟩ => exact rfl
    | ⟨2, _⟩ => exact rfl
    | ⟨3, _⟩ => exact rfl)

/-- The first three columns are the rotation's. -/
theorem v83_left (x : RefTerm.In Ideal) (b : Fin 64) (l : Fin 2048) (j : Fin 22) (r : Fin 3) (k : Fin 4) (k' : Fin 3) (h : k.val = k'.val) :
    RefTerm.v83 x (ix5 b l j r k) = RefTerm.v64 x (ix5 b l j r k') := by
  unfold RefTerm.v83
  exact concatenate_pair_apply_left (t := S64x2048x22x3x4) (s₁ := S64x2048x22x3x3) (s₂ := S64x2048x22x3x1) _ _ _ _
    (ix5 b l j r k) rfl (ix5 b l j r k') (by
      intro a
      match a with
      | ⟨0, _⟩ => exact rfl
      | ⟨1, _⟩ => exact rfl
      | ⟨2, _⟩ => exact rfl
      | ⟨3, _⟩ => exact rfl
      | ⟨4, _⟩ => exact h.symm)

/-- The fourth column is the offset. -/
theorem v83_right (x : RefTerm.In Ideal) (b : Fin 64) (l : Fin 2048) (j : Fin 22) (r : Fin 3) (k : Fin 4) (h : k.val = 3) :
    RefTerm.v83 x (ix5 b l j r k) = RefTerm.v82 x (ix5 b l j r (0 : Fin 1)) := by
  unfold RefTerm.v83
  exact concatenate_pair_apply_right (t := S64x2048x22x3x4) (s₁ := S64x2048x22x3x3) (s₂ := S64x2048x22x3x1) _ _ _ _
    (ix5 b l j r k) rfl rfl (ix5 b l j r (0 : Fin 1))
    (by intro a ha
        match a, ha with
        | ⟨0, _⟩, _ => exact rfl
        | ⟨1, _⟩, _ => exact rfl
        | ⟨2, _⟩, _ => exact rfl
        | ⟨3, _⟩, _ => exact rfl
        | ⟨4, _⟩, ha => exact absurd rfl ha)
    (by show 0 + 3 = k.val; omega)

/-- The literal row's words: zero, zero, zero, and the pattern of one. -/
theorem lit1_val : ∀ k : Fin 4, lit1 k = if k.val < 3 then 0x00000000#32 else 0x3F800000#32 := by decide

/-- The literal row: zero, zero, zero, one. -/
theorem cst_apply (x : RefTerm.In Ideal) (k : Fin 4) :
    RefTerm.cst x (ix1 k) = if k.val < 3 then FK.zero else FK.one := by
  have hk : S4.rowMajor (ix1 k) = k := Fin.ext (Shape.rowMajor_val_one (ix1 k))
  have hc : RefTerm.cst x (ix1 k) = Ideal.ofBits .f32 (lit1 (S4.rowMajor (ix1 k))) := rfl
  rw [hc, hk, lit1_val]
  by_cases h : k.val < 3
  · rw [if_pos h, if_pos h]; rfl
  · rw [if_neg h, if_neg h]; rfl

theorem v84_apply (x : RefTerm.In Ideal) (b : Fin 64) (l : Fin 2048) (j : Fin 22) (u : Fin 1) (k : Fin 4) :
    RefTerm.v84 x (ix5 b l j u k) = if k.val < 3 then FK.zero else FK.one := by
  unfold RefTerm.v84
  refine (broadcastInDim_apply _ _ _ (ix5 b l j u k) (ix1 k) (by
    intro a
    match a with
    | ⟨0, _⟩ => exact rfl)).trans (cst_apply x k)

/-- The first three rows. -/
theorem v85_top (x : RefTerm.In Ideal) (b : Fin 64) (l : Fin 2048) (j : Fin 22) (r : Fin 4) (r' : Fin 3) (h : r.val = r'.val) (k : Fin 4) :
    RefTerm.v85 x (ix5 b l j r k) = RefTerm.v83 x (ix5 b l j r' k) := by
  unfold RefTerm.v85
  exact concatenate_pair_apply_left (t := S64x2048x22x4x4) (s₁ := S64x2048x22x3x4) (s₂ := S64x2048x22x1x4) _ _ _ _
    (ix5 b l j r k) rfl (ix5 b l j r' k) (by
      intro a
      match a with
      | ⟨0, _⟩ => exact rfl
      | ⟨1, _⟩ => exact rfl
      | ⟨2, _⟩ => exact rfl
      | ⟨3, _⟩ => exact h.symm
      | ⟨4, _⟩ => exact rfl)

/-- The fourth row. -/
theorem v85_bot (x : RefTerm.In Ideal) (b : Fin 64) (l : Fin 2048) (j : Fin 22) (r : Fin 4) (h : r.val = 3) (k : Fin 4) :
    RefTerm.v85 x (ix5 b l j r k) = RefTerm.v84 x (ix5 b l j (0 : Fin 1) k) := by
  unfold RefTerm.v85
  exact concatenate_pair_apply_right (t := S64x2048x22x4x4) (s₁ := S64x2048x22x3x4) (s₂ := S64x2048x22x1x4) _ _ _ _
    (ix5 b l j r k) rfl rfl (ix5 b l j (0 : Fin 1) k)
    (by intro a ha
        match a, ha with
        | ⟨0, _⟩, _ => exact rfl
        | ⟨1, _⟩, _ => exact rfl
        | ⟨2, _⟩, _ => exact rfl
        | ⟨3, _⟩, ha => exact absurd rfl ha
        | ⟨4, _⟩, _ => exact rfl)
    (by show 0 + 3 = r.val; omega)

/-- Joint j's local transform. -/
theorem v85_hom (x : RefTerm.In Ideal) (b : Fin 64) (l : Fin 2048) (j : Fin 22) (r k : Fin 4) :
    RefTerm.v85 x (ix5 b l j r k) = FK.hom (FK.RTok (argsOf x) b l) (FK.ltTok (argsOf x) b l) j r k := by
  unfold FK.hom
  by_cases hr : r.val < 3
  · rw [dif_pos hr, v85_top x b l j r ⟨r.val, hr⟩ rfl k]
    by_cases hk : k.val < 3
    · rw [dif_pos hk, v83_left x b l j ⟨r.val, hr⟩ k ⟨k.val, hk⟩ rfl, v64_rot]
    · rw [dif_neg hk, v83_right x b l j ⟨r.val, hr⟩ k (by omega), v82_apply, v81_lt]
  · rw [dif_neg hr, v85_bot x b l j r (by omega) k, v84_apply]

end Cert.ReferenceIdeal.RefRead

end
-- ==== Proof.RefRead6.lean ====
/-
  The 4×4 transforms multiplied along the kinematic tree in the reference program. Each joint's local transform is
  sliced out of the stack and its unit axis dropped; each product is a batched 4×4 matrix product over the tokens
  (the sum over the four inner positions); joint j's product is its parent's global transform times its own local
  one, which is the recursion that defines the global transform.
-/
import proofs.«129627_j26603027432101_2_alg».proof.Proof.RefRead5
import Idealize.ShloMosaic.Lib.StackMember

noncomputable section

namespace Cert.ReferenceIdeal.RefRead

open Idealize.ShloMosaic Idealize.ShloMosaic.ValueIdx Cert.ReferenceIdeal
open Cert.ReferenceIdeal.Facts₀ Cert.ReferenceIdeal.Facts

variable [Cert.ReferenceIdeal.Facts]

/-- One joint's 4×4 matrix sliced out of the stack, its unit axis dropped. -/
theorem joint_slice (o : Nat) (m : Fin 22) (ho : m.val = o) (V : S64x2048x22x4x4.Idx → EReal)
    (h : S64x2048x22x4x4.Slices ![0, 0, o, 0, 0] S64x2048x1x4x4) (hc : S64x2048x1x4x4.ShapeCasts S64x2048x4x4)
    (b : Fin 64) (l : Fin 2048) (r k : Fin 4) :
    shapeCast S64x2048x4x4 (extractStridedSlice S64x2048x1x4x4 ![0, 0, o, 0, 0] V h) hc (ix4 b l r k)
      = V (ix5 b l m r k) := by
  refine (shapeCast_apply _ hc (ix4 b l r k) (ix5 b l (0 : Fin 1) r k) (by
    rw [Shape.rowMajor_val_five, Shape.rowMajor_val_four]
    show (((b.val * 2048 + l.val) * 1 + 0) * 4 + r.val) * 4 + k.val = ((b.val * 2048 + l.val) * 4 + r.val) * 4 + k.val
    omega)).trans ?_
  exact extractStridedSlice_apply _ V h (ix5 b l (0 : Fin 1) r k) (ix5 b l m r k) (by
    intro a
    match a with
    | ⟨0, _⟩ => show b.val = 0 + b.val; omega
    | ⟨1, _⟩ => show l.val = 0 + l.val; omega
    | ⟨2, _⟩ => show m.val = o + 0; omega
    | ⟨3, _⟩ => show r.val = 0 + r.val; omega
    | ⟨4, _⟩ => show k.val = 0 + k.val; omega)

/-- The batched 4×4 product read at an index: token by token, the sum over the four inner positions. -/
theorem dot44_apply (L R : FVec Ideal S64x2048x4x4 .f32) (b : Fin 64) (l : Fin 2048) (r k : Fin 4) :
    Host.dotGeneral dot_S64x2048x4x4_S64x2048x4x4_S64x2048x4x4_3_2_2_3_01_01 none L R (ix4 b l r k) = ∑ q : Fin 4, L (ix4 b l r q) * R (ix4 b l q k) := by
  show FloatOps.dotGeneral dot_S64x2048x4x4_S64x2048x4x4_S64x2048x4x4_3_2_2_3_01_01 none .single L R (ix4 b l r k) = _
  rw [Ideal.dotGeneral_apply, ← Equiv.sum_comp (contrEquiv1 dot_S64x2048x4x4_S64x2048x4x4_S64x2048x4x4_3_2_2_3_01_01 4 rfl rfl).symm]
  refine Finset.sum_congr rfl fun q _ => ?_
  have cq := contrEquiv1_symm_val dot_S64x2048x4x4_S64x2048x4x4_S64x2048x4x4_3_2_2_3_01_01 4 rfl rfl q
  have hl : (dot_S64x2048x4x4_S64x2048x4x4_S64x2048x4x4_3_2_2_3_01_01).lhsIdx (ix4 b l r k) ((contrEquiv1 _ 4 rfl rfl).symm q) = ix4 b l r q := by
    funext ax; apply Fin.ext
    match ax with
    | ⟨0, _⟩ => simp [DotDims.lhsIdx, dot_S64x2048x4x4_S64x2048x4x4_S64x2048x4x4_3_2_2_3_01_01]; rfl
    | ⟨1, _⟩ => simp [DotDims.lhsIdx, dot_S64x2048x4x4_S64x2048x4x4_S64x2048x4x4_3_2_2_3_01_01]; rfl
    | ⟨2, _⟩ => simp [DotDims.lhsIdx, dot_S64x2048x4x4_S64x2048x4x4_S64x2048x4x4_3_2_2_3_01_01]; rfl
    | ⟨3, _⟩ => simp [DotDims.lhsIdx, dot_S64x2048x4x4_S64x2048x4x4_S64x2048x4x4_3_2_2_3_01_01]; exact cq
  have hr : (dot_S64x2048x4x4_S64x2048x4x4_S64x2048x4x4_3_2_2_3_01_01).rhsIdx (ix4 b l r k) ((contrEquiv1 _ 4 rfl rfl).symm q) = ix4 b l q k := by
    funext ax; apply Fin.ext
    match ax with
    | ⟨0, _⟩ => simp [DotDims.rhsIdx, dot_S64x2048x4x4_S64x2048x4x4_S64x2048x4x4_3_2_2_3_01_01]; rfl
    | ⟨1, _⟩ => simp [DotDims.rhsIdx, dot_S64x2048x4x4_S64x2048x4x4_S64x2048x4x4_3_2_2_3_01_01]; rfl
    | ⟨2, _⟩ => simp [DotDims.rhsIdx, dot_S64x2048x4x4_S64x2048x4x4_S64x2048x4x4_3_2_2_3_01_01]; exact cq
    | ⟨3, _⟩ => simp [DotDims.rhsIdx, dot_S64x2048x4x4_S64x2048x4x4_S64x2048x4x4_3_2_2_3_01_01]; rfl
  rw [hl, hr]

/-! ## The local transforms, joint by joint -/

theorem H0 (x : RefTerm.In Ideal) (b : Fin 64) (l : Fin 2048) (r k : Fin 4) :
    RefTerm.v87 x (ix4 b l r k) = FK.hom (FK.RTok (argsOf x) b l) (FK.ltTok (argsOf x) b l) 0 r k := by
  unfold RefTerm.v87 RefTerm.v86
  exact (joint_slice 0 0 rfl _ _ _ b l r k).trans (v85_hom x b l 0 r k)

theorem H1 (x : RefTerm.In Ideal) (b : Fin 64) (l : Fin 2048) (r k : Fin 4) :
    RefTerm.v89 x (ix4 b l r k) = FK.hom (FK.RTok (argsOf x) b l) (FK.ltTok (argsOf x) b l) 1 r k := by
  unfold RefTerm.v89 RefTerm.v88
  exact (joint_slice 1 1 rfl _ _ _ b l r k).trans (v85_hom x b l 1 r k)

theorem H2 (x : RefTerm.In Ideal) (b : Fin 64) (l : Fin 2048) (r k : Fin 4) :
    RefTerm.v92 x (ix4 b l r k) = FK.hom (FK.RTok (argsOf x) b l) (FK.ltTok (argsOf x) b l) 2 r k := by
  unfold RefTerm.v92 RefTerm.v91
  exact (joint_slice 2 2 rfl _ _ _ b l r k).trans (v85_hom x b l 2 r k)

theorem H3 (x : RefTerm.In Ideal) (b : Fin 64) (l : Fin 2048) (r k : Fin 4) :
    RefTerm.v95 x (ix4 b l r k) = FK.hom (FK.RTok (argsOf x) b l) (FK.ltTok (argsOf x) b l) 3 r k := by
  unfold RefTerm.v95 RefTerm.v94
  exact (joint_slice 3 3 rfl _ _ _ b l r k).trans (v85_hom x b l 3 r k)

theorem H4 (x : RefTerm.In Ideal) (b : Fin 64) (l : Fin 2048) (r k : Fin 4) :
    RefTerm.v98 x (ix4 b l r k) = FK.hom (FK.RTok (argsOf x) b l) (FK.ltTok (argsOf x) b l) 4 r k := by
  unfold RefTerm.v98 RefTerm.v97
  exact (joint_slice 4 4 rfl _ _ _ b l r k).trans (v85_hom x b l 4 r k)

theorem H5 (x : RefTerm.In Ideal) (b : Fin 64) (l : Fin 2048) (r k : Fin 4) :
    RefTerm.v101 x (ix4 b l r k) = FK.hom (FK.RTok (argsOf x) b l) (FK.ltTok (argsOf x) b l) 5 r k := by
  unfold RefTerm.v101 RefTerm.v100
  exact (joint_slice 5 5 rfl _ _ _ b l r k).trans (v85_hom x b l 5 r k)

theorem H6 (x : RefTerm.In Ideal) (b : Fin 64) (l : Fin 2048) (r k : Fin 4) :
    RefTerm.v104 x (ix4 b l r k) = FK.hom (FK.RTok (argsOf x) b l) (FK.ltTok (argsOf x) b l) 6 r k := by
  unfold RefTerm.v104 RefTerm.v103
  exact (joint_slice 6 6 rfl _ _ _ b l r k).trans (v85_hom x b l 6 r k)

theorem H7 (x : RefTerm.In Ideal) (b : Fin 64) (l : Fin 2048) (r k : Fin 4) :
    RefTerm.v107 x (ix4 b l r k) = FK.hom (FK.RTok (argsOf x) b l) (FK.ltTok (argsOf x) b l) 7 r k := by
  unfold RefTerm.v107 RefTerm.v106
  exact (joint_slice 7 7 rfl _ _ _ b l r k).trans (v85_hom x b l 7 r k)

theorem H8 (x : RefTerm.In Ideal) (b : Fin 64) (l : Fin 2048) (r k : Fin 4) :
    RefTerm.v110 x (ix4 b l r k) = FK.hom (FK.RTok (argsOf x) b l) (FK.ltTok (argsOf x) b l) 8 r k := by
  unfold RefTerm.v110 RefTerm.v109
  exact (joint_slice 8 8 rfl _ _ _ b l r k).trans (v85_hom x b l 8 r k)

theorem H9 (x : RefTerm.In Ideal) (b : Fin 64) (l : Fin 2048) (r k : Fin 4) :
    RefTerm.v113 x (ix4 b l r k) = FK.hom (FK.RTok (argsOf x) b l) (FK.ltTok (argsOf x) b l) 9 r k := by
  unfold RefTerm.v113 RefTerm.v112
  exact (joint_slice 9 9 rfl _ _ _ b l r k).trans (v85_hom x b l 9 r k)

theorem H10 (x : RefTerm.In Ideal) (b : Fin 64) (l : Fin 2048) (r k : Fin 4) :
    RefTerm.v116 x (ix4 b l r k) = FK.hom (FK.RTok (argsOf x) b l) (FK.ltTok (argsOf x) b l) 10 r k := by
  unfold RefTerm.v116 RefTerm.v115
  exact (joint_slice 10 10 rfl _ _ _ b l r k).trans (v85_hom x b l 10 r k)

theorem H11 (x : RefTerm.In Ideal) (b : Fin 64) (l : Fin 2048) (r k : Fin 4) :
    RefTerm.v119 x (ix4 b l r k) = FK.hom (FK.RTok (argsOf x) b l) (FK.ltTok (argsOf x) b l) 11 r k := by
  unfold RefTerm.v119 RefTerm.v118
  exact (joint_slice 11 11 rfl _ _ _ b l r k).trans (v85_hom x b l 11 r k)

theorem H12 (x : RefTerm.In Ideal) (b : Fin 64) (l : Fin 2048) (r k : Fin 4) :
    RefTerm.v122 x (ix4 b l r k) = FK.hom (FK.RTok (argsOf x) b l) (FK.ltTok (argsOf x) b l) 12 r k := by
  unfold RefTerm.v122 RefTerm.v121
  exact (joint_slice 12 12 rfl _ _ _ b l r k).trans (v85_hom x b l 12 r k)

theorem H13 (x : RefTerm.In Ideal) (b : Fin 64) (l : Fin 2048) (r k : Fin 4) :
    RefTerm.v125 x (ix4 b l r k) = FK.hom (FK.RTok (argsOf x) b l) (FK.ltTok (argsOf x) b l) 13 r k := by
  unfold RefTerm.v125 RefTerm.v124
  exact (joint_slice 13 13 rfl _ _ _ b l r k).trans (v85_hom x b l 13 r k)

theorem H14 (x : RefTerm.In Ideal) (b : Fin 64) (l : Fin 2048) (r k : Fin 4) :
    RefTerm.v128 x (ix4 b l r k) = FK.hom (FK.RTok (argsOf x) b l) (FK.ltTok (argsOf x) b l) 14 r k := by
  unfold RefTerm.v128 RefTerm.v127
  exact (joint_slice 14 14 rfl _ _ _ b l r k).trans (v85_hom x b l 14 r k)

theorem H15 (x : RefTerm.In Ideal) (b : Fin 64) (l : Fin 2048) (r k : Fin 4) :
    RefTerm.v131 x (ix4 b l r k) = FK.hom (FK.RTok (argsOf x) b l) (FK.ltTok (argsOf x) b l) 15 r k := by
  unfold RefTerm.v131 RefTerm.v130
  exact (joint_slice 15 15 rfl _ _ _ b l r k).trans (v85_hom x b l 15 r k)

theorem H16 (x : RefTerm.In Ideal) (b : Fin 64) (l : Fin 2048) (r k : Fin 4) :
    RefTerm.v134 x (ix4 b l r k) = FK.hom (FK.RTok (argsOf x) b l) (FK.ltTok (argsOf x) b l) 16 r k := by
  unfold RefTerm.v134 RefTerm.v133
  exact (joint_slice 16 16 rfl _ _ _ b l r k).trans (v85_hom x b l 16 r k)

theorem H17 (x : RefTerm.In Ideal) (b : Fin 64) (l : Fin 2048) (r k : Fin 4) :
    RefTerm.v137 x (ix4 b l r k) = FK.hom (FK.RTok (argsOf x) b l) (FK.ltTok (argsOf x) b l) 17 r k := by
  unfold RefTerm.v137 RefTerm.v136
  exact (joint_slice 17 17 rfl _ _ _ b l r k).trans (v85_hom x b l 17 r k)

theorem H18 (x : RefTerm.In Ideal) (b : Fin 64) (l : Fin 2048) (r k : Fin 4) :
    RefTerm.v140 x (ix4 b l r k) = FK.hom (FK.RTok (argsOf x) b l) (FK.ltTok (argsOf x) b l) 18 r k := by
  unfold RefTerm.v140 RefTerm.v139
  exact (joint_slice 18 18 rfl _ _ _ b l r k).trans (v85_hom x b l 18 r k)

theorem H19 (x : RefTerm.In Ideal) (b : Fin 64) (l : Fin 2048) (r k : Fin 4) :
    RefTerm.v143 x (ix4 b l r k) = FK.hom (FK.RTok (argsOf x) b l) (FK.ltTok (argsOf x) b l) 19 r k := by
  unfold RefTerm.v143 RefTerm.v142
  exact (joint_slice 19 19 rfl _ _ _ b l r k).trans (v85_hom x b l 19 r k)

theorem H20 (x : RefTerm.In Ideal) (b : Fin 64) (l : Fin 2048) (r k : Fin 4) :
    RefTerm.v146 x (ix4 b l r k) = FK.hom (FK.RTok (argsOf x) b l) (FK.ltTok (argsOf x) b l) 20 r k := by
  unfold RefTerm.v146 RefTerm.v145
  exact (joint_slice 20 20 rfl _ _ _ b l r k).trans (v85_hom x b l 20 r k)

theorem H21 (x : RefTerm.In Ideal) (b : Fin 64) (l : Fin 2048) (r k : Fin 4) :
    RefTerm.v149 x (ix4 b l r k) = FK.hom (FK.RTok (argsOf x) b l) (FK.ltTok (argsOf x) b l) 21 r k := by
  unfold RefTerm.v149 RefTerm.v148
  exact (joint_slice 21 21 rfl _ _ _ b l r k).trans (v85_hom x b l 21 r k)

/-! ## The global transforms, joint by joint along the tree -/

theorem G0 (x : RefTerm.In Ideal) (b : Fin 64) (l : Fin 2048) (r k : Fin 4) :
    RefTerm.v87 x (ix4 b l r k) = FK.pose4 (FK.RTok (argsOf x) b l) (FK.ltTok (argsOf x) b l) 0 r k := by
  rw [FK.pose4_zero]
  exact H0 x b l r k

theorem G1 (x : RefTerm.In Ideal) (b : Fin 64) (l : Fin 2048) (r k : Fin 4) :
    RefTerm.v90 x (ix4 b l r k) = FK.pose4 (FK.RTok (argsOf x) b l) (FK.ltTok (argsOf x) b l) 1 r k := by
  have hp : FK.parent 1 = 0 := by decide
  unfold RefTerm.v90
  refine (dot44_apply _ _ b l r k).trans ?_
  rw [FK.pose4_succ _ _ 1 (by decide), hp]
  show _ = ∑ q : Fin 4, FK.pose4 (FK.RTok (argsOf x) b l) (FK.ltTok (argsOf x) b l) 0 r q * FK.hom (FK.RTok (argsOf x) b l) (FK.ltTok (argsOf x) b l) 1 q k
  refine Finset.sum_congr rfl fun q _ => ?_
  rw [G0 x b l r q, H1 x b l q k]

theorem G2 (x : RefTerm.In Ideal) (b : Fin 64) (l : Fin 2048) (r k : Fin 4) :
    RefTerm.v93 x (ix4 b l r k) = FK.pose4 (FK.RTok (argsOf x) b l) (FK.ltTok (argsOf x) b l) 2 r k := by
  have hp : FK.parent 2 = 0 := by decide
  unfold RefTerm.v93
  refine (dot44_apply _ _ b l r k).trans ?_
  rw [FK.pose4_succ _ _ 2 (by decide), hp]
  show _ = ∑ q : Fin 4, FK.pose4 (FK.RTok (argsOf x) b l) (FK.ltTok (argsOf x) b l) 0 r q * FK.hom (FK.RTok (argsOf x) b l) (FK.ltTok (argsOf x) b l) 2 q k
  refine Finset.sum_congr rfl fun q _ => ?_
  rw [G0 x b l r q, H2 x b l q k]

theorem G3 (x : RefTerm.In Ideal) (b : Fin 64) (l : Fin 2048) (r k : Fin 4) :
    RefTerm.v96 x (ix4 b l r k) = FK.pose4 (FK.RTok (argsOf x) b l) (FK.ltTok (argsOf x) b l) 3 r k := by
  have hp : FK.parent 3 = 0 := by decide
  unfold RefTerm.v96
  refine (dot44_apply _ _ b l r k).trans ?_
  rw [FK.pose4_succ _ _ 3 (by decide), hp]
  show _ = ∑ q : Fin 4, FK.pose4 (FK.RTok (argsOf x) b l) (FK.ltTok (argsOf x) b l) 0 r q * FK.hom (FK.RTok (argsOf x) b l) (FK.ltTok (argsOf x) b l) 3 q k
  refine Finset.sum_congr rfl fun q _ => ?_
  rw [G0 x b l r q, H3 x b l q k]

theorem G4 (x : RefTerm.In Ideal) (b : Fin 64) (l : Fin 2048) (r k : Fin 4) :
    RefTerm.v99 x (ix4 b l r k) = FK.pose4 (FK.RTok (argsOf x) b l) (FK.ltTok (argsOf x) b l) 4 r k := by
  have hp : FK.parent 4 = 1 := by decide
  unfold RefTerm.v99
  refine (dot44_apply _ _ b l r k).trans ?_
  rw [FK.pose4_succ _ _ 4 (by decide), hp]
  show _ = ∑ q : Fin 4, FK.pose4 (FK.RTok (argsOf x) b l) (FK.ltTok (argsOf x) b l) 1 r q * FK.hom (FK.RTok (argsOf x) b l) (FK.ltTok (argsOf x) b l) 4 q k
  refine Finset.sum_congr rfl fun q _ => ?_
  rw [G1 x b l r q, H4 x b l q k]

theorem G5 (x : RefTerm.In Ideal) (b : Fin 64) (l : Fin 2048) (r k : Fin 4) :
    RefTerm.v102 x (ix4 b l r k) = FK.pose4 (FK.RTok (argsOf x) b l) (FK.ltTok (argsOf x) b l) 5 r k := by
  have hp : FK.parent 5 = 2 := by decide
  unfold RefTerm.v102
  refine (dot44_apply _ _ b l r k).trans ?_
  rw [FK.pose4_succ _ _ 5 (by decide), hp]
  show _ = ∑ q : Fin 4, FK.pose4 (FK.RTok (argsOf x) b l) (FK.ltTok (argsOf x) b l) 2 r q * FK.hom (FK.RTok (argsOf x) b l) (FK.ltTok (argsOf x) b l) 5 q k
  refine Finset.sum_congr rfl fun q _ => ?_
  rw [G2 x b l r q, H5 x b l q k]

theorem G6 (x : RefTerm.In Ideal) (b : Fin 64) (l : Fin 2048) (r k : Fin 4) :
    RefTerm.v105 x (ix4 b l r k) = FK.pose4 (FK.RTok (argsOf x) b l) (FK.ltTok (argsOf x) b l) 6 r k := by
  have hp : FK.parent 6 = 3 := by decide
  unfold RefTerm.v105
  refine (dot44_apply _ _ b l r k).trans ?_
  rw [FK.pose4_succ _ _ 6 (by decide), hp]
  show _ = ∑ q : Fin 4, FK.pose4 (FK.RTok (argsOf x) b l) (FK.ltTok (argsOf x) b l) 3 r q * FK.hom (FK.RTok (argsOf x) b l) (FK.ltTok (argsOf x) b l) 6 q k
  refine Finset.sum_congr rfl fun q _ => ?_
  rw [G3 x b l r q, H6 x b l q k]

theorem G7 (x : RefTerm.In Ideal) (b : Fin 64) (l : Fin 2048) (r k : Fin 4) :
    RefTerm.v108 x (ix4 b l r k) = FK.pose4 (FK.RTok (argsOf x) b l) (FK.ltTok (argsOf x) b l) 7 r k := by
  have hp : FK.parent 7 = 4 := by decide
  unfold RefTerm.v108
  refine (dot44_apply _ _ b l r k).trans ?_
  rw [FK.pose4_succ _ _ 7 (by decide), hp]
  show _ = ∑ q : Fin 4, FK.pose4 (FK.RTok (argsOf x) b l) (FK.ltTok (argsOf x) b l) 4 r q * FK.hom (FK.RTok (argsOf x) b l) (FK.ltTok (argsOf x) b l) 7 q k
  refine Finset.sum_congr rfl fun q _ => ?_
  rw [G4 x b l r q, H7 x b l q k]

theorem G8 (x : RefTerm.In Ideal) (b : Fin 64) (l : Fin 2048) (r k : Fin 4) :
    RefTerm.v111 x (ix4 b l r k) = FK.pose4 (FK.RTok (argsOf x) b l) (FK.ltTok (argsOf x) b l) 8 r k := by
  have hp : FK.parent 8 = 5 := by decide
  unfold RefTerm.v111
  refine (dot44_apply _ _ b l r k).trans ?_
  rw [FK.pose4_succ _ _ 8 (by decide), hp]
  show _ = ∑ q : Fin 4, FK.pose4 (FK.RTok (argsOf x) b l) (FK.ltTok (argsOf x) b l) 5 r q * FK.hom (FK.RTok (argsOf x) b l) (FK.ltTok (argsOf x) b l) 8 q k
  refine Finset.sum_congr rfl fun q _ => ?_
  rw [G5 x b l r q, H8 x b l q k]

theorem G9 (x : RefTerm.In Ideal) (b : Fin 64) (l : Fin 2048) (r k : Fin 4) :
    RefTerm.v114 x (ix4 b l r k) = FK.pose4 (FK.RTok (argsOf x) b l) (FK.ltTok (argsOf x) b l) 9 r k := by
  have hp : FK.parent 9 = 6 := by decide
  unfold RefTerm.v114
  refine (dot44_apply _ _ b l r k).trans ?_
  rw [FK.pose4_succ _ _ 9 (by decide), hp]
  show _ = ∑ q : Fin 4, FK.pose4 (FK.RTok (argsOf x) b l) (FK.ltTok (argsOf x) b l) 6 r q * FK.hom (FK.RTok (argsOf x) b l) (FK.ltTok (argsOf x) b l) 9 q k
  refine Finset.sum_congr rfl fun q _ => ?_
  rw [G6 x b l r q, H9 x b l q k]

theorem G10 (x : RefTerm.In Ideal) (b : Fin 64) (l : Fin 2048) (r k : Fin 4) :
    RefTerm.v117 x (ix4 b l r k) = FK.pose4 (FK.RTok (argsOf x) b l) (FK.ltTok (argsOf x) b l) 10 r k := by
  have hp : FK.parent 10 = 7 := by decide
  unfold RefTerm.v117
  refine (dot44_apply _ _ b l r k).trans ?_
  rw [FK.pose4_succ _ _ 10 (by decide), hp]
  show _ = ∑ q : Fin 4, FK.pose4 (FK.RTok (argsOf x) b l) (FK.ltTok (argsOf x) b l) 7 r q * FK.hom (FK.RTok (argsOf x) b l) (FK.ltTok (argsOf x) b l) 10 q k
  refine Finset.sum_congr rfl fun q _ => ?_
  rw [G7 x b l r q, H10 x b l q k]

theorem G11 (x : RefTerm.In Ideal) (b : Fin 64) (l : Fin 2048) (r k : Fin 4) :
    RefTerm.v120 x (ix4 b l r k) = FK.pose4 (FK.RTok (argsOf x) b l) (FK.ltTok (argsOf x) b l) 11 r k := by
  have hp : FK.parent 11 = 8 := by decide
  unfold RefTerm.v120
  refine (dot44_apply _ _ b l r k).trans ?_
  rw [FK.pose4_succ _ _ 11 (by decide), hp]
  show _ = ∑ q : Fin 4, FK.pose4 (FK.RTok (argsOf x) b l) (FK.ltTok (argsOf x) b l) 8 r q * FK.hom (FK.RTok (argsOf x) b l) (FK.ltTok (argsOf x) b l) 11 q k
  refine Finset.sum_congr rfl fun q _ => ?_
  rw [G8 x b l r q, H11 x b l q k]

theorem G12 (x : RefTerm.In Ideal) (b : Fin 64) (l : Fin 2048) (r k : Fin 4) :
    RefTerm.v123 x (ix4 b l r k) = FK.pose4 (FK.RTok (argsOf x) b l) (FK.ltTok (argsOf x) b l) 12 r k := by
  have hp : FK.parent 12 = 9 := by decide
  unfold RefTerm.v123
  refine (dot44_apply _ _ b l r k).trans ?_
  rw [FK.pose4_succ _ _ 12 (by decide), hp]
  show _ = ∑ q : Fin 4, FK.pose4 (FK.RTok (argsOf x) b l) (FK.ltTok (argsOf x) b l) 9 r q * FK.hom (FK.RTok (argsOf x) b l) (FK.ltTok (argsOf x) b l) 12 q k
  refine Finset.sum_congr rfl fun q _ => ?_
  rw [G9 x b l r q, H12 x b l q k]

theorem G13 (x : RefTerm.In Ideal) (b : Fin 64) (l : Fin 2048) (r k : Fin 4) :
    RefTerm.v126 x (ix4 b l r k) = FK.pose4 (FK.RTok (argsOf x) b l) (FK.ltTok (argsOf x) b l) 13 r k := by
  have hp : FK.parent 13 = 9 := by decide
  unfold RefTerm.v126
  refine (dot44_apply _ _ b l r k).trans ?_
  rw [FK.pose4_succ _ _ 13 (by decide), hp]
  show _ = ∑ q : Fin 4, FK.pose4 (FK.RTok (argsOf x) b l) (FK.ltTok (argsOf x) b l) 9 r q * FK.hom (FK.RTok (argsOf x) b l) (FK.ltTok (argsOf x) b l) 13 q k
  refine Finset.sum_congr rfl fun q _ => ?_
  rw [G9 x b l r q, H13 x b l q k]

theorem G14 (x : RefTerm.In Ideal) (b : Fin 64) (l : Fin 2048) (r k : Fin 4) :
    RefTerm.v129 x (ix4 b l r k) = FK.pose4 (FK.RTok (argsOf x) b l) (FK.ltTok (argsOf x) b l) 14 r k := by
  have hp : FK.parent 14 = 9 := by decide
  unfold RefTerm.v129
  refine (dot44_apply _ _ b l r k).trans ?_
  rw [FK.pose4_succ _ _ 14 (by decide), hp]
  show _ = ∑ q : Fin 4, FK.pose4 (FK.RTok (argsOf x) b l) (FK.ltTok (argsOf x) b l) 9 r q * FK.hom (FK.RTok (argsOf x) b l) (FK.ltTok (argsOf x) b l) 14 q k
  refine Finset.sum_congr rfl fun q _ => ?_
  rw [G9 x b l r q, H14 x b l q k]

theorem G15 (x : RefTerm.In Ideal) (b : Fin 64) (l : Fin 2048) (r k : Fin 4) :
    RefTerm.v132 x (ix4 b l r k) = FK.pose4 (FK.RTok (argsOf x) b l) (FK.ltTok (argsOf x) b l) 15 r k := by
  have hp : FK.parent 15 = 12 := by decide
  unfold RefTerm.v132
  refine (dot44_apply _ _ b l r k).trans ?_
  rw [FK.pose4_succ _ _ 15 (by decide), hp]
  show _ = ∑ q : Fin 4, FK.pose4 (FK.RTok (argsOf x) b l) (FK.ltTok (argsOf x) b l) 12 r q * FK.hom (FK.RTok (argsOf x) b l) (FK.ltTok (argsOf x) b l) 15 q k
  refine Finset.sum_congr rfl fun q _ => ?_
  rw [G12 x b l r q, H15 x b l q k]

theorem G16 (x : RefTerm.In Ideal) (b : Fin 64) (l : Fin 2048) (r k : Fin 4) :
    RefTerm.v135 x (ix4 b l r k) = FK.pose4 (FK.RTok (argsOf x) b l) (FK.ltTok (argsOf x) b l) 16 r k := by
  have hp : FK.parent 16 = 13 := by decide
  unfold RefTerm.v135
  refine (dot44_apply _ _ b l r k).trans ?_
  rw [FK.pose4_succ _ _ 16 (by decide), hp]
  show _ = ∑ q : Fin 4, FK.pose4 (FK.RTok (argsOf x) b l) (FK.ltTok (argsOf x) b l) 13 r q * FK.hom (FK.RTok (argsOf x) b l) (FK.ltTok (argsOf x) b l) 16 q k
  refine Finset.sum_congr rfl fun q _ => ?_
  rw [G13 x b l r q, H16 x b l q k]

theorem G17 (x : RefTerm.In Ideal) (b : Fin 64) (l : Fin 2048) (r k : Fin 4) :
    RefTerm.v138 x (ix4 b l r k) = FK.pose4 (FK.RTok (argsOf x) b l) (FK.ltTok (argsOf x) b l) 17 r k := by
  have hp : FK.parent 17 = 14 := by decide
  unfold RefTerm.v138
  refine (dot44_apply _ _ b l r k).trans ?_
  rw [FK.pose4_succ _ _ 17 (by decide), hp]
  show _ = ∑ q : Fin 4, FK.pose4 (FK.RTok (argsOf x) b l) (FK.ltTok (argsOf x) b l) 14 r q * FK.hom (FK.RTok (argsOf x) b l) (FK.ltTok (argsOf x) b l) 17 q k
  refine Finset.sum_congr rfl fun q _ => ?_
  rw [G14 x b l r q, H17 x b l q k]

theorem G18 (x : RefTerm.In Ideal) (b : Fin 64) (l : Fin 2048) (r k : Fin 4) :
    RefTerm.v141 x (ix4 b l r k) = FK.pose4 (FK.RTok (argsOf x) b l) (FK.ltTok (argsOf x) b l) 18 r k := by
  have hp : FK.parent 18 = 16 := by decide
  unfold RefTerm.v141
  refine (dot44_apply _ _ b l r k).trans ?_
  rw [FK.pose4_succ _ _ 18 (by decide), hp]
  show _ = ∑ q : Fin 4, FK.pose4 (FK.RTok (argsOf x) b l) (FK.ltTok (argsOf x) b l) 16 r q * FK.hom (FK.RTok (argsOf x) b l) (FK.ltTok (argsOf x) b l) 18 q k
  refine Finset.sum_congr rfl fun q _ => ?_
  rw [G16 x b l r q, H18 x b l q k]

theorem G19 (x : RefTerm.In Ideal) (b : Fin 64) (l : Fin 2048) (r k : Fin 4) :
    RefTerm.v144 x (ix4 b l r k) = FK.pose4 (FK.RTok (argsOf x) b l) (FK.ltTok (argsOf x) b l) 19 r k := by
  have hp : FK.parent 19 = 17 := by decide
  unfold RefTerm.v144
  refine (dot44_apply _ _ b l r k).trans ?_
  rw [FK.pose4_succ _ _ 19 (by decide), hp]
  show _ = ∑ q : Fin 4, FK.pose4 (FK.RTok (argsOf x) b l) (FK.ltTok (argsOf x) b l) 17 r q * FK.hom (FK.RTok (argsOf x) b l) (FK.ltTok (argsOf x) b l) 19 q k
  refine Finset.sum_congr rfl fun q _ => ?_
  rw [G17 x b l r q, H19 x b l q k]

theorem G20 (x : RefTerm.In Ideal) (b : Fin 64) (l : Fin 2048) (r k : Fin 4) :
    RefTerm.v147 x (ix4 b l r k) = FK.pose4 (FK.RTok (argsOf x) b l) (FK.ltTok (argsOf x) b l) 20 r k := by
  have hp : FK.parent 20 = 18 := by decide
  unfold RefTerm.v147
  refine (dot44_apply _ _ b l r k).trans ?_
  rw [FK.pose4_succ _ _ 20 (by decide), hp]
  show _ = ∑ q : Fin 4, FK.pose4 (FK.RTok (argsOf x) b l) (FK.ltTok (argsOf x) b l) 18 r q * FK.hom (FK.RTok (argsOf x) b l) (FK.ltTok (argsOf x) b l) 20 q k
  refine Finset.sum_congr rfl fun q _ => ?_
  rw [G18 x b l r q, H20 x b l q k]

theorem G21 (x : RefTerm.In Ideal) (b : Fin 64) (l : Fin 2048) (r k : Fin 4) :
    RefTerm.v150 x (ix4 b l r k) = FK.pose4 (FK.RTok (argsOf x) b l) (FK.ltTok (argsOf x) b l) 21 r k := by
  have hp : FK.parent 21 = 19 := by decide
  unfold RefTerm.v150
  refine (dot44_apply _ _ b l r k).trans ?_
  rw [FK.pose4_succ _ _ 21 (by decide), hp]
  show _ = ∑ q : Fin 4, FK.pose4 (FK.RTok (argsOf x) b l) (FK.ltTok (argsOf x) b l) 19 r q * FK.hom (FK.RTok (argsOf x) b l) (FK.ltTok (argsOf x) b l) 21 q k
  refine Finset.sum_congr rfl fun q _ => ?_
  rw [G19 x b l r q, H21 x b l q k]

end Cert.ReferenceIdeal.RefRead

end
-- ==== Proof.RefRead.lean ====
/-
  The reference program's result read at an index. The 22 global transforms are given a unit joint axis, stacked along
  it (sixteen, then six, then the two stacks), the first three entries of the last column are sliced out and the unit
  axis dropped: the result at (token, joint j, component c) is entry (c, 3) of joint j's global 4×4 transform.
-/
import proofs.«129627_j26603027432101_2_alg».proof.Proof.RefRead6

noncomputable section

namespace Cert.ReferenceIdeal.RefRead

open Idealize.ShloMosaic Idealize.ShloMosaic.ValueIdx Cert.ReferenceIdeal
open Cert.ReferenceIdeal.Facts₀ Cert.ReferenceIdeal.Facts

variable [Cert.ReferenceIdeal.Facts]

/-- A 4×4 matrix per token given a unit joint axis. -/
theorem bcast_joint (V : S64x2048x4x4.Idx → EReal)
    (h : S64x2048x4x4.BroadcastsInDim S64x2048x1x4x4 (![0, 1, 3, 4] : Fin 4 → Fin S64x2048x1x4x4.rank))
    (b : Fin 64) (l : Fin 2048) (u : Fin 1) (r k : Fin 4) :
    broadcastInDim S64x2048x1x4x4 (![0, 1, 3, 4] : Fin 4 → Fin S64x2048x1x4x4.rank) h V (ix5 b l u r k)
      = V (ix4 b l r k) :=
  broadcastInDim_apply _ h V (ix5 b l u r k) (ix4 b l r k) (by
    intro a
    match a with
    | ⟨0, _⟩ => exact rfl
    | ⟨1, _⟩ => exact rfl
    | ⟨2, _⟩ => exact rfl
    | ⟨3, _⟩ => exact rfl)

/-- A stack of unit-extent pieces along the joint axis, read at joint n: piece n at its one joint index. -/
theorem catJ_apply (N : Nat) (xs : List ((s : Shape) × (s.Idx → EReal)))
    (h : Shape.Concatenates (xs.map (·.1)) ⟨5, ![64, 2048, N, 4, 4]⟩ 2)
    (n : Nat) (hn : n < xs.length) (x₁ : S64x2048x1x4x4.Idx → EReal) (hxk : xs[n] = ⟨S64x2048x1x4x4, x₁⟩)
    (hpre : (((xs.take n).map (·.1)).map fun s =>
      if h : s.rank = (⟨5, ![64, 2048, N, 4, 4]⟩ : Shape).rank then
        s.size ((2 : Fin (⟨5, ![64, 2048, N, 4, 4]⟩ : Shape).rank).cast h.symm) else 0).sum = n)
    (b : Fin 64) (l : Fin 2048) (e : Fin N) (he : e.val = n) (r k : Fin 4) :
    concatenate ⟨5, ![64, 2048, N, 4, 4]⟩ 2 xs h (ix5 b l e r k) = x₁ (ix5 b l (0 : Fin 1) r k) :=
  concatenate_apply_piece 2 xs h (ix5 b l e r k) n hn S64x2048x1x4x4 x₁ hxk rfl n hpre (ix5 b l (0 : Fin 1) r k)
    (by intro a ha
        match a, ha with
        | ⟨0, _⟩, _ => exact rfl
        | ⟨1, _⟩, _ => exact rfl
        | ⟨2, _⟩, ha => exact absurd rfl ha
        | ⟨3, _⟩, _ => exact rfl
        | ⟨4, _⟩, _ => exact rfl)
    (by show n + 0 = e.val; omega)

/-! ## The two stacks, joint by joint -/

set_option maxHeartbeats 4000000 in
theorem Stk0 (x : RefTerm.In Ideal) (b : Fin 64) (l : Fin 2048) (e : Fin 16) (he : e.val = 0) (r k : Fin 4) :
    RefTerm.v173 x (ix5 b l e r k) = FK.pose4 (FK.RTok (argsOf x) b l) (FK.ltTok (argsOf x) b l) 0 r k := by
  unfold RefTerm.v173
  refine (catJ_apply 16 _ _ 0 (by show (0 : Nat) < 16; decide) (RefTerm.v151 x) rfl rfl b l e he r k).trans ?_
  unfold RefTerm.v151
  exact (bcast_joint _ _ b l 0 r k).trans (G0 x b l r k)

set_option maxHeartbeats 4000000 in
theorem Stk1 (x : RefTerm.In Ideal) (b : Fin 64) (l : Fin 2048) (e : Fin 16) (he : e.val = 1) (r k : Fin 4) :
    RefTerm.v173 x (ix5 b l e r k) = FK.pose4 (FK.RTok (argsOf x) b l) (FK.ltTok (argsOf x) b l) 1 r k := by
  unfold RefTerm.v173
  refine (catJ_apply 16 _ _ 1 (by show (1 : Nat) < 16; decide) (RefTerm.v152 x) rfl rfl b l e he r k).trans ?_
  unfold RefTerm.v152
  exact (bcast_joint _ _ b l 0 r k).trans (G1 x b l r k)

set_option maxHeartbeats 4000000 in
theorem Stk2 (x : RefTerm.In Ideal) (b : Fin 64) (l : Fin 2048) (e : Fin 16) (he : e.val = 2) (r k : Fin 4) :
    RefTerm.v173 x (ix5 b l e r k) = FK.pose4 (FK.RTok (argsOf x) b l) (FK.ltTok (argsOf x) b l) 2 r k := by
  unfold RefTerm.v173
  refine (catJ_apply 16 _ _ 2 (by show (2 : Nat) < 16; decide) (RefTerm.v153 x) rfl rfl b l e he r k).trans ?_
  unfold RefTerm.v153
  exact (bcast_joint _ _ b l 0 r k).trans (G2 x b l r k)

set_option maxHeartbeats 4000000 in
theorem Stk3 (x : RefTerm.In Ideal) (b : Fin 64) (l : Fin 2048) (e : Fin 16) (he : e.val = 3) (r k : Fin 4) :
    RefTerm.v173 x (ix5 b l e r k) = FK.pose4 (FK.RTok (argsOf x) b l) (FK.ltTok (argsOf x) b l) 3 r k := by
  unfold RefTerm.v173
  refine (catJ_apply 16 _ _ 3 (by show (3 : Nat) < 16; decide) (RefTerm.v154 x) rfl rfl b l e he r k).trans ?_
  unfold RefTerm.v154
  exact (bcast_joint _ _ b l 0 r k).trans (G3 x b l r k)

set_option maxHeartbeats 4000000 in
theorem Stk4 (x : RefTerm.In Ideal) (b : Fin 64) (l : Fin 2048) (e : Fin 16) (he : e.val = 4) (r k : Fin 4) :
    RefTerm.v173 x (ix5 b l e r k) = FK.pose4 (FK.RTok (argsOf x) b l) (FK.ltTok (argsOf x) b l) 4 r k := by
  unfold RefTerm.v173
  refine (catJ_apply 16 _ _ 4 (by show (4 : Nat) < 16; decide) (RefTerm.v155 x) rfl rfl b l e he r k).trans ?_
  unfold RefTerm.v155
  exact (bcast_joint _ _ b l 0 r k).trans (G4 x b l r k)

set_option maxHeartbeats 4000000 in
theorem Stk5 (x : RefTerm.In Ideal) (b : Fin 64) (l : Fin 2048) (e : Fin 16) (he : e.val = 5) (r k : Fin 4) :
    RefTerm.v173 x (ix5 b l e r k) = FK.pose4 (FK.RTok (argsOf x) b l) (FK.ltTok (argsOf x) b l) 5 r k := by
  unfold RefTerm.v173
  refine (catJ_apply 16 _ _ 5 (by show (5 : Nat) < 16; decide) (RefTerm.v156 x) rfl rfl b l e he r k).trans ?_
  unfold RefTerm.v156
  exact (bcast_joint _ _ b l 0 r k).trans (G5 x b l r k)

set_option maxHeartbeats 4000000 in
theorem Stk6 (x : RefTerm.In Ideal) (b : Fin 64) (l : Fin 2048) (e : Fin 16) (he : e.val = 6) (r k : Fin 4) :
    RefTerm.v173 x (ix5 b l e r k) = FK.pose4 (FK.RTok (argsOf x) b l) (FK.ltTok (argsOf x) b l) 6 r k := by
  unfold RefTerm.v173
  refine (catJ_apply 16 _ _ 6 (by show (6 : Nat) < 16; decide) (RefTerm.v157 x) rfl rfl b l e he r k).trans ?_
  unfold RefTerm.v157
  exact (bcast_joint _ _ b l 0 r k).trans (G6 x b l r k)

set_option maxHeartbeats 4000000 in
theorem Stk7 (x : RefTerm.In Ideal) (b : Fin 64) (l : Fin 2048) (e : Fin 16) (he : e.val = 7) (r k : Fin 4) :
    RefTerm.v173 x (ix5 b l e r k) = FK.pose4 (FK.RTok (argsOf x) b l) (FK.ltTok (argsOf x) b l) 7 r k := by
  unfold RefTerm.v173
  refine (catJ_apply 16 _ _ 7 (by show (7 : Nat) < 16; decide) (RefTerm.v158 x) rfl rfl b l e he r k).trans ?_
  unfold RefTerm.v158
  exact (bcast_joint _ _ b l 0 r k).trans (G7 x b l r k)

set_option maxHeartbeats 4000000 in
theorem Stk8 (x : RefTerm.In Ideal) (b : Fin 64) (l : Fin 2048) (e : Fin 16) (he : e.val = 8) (r k : Fin 4) :
    RefTerm.v173 x (ix5 b l e r k) = FK.pose4 (FK.RTok (argsOf x) b l) (FK.ltTok (argsOf x) b l) 8 r k := by
  unfold RefTerm.v173
  refine (catJ_apply 16 _ _ 8 (by show (8 : Nat) < 16; decide) (RefTerm.v159 x) rfl rfl b l e he r k).trans ?_
  unfold RefTerm.v159
  exact (bcast_joint _ _ b l 0 r k).trans (G8 x b l r k)

set_option maxHeartbeats 4000000 in
theorem Stk9 (x : RefTerm.In Ideal) (b : Fin 64) (l : Fin 2048) (e : Fin 16) (he : e.val = 9) (r k : Fin 4) :
    RefTerm.v173 x (ix5 b l e r k) = FK.pose4 (FK.RTok (argsOf x) b l) (FK.ltTok (argsOf x) b l) 9 r k := by
  unfold RefTerm.v173
  refine (catJ_apply 16 _ _ 9 (by show (9 : Nat) < 16; decide) (RefTerm.v160 x) rfl rfl b l e he r k).trans ?_
  unfold RefTerm.v160
  exact (bcast_joint _ _ b l 0 r k).trans (G9 x b l r k)

set_option maxHeartbeats 4000000 in
theorem Stk10 (x : RefTerm.In Ideal) (b : Fin 64) (l : Fin 2048) (e : Fin 16) (he : e.val = 10) (r k : Fin 4) :
    RefTerm.v173 x (ix5 b l e r k) = FK.pose4 (FK.RTok (argsOf x) b l) (FK.ltTok (argsOf x) b l) 10 r k := by
  unfold RefTerm.v173
  refine (catJ_apply 16 _ _ 10 (by show (10 : Nat) < 16; decide) (RefTerm.v161 x) rfl rfl b l e he r k).trans ?_
  unfold RefTerm.v161
  exact (bcast_joint _ _ b l 0 r k).trans (G10 x b l r k)

set_option maxHeartbeats 4000000 in
theorem Stk11 (x : RefTerm.In Ideal) (b : Fin 64) (l : Fin 2048) (e : Fin 16) (he : e.val = 11) (r k : Fin 4) :
    RefTerm.v173 x (ix5 b l e r k) = FK.pose4 (FK.RTok (argsOf x) b l) (FK.ltTok (argsOf x) b l) 11 r k := by
  unfold RefTerm.v173
  refine (catJ_apply 16 _ _ 11 (by show (11 : Nat) < 16; decide) (RefTerm.v162 x) rfl rfl b l e he r k).trans ?_
  unfold RefTerm.v162
  exact (bcast_joint _ _ b l 0 r k).trans (G11 x b l r k)

set_option maxHeartbeats 4000000 in
theorem Stk12 (x : RefTerm.In Ideal) (b : Fin 64) (l : Fin 2048) (e : Fin 16) (he : e.val = 12) (r k : Fin 4) :
    RefTerm.v173 x (ix5 b l e r k) = FK.pose4 (FK.RTok (argsOf x) b l) (FK.ltTok (argsOf x) b l) 12 r k := by
  unfold RefTerm.v173
  refine (catJ_apply 16 _ _ 12 (by show (12 : Nat) < 16; decide) (RefTerm.v163 x) rfl rfl b l e he r k).trans ?_
  unfold RefTerm.v163
  exact (bcast_joint _ _ b l 0 r k).trans (G12 x b l r k)

set_option maxHeartbeats 4000000 in
theorem Stk13 (x : RefTerm.In Ideal) (b : Fin 64) (l : Fin 2048) (e : Fin 16) (he : e.val = 13) (r k : Fin 4) :
    RefTerm.v173 x (ix5 b l e r k) = FK.pose4 (FK.RTok (argsOf x) b l) (FK.ltTok (argsOf x) b l) 13 r k := by
  unfold RefTerm.v173
  refine (catJ_apply 16 _ _ 13 (by show (13 : Nat) < 16; decide) (RefTerm.v164 x) rfl rfl b l e he r k).trans ?_
  unfold RefTerm.v164
  exact (bcast_joint _ _ b l 0 r k).trans (G13 x b l r k)

set_option maxHeartbeats 4000000 in
theorem Stk14 (x : RefTerm.In Ideal) (b : Fin 64) (l : Fin 2048) (e : Fin 16) (he : e.val = 14) (r k : Fin 4) :
    RefTerm.v173 x (ix5 b l e r k) = FK.pose4 (FK.RTok (argsOf x) b l) (FK.ltTok (argsOf x) b l) 14 r k := by
  unfold RefTerm.v173
  refine (catJ_apply 16 _ _ 14 (by show (14 : Nat) < 16; decide) (RefTerm.v165 x) rfl rfl b l e he r k).trans ?_
  unfold RefTerm.v165
  exact (bcast_joint _ _ b l 0 r k).trans (G14 x b l r k)

set_option maxHeartbeats 4000000 in
theorem Stk15 (x : RefTerm.In Ideal) (b : Fin 64) (l : Fin 2048) (e : Fin 16) (he : e.val = 15) (r k : Fin 4) :
    RefTerm.v173 x (ix5 b l e r k) = FK.pose4 (FK.RTok (argsOf x) b l) (FK.ltTok (argsOf x) b l) 15 r k := by
  unfold RefTerm.v173
  refine (catJ_apply 16 _ _ 15 (by show (15 : Nat) < 16; decide) (RefTerm.v166 x) rfl rfl b l e he r k).trans ?_
  unfold RefTerm.v166
  exact (bcast_joint _ _ b l 0 r k).trans (G15 x b l r k)

set_option maxHeartbeats 4000000 in
theorem Stk16 (x : RefTerm.In Ideal) (b : Fin 64) (l : Fin 2048) (e : Fin 6) (he : e.val = 0) (r k : Fin 4) :
    RefTerm.v174 x (ix5 b l e r k) = FK.pose4 (FK.RTok (argsOf x) b l) (FK.ltTok (argsOf x) b l) 16 r k := by
  unfold RefTerm.v174
  refine (catJ_apply 6 _ _ 0 (by show (0 : Nat) < 6; decide) (RefTerm.v167 x) rfl rfl b l e he r k).trans ?_
  unfold RefTerm.v167
  exact (bcast_joint _ _ b l 0 r k).trans (G16 x b l r k)

set_option maxHeartbeats 4000000 in
theorem Stk17 (x : RefTerm.In Ideal) (b : Fin 64) (l : Fin 2048) (e : Fin 6) (he : e.val = 1) (r k : Fin 4) :
    RefTerm.v174 x (ix5 b l e r k) = FK.pose4 (FK.RTok (argsOf x) b l) (FK.ltTok (argsOf x) b l) 17 r k := by
  unfold RefTerm.v174
  refine (catJ_apply 6 _ _ 1 (by show (1 : Nat) < 6; decide) (RefTerm.v168 x) rfl rfl b l e he r k).trans ?_
  unfold RefTerm.v168
  exact (bcast_joint _ _ b l 0 r k).trans (G17 x b l r k)

set_option maxHeartbeats 4000000 in
theorem Stk18 (x : RefTerm.In Ideal) (b : Fin 64) (l : Fin 2048) (e : Fin 6) (he : e.val = 2) (r k : Fin 4) :
    RefTerm.v174 x (ix5 b l e r k) = FK.pose4 (FK.RTok (argsOf x) b l) (FK.ltTok (argsOf x) b l) 18 r k := by
  unfold RefTerm.v174
  refine (catJ_apply 6 _ _ 2 (by show (2 : Nat) < 6; decide) (RefTerm.v169 x) rfl rfl b l e he r k).trans ?_
  unfold RefTerm.v169
  exact (bcast_joint _ _ b l 0 r k).trans (G18 x b l r k)

set_option maxHeartbeats 4000000 in
theorem Stk19 (x : RefTerm.In Ideal) (b : Fin 64) (l : Fin 2048) (e : Fin 6) (he : e.val = 3) (r k : Fin 4) :
    RefTerm.v174 x (ix5 b l e r k) = FK.pose4 (FK.RTok (argsOf x) b l) (FK.ltTok (argsOf x) b l) 19 r k := by
  unfold RefTerm.v174
  refine (catJ_apply 6 _ _ 3 (by show (3 : Nat) < 6; decide) (RefTerm.v170 x) rfl rfl b l e he r k).trans ?_
  unfold RefTerm.v170
  exact (bcast_joint _ _ b l 0 r k).trans (G19 x b l r k)

set_option maxHeartbeats 4000000 in
theorem Stk20 (x : RefTerm.In Ideal) (b : Fin 64) (l : Fin 2048) (e : Fin 6) (he : e.val = 4) (r k : Fin 4) :
    RefTerm.v174 x (ix5 b l e r k) = FK.pose4 (FK.RTok (argsOf x) b l) (FK.ltTok (argsOf x) b l) 20 r k := by
  unfold RefTerm.v174
  refine (catJ_apply 6 _ _ 4 (by show (4 : Nat) < 6; decide) (RefTerm.v171 x) rfl rfl b l e he r k).trans ?_
  unfold RefTerm.v171
  exact (bcast_joint _ _ b l 0 r k).trans (G20 x b l r k)

set_option maxHeartbeats 4000000 in
theorem Stk21 (x : RefTerm.In Ideal) (b : Fin 64) (l : Fin 2048) (e : Fin 6) (he : e.val = 5) (r k : Fin 4) :
    RefTerm.v174 x (ix5 b l e r k) = FK.pose4 (FK.RTok (argsOf x) b l) (FK.ltTok (argsOf x) b l) 21 r k := by
  unfold RefTerm.v174
  refine (catJ_apply 6 _ _ 5 (by show (5 : Nat) < 6; decide) (RefTerm.v172 x) rfl rfl b l e he r k).trans ?_
  unfold RefTerm.v172
  exact (bcast_joint _ _ b l 0 r k).trans (G21 x b l r k)

/-- The first sixteen joints of the whole stack are the first stack's. -/
theorem v175_left (x : RefTerm.In Ideal) (b : Fin 64) (l : Fin 2048) (j : Fin 22) (j' : Fin 16) (h : j.val = j'.val)
    (r k : Fin 4) : RefTerm.v175 x (ix5 b l j r k) = RefTerm.v173 x (ix5 b l j' r k) := by
  unfold RefTerm.v175
  exact concatenate_pair_apply_left (t := S64x2048x22x4x4) (s₁ := S64x2048x16x4x4) (s₂ := S64x2048x6x4x4) _ _ _ _
    (ix5 b l j r k) rfl (ix5 b l j' r k) (by
      intro a
      match a with
      | ⟨0, _⟩ => exact rfl
      | ⟨1, _⟩ => exact rfl
      | ⟨2, _⟩ => exact h.symm
      | ⟨3, _⟩ => exact rfl
      | ⟨4, _⟩ => exact rfl)

/-- The last six are the second stack's. -/
theorem v175_right (x : RefTerm.In Ideal) (b : Fin 64) (l : Fin 2048) (j : Fin 22) (j' : Fin 6) (h : j'.val + 16 = j.val)
    (r k : Fin 4) : RefTerm.v175 x (ix5 b l j r k) = RefTerm.v174 x (ix5 b l j' r k) := by
  unfold RefTerm.v175
  exact concatenate_pair_apply_right (t := S64x2048x22x4x4) (s₁ := S64x2048x16x4x4) (s₂ := S64x2048x6x4x4) _ _ _ _
    (ix5 b l j r k) rfl rfl (ix5 b l j' r k)
    (by intro a ha
        match a, ha with
        | ⟨0, _⟩, _ => exact rfl
        | ⟨1, _⟩, _ => exact rfl
        | ⟨2, _⟩, ha => exact absurd rfl ha
        | ⟨3, _⟩, _ => exact rfl
        | ⟨4, _⟩, _ => exact rfl)
    (by exact h)

/-- The whole stack at joint j is joint j's global transform. -/
theorem v175_pose (x : RefTerm.In Ideal) (b : Fin 64) (l : Fin 2048) (j : Fin 22) (r k : Fin 4) :
    RefTerm.v175 x (ix5 b l j r k) = FK.pose4 (FK.RTok (argsOf x) b l) (FK.ltTok (argsOf x) b l) j r k := by
  match j with
  | ⟨0, hj⟩ => exact (v175_left x b l ⟨0, hj⟩ (⟨0, by decide⟩ : Fin 16) rfl r k).trans (Stk0 x b l (⟨0, by decide⟩ : Fin 16) rfl r k)
  | ⟨1, hj⟩ => exact (v175_left x b l ⟨1, hj⟩ (⟨1, by decide⟩ : Fin 16) rfl r k).trans (Stk1 x b l (⟨1, by decide⟩ : Fin 16) rfl r k)
  | ⟨2, hj⟩ => exact (v175_left x b l ⟨2, hj⟩ (⟨2, by decide⟩ : Fin 16) rfl r k).trans (Stk2 x b l (⟨2, by decide⟩ : Fin 16) rfl r k)
  | ⟨3, hj⟩ => exact (v175_left x b l ⟨3, hj⟩ (⟨3, by decide⟩ : Fin 16) rfl r k).trans (Stk3 x b l (⟨3, by decide⟩ : Fin 16) rfl r k)
  | ⟨4, hj⟩ => exact (v175_left x b l ⟨4, hj⟩ (⟨4, by decide⟩ : Fin 16) rfl r k).trans (Stk4 x b l (⟨4, by decide⟩ : Fin 16) rfl r k)
  | ⟨5, hj⟩ => exact (v175_left x b l ⟨5, hj⟩ (⟨5, by decide⟩ : Fin 16) rfl r k).trans (Stk5 x b l (⟨5, by decide⟩ : Fin 16) rfl r k)
  | ⟨6, hj⟩ => exact (v175_left x b l ⟨6, hj⟩ (⟨6, by decide⟩ : Fin 16) rfl r k).trans (Stk6 x b l (⟨6, by decide⟩ : Fin 16) rfl r k)
  | ⟨7, hj⟩ => exact (v175_left x b l ⟨7, hj⟩ (⟨7, by decide⟩ : Fin 16) rfl r k).trans (Stk7 x b l (⟨7, by decide⟩ : Fin 16) rfl r k)
  | ⟨8, hj⟩ => exact (v175_left x b l ⟨8, hj⟩ (⟨8, by decide⟩ : Fin 16) rfl r k).trans (Stk8 x b l (⟨8, by decide⟩ : Fin 16) rfl r k)
  | ⟨9, hj⟩ => exact (v175_left x b l ⟨9, hj⟩ (⟨9, by decide⟩ : Fin 16) rfl r k).trans (Stk9 x b l (⟨9, by decide⟩ : Fin 16) rfl r k)
  | ⟨10, hj⟩ => exact (v175_left x b l ⟨10, hj⟩ (⟨10, by decide⟩ : Fin 16) rfl r k).trans (Stk10 x b l (⟨10, by decide⟩ : Fin 16) rfl r k)
  | ⟨11, hj⟩ => exact (v175_left x b l ⟨11, hj⟩ (⟨11, by decide⟩ : Fin 16) rfl r k).trans (Stk11 x b l (⟨11, by decide⟩ : Fin 16) rfl r k)
  | ⟨12, hj⟩ => exact (v175_left x b l ⟨12, hj⟩ (⟨12, by decide⟩ : Fin 16) rfl r k).trans (Stk12 x b l (⟨12, by decide⟩ : Fin 16) rfl r k)
  | ⟨13, hj⟩ => exact (v175_left x b l ⟨13, hj⟩ (⟨13, by decide⟩ : Fin 16) rfl r k).trans (Stk13 x b l (⟨13, by decide⟩ : Fin 16) rfl r k)
  | ⟨14, hj⟩ => exact (v175_left x b l ⟨14, hj⟩ (⟨14, by decide⟩ : Fin 16) rfl r k).trans (Stk14 x b l (⟨14, by decide⟩ : Fin 16) rfl r k)
  | ⟨15, hj⟩ => exact (v175_left x b l ⟨15, hj⟩ (⟨15, by decide⟩ : Fin 16) rfl r k).trans (Stk15 x b l (⟨15, by decide⟩ : Fin 16) rfl r k)
  | ⟨16, hj⟩ => exact (v175_right x b l ⟨16, hj⟩ (⟨0, by decide⟩ : Fin 6) rfl r k).trans (Stk16 x b l (⟨0, by decide⟩ : Fin 6) rfl r k)
  | ⟨17, hj⟩ => exact (v175_right x b l ⟨17, hj⟩ (⟨1, by decide⟩ : Fin 6) rfl r k).trans (Stk17 x b l (⟨1, by decide⟩ : Fin 6) rfl r k)
  | ⟨18, hj⟩ => exact (v175_right x b l ⟨18, hj⟩ (⟨2, by decide⟩ : Fin 6) rfl r k).trans (Stk18 x b l (⟨2, by decide⟩ : Fin 6) rfl r k)
  | ⟨19, hj⟩ => exact (v175_right x b l ⟨19, hj⟩ (⟨3, by decide⟩ : Fin 6) rfl r k).trans (Stk19 x b l (⟨3, by decide⟩ : Fin 6) rfl r k)
  | ⟨20, hj⟩ => exact (v175_right x b l ⟨20, hj⟩ (⟨4, by decide⟩ : Fin 6) rfl r k).trans (Stk20 x b l (⟨4, by decide⟩ : Fin 6) rfl r k)
  | ⟨21, hj⟩ => exact (v175_right x b l ⟨21, hj⟩ (⟨5, by decide⟩ : Fin 6) rfl r k).trans (Stk21 x b l (⟨5, by decide⟩ : Fin 6) rfl r k)
  | ⟨n + 22, hj⟩ => exact absurd hj (by omega)

/-- The result at (token, joint j, component c) is entry (c, 3) of joint j's global transform. -/
theorem v177_apply (x : RefTerm.In Ideal) (b : Fin 64) (l : Fin 2048) (j : Fin 22) (c : Fin 3) :
    RefTerm.v177 x (ix4 b l j c) = FK.pose4 (FK.RTok (argsOf x) b l) (FK.ltTok (argsOf x) b l) j c.castSucc 3 := by
  unfold RefTerm.v177 RefTerm.v176
  refine (shapeCast_apply _ _ (ix4 b l j c) (ix5 b l j c (0 : Fin 1)) (by
    rw [Shape.rowMajor_val_five, Shape.rowMajor_val_four]
    show ((((b.val * 2048 + l.val) * 22 + j.val) * 3 + c.val) * 1 + 0) = ((b.val * 2048 + l.val) * 22 + j.val) * 3 + c.val
    omega)).trans ?_
  refine (extractStridedSlice_apply _ _ _ (ix5 b l j c (0 : Fin 1)) (ix5 b l j c.castSucc (3 : Fin 4)) (by
    intro a
    match a with
    | ⟨0, _⟩ => show b.val = 0 + b.val; omega
    | ⟨1, _⟩ => show l.val = 0 + l.val; omega
    | ⟨2, _⟩ => show j.val = 0 + j.val; omega
    | ⟨3, _⟩ => show c.val = 0 + c.val; omega
    | ⟨4, _⟩ => show (3 : Nat) = 3 + 0; omega)).trans ?_
  exact v175_pose x b l j c.castSucc 3

end Cert.ReferenceIdeal.RefRead

end
-- ==== Proof.lean ====
/-
  A 22-joint forward-kinematics kernel against its reference, on the extended reals.

  Both programs compute, for each of the 64 × 2048 tokens, the positions of the 22 joints of a kinematic tree: each
  joint's rotation is Rodrigues' formula of its axis-angle vector, the skeleton is the template plus the shape basis
  contracted with the token's coefficients, a joint's local offset is its skeleton position minus its parent's (the root's
  position plus the translation), and poses compose along the tree. The kernel handles 128 tokens per grid point and
  composes rotations and translations directly, entry by entry on columns; the reference composes 4×4 homogeneous
  matrices by batched products and reads the last column. The two agree on every extended real: a term of the 4×4
  product through the bottom row's zero vanishes, through its one is the factor, and a sum of four terms is the sum of
  three plus the fourth (Spec.lean, `pose4_top`); the kernel's skeleton, added up left to right, is the reference's sum.

  The kernel's side: what the body leaves in the output window is the block function of the loaded blocks (Block.lean,
  BlockEq.lean), which at row r, joint j, coordinate c is the joint's position in that row's poses (BlockRead.lean); the
  blocks tile the output array, the rows are the tokens, and the reshapes around the region move no element
  (KernelValue.lean). The reference's side: its run (RefRun.lean) and its result read at an index (RefRead.lean).
  Neither program's frame needs the precondition, and the joining law uses no finiteness.
-/
import proofs.«129627_j26603027432101_2_alg».proof.Defs
import proofs.«129627_j26603027432101_2_alg».proof.Proof.Gen.Kernel
import proofs.«129627_j26603027432101_2_alg».proof.Proof.Gen.KernelIdeal
import proofs.«129627_j26603027432101_2_alg».proof.Proof.Gen.ReferenceIdeal
import proofs.«129627_j26603027432101_2_alg».proof.Proof.Gen.Pre_finite_inputs
import proofs.«129627_j26603027432101_2_alg».proof.Proof.FrameKernel
import proofs.«129627_j26603027432101_2_alg».proof.Proof.KernelValue
import proofs.«129627_j26603027432101_2_alg».proof.Proof.RefRun
import proofs.«129627_j26603027432101_2_alg».proof.Proof.RefRead
import Idealize.ShloMosaic.Adequacy
import Idealize.ShloMosaic.Init

noncomputable section

namespace Cert.Proof

open Idealize.ShloMosaic Idealize.ShloMosaic.ValueIdx Idealize.SL.Sem

theorem frame_p : Cert.frame_Kernel := fun m ρ _ => Cert.Kernel.GenP.frame m ρ

theorem frame_pi : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The reference's result array is the joint positions of every token: entry (b, l, j, c) is the last column of joint
    j's 4×4 transform at token (b, l), whose first three entries are the joint's position. -/
theorem ref_out (x : Cert.ReferenceIdeal.RefTerm.In Ideal) :
    Cert.ReferenceIdeal.RefTerm.v177 x = FK.out (Cert.ReferenceIdeal.RefRead.argsOf x) := by
  funext i
  obtain ⟨b, l, j, cc, rfl⟩ : ∃ (b : Fin 64) (l : Fin 2048) (j : Fin 22) (cc : Fin 3), i = ix4 b l j cc :=
    ⟨i 0, i 1, i 2, i 3, eq_ix4 i⟩
  rw [Cert.ReferenceIdeal.RefRead.v177_apply, FK.pose4_joints, FK.out_apply]

/-- From memories agreeing on the arguments both programs end with the joint positions of every token. -/
theorem algebraic : Cert.algebraic_KernelIdeal_ReferenceIdeal := by
  intro m ρ m' ρ' _ hagree
  refine ⟨fun c => FK.out (Cert.KernelIdeal.KV.argsOf m c), Cert.KernelIdeal.KV.run m ρ, ?_⟩
  refine (θ_run Cert.ReferenceIdeal.defs _ _).mono (fun _ h c => ⟨(h c).1.trans ?_, (h c).2⟩)
    (Cert.ReferenceIdeal.RefRun.run (F := Ideal) m' ρ')
  rw [ref_out]
  refine congrArg FK.out ?_
  simp only [Cert.ReferenceIdeal.RefRead.argsOf, Cert.ReferenceIdeal.RefRun.argsOf, Cert.KernelIdeal.KV.argsOf]
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
